-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x3 : Shape := ⟨2, ![128, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S3x128 .f32) (main_arg7 : FVec F S128x3 .f32) (main_arg8 : FVec F S3 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x3 .f32 := Host.absf main_arg7
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128 .f32) (main_arg6 : FVec F S3x128 .f32) (main_arg7 : FVec F S128x3 .f32) (main_arg8 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S5000x128 : Shape := ⟨2, ![5000, 128]⟩
abbrev S850000x128 : Shape := ⟨2, ![850000, 128]⟩
abbrev S1x128 : Shape := ⟨2, ![1, 128]⟩
abbrev S128 : Shape := ⟨1, ![128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x3 : Shape := ⟨2, ![512, 3]⟩
abbrev S1x3 : Shape := ⟨2, ![1, 3]⟩

abbrev nBuf : Space → Nat
  | .hbm => 193
  | .vmem => 57
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S128x3, .f32⟩
  | 8 => ⟨S3, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S1x128x128, .f32⟩
  | 51 => ⟨S128x128, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S128, .f32⟩
  | 70 => ⟨S1x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S1x128, .f32⟩
  | 89 => ⟨S1x128, .f32⟩
  | 90 => ⟨S50000x128, .f32⟩
  | 91 => ⟨S1x128x128, .f32⟩
  | 92 => ⟨S128x128, .f32⟩
  | 93 => ⟨S50000x128, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x128, .f32⟩
  | 103 => ⟨S850000x128, .f32⟩
  | 104 => ⟨S850000x128, .f32⟩
  | 105 => ⟨S_, .f32⟩
  | 106 => ⟨S50000x128, .f32⟩
  | 107 => ⟨S850000x1, .i32⟩
  | 108 => ⟨S50000x128, .f32⟩
  | 109 => ⟨S1x128, .f32⟩
  | 110 => ⟨S128, .f32⟩
  | 111 => ⟨S1x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S50000x128, .f32⟩
  | 4 => ⟨S1x128x128, .f32⟩
  | 5 => ⟨S128x128, .f32⟩
  | 6 => ⟨S50000x128, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000x128, .f32⟩
  | 16 => ⟨S850000x128, .f32⟩
  | 17 => ⟨S850000x128, .f32⟩
  | 18 => ⟨S_, .f32⟩
  | 19 => ⟨S50000x128, .f32⟩
  | 20 => ⟨S850000x1, .i32⟩
  | 21 => ⟨S50000x128, .f32⟩
  | 22 => ⟨S1x128, .f32⟩
  | 23 => ⟨S128, .f32⟩
  | 24 => ⟨S1x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S1x128, .f32⟩
  | 43 => ⟨S1x128, .f32⟩
  | 44 => ⟨S50000x128, .f32⟩
  | 45 => ⟨S_, .f32⟩
  | 46 => ⟨S512x128, .f32⟩
  | 47 => ⟨S50000x1, .i32⟩
  | 48 => ⟨S512x128, .f32⟩
  | 49 => ⟨S_, .f32⟩
  | 50 => ⟨S50000, .f32⟩
  | 51 => ⟨S_, .f32⟩
  | 52 => ⟨S512, .f32⟩
  | 53 => ⟨S50000x1, .i32⟩
  | 54 => ⟨S512, .f32⟩
  | 55 => ⟨S_, .f32⟩
  | 56 => ⟨S512, .f32⟩
  | 57 => ⟨S512, .f32⟩
  | 58 => ⟨S512x1, .f32⟩
  | 59 => ⟨S512x128, .f32⟩
  | 60 => ⟨S512x128, .f32⟩
  | 61 => ⟨S512x3, .f32⟩
  | 62 => ⟨S1x3, .f32⟩
  | 63 => ⟨S512x3, .f32⟩
  | 64 => ⟨S512x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84_0 : Ref sig .tc := ⟨.hbm, 112, rfl⟩
abbrev main_v84_1 : Ref sig .tc := ⟨.hbm, 113, rfl⟩
abbrev main_cst_14 : Ref sig .tc := ⟨.hbm, 114, rfl⟩
abbrev main_v85 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_16 : Ref sig .tc := ⟨.hbm, 135, rfl⟩
abbrev main_v104 : Ref sig .tc := ⟨.hbm, 136, rfl⟩
abbrev main_v105 : Ref sig .tc := ⟨.hbm, 137, rfl⟩
abbrev main_c_17 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_18 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119_0 : Ref sig .tc := ⟨.hbm, 153, rfl⟩
abbrev main_v119_1 : Ref sig .tc := ⟨.hbm, 154, rfl⟩
abbrev main_cst_19 : Ref sig .tc := ⟨.hbm, 155, rfl⟩
abbrev main_v120 : Ref sig .tc := ⟨.hbm, 156, rfl⟩
abbrev main_v121 : Ref sig .tc := ⟨.hbm, 157, rfl⟩
abbrev main_cst_20 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_21 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_22 : Ref sig .tc := ⟨.hbm, 177, rfl⟩
abbrev main_v139 : Ref sig .tc := ⟨.hbm, 178, rfl⟩
abbrev main_cst_23 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_24 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg6_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x3_S512x3_1_0_0_1_n_n_wf : DotDims.WF S512x128 S128x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x3_S512x3_1_0_0_1_n_n : DotDims S512x128 S128x3 S512x3 where
  lhsContracting := [1]
  rhsContracting := [0]
  lhsNonContracting := [0]
  rhsNonContracting := [1]
  lhsBatch := []
  rhsBatch := []
  wf := dot_S512x128_S128x3_S512x3_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v80) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v80) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v99) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v100) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v115) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v118) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v119_0) S1x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v119_1) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v115) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v132) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v121) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v125) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v133) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v134) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v135) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x3 : Shape := ⟨2, ![512, 3]⟩
abbrev S1x3 : Shape := ⟨2, ![1, 3]⟩

abbrev nBuf : Space → Nat
  | .hbm => 250
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S128x3, .f32⟩
  | 8 => ⟨S3, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S1x128x128, .f32⟩
  | 51 => ⟨S128x128, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x128, .f32⟩
  | 123 => ⟨S850000x128, .f32⟩
  | 124 => ⟨S_, .f32⟩
  | 125 => ⟨S50000x128, .f32⟩
  | 126 => ⟨S850000x1, .i32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S128, .f32⟩
  | 25 => ⟨S128, .f32⟩
  | 26 => ⟨S1x128, .f32⟩
  | 27 => ⟨S50000x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x128, .f32⟩
  | 54 => ⟨S850000x128, .f32⟩
  | 55 => ⟨S850000x128, .f32⟩
  | 56 => ⟨S_, .f32⟩
  | 57 => ⟨S50000x128, .f32⟩
  | 58 => ⟨S850000x1, .i32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .f32⟩
  | 103 => ⟨S512x128, .f32⟩
  | 104 => ⟨S50000x1, .i32⟩
  | 105 => ⟨S512x128, .f32⟩
  | 106 => ⟨S_, .f32⟩
  | 107 => ⟨S50000, .f32⟩
  | 108 => ⟨S_, .f32⟩
  | 109 => ⟨S512, .f32⟩
  | 110 => ⟨S50000x1, .i32⟩
  | 111 => ⟨S512, .f32⟩
  | 112 => ⟨S_, .f32⟩
  | 113 => ⟨S512, .f32⟩
  | 114 => ⟨S512, .f32⟩
  | 115 => ⟨S512x1, .f32⟩
  | 116 => ⟨S512x128, .f32⟩
  | 117 => ⟨S512x128, .f32⟩
  | 118 => ⟨S512x3, .f32⟩
  | 119 => ⟨S1x3, .f32⟩
  | 120 => ⟨S512x3, .f32⟩
  | 121 => ⟨S512x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_call1_cst : Ref sig .tc := ⟨.hbm, 107, rfl⟩
abbrev main_call1_v0 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_14 : Ref sig .tc := ⟨.hbm, 113, rfl⟩
abbrev main_v84 : Ref sig .tc := ⟨.hbm, 114, rfl⟩
abbrev main_v85 : Ref sig .tc := ⟨.hbm, 115, rfl⟩
abbrev main_c_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_16 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_17 : Ref sig .tc := ⟨.hbm, 133, rfl⟩
abbrev main_v101 : Ref sig .tc := ⟨.hbm, 134, rfl⟩
abbrev main_cst_18 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_19 : Ref sig .tc := ⟨.hbm, 142, rfl⟩
abbrev main_v108 : Ref sig .tc := ⟨.hbm, 143, rfl⟩
abbrev main_cst_20 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_21 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_call2_cst : Ref sig .tc := ⟨.hbm, 167, rfl⟩
abbrev main_call2_v0 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_c_22 : Ref sig .tc := ⟨.hbm, 173, rfl⟩
abbrev main_v134 : Ref sig .tc := ⟨.hbm, 174, rfl⟩
abbrev main_v135 : Ref sig .tc := ⟨.hbm, 175, rfl⟩
abbrev main_c_23 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_24 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_25 : Ref sig .tc := ⟨.hbm, 193, rfl⟩
abbrev main_v151 : Ref sig .tc := ⟨.hbm, 194, rfl⟩
abbrev main_cst_26 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_27 : Ref sig .tc := ⟨.hbm, 202, rfl⟩
abbrev main_v158 : Ref sig .tc := ⟨.hbm, 203, rfl⟩
abbrev main_cst_28 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_29 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_call3_cst : Ref sig .tc := ⟨.hbm, 227, rfl⟩
abbrev main_call3_v0 : Ref sig .tc := ⟨.hbm, 228, rfl⟩
abbrev main_v180 : Ref sig .tc := ⟨.hbm, 229, rfl⟩
abbrev main_cst_30 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_31 : Ref sig .tc := ⟨.hbm, 234, rfl⟩
abbrev main_v184 : Ref sig .tc := ⟨.hbm, 235, rfl⟩
abbrev main_cst_32 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_cst_33 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x3_S512x3_1_0_0_1_n_n_wf : DotDims.WF S512x128 S128x3 S512x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x3_S512x3_1_0_0_1_n_n : DotDims S512x128 S128x3 S512x3 where
  lhsContracting := [1]
  rhsContracting := [0]
  lhsNonContracting := [0]
  rhsNonContracting := [1]
  lhsBatch := []
  rhsBatch := []
  wf := dot_S512x128_S128x3_S512x3_1_0_0_1_n_n_wf

class Facts : Prop extends Facts₀ where

variable [Facts]
-- ==== Proof.KernelRun.lean ====
/-
  The idealized kernel's run with its result named.

  @main is twenty-one segments: ten stretches of host operations and nine pipelined calls (three layers, each a
  matrix product, a pair of column sums, and a normalisation).  The contents of every buffer at each segment
  boundary are a fold from the launch memory; the last boundary's contents are `W21`.  Every weakly fair execution
  terminates without a fault in a state whose result array holds `W21` at the result's buffer and whose argument
  arrays are as launched.  What `W21` holds at the result is read, segment by segment, in the modules that follow.
-/
import proofs.«132190_j22857815949622_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result array at the last boundary's contents and the
    arguments unchanged. -/
theorem run_named : θ_run defs (onTc (τ := τ) (main (F := F))) ⟨m, fun _ => 0, ρ⟩ (fun r => ∀ c : Dev nD,
      r.2.mem ((c.tc : Thread nD τ).loc main_v151) = W21 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v151 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c)⟩)

end Cert.KernelIdeal.Named

end
-- ==== Proof.LibTypedRefs.lean ====
/-
  Transport along a typed reference's type equation, removed.

  A typed reference carries an equation "the buffer's type is T", and a value at type T is moved to the buffer's own
  type, and back, along that equation. Whatever the equation's proof, the two transports undo each other; and a
  transported value equals any value it is heterogeneously equal to, so once the reference is a literal whose type
  computes to T the transport can be dropped on both the reading and the writing side. Proved for an arbitrary typed
  reference by replacing T with the buffer's type.
-/
import Idealize.ShloMosaic.Lib.StableHlo

namespace Cert.Lib.TypedRefs

open Idealize.ShloMosaic Idealize.ShloMosaic.StableHlo

variable {sig : RefSig} {Val : EltTy → Type} {T : BufTy}

/-- Moving a value to the buffer's type and back gives the value. -/
theorem ofBuf_toBuf (x : TRef sig T) (v : T.Contents Val) : x.ofBuf (x.toBuf v) = v := by
  obtain ⟨r, e, hd, hu⟩ := x
  subst e
  rfl

/-- Buffer contents read at the value's type are any value they are heterogeneously equal to. -/
theorem ofBuf_eq (x : TRef sig T) (w : x.ref.ty.Contents Val) (v : T.Contents Val) (h : HEq w v) : x.ofBuf w = v := by
  obtain ⟨r, e, hd, hu⟩ := x
  subst e
  exact eq_of_heq h

/-- A value moved to the buffer's type is any buffer contents it is heterogeneously equal to. -/
theorem toBuf_eq (x : TRef sig T) (v : T.Contents Val) (w : x.ref.ty.Contents Val) (h : HEq v w) : x.toBuf v = w := by
  obtain ⟨r, e, hd, hu⟩ := x
  subst e
  exact eq_of_heq h

end Cert.Lib.TypedRefs
-- ==== Proof.KHost.lean ====
/-
  The idealized kernel's host stretches, each read at arbitrary entry contents.

  Between its nine pipelined calls the kernel's @main runs the same host operations as the reference: the edge data
  (index columns with self-loops, degree, guarded reciprocal root, per-edge normalisation), per layer the gather,
  scaling and scatter-add of the product's rows, the two quotients that turn column sums into mean and variance, the
  parameter rows, and at the end the pooled read-out.  Each stretch is read here as a function of the buffers it finds:
  where those hold the reference's stages, what it writes are the reference's next stages; every buffer it does not
  write it leaves alone.
-/
import proofs.«132190_j22857815949622_1_alg».proof.Proof.Gen.KernelIdeal.Launch
import proofs.«132190_j22857815949622_1_alg».proof.Proof.RefStages
import proofs.«132190_j22857815949622_1_alg».proof.Proof.LibTypedRefs
import Idealize.ShloMosaic.Lib.StableHlo.Run

set_option maxRecDepth 16384

noncomputable section

namespace Cert.Bridge.KHost

open Cert.KernelIdeal Cert.KernelIdeal.Gen Idealize.ShloMosaic Idealize.ShloMosaic.TcCoe Idealize.SL.Sem Idealize.ShloMosaic.StableHlo

/-! ## The edge data (three stretches before the first call) -/

theorem h0_v3 (V : Valuation τ sig (Elt Ideal)) : after hostOps0 V (Proc.devRef .tc main_v3) = Cert.ReferenceIdeal.ReadP.val_main_v3 (F := Ideal) (V (Proc.devRef .tc main_arg1)) := by
  after_results_simp <;> rfl
theorem h0_v6 (V : Valuation τ sig (Elt Ideal)) : after hostOps0 V (Proc.devRef .tc main_v6) = Cert.ReferenceIdeal.ReadP.val_main_v6 (F := Ideal) (V (Proc.devRef .tc main_arg1)) := by
  after_results_simp <;> rfl
theorem h0_v12 (V : Valuation τ sig (Elt Ideal)) : after hostOps0 V (Proc.devRef .tc main_v12) = Cert.ReferenceIdeal.ReadP.val_main_v12 (F := Ideal) (V (Proc.devRef .tc main_arg1)) := by
  after_results_simp <;> rfl
theorem h0_v13 (V : Valuation τ sig (Elt Ideal)) : after hostOps0 V (Proc.devRef .tc main_v13) = Cert.ReferenceIdeal.ReadP.val_main_v13 (F := Ideal) (V (Proc.devRef .tc main_arg1)) := by
  after_results_simp <;> rfl
theorem h0_cst2 (V : Valuation τ sig (Elt Ideal)) : after hostOps0 V (Proc.devRef .tc main_cst_2) = Cert.ReferenceIdeal.ReadP.val_main_cst_2 (F := Ideal) := by
  after_results_simp <;> rfl
theorem keep_hostOps0_arg0 (V : Valuation τ sig (Elt Ideal)) : after hostOps0 V (Proc.devRef .tc main_arg0) = V (Proc.devRef .tc main_arg0) := by
  after_results_simp <;> rfl
theorem keep_hostOps0_arg2 (V : Valuation τ sig (Elt Ideal)) : after hostOps0 V (Proc.devRef .tc main_arg2) = V (Proc.devRef .tc main_arg2) := by
  after_results_simp <;> rfl
theorem keep_hostOps0_arg3 (V : Valuation τ sig (Elt Ideal)) : after hostOps0 V (Proc.devRef .tc main_arg3) = V (Proc.devRef .tc main_arg3) := by
  after_results_simp <;> rfl
theorem keep_hostOps0_arg4 (V : Valuation τ sig (Elt Ideal)) : after hostOps0 V (Proc.devRef .tc main_arg4) = V (Proc.devRef .tc main_arg4) := by
  after_results_simp <;> rfl
theorem keep_hostOps0_arg5 (V : Valuation τ sig (Elt Ideal)) : after hostOps0 V (Proc.devRef .tc main_arg5) = V (Proc.devRef .tc main_arg5) := by
  after_results_simp <;> rfl
theorem keep_hostOps0_arg6 (V : Valuation τ sig (Elt Ideal)) : after hostOps0 V (Proc.devRef .tc main_arg6) = V (Proc.devRef .tc main_arg6) := by
  after_results_simp <;> rfl
theorem keep_hostOps0_arg7 (V : Valuation τ sig (Elt Ideal)) : after hostOps0 V (Proc.devRef .tc main_arg7) = V (Proc.devRef .tc main_arg7) := by
  after_results_simp <;> rfl
theorem keep_hostOps0_arg8 (V : Valuation τ sig (Elt Ideal)) : after hostOps0 V (Proc.devRef .tc main_arg8) = V (Proc.devRef .tc main_arg8) := by
  after_results_simp <;> rfl

/-- The guarded reciprocal root (the outlined select): from the comparison, the root and the zero it finds. -/
theorem h01_v14 (V : Valuation τ sig (Elt Ideal)) (x1)
    (h12 : V (Proc.devRef .tc main_v12) = Cert.ReferenceIdeal.ReadP.val_main_v12 (F := Ideal) x1) (h13 : V (Proc.devRef .tc main_v13) = Cert.ReferenceIdeal.ReadP.val_main_v13 (F := Ideal) x1)
    (hc : V (Proc.devRef .tc main_cst_2) = Cert.ReferenceIdeal.ReadP.val_main_cst_2 (F := Ideal)) :
    after hostOps0_1 V (Proc.devRef .tc main_v14) = Cert.ReferenceIdeal.ReadP.val_main_v14 (F := Ideal) x1 := by
  after_results_simp
  rw [h12, h13, hc]
  simp only [Cert.Lib.TypedRefs.ofBuf_toBuf]
  refine Cert.Lib.TypedRefs.toBuf_eq _ _ _ ?_
  rw [Cert.Lib.TypedRefs.ofBuf_eq _ _ (Cert.ReferenceIdeal.ReadP.val_main_v12 (F := Ideal) x1) HEq.rfl, Cert.Lib.TypedRefs.ofBuf_eq _ _ (Cert.ReferenceIdeal.ReadP.val_main_v13 (F := Ideal) x1) HEq.rfl,
    Cert.Lib.TypedRefs.ofBuf_eq _ _ (Cert.ReferenceIdeal.ReadP.val_main_cst_2 (F := Ideal)) HEq.rfl]
  exact HEq.rfl
theorem keep_hostOps0_1_v3 (V : Valuation τ sig (Elt Ideal)) : after hostOps0_1 V (Proc.devRef .tc main_v3) = V (Proc.devRef .tc main_v3) := by
  after_results_simp <;> rfl
theorem keep_hostOps0_1_v6 (V : Valuation τ sig (Elt Ideal)) : after hostOps0_1 V (Proc.devRef .tc main_v6) = V (Proc.devRef .tc main_v6) := by
  after_results_simp <;> rfl
theorem keep_hostOps0_1_arg0 (V : Valuation τ sig (Elt Ideal)) : after hostOps0_1 V (Proc.devRef .tc main_arg0) = V (Proc.devRef .tc main_arg0) := by
  after_results_simp <;> rfl
theorem keep_hostOps0_1_arg2 (V : Valuation τ sig (Elt Ideal)) : after hostOps0_1 V (Proc.devRef .tc main_arg2) = V (Proc.devRef .tc main_arg2) := by
  after_results_simp <;> rfl
theorem keep_hostOps0_1_arg3 (V : Valuation τ sig (Elt Ideal)) : after hostOps0_1 V (Proc.devRef .tc main_arg3) = V (Proc.devRef .tc main_arg3) := by
  after_results_simp <;> rfl
theorem keep_hostOps0_1_arg4 (V : Valuation τ sig (Elt Ideal)) : after hostOps0_1 V (Proc.devRef .tc main_arg4) = V (Proc.devRef .tc main_arg4) := by
  after_results_simp <;> rfl
theorem keep_hostOps0_1_arg5 (V : Valuation τ sig (Elt Ideal)) : after hostOps0_1 V (Proc.devRef .tc main_arg5) = V (Proc.devRef .tc main_arg5) := by
  after_results_simp <;> rfl
theorem keep_hostOps0_1_arg6 (V : Valuation τ sig (Elt Ideal)) : after hostOps0_1 V (Proc.devRef .tc main_arg6) = V (Proc.devRef .tc main_arg6) := by
  after_results_simp <;> rfl
theorem keep_hostOps0_1_arg7 (V : Valuation τ sig (Elt Ideal)) : after hostOps0_1 V (Proc.devRef .tc main_arg7) = V (Proc.devRef .tc main_arg7) := by
  after_results_simp <;> rfl
theorem keep_hostOps0_1_arg8 (V : Valuation τ sig (Elt Ideal)) : after hostOps0_1 V (Proc.devRef .tc main_arg8) = V (Proc.devRef .tc main_arg8) := by
  after_results_simp <;> rfl

/-- The per-edge normalisation column, and the first layer's weight matrix. -/
theorem h02_v30 (V : Valuation τ sig (Elt Ideal)) (x1)
    (e3 : V (Proc.devRef .tc main_v3) = Cert.ReferenceIdeal.ReadP.val_main_v3 (F := Ideal) x1) (e6 : V (Proc.devRef .tc main_v6) = Cert.ReferenceIdeal.ReadP.val_main_v6 (F := Ideal) x1)
    (e14 : V (Proc.devRef .tc main_v14) = Cert.ReferenceIdeal.ReadP.val_main_v14 (F := Ideal) x1) :
    after hostOps0_2 V (Proc.devRef .tc main_v30) = Cert.ReferenceIdeal.ReadP.val_main_v30 (F := Ideal) x1 := by
  after_results_simp
  rw [e3, e6, e14]
  rfl
theorem h02_v32 (V : Valuation τ sig (Elt Ideal)) : after hostOps0_2 V (Proc.devRef .tc main_v32) = Cert.ReferenceIdeal.ReadP.val_main_v32 (F := Ideal) (V (Proc.devRef .tc main_arg3)) := by
  after_results_simp <;> rfl
theorem keep_hostOps0_2_v3 (V : Valuation τ sig (Elt Ideal)) : after hostOps0_2 V (Proc.devRef .tc main_v3) = V (Proc.devRef .tc main_v3) := by
  after_results_simp <;> rfl
theorem keep_hostOps0_2_v6 (V : Valuation τ sig (Elt Ideal)) : after hostOps0_2 V (Proc.devRef .tc main_v6) = V (Proc.devRef .tc main_v6) := by
  after_results_simp <;> rfl
theorem keep_hostOps0_2_arg0 (V : Valuation τ sig (Elt Ideal)) : after hostOps0_2 V (Proc.devRef .tc main_arg0) = V (Proc.devRef .tc main_arg0) := by
  after_results_simp <;> rfl
theorem keep_hostOps0_2_arg2 (V : Valuation τ sig (Elt Ideal)) : after hostOps0_2 V (Proc.devRef .tc main_arg2) = V (Proc.devRef .tc main_arg2) := by
  after_results_simp <;> rfl
theorem keep_hostOps0_2_arg3 (V : Valuation τ sig (Elt Ideal)) : after hostOps0_2 V (Proc.devRef .tc main_arg3) = V (Proc.devRef .tc main_arg3) := by
  after_results_simp <;> rfl
theorem keep_hostOps0_2_arg4 (V : Valuation τ sig (Elt Ideal)) : after hostOps0_2 V (Proc.devRef .tc main_arg4) = V (Proc.devRef .tc main_arg4) := by
  after_results_simp <;> rfl
theorem keep_hostOps0_2_arg5 (V : Valuation τ sig (Elt Ideal)) : after hostOps0_2 V (Proc.devRef .tc main_arg5) = V (Proc.devRef .tc main_arg5) := by
  after_results_simp <;> rfl
theorem keep_hostOps0_2_arg6 (V : Valuation τ sig (Elt Ideal)) : after hostOps0_2 V (Proc.devRef .tc main_arg6) = V (Proc.devRef .tc main_arg6) := by
  after_results_simp <;> rfl
theorem keep_hostOps0_2_arg7 (V : Valuation τ sig (Elt Ideal)) : after hostOps0_2 V (Proc.devRef .tc main_arg7) = V (Proc.devRef .tc main_arg7) := by
  after_results_simp <;> rfl
theorem keep_hostOps0_2_arg8 (V : Valuation τ sig (Elt Ideal)) : after hostOps0_2 V (Proc.devRef .tc main_arg8) = V (Proc.devRef .tc main_arg8) := by
  after_results_simp <;> rfl

/-! ## Layer 1 -/

/-- Gather by source, scale by the normalisation column, scatter-add by destination: from the product's rows. -/
theorem l1_agg (V : Valuation τ sig (Elt Ideal)) (x0 x1 x3)
    (ehw : V (Proc.devRef .tc main_v33) = Cert.ReferenceIdeal.ReadP.val_main_v33 (F := Ideal) x0 x3)
    (e3 : V (Proc.devRef .tc main_v3) = Cert.ReferenceIdeal.ReadP.val_main_v3 (F := Ideal) x1) (e6 : V (Proc.devRef .tc main_v6) = Cert.ReferenceIdeal.ReadP.val_main_v6 (F := Ideal) x1) (e30 : V (Proc.devRef .tc main_v30) = Cert.ReferenceIdeal.ReadP.val_main_v30 (F := Ideal) x1) :
    after hostOps1 V (Proc.devRef .tc main_v45) = Cert.ReferenceIdeal.ReadP.val_main_v45 (F := Ideal) x0 x1 x3 := by
  after_results_simp
  rw [ehw, e3, e6, e30]
  rfl
/-- The layer's bias as a [1,128] row. -/
theorem l1_bias (V : Valuation τ sig (Elt Ideal)) :
    after hostOps1 V (Proc.devRef .tc main_v48) = shapeCast S1x128 (Cert.ReferenceIdeal.ReadP.val_main_v47 (F := Ideal) (V (Proc.devRef .tc main_arg4))) shapeCasts_S128_S1x128 := by
  after_results_simp <;> rfl
theorem keep_hostOps1_v3 (V : Valuation τ sig (Elt Ideal)) : after hostOps1 V (Proc.devRef .tc main_v3) = V (Proc.devRef .tc main_v3) := by
  after_results_simp <;> rfl
theorem keep_hostOps1_v6 (V : Valuation τ sig (Elt Ideal)) : after hostOps1 V (Proc.devRef .tc main_v6) = V (Proc.devRef .tc main_v6) := by
  after_results_simp <;> rfl
theorem keep_hostOps1_v30 (V : Valuation τ sig (Elt Ideal)) : after hostOps1 V (Proc.devRef .tc main_v30) = V (Proc.devRef .tc main_v30) := by
  after_results_simp <;> rfl
theorem keep_hostOps1_arg0 (V : Valuation τ sig (Elt Ideal)) : after hostOps1 V (Proc.devRef .tc main_arg0) = V (Proc.devRef .tc main_arg0) := by
  after_results_simp <;> rfl
theorem keep_hostOps1_arg2 (V : Valuation τ sig (Elt Ideal)) : after hostOps1 V (Proc.devRef .tc main_arg2) = V (Proc.devRef .tc main_arg2) := by
  after_results_simp <;> rfl
theorem keep_hostOps1_arg3 (V : Valuation τ sig (Elt Ideal)) : after hostOps1 V (Proc.devRef .tc main_arg3) = V (Proc.devRef .tc main_arg3) := by
  after_results_simp <;> rfl
theorem keep_hostOps1_arg4 (V : Valuation τ sig (Elt Ideal)) : after hostOps1 V (Proc.devRef .tc main_arg4) = V (Proc.devRef .tc main_arg4) := by
  after_results_simp <;> rfl
theorem keep_hostOps1_arg5 (V : Valuation τ sig (Elt Ideal)) : after hostOps1 V (Proc.devRef .tc main_arg5) = V (Proc.devRef .tc main_arg5) := by
  after_results_simp <;> rfl
theorem keep_hostOps1_arg6 (V : Valuation τ sig (Elt Ideal)) : after hostOps1 V (Proc.devRef .tc main_arg6) = V (Proc.devRef .tc main_arg6) := by
  after_results_simp <;> rfl
theorem keep_hostOps1_arg7 (V : Valuation τ sig (Elt Ideal)) : after hostOps1 V (Proc.devRef .tc main_arg7) = V (Proc.devRef .tc main_arg7) := by
  after_results_simp <;> rfl
theorem keep_hostOps1_arg8 (V : Valuation τ sig (Elt Ideal)) : after hostOps1 V (Proc.devRef .tc main_arg8) = V (Proc.devRef .tc main_arg8) := by
  after_results_simp <;> rfl

/-- Mean and variance rows from the two column sums, and the parameter rows. -/
theorem l1_mean (V : Valuation τ sig (Elt Ideal)) :
    after hostOps2 V (Proc.devRef .tc main_v51) = (Host.divf (F := Ideal) (V (Proc.devRef .tc main_v49_0)) (broadcastInDim S1x128 ![] bcast_S_S1x128 (constant (F := Ideal) S_ .f32 0x47435000#32)) : FVec Ideal S1x128 .f32) := by
  after_results_simp <;> rfl
theorem l1_var (V : Valuation τ sig (Elt Ideal)) :
    after hostOps2 V (Proc.devRef .tc main_v55) = (subf (Host.divf (F := Ideal) (V (Proc.devRef .tc main_v49_1)) (broadcastInDim S1x128 ![] bcast_S_S1x128 (constant (F := Ideal) S_ .f32 0x47435000#32)))
      (mulf (Host.divf (F := Ideal) (V (Proc.devRef .tc main_v49_0)) (broadcastInDim S1x128 ![] bcast_S_S1x128 (constant (F := Ideal) S_ .f32 0x47435000#32))) (Host.divf (F := Ideal) (V (Proc.devRef .tc main_v49_0)) (broadcastInDim S1x128 ![] bcast_S_S1x128 (constant (F := Ideal) S_ .f32 0x47435000#32)))) : FVec Ideal S1x128 .f32) := by
  after_results_simp <;> rfl
theorem l1_b (V : Valuation τ sig (Elt Ideal)) :
    after hostOps2 V (Proc.devRef .tc main_v62) = shapeCast S1x128 (Cert.ReferenceIdeal.ReadP.val_main_v47 (F := Ideal) (V (Proc.devRef .tc main_arg4))) shapeCasts_S128_S1x128 := by
  after_results_simp <;> rfl
theorem l1_gamma (V : Valuation τ sig (Elt Ideal)) :
    after hostOps2 V (Proc.devRef .tc main_v63) = shapeCast S1x128 (Cert.ReferenceIdeal.ReadP.val_main_v71 (F := Ideal) (V (Proc.devRef .tc main_arg5))) shapeCasts_S128_S1x128 := by
  after_results_simp <;> rfl
theorem l1_beta (V : Valuation τ sig (Elt Ideal)) :
    after hostOps2 V (Proc.devRef .tc main_v64) = shapeCast S1x128 (Cert.ReferenceIdeal.ReadP.val_main_v76 (F := Ideal) (V (Proc.devRef .tc main_arg6))) shapeCasts_S128_S1x128 := by
  after_results_simp <;> rfl
theorem keep_hostOps2_v45 (V : Valuation τ sig (Elt Ideal)) : after hostOps2 V (Proc.devRef .tc main_v45) = V (Proc.devRef .tc main_v45) := by
  after_results_simp <;> rfl
theorem keep_hostOps2_v3 (V : Valuation τ sig (Elt Ideal)) : after hostOps2 V (Proc.devRef .tc main_v3) = V (Proc.devRef .tc main_v3) := by
  after_results_simp <;> rfl
theorem keep_hostOps2_v6 (V : Valuation τ sig (Elt Ideal)) : after hostOps2 V (Proc.devRef .tc main_v6) = V (Proc.devRef .tc main_v6) := by
  after_results_simp <;> rfl
theorem keep_hostOps2_v30 (V : Valuation τ sig (Elt Ideal)) : after hostOps2 V (Proc.devRef .tc main_v30) = V (Proc.devRef .tc main_v30) := by
  after_results_simp <;> rfl
theorem keep_hostOps2_arg0 (V : Valuation τ sig (Elt Ideal)) : after hostOps2 V (Proc.devRef .tc main_arg0) = V (Proc.devRef .tc main_arg0) := by
  after_results_simp <;> rfl
theorem keep_hostOps2_arg2 (V : Valuation τ sig (Elt Ideal)) : after hostOps2 V (Proc.devRef .tc main_arg2) = V (Proc.devRef .tc main_arg2) := by
  after_results_simp <;> rfl
theorem keep_hostOps2_arg3 (V : Valuation τ sig (Elt Ideal)) : after hostOps2 V (Proc.devRef .tc main_arg3) = V (Proc.devRef .tc main_arg3) := by
  after_results_simp <;> rfl
theorem keep_hostOps2_arg4 (V : Valuation τ sig (Elt Ideal)) : after hostOps2 V (Proc.devRef .tc main_arg4) = V (Proc.devRef .tc main_arg4) := by
  after_results_simp <;> rfl
theorem keep_hostOps2_arg5 (V : Valuation τ sig (Elt Ideal)) : after hostOps2 V (Proc.devRef .tc main_arg5) = V (Proc.devRef .tc main_arg5) := by
  after_results_simp <;> rfl
theorem keep_hostOps2_arg6 (V : Valuation τ sig (Elt Ideal)) : after hostOps2 V (Proc.devRef .tc main_arg6) = V (Proc.devRef .tc main_arg6) := by
  after_results_simp <;> rfl
theorem keep_hostOps2_arg7 (V : Valuation τ sig (Elt Ideal)) : after hostOps2 V (Proc.devRef .tc main_arg7) = V (Proc.devRef .tc main_arg7) := by
  after_results_simp <;> rfl
theorem keep_hostOps2_arg8 (V : Valuation τ sig (Elt Ideal)) : after hostOps2 V (Proc.devRef .tc main_arg8) = V (Proc.devRef .tc main_arg8) := by
  after_results_simp <;> rfl

/-- The next layer's weight matrix. -/
theorem l1_nextW (V : Valuation τ sig (Elt Ideal)) : after hostOps3 V (Proc.devRef .tc main_v67) = Cert.ReferenceIdeal.ReadP.val_main_v82 (F := Ideal) (V (Proc.devRef .tc main_arg3)) := by
  after_results_simp <;> rfl
theorem keep_hostOps3_v65 (V : Valuation τ sig (Elt Ideal)) : after hostOps3 V (Proc.devRef .tc main_v65) = V (Proc.devRef .tc main_v65) := by
  after_results_simp <;> rfl
theorem keep_hostOps3_v3 (V : Valuation τ sig (Elt Ideal)) : after hostOps3 V (Proc.devRef .tc main_v3) = V (Proc.devRef .tc main_v3) := by
  after_results_simp <;> rfl
theorem keep_hostOps3_v6 (V : Valuation τ sig (Elt Ideal)) : after hostOps3 V (Proc.devRef .tc main_v6) = V (Proc.devRef .tc main_v6) := by
  after_results_simp <;> rfl
theorem keep_hostOps3_v30 (V : Valuation τ sig (Elt Ideal)) : after hostOps3 V (Proc.devRef .tc main_v30) = V (Proc.devRef .tc main_v30) := by
  after_results_simp <;> rfl
theorem keep_hostOps3_arg0 (V : Valuation τ sig (Elt Ideal)) : after hostOps3 V (Proc.devRef .tc main_arg0) = V (Proc.devRef .tc main_arg0) := by
  after_results_simp <;> rfl
theorem keep_hostOps3_arg2 (V : Valuation τ sig (Elt Ideal)) : after hostOps3 V (Proc.devRef .tc main_arg2) = V (Proc.devRef .tc main_arg2) := by
  after_results_simp <;> rfl
theorem keep_hostOps3_arg3 (V : Valuation τ sig (Elt Ideal)) : after hostOps3 V (Proc.devRef .tc main_arg3) = V (Proc.devRef .tc main_arg3) := by
  after_results_simp <;> rfl
theorem keep_hostOps3_arg4 (V : Valuation τ sig (Elt Ideal)) : after hostOps3 V (Proc.devRef .tc main_arg4) = V (Proc.devRef .tc main_arg4) := by
  after_results_simp <;> rfl
theorem keep_hostOps3_arg5 (V : Valuation τ sig (Elt Ideal)) : after hostOps3 V (Proc.devRef .tc main_arg5) = V (Proc.devRef .tc main_arg5) := by
  after_results_simp <;> rfl
theorem keep_hostOps3_arg6 (V : Valuation τ sig (Elt Ideal)) : after hostOps3 V (Proc.devRef .tc main_arg6) = V (Proc.devRef .tc main_arg6) := by
  after_results_simp <;> rfl
theorem keep_hostOps3_arg7 (V : Valuation τ sig (Elt Ideal)) : after hostOps3 V (Proc.devRef .tc main_arg7) = V (Proc.devRef .tc main_arg7) := by
  after_results_simp <;> rfl
theorem keep_hostOps3_arg8 (V : Valuation τ sig (Elt Ideal)) : after hostOps3 V (Proc.devRef .tc main_arg8) = V (Proc.devRef .tc main_arg8) := by
  after_results_simp <;> rfl

/-! ## Layer 2 -/

/-- Gather by source, scale by the normalisation column, scatter-add by destination: from the product's rows. -/
theorem l2_agg (V : Valuation τ sig (Elt Ideal)) (x0 x1 x3 x4 x5 x6)
    (ehw : V (Proc.devRef .tc main_v68) = Cert.ReferenceIdeal.ReadP.val_main_v83 (F := Ideal) x0 x1 x3 x4 x5 x6)
    (e3 : V (Proc.devRef .tc main_v3) = Cert.ReferenceIdeal.ReadP.val_main_v3 (F := Ideal) x1) (e6 : V (Proc.devRef .tc main_v6) = Cert.ReferenceIdeal.ReadP.val_main_v6 (F := Ideal) x1) (e30 : V (Proc.devRef .tc main_v30) = Cert.ReferenceIdeal.ReadP.val_main_v30 (F := Ideal) x1) :
    after hostOps4 V (Proc.devRef .tc main_v80) = Cert.ReferenceIdeal.ReadP.val_main_v95 (F := Ideal) x0 x1 x3 x4 x5 x6 := by
  after_results_simp
  rw [ehw, e3, e6, e30]
  rfl
/-- The layer's bias as a [1,128] row. -/
theorem l2_bias (V : Valuation τ sig (Elt Ideal)) :
    after hostOps4 V (Proc.devRef .tc main_v83) = shapeCast S1x128 (Cert.ReferenceIdeal.ReadP.val_main_v97 (F := Ideal) (V (Proc.devRef .tc main_arg4))) shapeCasts_S128_S1x128 := by
  after_results_simp <;> rfl
theorem keep_hostOps4_v3 (V : Valuation τ sig (Elt Ideal)) : after hostOps4 V (Proc.devRef .tc main_v3) = V (Proc.devRef .tc main_v3) := by
  after_results_simp <;> rfl
theorem keep_hostOps4_v6 (V : Valuation τ sig (Elt Ideal)) : after hostOps4 V (Proc.devRef .tc main_v6) = V (Proc.devRef .tc main_v6) := by
  after_results_simp <;> rfl
theorem keep_hostOps4_v30 (V : Valuation τ sig (Elt Ideal)) : after hostOps4 V (Proc.devRef .tc main_v30) = V (Proc.devRef .tc main_v30) := by
  after_results_simp <;> rfl
theorem keep_hostOps4_arg0 (V : Valuation τ sig (Elt Ideal)) : after hostOps4 V (Proc.devRef .tc main_arg0) = V (Proc.devRef .tc main_arg0) := by
  after_results_simp <;> rfl
theorem keep_hostOps4_arg2 (V : Valuation τ sig (Elt Ideal)) : after hostOps4 V (Proc.devRef .tc main_arg2) = V (Proc.devRef .tc main_arg2) := by
  after_results_simp <;> rfl
theorem keep_hostOps4_arg3 (V : Valuation τ sig (Elt Ideal)) : after hostOps4 V (Proc.devRef .tc main_arg3) = V (Proc.devRef .tc main_arg3) := by
  after_results_simp <;> rfl
theorem keep_hostOps4_arg4 (V : Valuation τ sig (Elt Ideal)) : after hostOps4 V (Proc.devRef .tc main_arg4) = V (Proc.devRef .tc main_arg4) := by
  after_results_simp <;> rfl
theorem keep_hostOps4_arg5 (V : Valuation τ sig (Elt Ideal)) : after hostOps4 V (Proc.devRef .tc main_arg5) = V (Proc.devRef .tc main_arg5) := by
  after_results_simp <;> rfl
theorem keep_hostOps4_arg6 (V : Valuation τ sig (Elt Ideal)) : after hostOps4 V (Proc.devRef .tc main_arg6) = V (Proc.devRef .tc main_arg6) := by
  after_results_simp <;> rfl
theorem keep_hostOps4_arg7 (V : Valuation τ sig (Elt Ideal)) : after hostOps4 V (Proc.devRef .tc main_arg7) = V (Proc.devRef .tc main_arg7) := by
  after_results_simp <;> rfl
theorem keep_hostOps4_arg8 (V : Valuation τ sig (Elt Ideal)) : after hostOps4 V (Proc.devRef .tc main_arg8) = V (Proc.devRef .tc main_arg8) := by
  after_results_simp <;> rfl

/-- Mean and variance rows from the two column sums, and the parameter rows. -/
theorem l2_mean (V : Valuation τ sig (Elt Ideal)) :
    after hostOps5 V (Proc.devRef .tc main_v86) = (Host.divf (F := Ideal) (V (Proc.devRef .tc main_v84_0)) (broadcastInDim S1x128 ![] bcast_S_S1x128 (constant (F := Ideal) S_ .f32 0x47435000#32)) : FVec Ideal S1x128 .f32) := by
  after_results_simp <;> rfl
theorem l2_var (V : Valuation τ sig (Elt Ideal)) :
    after hostOps5 V (Proc.devRef .tc main_v90) = (subf (Host.divf (F := Ideal) (V (Proc.devRef .tc main_v84_1)) (broadcastInDim S1x128 ![] bcast_S_S1x128 (constant (F := Ideal) S_ .f32 0x47435000#32)))
      (mulf (Host.divf (F := Ideal) (V (Proc.devRef .tc main_v84_0)) (broadcastInDim S1x128 ![] bcast_S_S1x128 (constant (F := Ideal) S_ .f32 0x47435000#32))) (Host.divf (F := Ideal) (V (Proc.devRef .tc main_v84_0)) (broadcastInDim S1x128 ![] bcast_S_S1x128 (constant (F := Ideal) S_ .f32 0x47435000#32)))) : FVec Ideal S1x128 .f32) := by
  after_results_simp <;> rfl
theorem l2_b (V : Valuation τ sig (Elt Ideal)) :
    after hostOps5 V (Proc.devRef .tc main_v97) = shapeCast S1x128 (Cert.ReferenceIdeal.ReadP.val_main_v97 (F := Ideal) (V (Proc.devRef .tc main_arg4))) shapeCasts_S128_S1x128 := by
  after_results_simp <;> rfl
theorem l2_gamma (V : Valuation τ sig (Elt Ideal)) :
    after hostOps5 V (Proc.devRef .tc main_v98) = shapeCast S1x128 (Cert.ReferenceIdeal.ReadP.val_main_v121 (F := Ideal) (V (Proc.devRef .tc main_arg5))) shapeCasts_S128_S1x128 := by
  after_results_simp <;> rfl
theorem l2_beta (V : Valuation τ sig (Elt Ideal)) :
    after hostOps5 V (Proc.devRef .tc main_v99) = shapeCast S1x128 (Cert.ReferenceIdeal.ReadP.val_main_v126 (F := Ideal) (V (Proc.devRef .tc main_arg6))) shapeCasts_S128_S1x128 := by
  after_results_simp <;> rfl
theorem keep_hostOps5_v80 (V : Valuation τ sig (Elt Ideal)) : after hostOps5 V (Proc.devRef .tc main_v80) = V (Proc.devRef .tc main_v80) := by
  after_results_simp <;> rfl
theorem keep_hostOps5_v3 (V : Valuation τ sig (Elt Ideal)) : after hostOps5 V (Proc.devRef .tc main_v3) = V (Proc.devRef .tc main_v3) := by
  after_results_simp <;> rfl
theorem keep_hostOps5_v6 (V : Valuation τ sig (Elt Ideal)) : after hostOps5 V (Proc.devRef .tc main_v6) = V (Proc.devRef .tc main_v6) := by
  after_results_simp <;> rfl
theorem keep_hostOps5_v30 (V : Valuation τ sig (Elt Ideal)) : after hostOps5 V (Proc.devRef .tc main_v30) = V (Proc.devRef .tc main_v30) := by
  after_results_simp <;> rfl
theorem keep_hostOps5_arg0 (V : Valuation τ sig (Elt Ideal)) : after hostOps5 V (Proc.devRef .tc main_arg0) = V (Proc.devRef .tc main_arg0) := by
  after_results_simp <;> rfl
theorem keep_hostOps5_arg2 (V : Valuation τ sig (Elt Ideal)) : after hostOps5 V (Proc.devRef .tc main_arg2) = V (Proc.devRef .tc main_arg2) := by
  after_results_simp <;> rfl
theorem keep_hostOps5_arg3 (V : Valuation τ sig (Elt Ideal)) : after hostOps5 V (Proc.devRef .tc main_arg3) = V (Proc.devRef .tc main_arg3) := by
  after_results_simp <;> rfl
theorem keep_hostOps5_arg4 (V : Valuation τ sig (Elt Ideal)) : after hostOps5 V (Proc.devRef .tc main_arg4) = V (Proc.devRef .tc main_arg4) := by
  after_results_simp <;> rfl
theorem keep_hostOps5_arg5 (V : Valuation τ sig (Elt Ideal)) : after hostOps5 V (Proc.devRef .tc main_arg5) = V (Proc.devRef .tc main_arg5) := by
  after_results_simp <;> rfl
theorem keep_hostOps5_arg6 (V : Valuation τ sig (Elt Ideal)) : after hostOps5 V (Proc.devRef .tc main_arg6) = V (Proc.devRef .tc main_arg6) := by
  after_results_simp <;> rfl
theorem keep_hostOps5_arg7 (V : Valuation τ sig (Elt Ideal)) : after hostOps5 V (Proc.devRef .tc main_arg7) = V (Proc.devRef .tc main_arg7) := by
  after_results_simp <;> rfl
theorem keep_hostOps5_arg8 (V : Valuation τ sig (Elt Ideal)) : after hostOps5 V (Proc.devRef .tc main_arg8) = V (Proc.devRef .tc main_arg8) := by
  after_results_simp <;> rfl

/-- The next layer's weight matrix. -/
theorem l2_nextW (V : Valuation τ sig (Elt Ideal)) : after hostOps6 V (Proc.devRef .tc main_v102) = Cert.ReferenceIdeal.ReadP.val_main_v132 (F := Ideal) (V (Proc.devRef .tc main_arg3)) := by
  after_results_simp <;> rfl
theorem keep_hostOps6_v100 (V : Valuation τ sig (Elt Ideal)) : after hostOps6 V (Proc.devRef .tc main_v100) = V (Proc.devRef .tc main_v100) := by
  after_results_simp <;> rfl
theorem keep_hostOps6_v3 (V : Valuation τ sig (Elt Ideal)) : after hostOps6 V (Proc.devRef .tc main_v3) = V (Proc.devRef .tc main_v3) := by
  after_results_simp <;> rfl
theorem keep_hostOps6_v6 (V : Valuation τ sig (Elt Ideal)) : after hostOps6 V (Proc.devRef .tc main_v6) = V (Proc.devRef .tc main_v6) := by
  after_results_simp <;> rfl
theorem keep_hostOps6_v30 (V : Valuation τ sig (Elt Ideal)) : after hostOps6 V (Proc.devRef .tc main_v30) = V (Proc.devRef .tc main_v30) := by
  after_results_simp <;> rfl
theorem keep_hostOps6_arg0 (V : Valuation τ sig (Elt Ideal)) : after hostOps6 V (Proc.devRef .tc main_arg0) = V (Proc.devRef .tc main_arg0) := by
  after_results_simp <;> rfl
theorem keep_hostOps6_arg2 (V : Valuation τ sig (Elt Ideal)) : after hostOps6 V (Proc.devRef .tc main_arg2) = V (Proc.devRef .tc main_arg2) := by
  after_results_simp <;> rfl
theorem keep_hostOps6_arg3 (V : Valuation τ sig (Elt Ideal)) : after hostOps6 V (Proc.devRef .tc main_arg3) = V (Proc.devRef .tc main_arg3) := by
  after_results_simp <;> rfl
theorem keep_hostOps6_arg4 (V : Valuation τ sig (Elt Ideal)) : after hostOps6 V (Proc.devRef .tc main_arg4) = V (Proc.devRef .tc main_arg4) := by
  after_results_simp <;> rfl
theorem keep_hostOps6_arg5 (V : Valuation τ sig (Elt Ideal)) : after hostOps6 V (Proc.devRef .tc main_arg5) = V (Proc.devRef .tc main_arg5) := by
  after_results_simp <;> rfl
theorem keep_hostOps6_arg6 (V : Valuation τ sig (Elt Ideal)) : after hostOps6 V (Proc.devRef .tc main_arg6) = V (Proc.devRef .tc main_arg6) := by
  after_results_simp <;> rfl
theorem keep_hostOps6_arg7 (V : Valuation τ sig (Elt Ideal)) : after hostOps6 V (Proc.devRef .tc main_arg7) = V (Proc.devRef .tc main_arg7) := by
  after_results_simp <;> rfl
theorem keep_hostOps6_arg8 (V : Valuation τ sig (Elt Ideal)) : after hostOps6 V (Proc.devRef .tc main_arg8) = V (Proc.devRef .tc main_arg8) := by
  after_results_simp <;> rfl

/-! ## Layer 3 -/

/-- Gather by source, scale by the normalisation column, scatter-add by destination: from the product's rows. -/
theorem l3_agg (V : Valuation τ sig (Elt Ideal)) (x0 x1 x3 x4 x5 x6)
    (ehw : V (Proc.devRef .tc main_v103) = Cert.ReferenceIdeal.ReadP.val_main_v133 (F := Ideal) x0 x1 x3 x4 x5 x6)
    (e3 : V (Proc.devRef .tc main_v3) = Cert.ReferenceIdeal.ReadP.val_main_v3 (F := Ideal) x1) (e6 : V (Proc.devRef .tc main_v6) = Cert.ReferenceIdeal.ReadP.val_main_v6 (F := Ideal) x1) (e30 : V (Proc.devRef .tc main_v30) = Cert.ReferenceIdeal.ReadP.val_main_v30 (F := Ideal) x1) :
    after hostOps7 V (Proc.devRef .tc main_v115) = Cert.ReferenceIdeal.ReadP.val_main_v145 (F := Ideal) x0 x1 x3 x4 x5 x6 := by
  after_results_simp
  rw [ehw, e3, e6, e30]
  rfl
/-- The layer's bias as a [1,128] row. -/
theorem l3_bias (V : Valuation τ sig (Elt Ideal)) :
    after hostOps7 V (Proc.devRef .tc main_v118) = shapeCast S1x128 (Cert.ReferenceIdeal.ReadP.val_main_v147 (F := Ideal) (V (Proc.devRef .tc main_arg4))) shapeCasts_S128_S1x128 := by
  after_results_simp <;> rfl
theorem keep_hostOps7_v3 (V : Valuation τ sig (Elt Ideal)) : after hostOps7 V (Proc.devRef .tc main_v3) = V (Proc.devRef .tc main_v3) := by
  after_results_simp <;> rfl
theorem keep_hostOps7_v6 (V : Valuation τ sig (Elt Ideal)) : after hostOps7 V (Proc.devRef .tc main_v6) = V (Proc.devRef .tc main_v6) := by
  after_results_simp <;> rfl
theorem keep_hostOps7_v30 (V : Valuation τ sig (Elt Ideal)) : after hostOps7 V (Proc.devRef .tc main_v30) = V (Proc.devRef .tc main_v30) := by
  after_results_simp <;> rfl
theorem keep_hostOps7_arg0 (V : Valuation τ sig (Elt Ideal)) : after hostOps7 V (Proc.devRef .tc main_arg0) = V (Proc.devRef .tc main_arg0) := by
  after_results_simp <;> rfl
theorem keep_hostOps7_arg2 (V : Valuation τ sig (Elt Ideal)) : after hostOps7 V (Proc.devRef .tc main_arg2) = V (Proc.devRef .tc main_arg2) := by
  after_results_simp <;> rfl
theorem keep_hostOps7_arg3 (V : Valuation τ sig (Elt Ideal)) : after hostOps7 V (Proc.devRef .tc main_arg3) = V (Proc.devRef .tc main_arg3) := by
  after_results_simp <;> rfl
theorem keep_hostOps7_arg4 (V : Valuation τ sig (Elt Ideal)) : after hostOps7 V (Proc.devRef .tc main_arg4) = V (Proc.devRef .tc main_arg4) := by
  after_results_simp <;> rfl
theorem keep_hostOps7_arg5 (V : Valuation τ sig (Elt Ideal)) : after hostOps7 V (Proc.devRef .tc main_arg5) = V (Proc.devRef .tc main_arg5) := by
  after_results_simp <;> rfl
theorem keep_hostOps7_arg6 (V : Valuation τ sig (Elt Ideal)) : after hostOps7 V (Proc.devRef .tc main_arg6) = V (Proc.devRef .tc main_arg6) := by
  after_results_simp <;> rfl
theorem keep_hostOps7_arg7 (V : Valuation τ sig (Elt Ideal)) : after hostOps7 V (Proc.devRef .tc main_arg7) = V (Proc.devRef .tc main_arg7) := by
  after_results_simp <;> rfl
theorem keep_hostOps7_arg8 (V : Valuation τ sig (Elt Ideal)) : after hostOps7 V (Proc.devRef .tc main_arg8) = V (Proc.devRef .tc main_arg8) := by
  after_results_simp <;> rfl

/-- Mean and variance rows from the two column sums, and the parameter rows. -/
theorem l3_mean (V : Valuation τ sig (Elt Ideal)) :
    after hostOps8 V (Proc.devRef .tc main_v121) = (Host.divf (F := Ideal) (V (Proc.devRef .tc main_v119_0)) (broadcastInDim S1x128 ![] bcast_S_S1x128 (constant (F := Ideal) S_ .f32 0x47435000#32)) : FVec Ideal S1x128 .f32) := by
  after_results_simp <;> rfl
theorem l3_var (V : Valuation τ sig (Elt Ideal)) :
    after hostOps8 V (Proc.devRef .tc main_v125) = (subf (Host.divf (F := Ideal) (V (Proc.devRef .tc main_v119_1)) (broadcastInDim S1x128 ![] bcast_S_S1x128 (constant (F := Ideal) S_ .f32 0x47435000#32)))
      (mulf (Host.divf (F := Ideal) (V (Proc.devRef .tc main_v119_0)) (broadcastInDim S1x128 ![] bcast_S_S1x128 (constant (F := Ideal) S_ .f32 0x47435000#32))) (Host.divf (F := Ideal) (V (Proc.devRef .tc main_v119_0)) (broadcastInDim S1x128 ![] bcast_S_S1x128 (constant (F := Ideal) S_ .f32 0x47435000#32)))) : FVec Ideal S1x128 .f32) := by
  after_results_simp <;> rfl
theorem l3_b (V : Valuation τ sig (Elt Ideal)) :
    after hostOps8 V (Proc.devRef .tc main_v132) = shapeCast S1x128 (Cert.ReferenceIdeal.ReadP.val_main_v147 (F := Ideal) (V (Proc.devRef .tc main_arg4))) shapeCasts_S128_S1x128 := by
  after_results_simp <;> rfl
theorem l3_gamma (V : Valuation τ sig (Elt Ideal)) :
    after hostOps8 V (Proc.devRef .tc main_v133) = shapeCast S1x128 (Cert.ReferenceIdeal.ReadP.val_main_v171 (F := Ideal) (V (Proc.devRef .tc main_arg5))) shapeCasts_S128_S1x128 := by
  after_results_simp <;> rfl
theorem l3_beta (V : Valuation τ sig (Elt Ideal)) :
    after hostOps8 V (Proc.devRef .tc main_v134) = shapeCast S1x128 (Cert.ReferenceIdeal.ReadP.val_main_v176 (F := Ideal) (V (Proc.devRef .tc main_arg6))) shapeCasts_S128_S1x128 := by
  after_results_simp <;> rfl
theorem keep_hostOps8_v115 (V : Valuation τ sig (Elt Ideal)) : after hostOps8 V (Proc.devRef .tc main_v115) = V (Proc.devRef .tc main_v115) := by
  after_results_simp <;> rfl
theorem keep_hostOps8_v3 (V : Valuation τ sig (Elt Ideal)) : after hostOps8 V (Proc.devRef .tc main_v3) = V (Proc.devRef .tc main_v3) := by
  after_results_simp <;> rfl
theorem keep_hostOps8_v6 (V : Valuation τ sig (Elt Ideal)) : after hostOps8 V (Proc.devRef .tc main_v6) = V (Proc.devRef .tc main_v6) := by
  after_results_simp <;> rfl
theorem keep_hostOps8_v30 (V : Valuation τ sig (Elt Ideal)) : after hostOps8 V (Proc.devRef .tc main_v30) = V (Proc.devRef .tc main_v30) := by
  after_results_simp <;> rfl
theorem keep_hostOps8_arg0 (V : Valuation τ sig (Elt Ideal)) : after hostOps8 V (Proc.devRef .tc main_arg0) = V (Proc.devRef .tc main_arg0) := by
  after_results_simp <;> rfl
theorem keep_hostOps8_arg2 (V : Valuation τ sig (Elt Ideal)) : after hostOps8 V (Proc.devRef .tc main_arg2) = V (Proc.devRef .tc main_arg2) := by
  after_results_simp <;> rfl
theorem keep_hostOps8_arg3 (V : Valuation τ sig (Elt Ideal)) : after hostOps8 V (Proc.devRef .tc main_arg3) = V (Proc.devRef .tc main_arg3) := by
  after_results_simp <;> rfl
theorem keep_hostOps8_arg4 (V : Valuation τ sig (Elt Ideal)) : after hostOps8 V (Proc.devRef .tc main_arg4) = V (Proc.devRef .tc main_arg4) := by
  after_results_simp <;> rfl
theorem keep_hostOps8_arg5 (V : Valuation τ sig (Elt Ideal)) : after hostOps8 V (Proc.devRef .tc main_arg5) = V (Proc.devRef .tc main_arg5) := by
  after_results_simp <;> rfl
theorem keep_hostOps8_arg6 (V : Valuation τ sig (Elt Ideal)) : after hostOps8 V (Proc.devRef .tc main_arg6) = V (Proc.devRef .tc main_arg6) := by
  after_results_simp <;> rfl
theorem keep_hostOps8_arg7 (V : Valuation τ sig (Elt Ideal)) : after hostOps8 V (Proc.devRef .tc main_arg7) = V (Proc.devRef .tc main_arg7) := by
  after_results_simp <;> rfl
theorem keep_hostOps8_arg8 (V : Valuation τ sig (Elt Ideal)) : after hostOps8 V (Proc.devRef .tc main_arg8) = V (Proc.devRef .tc main_arg8) := by
  after_results_simp <;> rfl

/-! ## The read-out -/

/-- Per-graph sums and counts, their quotient and the final affine map: from the last layer's output. -/
theorem readout (V : Valuation τ sig (Elt Ideal)) (x0 x1 x2 x3 x4 x5 x6 x7 x8)
    (hin : V (Proc.devRef .tc main_v135) = Cert.ReferenceIdeal.ReadP.val_main_v180 (F := Ideal) x0 x1 x3 x4 x5 x6)
    (h2 : V (Proc.devRef .tc main_arg2) = x2) (h7 : V (Proc.devRef .tc main_arg7) = x7) (h8 : V (Proc.devRef .tc main_arg8) = x8) :
    after hostOps9 V (Proc.devRef .tc main_v151) = Cert.ReferenceIdeal.ReadP.val_main_v196 (F := Ideal) x0 x1 x2 x3 x4 x5 x6 x7 x8 := by
  subst h2 h7 h8
  after_results_simp
  rw [hin]
  rfl

end Cert.Bridge.KHost

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowBlocks.lean ====
/-
  Row blocks of the layers of a row-wise network, read at an entry, at the ideal values and over arbitrary extents.

  A kernel that tiles the rows of an array computes each layer on a block of rows. For a matrix product the entry
  (p, q) of the block's product is the sum over k of x (row p, k) * w (k, q), which is the entry (row p, q) of the
  whole product: a row of a product depends on the same row of the left operand only. Rounding an operand to a
  narrower float format is the identity at the ideal values. For a bias the entry (p, q) of "block plus the one-row
  bias broadcast down the rows" is x (p, q) + b (0, q).
-/
import Idealize.ShloMosaic.PureOps.Ideal.Laws
import Idealize.ShloMosaic.Lib.ValueIdx
import Idealize.ShloMosaic.Lib.ValueLayout
import Idealize.ShloMosaic.Lib.Pipeline.Value
import proofs.«132190_j22857815949622_1_alg».proof.Proof.LibPlainDot

noncomputable section

namespace Cert.Lib.RowBlocks

open Idealize.ShloMosaic Idealize.ShloMosaic.ValueIdx

/-- The product of a block of rows (both operands first rounded to a narrower format, into a zero accumulator), at
    entry (p, q), is the whole product's entry (row p, q), when the block's row p is the array's row `row p`. -/
theorem matmul_rows_apply {B M K N : ℕ} {ψ : FTy} (h : ψ.bits < FTy.bits .f32)
    (x0 : FVec Ideal ⟨2, ![B, K]⟩ .f32) (x1 : FVec Ideal ⟨2, ![K, N]⟩ .f32) (X : FVec Ideal ⟨2, ![M, K]⟩ .f32)
    (W : FVec Ideal ⟨2, ![K, N]⟩ .f32) (row : Fin B → Fin M) (hx : ∀ p k, x0 (ix2 p k) = X (ix2 (row p) k))
    (hw : ∀ k q, x1 (ix2 k q) = W (ix2 k q)) (p : Fin B) (q : Fin N) :
    FloatOps.matmul (DotDims.plain B K N) none (truncf ψ x0 h) (truncf ψ x1 h)
        (constant ⟨2, ![B, N]⟩ .f32 0x00000000#32) (ix2 p q)
      = Host.dotGeneral (F := Ideal) (DotDims.plain M K N) none X W (ix2 (row p) q) := by
  rw [Cert.Lib.PlainDot.matmul_zero_apply]
  refine ((Cert.Lib.PlainDot.dotGeneral_apply M K N none .single X W (ix2 (row p) q)).trans ?_).symm
  refine Finset.sum_congr rfl fun k _ => ?_
  show X (ix2 (row p) k) * W (ix2 k q) = truncf ψ x0 h (ix2 p k) * truncf ψ x1 h (ix2 k q)
  rw [truncf_apply, truncf_apply, hx, hw]

/-- A block of rows plus a one-row bias broadcast down the rows, at entry (p, q). -/
theorem bias_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (p : Fin B) (q : Fin N) :
    addf (shapeCast ⟨2, ![B, N]⟩ x0 h0) (broadcastTo ⟨2, ![B, N]⟩ (shapeCast ⟨2, ![1, N]⟩ x1 h1) hb) (ix2 p q)
      = x0 (ix2 p q) + x1 (ix2 (0 : Fin 1) q) := by
  rw [addf_apply, shapeCast_self, shapeCast_self, broadcastTo_1b_ab_apply]

/-- The same followed by the maximum with a zero splat. -/
theorem bias_relu_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (z : Ideal .f32) (p : Fin B) (q : Fin N) :
    maximumf (addf (shapeCast ⟨2, ![B, N]⟩ x0 h0) (broadcastTo ⟨2, ![B, N]⟩ (shapeCast ⟨2, ![1, N]⟩ x1 h1) hb))
        (broadcast ⟨2, ![B, N]⟩ z) (ix2 p q)
      = max (x0 (ix2 p q) + x1 (ix2 (0 : Fin 1) q)) z := by
  rw [maximumf_apply, bias_rows_apply, broadcast_apply]

end Cert.Lib.RowBlocks

end
-- ==== Proof.RegionMat.lean ====
/-
  The matrix-product calls of the idealized kernel, as whole-array facts at the ideal values.

  Each of these calls walks ten blocks of 5000 rows of a 50000 x 128 array X.  At block t it multiplies rows
  5000 t ... 5000 t + 4999 of X by a 128 x 128 matrix W (both operands first rounded to a narrower float format,
  which is the identity at the ideal values; the accumulator starts at zero) and writes the product over the same
  rows of the result.  A row of a product depends on the same row of the left operand only, so the entry (p, q) of
  the result is the sum over k of X (p, k) * W (k, q), whatever the buffers held when the call was entered.
-/
import proofs.«132190_j22857815949622_1_alg».proof.Proof.Gen.KernelIdeal.Frame
import proofs.«132190_j22857815949622_1_alg».proof.Proof.LibRowBlocks
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed dimension numbers are those of a plain 5000 x 128 by 128 x 128 product. -/
theorem dot_plain : dot_S5000x128_S128x128_S5000x128_1_0_0_1_n_n = DotDims.plain 5000 128 128 := rfl

/-- The whole product: entry (p, q) is the sum over k of X (p, k) * W (k, q). -/
def matG (X : Vec Ideal S50000x128 .f32) (W : Vec Ideal S128x128 .f32) : Vec Ideal S50000x128 .f32 :=
  fun i => ∑ k : Fin 128, X (ix2 (i 0) k) * W (ix2 k (i 1))

/-- The whole product read at an index whose coordinates are known. -/
theorem matG_apply (X : Vec Ideal S50000x128 .f32) (W : Vec Ideal S128x128 .f32) (i : S50000x128.Idx)
    (r : Fin 50000) (q : Fin 128) (h0 : (i 0).val = r.val) (h1 : (i 1).val = q.val) :
    matG X W i = ∑ k : Fin 128, X (ix2 r k) * W (ix2 k q) := by
  obtain ⟨a, b, rfl⟩ : ∃ (a : Fin 50000) (b : Fin 128), i = ix2 a b := ⟨i 0, i 1, eq_ix2 i⟩
  obtain rfl : a = r := Fin.ext h0
  obtain rfl : b = q := Fin.ext h1
  rfl

/-- The whole product at entry (p, q). -/
theorem matG_ix2 (X : Vec Ideal S50000x128 .f32) (W : Vec Ideal S128x128 .f32) (p : Fin 50000) (q : Fin 128) :
    matG X W (ix2 p q) = ∑ k : Fin 128, X (ix2 p k) * W (ix2 k q) := rfl

/-! ## Call 0 -/

/-- The body's stored value at entry (p, q), when row p of the left block is row `row p` of X and the right block is W. -/
theorem pay0_apply (x0 : Vec Ideal S5000x128 .f32) (x1 : Vec Ideal S128x128 .f32)
    (X : Vec Ideal S50000x128 .f32) (W : Vec Ideal S128x128 .f32) (row : Fin 5000 → Fin 50000)
    (hx : ∀ p k, x0 (ix2 p k) = X (ix2 (row p) k)) (hw : ∀ k q, x1 (ix2 k q) = W (ix2 k q))
    (p : Fin 5000) (q : Fin 128) :
    k0_pay1 x0 x1 (ix2 p q) = ∑ k : Fin 128, X (ix2 (row p) k) * W (ix2 k q) := by
  unfold k0_pay1
  rw [dot_plain, shapeCast_self]
  refine (Cert.Lib.PlainDot.matmul_zero_apply 5000 128 128 none _ _ (ix2 p q)).trans ?_
  refine Finset.sum_congr rfl fun k _ => ?_
  rw [truncf_apply, truncf_apply]
  show x0 (ix2 p k) * x1 (ix2 k q) = _
  rw [hx, hw]

/-- Where the blocks sit, decided once over the grid: block t of the left operand and of the result is row block t,
    the right operand's block is the whole matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of the left operand is rows 5000 t ... 5000 t + 4999 of its array. -/
theorem iblk0_0_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : Vec Ideal S50000x128 .f32) i := by
  obtain ⟨e0, e1, -⟩ := idx_facts0 t
  unfold iblk0
  rw [View.read_apply]
  show V c main_arg0 _ = V c main_arg0 _
  refine congrArg _ ?_
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The right operand's block is its whole array. -/
theorem iblk0_1_apply (c : Dev nD) (t : Fin cfg0.N) (y : S128x128.Idx) :
    (iblk0 V c 1 t : Vec Ideal S128x128 .f32) y = (V c main_v32 : Vec Ideal S128x128 .f32) y := by
  obtain ⟨-, -, e0, e1, -⟩ := idx_facts0 t
  unfold iblk0
  rw [View.read_apply]
  show V c main_v32 _ = V c main_v32 _
  refine congrArg _ ?_
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- What point t writes back is block t of the whole product of the arrays the call found. -/
theorem flushed0_eq (c : Dev nD) (t : Fin cfg0.N) :
    (dat0 V c).flushed 2 t = ((cfg0.win 2).blk t).view.read (Elt Ideal) (matG (V c main_arg0) (V c main_v32)) := by
  obtain ⟨-, -, -, -, e0, e1⟩ := idx_facts0 t
  have hN : t.val < 10 := Nat.lt_of_lt_of_eq t.isLt N_0
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  rw [View.read_apply]
  show k0_pay1 (iblk0 V c 0 t) (iblk0 V c 1 t) (ix2 p q)
    = matG (V c main_arg0) (V c main_v32) (((cfg0.win 2).blk t).view.emb (ix2 p q))
  have hr0 : ((((cfg0.win 2).blk t).view.emb (ix2 p q)) 0).val = 5000 * t.val + p.val := by
    show win0_2.index t 0 * 5000 + 1 * p.val = _
    rw [e0]; omega
  have hr1 : ((((cfg0.win 2).blk t).view.emb (ix2 p q)) 1).val = q.val := by
    show win0_2.index t 1 * 128 + 1 * q.val = _
    rw [e1]; omega
  exact (pay0_apply (iblk0 V c 0 t) (iblk0 V c 1 t) (V c main_arg0) (V c main_v32)
    (fun p => ⟨5000 * t.val + p.val, by have := p.isLt; omega⟩)
    (fun p k => iblk0_0_apply V c t (ix2 p k) (ix2 _ k) rfl rfl)
    (fun k q => iblk0_1_apply V c t (ix2 k q)) p q).trans
    (matG_apply (V c main_arg0) (V c main_v32) _ ⟨5000 * t.val + p.val, by have := p.isLt; omega⟩ q hr0 hr1).symm

/-- An index of the result is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Every row of the result is in some point's block: row r in the block of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_blk0]
  obtain ⟨-, -, -, -, e0, e1⟩ := idx_facts0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e0]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e1]; omega

/-- The result array after call 0 is the whole product of the two operand arrays as the call found them. -/
theorem region0 (c : Dev nD) :
    (dat0 V c).arrAt 2 cfg0.N = matG (V c main_arg0) (V c main_v32) :=
  (dat0 V c).arrAt_eq_of_cover 2 (matG (V c main_arg0) (V c main_v32)) (fun t _ => flushed0_eq V c t) cover0

/-- Entry (p, q) of the result array after call 0. -/
theorem region0_apply (c : Dev nD) (p : Fin 50000) (q : Fin 128) :
    (dat0 V c).arrAt 2 cfg0.N (ix2 p q) = matG (V c main_arg0) (V c main_v32) (ix2 p q) :=
  congrFun (region0 V c) (ix2 p q)

end Cert.KernelIdeal.Regions

end
-- ==== Proof.RegionMat3.lean ====
/-
  The matrix-product call 3 of the idealized kernel as a whole-array fact at the ideal values: the same ten row
  blocks, the same argument as for call 0, on this call's own buffers.
-/
import proofs.«132190_j22857815949622_1_alg».proof.Proof.RegionMat

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## Call 3 -/

/-- The body's stored value at entry (p, q), when row p of the left block is row `row p` of X and the right block is W. -/
theorem pay3_apply (x0 : Vec Ideal S5000x128 .f32) (x1 : Vec Ideal S128x128 .f32)
    (X : Vec Ideal S50000x128 .f32) (W : Vec Ideal S128x128 .f32) (row : Fin 5000 → Fin 50000)
    (hx : ∀ p k, x0 (ix2 p k) = X (ix2 (row p) k)) (hw : ∀ k q, x1 (ix2 k q) = W (ix2 k q))
    (p : Fin 5000) (q : Fin 128) :
    k3_pay1 x0 x1 (ix2 p q) = ∑ k : Fin 128, X (ix2 (row p) k) * W (ix2 k q) := by
  unfold k3_pay1
  rw [dot_plain, shapeCast_self, shapeCast_self]
  refine (Cert.Lib.PlainDot.matmul_zero_apply 5000 128 128 none _ _ (ix2 p q)).trans ?_
  refine Finset.sum_congr rfl fun k _ => ?_
  rw [truncf_apply, truncf_apply]
  show x0 (ix2 p k) * x1 (ix2 k q) = _
  rw [hx, hw]

/-- Where the blocks sit, decided once over the grid: block t of the left operand and of the result is row block t,
    the right operand's block is the whole matrix. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block t of the left operand is rows 5000 t ... 5000 t + 4999 of its array. -/
theorem iblk3_0_apply (c : Dev nD) (t : Fin cfg3.N) (y : S5000x128.Idx) (i : S50000x128.Idx)
    (h0 : (i 0).val = 5000 * t.val + (y 0).val) (h1 : (i 1).val = (y 1).val) :
    (iblk3 V c 0 t : Vec Ideal S5000x128 .f32) y = (V c main_v65 : Vec Ideal S50000x128 .f32) i := by
  obtain ⟨e0, e1, -⟩ := idx_facts3 t
  unfold iblk3
  rw [View.read_apply]
  show V c main_v65 _ = V c main_v65 _
  refine congrArg _ ?_
  funext a
  apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- The right operand's block is its whole array. -/
theorem iblk3_1_apply (c : Dev nD) (t : Fin cfg3.N) (y : S128x128.Idx) :
    (iblk3 V c 1 t : Vec Ideal S128x128 .f32) y = (V c main_v67 : Vec Ideal S128x128 .f32) y := by
  obtain ⟨-, -, e0, e1, -⟩ := idx_facts3 t
  unfold iblk3
  rw [View.read_apply]
  show V c main_v67 _ = V c main_v67 _
  refine congrArg _ ?_
  funext a
  apply Fin.ext
  match a with
  | ⟨0, _⟩ => show win3_1.index t 0 * 128 + 1 * (y 0).val = (y 0).val; rw [e0]; omega
  | ⟨1, _⟩ => show win3_1.index t 1 * 128 + 1 * (y 1).val = (y 1).val; rw [e1]; omega

/-- What point t writes back is block t of the whole product of the arrays the call found. -/
theorem flushed3_eq (c : Dev nD) (t : Fin cfg3.N) :
    (dat3 V c).flushed 2 t = ((cfg3.win 2).blk t).view.read (Elt Ideal) (matG (V c main_v65) (V c main_v67)) := by
  obtain ⟨-, -, -, -, e0, e1⟩ := idx_facts3 t
  have hN : t.val < 10 := Nat.lt_of_lt_of_eq t.isLt N_3
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  rw [View.read_apply]
  show k3_pay1 (iblk3 V c 0 t) (iblk3 V c 1 t) (ix2 p q)
    = matG (V c main_v65) (V c main_v67) (((cfg3.win 2).blk t).view.emb (ix2 p q))
  have hr0 : ((((cfg3.win 2).blk t).view.emb (ix2 p q)) 0).val = 5000 * t.val + p.val := by
    show win3_2.index t 0 * 5000 + 1 * p.val = _
    rw [e0]; omega
  have hr1 : ((((cfg3.win 2).blk t).view.emb (ix2 p q)) 1).val = q.val := by
    show win3_2.index t 1 * 128 + 1 * q.val = _
    rw [e1]; omega
  exact (pay3_apply (iblk3 V c 0 t) (iblk3 V c 1 t) (V c main_v65) (V c main_v67)
    (fun p => ⟨5000 * t.val + p.val, by have := p.isLt; omega⟩)
    (fun p k => iblk3_0_apply V c t (ix2 p k) (ix2 _ k) rfl rfl)
    (fun k q => iblk3_1_apply V c t (ix2 k q)) p q).trans
    (matG_apply (V c main_v65) (V c main_v67) _ ⟨5000 * t.val + p.val, by have := p.isLt; omega⟩ q hr0 hr1).symm

/-- An index of the result is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v68).slice (win3_2.rect t)).set ↔ _
  rw [View.set_slice_whole, Rect.mem_set_unit]
  exact Iff.rfl

/-- Every row of the result is in some point's block: row r in the block of point r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_2 _, ?_⟩
  rw [mem_blk3]
  obtain ⟨-, -, -, -, e0, e1⟩ := idx_facts3 ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e0]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e1]; omega

/-- The result array after call 3 is the whole product of the two operand arrays as the call found them. -/
theorem region3 (c : Dev nD) :
    (dat3 V c).arrAt 2 cfg3.N = matG (V c main_v65) (V c main_v67) :=
  (dat3 V c).arrAt_eq_of_cover 2 (matG (V c main_v65) (V c main_v67)) (fun t _ => flushed3_eq V c t) cover3

/-- Entry (p, q) of the result array after call 3. -/
theorem region3_apply (c : Dev nD) (p : Fin 50000) (q : Fin 128) :
    (dat3 V c).arrAt 2 cfg3.N (ix2 p q) = matG (V c main_v65) (V c main_v67) (ix2 p q) :=
  congrFun (region3 V c) (ix2 p q)

end Cert.KernelIdeal.Regions

end
-- ==== Proof.RegionMat6.lean ====
/-
  The matrix-product call 6 of the idealized kernel as a whole-array fact at the ideal values: the same ten row
  blocks, the same argument as for call 0, on this call's own buffers.
-/
import proofs.«132190_j22857815949622_1_alg».proof.Proof.RegionMat

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## Call 6 -/

/-- The body's stored value at entry (p, q), when row p of the left block is row `row p` of X and the right block is W. -/
theorem pay6_apply (x0 : Vec Ideal S5000x128 .f32) (x1 : Vec Ideal S128x128 .f32)
    (X : Vec Ideal S50000x128 .f32) (W : Vec Ideal S128x128 .f32) (row : Fin 5000 → Fin 50000)
    (hx : ∀ p k, x0 (ix2 p k) = X (ix2 (row p) k)) (hw : ∀ k q, x1 (ix2 k q) = W (ix2 k q))
    (p : Fin 5000) (q : Fin 128) :
    k6_pay1 x0 x1 (ix2 p q) = ∑ k : Fin 128, X (ix2 (row p) k) * W (ix2 k q) := by
  unfold k6_pay1
  rw [dot_plain, shapeCast_self, shapeCast_self]
  refine (Cert.Lib.PlainDot.matmul_zero_apply 5000 128 128 none _ _ (ix2 p q)).trans ?_
  refine Finset.sum_congr rfl fun k _ => ?_
  rw [truncf_apply, truncf_apply]
  show x0 (ix2 p k) * x1 (ix2 k q) = _
  rw [hx, hw]

/-- Where the blocks sit, decided once over the grid: block t of the left operand and of the result is row block t,
    the right operand's block is the whole matrix. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Block t of the left operand is rows 5000 t ... 5000 t + 4999 of its array. -/
theorem iblk6_0_apply (c : Dev nD) (t : Fin cfg6.N) (y : S5000x128.Idx) (i : S50000x128.Idx)
    (h0 : (i 0).val = 5000 * t.val + (y 0).val) (h1 : (i 1).val = (y 1).val) :
    (iblk6 V c 0 t : Vec Ideal S5000x128 .f32) y = (V c main_v100 : Vec Ideal S50000x128 .f32) i := by
  obtain ⟨e0, e1, -⟩ := idx_facts6 t
  unfold iblk6
  rw [View.read_apply]
  show V c main_v100 _ = V c main_v100 _
  refine congrArg _ ?_
  funext a
  apply Fin.ext
  match a with
  | ⟨0, _⟩ => show win6_0.index t 0 * 5000 + 1 * (y 0).val = (i 0).val; rw [e0, h0]; omega
  | ⟨1, _⟩ => show win6_0.index t 1 * 128 + 1 * (y 1).val = (i 1).val; rw [e1, h1]; omega

/-- The right operand's block is its whole array. -/
theorem iblk6_1_apply (c : Dev nD) (t : Fin cfg6.N) (y : S128x128.Idx) :
    (iblk6 V c 1 t : Vec Ideal S128x128 .f32) y = (V c main_v102 : Vec Ideal S128x128 .f32) y := by
  obtain ⟨-, -, e0, e1, -⟩ := idx_facts6 t
  unfold iblk6
  rw [View.read_apply]
  show V c main_v102 _ = V c main_v102 _
  refine congrArg _ ?_
  funext a
  apply Fin.ext
  match a with
  | ⟨0, _⟩ => show win6_1.index t 0 * 128 + 1 * (y 0).val = (y 0).val; rw [e0]; omega
  | ⟨1, _⟩ => show win6_1.index t 1 * 128 + 1 * (y 1).val = (y 1).val; rw [e1]; omega

/-- What point t writes back is block t of the whole product of the arrays the call found. -/
theorem flushed6_eq (c : Dev nD) (t : Fin cfg6.N) :
    (dat6 V c).flushed 2 t = ((cfg6.win 2).blk t).view.read (Elt Ideal) (matG (V c main_v100) (V c main_v102)) := by
  obtain ⟨-, -, -, -, e0, e1⟩ := idx_facts6 t
  have hN : t.val < 10 := Nat.lt_of_lt_of_eq t.isLt N_6
  show (cfg6.win 2).cut (grid6.coords t) ((dat6 V c).after 2 t) = _
  rw [after6_2]
  unfold out6_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  rw [View.read_apply]
  show k6_pay1 (iblk6 V c 0 t) (iblk6 V c 1 t) (ix2 p q)
    = matG (V c main_v100) (V c main_v102) (((cfg6.win 2).blk t).view.emb (ix2 p q))
  have hr0 : ((((cfg6.win 2).blk t).view.emb (ix2 p q)) 0).val = 5000 * t.val + p.val := by
    show win6_2.index t 0 * 5000 + 1 * p.val = _
    rw [e0]; omega
  have hr1 : ((((cfg6.win 2).blk t).view.emb (ix2 p q)) 1).val = q.val := by
    show win6_2.index t 1 * 128 + 1 * q.val = _
    rw [e1]; omega
  exact (pay6_apply (iblk6 V c 0 t) (iblk6 V c 1 t) (V c main_v100) (V c main_v102)
    (fun p => ⟨5000 * t.val + p.val, by have := p.isLt; omega⟩)
    (fun p k => iblk6_0_apply V c t (ix2 p k) (ix2 _ k) rfl rfl)
    (fun k q => iblk6_1_apply V c t (ix2 k q)) p q).trans
    (matG_apply (V c main_v100) (V c main_v102) _ ⟨5000 * t.val + p.val, by have := p.isLt; omega⟩ q hr0 hr1).symm

/-- An index of the result is in point t's block iff each coordinate is in the block's range on its axis. -/
theorem mem_blk6 (t : Fin cfg6.N) (i : S50000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v103).slice (win6_2.rect t)).set ↔ _
  rw [View.set_slice_whole, Rect.mem_set_unit]
  exact Iff.rfl

/-- Every row of the result is in some point's block: row r in the block of point r / 5000. -/
theorem cover6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  refine ⟨⟨(i 0).val / 5000, by rw [hN]; omega⟩, flush6_2 _, ?_⟩
  rw [mem_blk6]
  obtain ⟨-, -, -, -, e0, e1⟩ := idx_facts6 ⟨(i 0).val / 5000, by rw [hN]; omega⟩
  intro a
  match a with
  | ⟨0, _⟩ =>
    show win6_2.index _ (0 : Fin 2) * 5000 ≤ (i 0).val ∧ (i 0).val < win6_2.index _ (0 : Fin 2) * 5000 + 5000
    rw [e0]; show (i 0).val / 5000 * 5000 ≤ (i 0).val ∧ (i 0).val < (i 0).val / 5000 * 5000 + 5000; omega
  | ⟨1, _⟩ =>
    show win6_2.index _ (1 : Fin 2) * 128 ≤ (i 1).val ∧ (i 1).val < win6_2.index _ (1 : Fin 2) * 128 + 128
    rw [e1]; omega

/-- The result array after call 6 is the whole product of the two operand arrays as the call found them. -/
theorem region6 (c : Dev nD) :
    (dat6 V c).arrAt 2 cfg6.N = matG (V c main_v100) (V c main_v102) :=
  (dat6 V c).arrAt_eq_of_cover 2 (matG (V c main_v100) (V c main_v102)) (fun t _ => flushed6_eq V c t) cover6

/-- Entry (p, q) of the result array after call 6. -/
theorem region6_apply (c : Dev nD) (p : Fin 50000) (q : Fin 128) :
    (dat6 V c).arrAt 2 cfg6.N (ix2 p q) = matG (V c main_v100) (V c main_v102) (ix2 p q) :=
  congrFun (region6 V c) (ix2 p q)

end Cert.KernelIdeal.Regions

end
-- ==== Proof.RegionNorm.lean ====
/-
  The normalisation calls of the idealized kernel, as whole-array facts at the ideal values.

  Each of these calls walks ten blocks of 5000 rows of a 50000 x 128 array X together with five one-row arrays
  b, mean, var, gamma, beta.  At block t it takes rows 5000 t ... 5000 t + 4999 of X, adds the row b, subtracts the
  row mean, multiplies by the reciprocal square root of (var + eps), then by gamma, adds beta, and keeps the larger
  of the result and zero, entry by entry, each row broadcast down the rows.  An entry depends on the same entry of X
  and on its column of the rows only, so the whole result is one function of the six arrays, entry by entry,
  whatever the buffers held when the call was entered.
-/
import proofs.«132190_j22857815949622_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The normalised array: entry (p, q) is
    max ((((X (p, q) + b (0, q)) - mean (0, q)) * rsqrt (var (0, q) + eps)) * gamma (0, q) + beta (0, q)) 0,
    with eps and 0 the float words the kernel carries. -/
def normG (X : Vec Ideal S50000x128 .f32) (b mean var gamma beta : Vec Ideal S1x128 .f32) :
    Vec Ideal S50000x128 .f32 :=
  fun i => max ((((X i + b (ix2 (0 : Fin 1) (i 1))) - mean (ix2 (0 : Fin 1) (i 1)))
      * Ideal.rsqrt (var (ix2 (0 : Fin 1) (i 1)) + Ideal.ofBits .f32 0x3727C5AC#32))
      * gamma (ix2 (0 : Fin 1) (i 1)) + beta (ix2 (0 : Fin 1) (i 1))) (Ideal.ofBits .f32 0x00000000#32)

/-- The normalised array at entry (p, q). -/
theorem normG_ix2 (X : Vec Ideal S50000x128 .f32) (b mean var gamma beta : Vec Ideal S1x128 .f32)
    (p : Fin 50000) (q : Fin 128) :
    normG X b mean var gamma beta (ix2 p q)
      = max ((((X (ix2 p q) + b (ix2 (0 : Fin 1) q)) - mean (ix2 (0 : Fin 1) q))
          * Ideal.rsqrt (var (ix2 (0 : Fin 1) q) + Ideal.ofBits .f32 0x3727C5AC#32))
          * gamma (ix2 (0 : Fin 1) q) + beta (ix2 (0 : Fin 1) q)) (Ideal.ofBits .f32 0x00000000#32) := rfl

/-- The normalised array read at an index whose coordinates are known. -/
theorem normG_apply (X : Vec Ideal S50000x128 .f32) (b mean var gamma beta : Vec Ideal S1x128 .f32)
    (i : S50000x128.Idx) (r : Fin 50000) (q : Fin 128) (h0 : (i 0).val = r.val) (h1 : (i 1).val = q.val) :
    normG X b mean var gamma beta i = normG X b mean var gamma beta (ix2 r q) := by
  obtain ⟨a, b', rfl⟩ : ∃ (a : Fin 50000) (b' : Fin 128), i = ix2 a b' := ⟨i 0, i 1, eq_ix2 i⟩
  obtain rfl : a = r := Fin.ext h0
  obtain rfl : b' = q := Fin.ext h1
  rfl

/-! ## Call 2 -/

/-- The body's stored value at entry (p, q), when row p of the block of X is row `row p` of X. -/
theorem pay2_apply (x0 : Vec Ideal S5000x128 .f32) (x1 x2 x3 x4 x5 : Vec Ideal S1x128 .f32)
    (X : Vec Ideal S50000x128 .f32) (b mean var gamma beta : Vec Ideal S1x128 .f32) (row : Fin 5000 → Fin 50000)
    (hx : ∀ p q, x0 (ix2 p q) = X (ix2 (row p) q))
    (h1 : ∀ q, x1 (ix2 (0 : Fin 1) q) = b (ix2 (0 : Fin 1) q))
    (h2 : ∀ q, x2 (ix2 (0 : Fin 1) q) = mean (ix2 (0 : Fin 1) q))
    (h3 : ∀ q, x3 (ix2 (0 : Fin 1) q) = var (ix2 (0 : Fin 1) q))
    (h4 : ∀ q, x4 (ix2 (0 : Fin 1) q) = gamma (ix2 (0 : Fin 1) q))
    (h5 : ∀ q, x5 (ix2 (0 : Fin 1) q) = beta (ix2 (0 : Fin 1) q))
    (p : Fin 5000) (q : Fin 128) :
    k2_pay1 x0 x1 x3 x2 x4 x5 (ix2 p q) = normG X b mean var gamma beta (ix2 (row p) q) := by
  unfold k2_pay1
  simp only [shapeCast_self]
  rw [maximumf_apply, addf_apply, mulf_apply, mulf_apply, subf_apply, addf_apply]
  simp only [broadcastTo_1b_ab_apply, broadcast_apply]
  show max ((((x0 (ix2 p q) + x1 (ix2 (0 : Fin 1) q)) - x2 (ix2 (0 : Fin 1) q))
      * Ideal.rsqrt (x3 (ix2 (0 : Fin 1) q) + Ideal.ofBits .f32 0x3727C5AC#32))
      * x4 (ix2 (0 : Fin 1) q) + x5 (ix2 (0 : Fin 1) q)) (Ideal.ofBits .f32 0x00000000#32) = _
  rw [hx, h1, h2, h3, h4, h5]
  rfl

/-- Where the blocks sit, decided once over the grid: block t of X and of the result is row block t, the block of
    each one-row array is the whole row. -/
theorem idx_facts2 : ∀ t : Fin cfg2.N,
    (win2_0.index t (0 : Fin 2) = t.val ∧ win2_0.index t (1 : Fin 2) = 0)
    ∧ (win2_6.index t (0 : Fin 2) = t.val ∧ win2_6.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

/-- Block t of X is rows 5000 t ... 5000 t + 4999 of its array. -/
theorem iblk2_0_apply (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c main_v45 : Vec Ideal S50000x128 .f32) i := by
  obtain ⟨⟨e0, e1⟩, -⟩ := idx_facts2 t
  unfold iblk2
  rw [View.read_apply]
  show V c main_v45 _ = V c main_v45 _
  refine congrArg _ ?_
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The block of one-row window 1 is its whole array. -/
theorem iblk2_1_apply (c : Dev nD) (t : Fin cfg2.N) (y : S1x128.Idx) :
    (iblk2 V c 1 t : Vec Ideal S1x128 .f32) y = (V c main_v62 : Vec Ideal S1x128 .f32) y := by
  have e := (idx_facts2 t).2.2.1
  unfold iblk2
  rw [View.read_apply]
  show V c main_v62 _ = V c main_v62 _
  refine congrArg _ ?_
  funext a
  apply Fin.ext
  match a with
  | ⟨0, _⟩ => show win2_1.index t 0 * 1 + 1 * (y 0).val = (y 0).val; rw [e.1]; omega
  | ⟨1, _⟩ => show win2_1.index t 1 * 128 + 1 * (y 1).val = (y 1).val; rw [e.2]; omega

/-- The block of one-row window 2 is its whole array. -/
theorem iblk2_2_apply (c : Dev nD) (t : Fin cfg2.N) (y : S1x128.Idx) :
    (iblk2 V c 2 t : Vec Ideal S1x128 .f32) y = (V c main_v51 : Vec Ideal S1x128 .f32) y := by
  have e := (idx_facts2 t).2.2.2.1
  unfold iblk2
  rw [View.read_apply]
  show V c main_v51 _ = V c main_v51 _
  refine congrArg _ ?_
  funext a
  apply Fin.ext
  match a with
  | ⟨0, _⟩ => show win2_2.index t 0 * 1 + 1 * (y 0).val = (y 0).val; rw [e.1]; omega
  | ⟨1, _⟩ => show win2_2.index t 1 * 128 + 1 * (y 1).val = (y 1).val; rw [e.2]; omega

/-- The block of one-row window 3 is its whole array. -/
theorem iblk2_3_apply (c : Dev nD) (t : Fin cfg2.N) (y : S1x128.Idx) :
    (iblk2 V c 3 t : Vec Ideal S1x128 .f32) y = (V c main_v55 : Vec Ideal S1x128 .f32) y := by
  have e := (idx_facts2 t).2.2.2.2.1
  unfold iblk2
  rw [View.read_apply]
  show V c main_v55 _ = V c main_v55 _
  refine congrArg _ ?_
  funext a
  apply Fin.ext
  match a with
  | ⟨0, _⟩ => show win2_3.index t 0 * 1 + 1 * (y 0).val = (y 0).val; rw [e.1]; omega
  | ⟨1, _⟩ => show win2_3.index t 1 * 128 + 1 * (y 1).val = (y 1).val; rw [e.2]; omega

/-- The block of one-row window 4 is its whole array. -/
theorem iblk2_4_apply (c : Dev nD) (t : Fin cfg2.N) (y : S1x128.Idx) :
    (iblk2 V c 4 t : Vec Ideal S1x128 .f32) y = (V c main_v63 : Vec Ideal S1x128 .f32) y := by
  have e := (idx_facts2 t).2.2.2.2.2.1
  unfold iblk2
  rw [View.read_apply]
  show V c main_v63 _ = V c main_v63 _
  refine congrArg _ ?_
  funext a
  apply Fin.ext
  match a with
  | ⟨0, _⟩ => show win2_4.index t 0 * 1 + 1 * (y 0).val = (y 0).val; rw [e.1]; omega
  | ⟨1, _⟩ => show win2_4.index t 1 * 128 + 1 * (y 1).val = (y 1).val; rw [e.2]; omega

/-- The block of one-row window 5 is its whole array. -/
theorem iblk2_5_apply (c : Dev nD) (t : Fin cfg2.N) (y : S1x128.Idx) :
    (iblk2 V c 5 t : Vec Ideal S1x128 .f32) y = (V c main_v64 : Vec Ideal S1x128 .f32) y := by
  have e := (idx_facts2 t).2.2.2.2.2.2
  unfold iblk2
  rw [View.read_apply]
  show V c main_v64 _ = V c main_v64 _
  refine congrArg _ ?_
  funext a
  apply Fin.ext
  match a with
  | ⟨0, _⟩ => show win2_5.index t 0 * 1 + 1 * (y 0).val = (y 0).val; rw [e.1]; omega
  | ⟨1, _⟩ => show win2_5.index t 1 * 128 + 1 * (y 1).val = (y 1).val; rw [e.2]; omega

/-- What point t writes back is block t of the normalised array of the arrays the call found. -/
theorem flushed2_eq (c : Dev nD) (t : Fin cfg2.N) :
    (dat2 V c).flushed 6 t = ((cfg2.win 6).blk t).view.read (Elt Ideal)
      (normG (V c main_v45) (V c main_v62) (V c main_v51) (V c main_v55) (V c main_v63) (V c main_v64)) := by
  obtain ⟨-, ⟨e0, e1⟩, -⟩ := idx_facts2 t
  have hN : t.val < 10 := Nat.lt_of_lt_of_eq t.isLt N_2
  show (cfg2.win 6).cut (grid2.coords t) ((dat2 V c).after 6 t) = _
  rw [after2_6]
  unfold out2_6
  rw [View.canon_unit_zero zero_offsets2]
  simp only [View.ld_unit_zero (S := S5000x128) zero_offsets2, View.ld_unit_zero (S := S1x128) zero_offsets2]
  funext j
  obtain ⟨p, q, rfl⟩ : ∃ (p : Fin 5000) (q : Fin 128), j = ix2 p q := ⟨j 0, j 1, eq_ix2 j⟩
  rw [View.read_apply]
  show k2_pay1 (iblk2 V c 0 t) (iblk2 V c 1 t) (iblk2 V c 3 t) (iblk2 V c 2 t) (iblk2 V c 4 t) (iblk2 V c 5 t) (ix2 p q)
    = normG (V c main_v45) (V c main_v62) (V c main_v51) (V c main_v55) (V c main_v63) (V c main_v64)
        (((cfg2.win 6).blk t).view.emb (ix2 p q))
  have hr0 : ((((cfg2.win 6).blk t).view.emb (ix2 p q)) 0).val = 5000 * t.val + p.val := by
    show win2_6.index t 0 * 5000 + 1 * p.val = _
    rw [e0]; omega
  have hr1 : ((((cfg2.win 6).blk t).view.emb (ix2 p q)) 1).val = q.val := by
    show win2_6.index t 1 * 128 + 1 * q.val = _
    rw [e1]; omega
  exact (pay2_apply (iblk2 V c 0 t) (iblk2 V c 1 t) (iblk2 V c 2 t) (iblk2 V c 3 t) (iblk2 V c 4 t) (iblk2 V c 5 t)
    (V c main_v45) (V c main_v62) (V c main_v51) (V c main_v55) (V c main_v63) (V c main_v64)
    (fun p => ⟨5000 * t.val + p.val, by have := p.isLt; omega⟩)
    (fun p q => iblk2_0_apply V c t (ix2 p q) (ix2 _ q) rfl rfl)
    (fun q => iblk2_1_apply V c t (ix2 0 q)) (fun q => iblk2_2_apply V c t (ix2 0 q))
    (fun q => iblk2_3_apply V c t (ix2 0 q)) (fun q => iblk2_4_apply V c t (ix2 0 q))
    (fun q => iblk2_5_apply V c t (ix2 0 q)) p q).trans
    (normG_apply (V c main_v45) (V c main_v62) (V c main_v51) (V c main_v55) (V c main_v63) (V c main_v64) _
      ⟨5000 * t.val + p.val, by have := p.isLt; omega⟩ q hr0 hr1).symm

/-- An index of the result is in point t's block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v65).slice (win2_6.rect t)).set ↔ _
  rw [View.set_slice_whole, Rect.mem_set_unit]
  exact Iff.rfl

/-- Every row of the result is in some point's block: row r in the block of point r / 5000. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_6 _, ?_⟩
  rw [mem_blk2]
  obtain ⟨-, ⟨e0, e1⟩, -⟩ := idx_facts2 ⟨(i 0).val / 5000, by rw [hN]; omega⟩
  intro a
  match a with
  | ⟨0, _⟩ =>
    show win2_6.index _ (0 : Fin 2) * 5000 ≤ (i 0).val ∧ (i 0).val < win2_6.index _ (0 : Fin 2) * 5000 + 5000
    rw [e0]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e1]; omega

/-- The result array after call 2 is the normalised array of the six operand arrays as the call found them. -/
theorem region2 (c : Dev nD) :
    (dat2 V c).arrAt 6 cfg2.N
      = normG (V c main_v45) (V c main_v62) (V c main_v51) (V c main_v55) (V c main_v63) (V c main_v64) :=
  (dat2 V c).arrAt_eq_of_cover 6
    (normG (V c main_v45) (V c main_v62) (V c main_v51) (V c main_v55) (V c main_v63) (V c main_v64))
    (fun t _ => flushed2_eq V c t) cover2

/-- Entry (p, q) of the result array after call 2. -/
theorem region2_apply (c : Dev nD) (p : Fin 50000) (q : Fin 128) :
    (dat2 V c).arrAt 6 cfg2.N (ix2 p q)
      = normG (V c main_v45) (V c main_v62) (V c main_v51) (V c main_v55) (V c main_v63) (V c main_v64) (ix2 p q) :=
  congrFun (region2 V c) (ix2 p q)

end Cert.KernelIdeal.Regions

end
-- ==== Proof.RegionNorm5.lean ====
/-
  The normalisation call 5 of the idealized kernel as a whole-array fact at the ideal values: the same ten row
  blocks, the same argument as for call 2, on this call's own buffers.
-/
import proofs.«132190_j22857815949622_1_alg».proof.Proof.RegionNorm

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## Call 5 -/

/-- The body's stored value at entry (p, q), when row p of the block of X is row `row p` of X. -/
theorem pay5_apply (x0 : Vec Ideal S5000x128 .f32) (x1 x2 x3 x4 x5 : Vec Ideal S1x128 .f32)
    (X : Vec Ideal S50000x128 .f32) (b mean var gamma beta : Vec Ideal S1x128 .f32) (row : Fin 5000 → Fin 50000)
    (hx : ∀ p q, x0 (ix2 p q) = X (ix2 (row p) q))
    (h1 : ∀ q, x1 (ix2 (0 : Fin 1) q) = b (ix2 (0 : Fin 1) q))
    (h2 : ∀ q, x2 (ix2 (0 : Fin 1) q) = mean (ix2 (0 : Fin 1) q))
    (h3 : ∀ q, x3 (ix2 (0 : Fin 1) q) = var (ix2 (0 : Fin 1) q))
    (h4 : ∀ q, x4 (ix2 (0 : Fin 1) q) = gamma (ix2 (0 : Fin 1) q))
    (h5 : ∀ q, x5 (ix2 (0 : Fin 1) q) = beta (ix2 (0 : Fin 1) q))
    (p : Fin 5000) (q : Fin 128) :
    k5_pay1 x0 x1 x3 x2 x4 x5 (ix2 p q) = normG X b mean var gamma beta (ix2 (row p) q) := by
  unfold k5_pay1
  simp only [shapeCast_self]
  rw [maximumf_apply, addf_apply, mulf_apply, mulf_apply, subf_apply, addf_apply]
  simp only [broadcastTo_1b_ab_apply, broadcast_apply]
  show max ((((x0 (ix2 p q) + x1 (ix2 (0 : Fin 1) q)) - x2 (ix2 (0 : Fin 1) q))
      * Ideal.rsqrt (x3 (ix2 (0 : Fin 1) q) + Ideal.ofBits .f32 0x3727C5AC#32))
      * x4 (ix2 (0 : Fin 1) q) + x5 (ix2 (0 : Fin 1) q)) (Ideal.ofBits .f32 0x00000000#32) = _
  rw [hx, h1, h2, h3, h4, h5]
  rfl

/-- Where the blocks sit, decided once over the grid: block t of X and of the result is row block t, the block of
    each one-row array is the whole row. -/
theorem idx_facts5 : ∀ t : Fin cfg5.N,
    (win5_0.index t (0 : Fin 2) = t.val ∧ win5_0.index t (1 : Fin 2) = 0)
    ∧ (win5_6.index t (0 : Fin 2) = t.val ∧ win5_6.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0) :=
  (by decide +kernel : ∀ t : Fin grid5.N, _)

/-- Block t of X is rows 5000 t ... 5000 t + 4999 of its array. -/
theorem iblk5_0_apply (c : Dev nD) (t : Fin cfg5.N) (y : S5000x128.Idx) (i : S50000x128.Idx)
    (h0 : (i 0).val = 5000 * t.val + (y 0).val) (h1 : (i 1).val = (y 1).val) :
    (iblk5 V c 0 t : Vec Ideal S5000x128 .f32) y = (V c main_v80 : Vec Ideal S50000x128 .f32) i := by
  obtain ⟨⟨e0, e1⟩, -⟩ := idx_facts5 t
  unfold iblk5
  rw [View.read_apply]
  show V c main_v80 _ = V c main_v80 _
  refine congrArg _ ?_
  funext a
  apply Fin.ext
  match a with
  | ⟨0, _⟩ => show win5_0.index t 0 * 5000 + 1 * (y 0).val = (i 0).val; rw [e0, h0]; omega
  | ⟨1, _⟩ => show win5_0.index t 1 * 128 + 1 * (y 1).val = (i 1).val; rw [e1, h1]; omega

/-- The block of one-row window 1 is its whole array. -/
theorem iblk5_1_apply (c : Dev nD) (t : Fin cfg5.N) (y : S1x128.Idx) :
    (iblk5 V c 1 t : Vec Ideal S1x128 .f32) y = (V c main_v97 : Vec Ideal S1x128 .f32) y := by
  have e := (idx_facts5 t).2.2.1
  unfold iblk5
  rw [View.read_apply]
  show V c main_v97 _ = V c main_v97 _
  refine congrArg _ ?_
  funext a
  apply Fin.ext
  match a with
  | ⟨0, _⟩ => show win5_1.index t 0 * 1 + 1 * (y 0).val = (y 0).val; rw [e.1]; omega
  | ⟨1, _⟩ => show win5_1.index t 1 * 128 + 1 * (y 1).val = (y 1).val; rw [e.2]; omega

/-- The block of one-row window 2 is its whole array. -/
theorem iblk5_2_apply (c : Dev nD) (t : Fin cfg5.N) (y : S1x128.Idx) :
    (iblk5 V c 2 t : Vec Ideal S1x128 .f32) y = (V c main_v86 : Vec Ideal S1x128 .f32) y := by
  have e := (idx_facts5 t).2.2.2.1
  unfold iblk5
  rw [View.read_apply]
  show V c main_v86 _ = V c main_v86 _
  refine congrArg _ ?_
  funext a
  apply Fin.ext
  match a with
  | ⟨0, _⟩ => show win5_2.index t 0 * 1 + 1 * (y 0).val = (y 0).val; rw [e.1]; omega
  | ⟨1, _⟩ => show win5_2.index t 1 * 128 + 1 * (y 1).val = (y 1).val; rw [e.2]; omega

/-- The block of one-row window 3 is its whole array. -/
theorem iblk5_3_apply (c : Dev nD) (t : Fin cfg5.N) (y : S1x128.Idx) :
    (iblk5 V c 3 t : Vec Ideal S1x128 .f32) y = (V c main_v90 : Vec Ideal S1x128 .f32) y := by
  have e := (idx_facts5 t).2.2.2.2.1
  unfold iblk5
  rw [View.read_apply]
  show V c main_v90 _ = V c main_v90 _
  refine congrArg _ ?_
  funext a
  apply Fin.ext
  match a with
  | ⟨0, _⟩ => show win5_3.index t 0 * 1 + 1 * (y 0).val = (y 0).val; rw [e.1]; omega
  | ⟨1, _⟩ => show win5_3.index t 1 * 128 + 1 * (y 1).val = (y 1).val; rw [e.2]; omega

/-- The block of one-row window 4 is its whole array. -/
theorem iblk5_4_apply (c : Dev nD) (t : Fin cfg5.N) (y : S1x128.Idx) :
    (iblk5 V c 4 t : Vec Ideal S1x128 .f32) y = (V c main_v98 : Vec Ideal S1x128 .f32) y := by
  have e := (idx_facts5 t).2.2.2.2.2.1
  unfold iblk5
  rw [View.read_apply]
  show V c main_v98 _ = V c main_v98 _
  refine congrArg _ ?_
  funext a
  apply Fin.ext
  match a with
  | ⟨0, _⟩ => show win5_4.index t 0 * 1 + 1 * (y 0).val = (y 0).val; rw [e.1]; omega
  | ⟨1, _⟩ => show win5_4.index t 1 * 128 + 1 * (y 1).val = (y 1).val; rw [e.2]; omega

/-- The block of one-row window 5 is its whole array. -/
theorem iblk5_5_apply (c : Dev nD) (t : Fin cfg5.N) (y : S1x128.Idx) :
    (iblk5 V c 5 t : Vec Ideal S1x128 .f32) y = (V c main_v99 : Vec Ideal S1x128 .f32) y := by
  have e := (idx_facts5 t).2.2.2.2.2.2
  unfold iblk5
  rw [View.read_apply]
  show V c main_v99 _ = V c main_v99 _
  refine congrArg _ ?_
  funext a
  apply Fin.ext
  match a with
  | ⟨0, _⟩ => show win5_5.index t 0 * 1 + 1 * (y 0).val = (y 0).val; rw [e.1]; omega
  | ⟨1, _⟩ => show win5_5.index t 1 * 128 + 1 * (y 1).val = (y 1).val; rw [e.2]; omega

/-- What point t writes back is block t of the normalised array of the arrays the call found. -/
theorem flushed5_eq (c : Dev nD) (t : Fin cfg5.N) :
    (dat5 V c).flushed 6 t = ((cfg5.win 6).blk t).view.read (Elt Ideal)
      (normG (V c main_v80) (V c main_v97) (V c main_v86) (V c main_v90) (V c main_v98) (V c main_v99)) := by
  obtain ⟨-, ⟨e0, e1⟩, -⟩ := idx_facts5 t
  have hN : t.val < 10 := Nat.lt_of_lt_of_eq t.isLt N_5
  show (cfg5.win 6).cut (grid5.coords t) ((dat5 V c).after 6 t) = _
  rw [after5_6]
  unfold out5_6
  rw [View.canon_unit_zero zero_offsets2]
  simp only [View.ld_unit_zero (S := S5000x128) zero_offsets2, View.ld_unit_zero (S := S1x128) zero_offsets2]
  funext j
  obtain ⟨p, q, rfl⟩ : ∃ (p : Fin 5000) (q : Fin 128), j = ix2 p q := ⟨j 0, j 1, eq_ix2 j⟩
  rw [View.read_apply]
  show k5_pay1 (iblk5 V c 0 t) (iblk5 V c 1 t) (iblk5 V c 3 t) (iblk5 V c 2 t) (iblk5 V c 4 t) (iblk5 V c 5 t) (ix2 p q)
    = normG (V c main_v80) (V c main_v97) (V c main_v86) (V c main_v90) (V c main_v98) (V c main_v99)
        (((cfg5.win 6).blk t).view.emb (ix2 p q))
  have hr0 : ((((cfg5.win 6).blk t).view.emb (ix2 p q)) 0).val = 5000 * t.val + p.val := by
    show win5_6.index t 0 * 5000 + 1 * p.val = _
    rw [e0]; omega
  have hr1 : ((((cfg5.win 6).blk t).view.emb (ix2 p q)) 1).val = q.val := by
    show win5_6.index t 1 * 128 + 1 * q.val = _
    rw [e1]; omega
  exact (pay5_apply (iblk5 V c 0 t) (iblk5 V c 1 t) (iblk5 V c 2 t) (iblk5 V c 3 t) (iblk5 V c 4 t) (iblk5 V c 5 t)
    (V c main_v80) (V c main_v97) (V c main_v86) (V c main_v90) (V c main_v98) (V c main_v99)
    (fun p => ⟨5000 * t.val + p.val, by have := p.isLt; omega⟩)
    (fun p q => iblk5_0_apply V c t (ix2 p q) (ix2 _ q) rfl rfl)
    (fun q => iblk5_1_apply V c t (ix2 0 q)) (fun q => iblk5_2_apply V c t (ix2 0 q))
    (fun q => iblk5_3_apply V c t (ix2 0 q)) (fun q => iblk5_4_apply V c t (ix2 0 q))
    (fun q => iblk5_5_apply V c t (ix2 0 q)) p q).trans
    (normG_apply (V c main_v80) (V c main_v97) (V c main_v86) (V c main_v90) (V c main_v98) (V c main_v99) _
      ⟨5000 * t.val + p.val, by have := p.isLt; omega⟩ q hr0 hr1).symm

/-- An index of the result is in point t's block iff each coordinate is in the block's range on its axis. -/
theorem mem_blk5 (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v100).slice (win5_6.rect t)).set ↔ _
  rw [View.set_slice_whole, Rect.mem_set_unit]
  exact Iff.rfl

/-- Every row of the result is in some point's block: row r in the block of point r / 5000. -/
theorem cover5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_6 _, ?_⟩
  rw [mem_blk5]
  obtain ⟨-, ⟨e0, e1⟩, -⟩ := idx_facts5 ⟨(i 0).val / 5000, by rw [hN]; omega⟩
  intro a
  match a with
  | ⟨0, _⟩ =>
    show win5_6.index _ (0 : Fin 2) * 5000 ≤ (i 0).val ∧ (i 0).val < win5_6.index _ (0 : Fin 2) * 5000 + 5000
    rw [e0]; show (i 0).val / 5000 * 5000 ≤ (i 0).val ∧ (i 0).val < (i 0).val / 5000 * 5000 + 5000; omega
  | ⟨1, _⟩ =>
    show win5_6.index _ (1 : Fin 2) * 128 ≤ (i 1).val ∧ (i 1).val < win5_6.index _ (1 : Fin 2) * 128 + 128
    rw [e1]; omega

/-- The result array after call 5 is the normalised array of the six operand arrays as the call found them. -/
theorem region5 (c : Dev nD) :
    (dat5 V c).arrAt 6 cfg5.N
      = normG (V c main_v80) (V c main_v97) (V c main_v86) (V c main_v90) (V c main_v98) (V c main_v99) :=
  (dat5 V c).arrAt_eq_of_cover 6
    (normG (V c main_v80) (V c main_v97) (V c main_v86) (V c main_v90) (V c main_v98) (V c main_v99))
    (fun t _ => flushed5_eq V c t) cover5

/-- Entry (p, q) of the result array after call 5. -/
theorem region5_apply (c : Dev nD) (p : Fin 50000) (q : Fin 128) :
    (dat5 V c).arrAt 6 cfg5.N (ix2 p q)
      = normG (V c main_v80) (V c main_v97) (V c main_v86) (V c main_v90) (V c main_v98) (V c main_v99) (ix2 p q) :=
  congrFun (region5 V c) (ix2 p q)

end Cert.KernelIdeal.Regions

end
-- ==== Proof.RegionNorm8.lean ====
/-
  The normalisation call 8 of the idealized kernel as a whole-array fact at the ideal values: the same ten row
  blocks, the same argument as for call 2, on this call's own buffers.
-/
import proofs.«132190_j22857815949622_1_alg».proof.Proof.RegionNorm

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## Call 8 -/

/-- The body's stored value at entry (p, q), when row p of the block of X is row `row p` of X. -/
theorem pay8_apply (x0 : Vec Ideal S5000x128 .f32) (x1 x2 x3 x4 x5 : Vec Ideal S1x128 .f32)
    (X : Vec Ideal S50000x128 .f32) (b mean var gamma beta : Vec Ideal S1x128 .f32) (row : Fin 5000 → Fin 50000)
    (hx : ∀ p q, x0 (ix2 p q) = X (ix2 (row p) q))
    (h1 : ∀ q, x1 (ix2 (0 : Fin 1) q) = b (ix2 (0 : Fin 1) q))
    (h2 : ∀ q, x2 (ix2 (0 : Fin 1) q) = mean (ix2 (0 : Fin 1) q))
    (h3 : ∀ q, x3 (ix2 (0 : Fin 1) q) = var (ix2 (0 : Fin 1) q))
    (h4 : ∀ q, x4 (ix2 (0 : Fin 1) q) = gamma (ix2 (0 : Fin 1) q))
    (h5 : ∀ q, x5 (ix2 (0 : Fin 1) q) = beta (ix2 (0 : Fin 1) q))
    (p : Fin 5000) (q : Fin 128) :
    k8_pay1 x0 x1 x3 x2 x4 x5 (ix2 p q) = normG X b mean var gamma beta (ix2 (row p) q) := by
  unfold k8_pay1
  simp only [shapeCast_self]
  rw [maximumf_apply, addf_apply, mulf_apply, mulf_apply, subf_apply, addf_apply]
  simp only [broadcastTo_1b_ab_apply, broadcast_apply]
  show max ((((x0 (ix2 p q) + x1 (ix2 (0 : Fin 1) q)) - x2 (ix2 (0 : Fin 1) q))
      * Ideal.rsqrt (x3 (ix2 (0 : Fin 1) q) + Ideal.ofBits .f32 0x3727C5AC#32))
      * x4 (ix2 (0 : Fin 1) q) + x5 (ix2 (0 : Fin 1) q)) (Ideal.ofBits .f32 0x00000000#32) = _
  rw [hx, h1, h2, h3, h4, h5]
  rfl

/-- Where the blocks sit, decided once over the grid: block t of X and of the result is row block t, the block of
    each one-row array is the whole row. -/
theorem idx_facts8 : ∀ t : Fin cfg8.N,
    (win8_0.index t (0 : Fin 2) = t.val ∧ win8_0.index t (1 : Fin 2) = 0)
    ∧ (win8_6.index t (0 : Fin 2) = t.val ∧ win8_6.index t (1 : Fin 2) = 0)
    ∧ (win8_1.index t (0 : Fin 2) = 0 ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0) :=
  (by decide +kernel : ∀ t : Fin grid8.N, _)

/-- Block t of X is rows 5000 t ... 5000 t + 4999 of its array. -/
theorem iblk8_0_apply (c : Dev nD) (t : Fin cfg8.N) (y : S5000x128.Idx) (i : S50000x128.Idx)
    (h0 : (i 0).val = 5000 * t.val + (y 0).val) (h1 : (i 1).val = (y 1).val) :
    (iblk8 V c 0 t : Vec Ideal S5000x128 .f32) y = (V c main_v115 : Vec Ideal S50000x128 .f32) i := by
  obtain ⟨⟨e0, e1⟩, -⟩ := idx_facts8 t
  unfold iblk8
  rw [View.read_apply]
  show V c main_v115 _ = V c main_v115 _
  refine congrArg _ ?_
  funext a
  apply Fin.ext
  match a with
  | ⟨0, _⟩ => show win8_0.index t 0 * 5000 + 1 * (y 0).val = (i 0).val; rw [e0, h0]; omega
  | ⟨1, _⟩ => show win8_0.index t 1 * 128 + 1 * (y 1).val = (i 1).val; rw [e1, h1]; omega

/-- The block of one-row window 1 is its whole array. -/
theorem iblk8_1_apply (c : Dev nD) (t : Fin cfg8.N) (y : S1x128.Idx) :
    (iblk8 V c 1 t : Vec Ideal S1x128 .f32) y = (V c main_v132 : Vec Ideal S1x128 .f32) y := by
  have e := (idx_facts8 t).2.2.1
  unfold iblk8
  rw [View.read_apply]
  show V c main_v132 _ = V c main_v132 _
  refine congrArg _ ?_
  funext a
  apply Fin.ext
  match a with
  | ⟨0, _⟩ => show win8_1.index t 0 * 1 + 1 * (y 0).val = (y 0).val; rw [e.1]; omega
  | ⟨1, _⟩ => show win8_1.index t 1 * 128 + 1 * (y 1).val = (y 1).val; rw [e.2]; omega

/-- The block of one-row window 2 is its whole array. -/
theorem iblk8_2_apply (c : Dev nD) (t : Fin cfg8.N) (y : S1x128.Idx) :
    (iblk8 V c 2 t : Vec Ideal S1x128 .f32) y = (V c main_v121 : Vec Ideal S1x128 .f32) y := by
  have e := (idx_facts8 t).2.2.2.1
  unfold iblk8
  rw [View.read_apply]
  show V c main_v121 _ = V c main_v121 _
  refine congrArg _ ?_
  funext a
  apply Fin.ext
  match a with
  | ⟨0, _⟩ => show win8_2.index t 0 * 1 + 1 * (y 0).val = (y 0).val; rw [e.1]; omega
  | ⟨1, _⟩ => show win8_2.index t 1 * 128 + 1 * (y 1).val = (y 1).val; rw [e.2]; omega

/-- The block of one-row window 3 is its whole array. -/
theorem iblk8_3_apply (c : Dev nD) (t : Fin cfg8.N) (y : S1x128.Idx) :
    (iblk8 V c 3 t : Vec Ideal S1x128 .f32) y = (V c main_v125 : Vec Ideal S1x128 .f32) y := by
  have e := (idx_facts8 t).2.2.2.2.1
  unfold iblk8
  rw [View.read_apply]
  show V c main_v125 _ = V c main_v125 _
  refine congrArg _ ?_
  funext a
  apply Fin.ext
  match a with
  | ⟨0, _⟩ => show win8_3.index t 0 * 1 + 1 * (y 0).val = (y 0).val; rw [e.1]; omega
  | ⟨1, _⟩ => show win8_3.index t 1 * 128 + 1 * (y 1).val = (y 1).val; rw [e.2]; omega

/-- The block of one-row window 4 is its whole array. -/
theorem iblk8_4_apply (c : Dev nD) (t : Fin cfg8.N) (y : S1x128.Idx) :
    (iblk8 V c 4 t : Vec Ideal S1x128 .f32) y = (V c main_v133 : Vec Ideal S1x128 .f32) y := by
  have e := (idx_facts8 t).2.2.2.2.2.1
  unfold iblk8
  rw [View.read_apply]
  show V c main_v133 _ = V c main_v133 _
  refine congrArg _ ?_
  funext a
  apply Fin.ext
  match a with
  | ⟨0, _⟩ => show win8_4.index t 0 * 1 + 1 * (y 0).val = (y 0).val; rw [e.1]; omega
  | ⟨1, _⟩ => show win8_4.index t 1 * 128 + 1 * (y 1).val = (y 1).val; rw [e.2]; omega

/-- The block of one-row window 5 is its whole array. -/
theorem iblk8_5_apply (c : Dev nD) (t : Fin cfg8.N) (y : S1x128.Idx) :
    (iblk8 V c 5 t : Vec Ideal S1x128 .f32) y = (V c main_v134 : Vec Ideal S1x128 .f32) y := by
  have e := (idx_facts8 t).2.2.2.2.2.2
  unfold iblk8
  rw [View.read_apply]
  show V c main_v134 _ = V c main_v134 _
  refine congrArg _ ?_
  funext a
  apply Fin.ext
  match a with
  | ⟨0, _⟩ => show win8_5.index t 0 * 1 + 1 * (y 0).val = (y 0).val; rw [e.1]; omega
  | ⟨1, _⟩ => show win8_5.index t 1 * 128 + 1 * (y 1).val = (y 1).val; rw [e.2]; omega

/-- What point t writes back is block t of the normalised array of the arrays the call found. -/
theorem flushed8_eq (c : Dev nD) (t : Fin cfg8.N) :
    (dat8 V c).flushed 6 t = ((cfg8.win 6).blk t).view.read (Elt Ideal)
      (normG (V c main_v115) (V c main_v132) (V c main_v121) (V c main_v125) (V c main_v133) (V c main_v134)) := by
  obtain ⟨-, ⟨e0, e1⟩, -⟩ := idx_facts8 t
  have hN : t.val < 10 := Nat.lt_of_lt_of_eq t.isLt N_8
  show (cfg8.win 6).cut (grid8.coords t) ((dat8 V c).after 6 t) = _
  rw [after8_6]
  unfold out8_6
  rw [View.canon_unit_zero zero_offsets2]
  simp only [View.ld_unit_zero (S := S5000x128) zero_offsets2, View.ld_unit_zero (S := S1x128) zero_offsets2]
  funext j
  obtain ⟨p, q, rfl⟩ : ∃ (p : Fin 5000) (q : Fin 128), j = ix2 p q := ⟨j 0, j 1, eq_ix2 j⟩
  rw [View.read_apply]
  show k8_pay1 (iblk8 V c 0 t) (iblk8 V c 1 t) (iblk8 V c 3 t) (iblk8 V c 2 t) (iblk8 V c 4 t) (iblk8 V c 5 t) (ix2 p q)
    = normG (V c main_v115) (V c main_v132) (V c main_v121) (V c main_v125) (V c main_v133) (V c main_v134)
        (((cfg8.win 6).blk t).view.emb (ix2 p q))
  have hr0 : ((((cfg8.win 6).blk t).view.emb (ix2 p q)) 0).val = 5000 * t.val + p.val := by
    show win8_6.index t 0 * 5000 + 1 * p.val = _
    rw [e0]; omega
  have hr1 : ((((cfg8.win 6).blk t).view.emb (ix2 p q)) 1).val = q.val := by
    show win8_6.index t 1 * 128 + 1 * q.val = _
    rw [e1]; omega
  exact (pay8_apply (iblk8 V c 0 t) (iblk8 V c 1 t) (iblk8 V c 2 t) (iblk8 V c 3 t) (iblk8 V c 4 t) (iblk8 V c 5 t)
    (V c main_v115) (V c main_v132) (V c main_v121) (V c main_v125) (V c main_v133) (V c main_v134)
    (fun p => ⟨5000 * t.val + p.val, by have := p.isLt; omega⟩)
    (fun p q => iblk8_0_apply V c t (ix2 p q) (ix2 _ q) rfl rfl)
    (fun q => iblk8_1_apply V c t (ix2 0 q)) (fun q => iblk8_2_apply V c t (ix2 0 q))
    (fun q => iblk8_3_apply V c t (ix2 0 q)) (fun q => iblk8_4_apply V c t (ix2 0 q))
    (fun q => iblk8_5_apply V c t (ix2 0 q)) p q).trans
    (normG_apply (V c main_v115) (V c main_v132) (V c main_v121) (V c main_v125) (V c main_v133) (V c main_v134) _
      ⟨5000 * t.val + p.val, by have := p.isLt; omega⟩ q hr0 hr1).symm

/-- An index of the result is in point t's block iff each coordinate is in the block's range on its axis. -/
theorem mem_blk8 (t : Fin cfg8.N) (i : S50000x128.Idx) :
    i ∈ ((cfg8.win 6).blk t).view.set ↔ ∀ a : Fin 2, win8_6.index t a * S5000x128.size a ≤ (i a).val
      ∧ (i a).val < win8_6.index t a * S5000x128.size a + S5000x128.size a := by
  show i ∈ ((View.whole main_v135).slice (win8_6.rect t)).set ↔ _
  rw [View.set_slice_whole, Rect.mem_set_unit]
  exact Iff.rfl

/-- Every row of the result is in some point's block: row r in the block of point r / 5000. -/
theorem cover8 (i : S50000x128.Idx) :
    ∃ t : Fin cfg8.N, (cfg8.win 6).flush t = true ∧ i ∈ ((cfg8.win 6).blk t).view.set := by
  have hi0 : (i 0).val < 50000 := (i 0).isLt
  have hi1 : (i 1).val < 128 := (i 1).isLt
  have hN : cfg8.N = 10 := N_8
  refine ⟨⟨(i 0).val / 5000, by rw [hN]; omega⟩, flush8_6 _, ?_⟩
  rw [mem_blk8]
  obtain ⟨-, ⟨e0, e1⟩, -⟩ := idx_facts8 ⟨(i 0).val / 5000, by rw [hN]; omega⟩
  intro a
  match a with
  | ⟨0, _⟩ =>
    show win8_6.index _ (0 : Fin 2) * 5000 ≤ (i 0).val ∧ (i 0).val < win8_6.index _ (0 : Fin 2) * 5000 + 5000
    rw [e0]; show (i 0).val / 5000 * 5000 ≤ (i 0).val ∧ (i 0).val < (i 0).val / 5000 * 5000 + 5000; omega
  | ⟨1, _⟩ =>
    show win8_6.index _ (1 : Fin 2) * 128 ≤ (i 1).val ∧ (i 1).val < win8_6.index _ (1 : Fin 2) * 128 + 128
    rw [e1]; omega

/-- The result array after call 8 is the normalised array of the six operand arrays as the call found them. -/
theorem region8 (c : Dev nD) :
    (dat8 V c).arrAt 6 cfg8.N
      = normG (V c main_v115) (V c main_v132) (V c main_v121) (V c main_v125) (V c main_v133) (V c main_v134) :=
  (dat8 V c).arrAt_eq_of_cover 6
    (normG (V c main_v115) (V c main_v132) (V c main_v121) (V c main_v125) (V c main_v133) (V c main_v134))
    (fun t _ => flushed8_eq V c t) cover8

/-- Entry (p, q) of the result array after call 8. -/
theorem region8_apply (c : Dev nD) (p : Fin 50000) (q : Fin 128) :
    (dat8 V c).arrAt 6 cfg8.N (ix2 p q)
      = normG (V c main_v115) (V c main_v132) (V c main_v121) (V c main_v125) (V c main_v133) (V c main_v134) (ix2 p q) :=
  congrFun (region8 V c) (ix2 p q)

end Cert.KernelIdeal.Regions

end
-- ==== Proof.MatBridge.lean ====
/-
  The three matrix products of the network, kernel against reference.

  The kernel's matrix-product calls leave, at entry (p, q), the sum over k of input (p, k) * weight (k, q).  The
  reference's dot_general stage, read at the index (p, q), is the sum over k of its left operand at (p, k) times
  its right operand at (k, q).  With the same two operands these are one function.
-/
import proofs.«132190_j22857815949622_1_alg».proof.Proof.RegionMat
import proofs.«132190_j22857815949622_1_alg».proof.Proof.RefStages

noncomputable section

namespace Cert.Bridge.MatBridge

open Idealize.ShloMosaic Idealize.ShloMosaic.ValueIdx
open Cert.ReferenceIdeal Cert.ReferenceIdeal.ReadP

/-- Layer 1: the product of the layer's input rows with its weight matrix, entry by entry the sum over k of
    input (p, k) * weight (k, q), is the reference's product stage. -/
theorem mat1 (x0 : (⟨S50000x128, .f32⟩ : BufTy).Contents (Elt Ideal)) (x3 : (⟨S3x128x128, .f32⟩ : BufTy).Contents (Elt Ideal)) :
    Cert.KernelIdeal.Regions.matG (x0) (val_main_v32 (F := Ideal) x3)
      = val_main_v33 (F := Ideal) x0 x3 := by
  funext i
  obtain ⟨p, q, rfl⟩ : ∃ (p : Fin 50000) (q : Fin 128), i = ix2 p q := ⟨i 0, i 1, eq_ix2 i⟩
  rw [val_main_v33_apply]
  generalize val_main_v32 (F := Ideal) x3 = W
  refine (Cert.KernelIdeal.Regions.matG_ix2 _ _ p q).trans ?_
  refine Finset.sum_congr rfl fun k _ => ?_
  have el : lidx_main_v33 (ix2 p q) k = ix2 p k :=
    funext fun a => by match a with | ⟨0, _⟩ => rfl | ⟨1, _⟩ => rfl
  have er : ridx_main_v33 (ix2 p q) k = ix2 k q :=
    funext fun a => by match a with | ⟨0, _⟩ => rfl | ⟨1, _⟩ => rfl
  rw [el, er]

/-- Layer 2: the product of the layer's input rows with its weight matrix, entry by entry the sum over k of
    input (p, k) * weight (k, q), is the reference's product stage. -/
theorem mat2 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 x5 x6 : (⟨S3x128, .f32⟩ : BufTy).Contents (Elt Ideal)) :
    Cert.KernelIdeal.Regions.matG (val_main_v80 (F := Ideal) x0 x1 x3 x4 x5 x6) (val_main_v82 (F := Ideal) x3)
      = val_main_v83 (F := Ideal) x0 x1 x3 x4 x5 x6 := by
  funext i
  obtain ⟨p, q, rfl⟩ : ∃ (p : Fin 50000) (q : Fin 128), i = ix2 p q := ⟨i 0, i 1, eq_ix2 i⟩
  rw [val_main_v83_apply]
  generalize val_main_v82 (F := Ideal) x3 = W
  generalize val_main_v80 (F := Ideal) x0 x1 x3 x4 x5 x6 = X
  refine (Cert.KernelIdeal.Regions.matG_ix2 _ _ p q).trans ?_
  refine Finset.sum_congr rfl fun k _ => ?_
  have el : lidx_main_v83 (ix2 p q) k = ix2 p k :=
    funext fun a => by match a with | ⟨0, _⟩ => rfl | ⟨1, _⟩ => rfl
  have er : ridx_main_v83 (ix2 p q) k = ix2 k q :=
    funext fun a => by match a with | ⟨0, _⟩ => rfl | ⟨1, _⟩ => rfl
  rw [el, er]

/-- Layer 3: the product of the layer's input rows with its weight matrix, entry by entry the sum over k of
    input (p, k) * weight (k, q), is the reference's product stage. -/
theorem mat3 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 x5 x6 : (⟨S3x128, .f32⟩ : BufTy).Contents (Elt Ideal)) :
    Cert.KernelIdeal.Regions.matG (val_main_v130 (F := Ideal) x0 x1 x3 x4 x5 x6) (val_main_v132 (F := Ideal) x3)
      = val_main_v133 (F := Ideal) x0 x1 x3 x4 x5 x6 := by
  funext i
  obtain ⟨p, q, rfl⟩ : ∃ (p : Fin 50000) (q : Fin 128), i = ix2 p q := ⟨i 0, i 1, eq_ix2 i⟩
  rw [val_main_v133_apply]
  generalize val_main_v132 (F := Ideal) x3 = W
  generalize val_main_v130 (F := Ideal) x0 x1 x3 x4 x5 x6 = X
  refine (Cert.KernelIdeal.Regions.matG_ix2 _ _ p q).trans ?_
  refine Finset.sum_congr rfl fun k _ => ?_
  have el : lidx_main_v133 (ix2 p q) k = ix2 p k :=
    funext fun a => by match a with | ⟨0, _⟩ => rfl | ⟨1, _⟩ => rfl
  have er : ridx_main_v133 (ix2 p q) k = ix2 k q :=
    funext fun a => by match a with | ⟨0, _⟩ => rfl | ⟨1, _⟩ => rfl
  rw [el, er]

end Cert.Bridge.MatBridge

end
-- ==== Proof.LibBlockSums.lean ====
/-
  A sum over T·B rows taken block by block.

  Over any commutative additive monoid: if `g t p` is row `t·B + p`, the sum over the `T` blocks of the sums over a
  block's `B` rows is the sum over all `T·B` rows.
-/
import Mathlib

namespace Cert.Lib.BlockSums

open scoped BigOperators

theorem sum_blocks {α : Type*} [AddCommMonoid α] {T B n : ℕ} (hn : T * B = n) (f : Fin n → α) (g : Fin T → Fin B → Fin n)
    (hg : ∀ t p, (g t p).val = t.val * B + p.val) :
    ∑ t : Fin T, ∑ p : Fin B, f (g t p) = ∑ r : Fin n, f r := by
  subst hn
  calc ∑ t : Fin T, ∑ p : Fin B, f (g t p)
      = ∑ x : Fin T × Fin B, f (g x.1 x.2) := (Fintype.sum_prod_type' (fun t p => f (g t p))).symm
    _ = ∑ r : Fin (T * B), f r :=
        Fintype.sum_equiv finProdFinEquiv _ _ (fun x => congrArg f (Fin.ext (by
          rw [hg]
          show x.1.val * B + x.2.val = x.2.val + B * x.1.val
          rw [Nat.mul_comm, Nat.add_comm])))

end Cert.Lib.BlockSums
-- ==== Proof.RegionStatsBase.lean ====
/-
  Column statistics taken block by block: the shared arithmetic.

  A [50000, 128] array is read as ten blocks of 5000 rows. The column sum of `x + b` (`b` one row, added to every row of
  `x`) over all rows is the sum over the ten blocks of the block's column sum; the same for the squares.
-/
import proofs.«132190_j22857815949622_1_alg».proof.KernelIdeal
import proofs.«132190_j22857815949622_1_alg».proof.Proof.LibBlockSums
import Idealize.ShloMosaic.Lib.ValueIdx
import Idealize.ShloMosaic.PureOps.Ideal.Laws

noncomputable section

open Idealize.ShloMosaic Idealize.ShloMosaic.ValueIdx

namespace Cert.KernelIdeal.Regions

/-- The zero offsets of a rank-2 rectangle, as a constant function. -/
theorem statsZero : (![0, 0] : Fin 2 → Nat) = fun _ => 0 := funext fun a => by fin_cases a <;> rfl

/-- Row `5000 s + p` of the 50000 rows (taken modulo 50000, so that it names a row for every `s`). -/
def statsRow (s : ℕ) (p : Fin 5000) : Fin 50000 := ⟨(s * 5000 + p.val) % 50000, Nat.mod_lt _ (by decide)⟩

theorem statsRow_val (s : ℕ) (hs : s < 10) (p : Fin 5000) : (statsRow s p).val = s * 5000 + p.val :=
  Nat.mod_eq_of_lt (by have := p.isLt; omega)

/-- The entry of `x + b` at row `r`, column `q`, for a one-row `b`. -/
def statsEntry (x : Vec Ideal S50000x128 .f32) (b : Vec Ideal S1x128 .f32) (q : Fin 128) (r : Fin 50000) : EReal :=
  x (ix2 r q) + b (ix2 (0 : Fin 1) q)

/-- Ten blocks of 5000 rows are the 50000 rows: a sum taken block by block is the sum over all rows. -/
theorem stats_blocks (f : Fin 50000 → EReal) :
    ∑ s ∈ Finset.range 10, ∑ p : Fin 5000, f (statsRow s p) = ∑ r : Fin 50000, f r := by
  rw [Finset.sum_range (fun s => ∑ p : Fin 5000, f (statsRow s p))]
  exact Cert.Lib.BlockSums.sum_blocks (T := 10) (B := 5000) (by norm_num) f (fun t p => statsRow t.val p)
    (fun t p => statsRow_val t.val t.isLt p)

end Cert.KernelIdeal.Regions

end
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.RegionStats.lean ====
/-
  The column statistics of layer 0's normalization (region 1 of the kernel program), read at the ideal values.

  The region runs over ten grid points. At point `t` it reads rows `5000 t … 5000 t + 4999` of a [50000, 128] array
  `x` and the one row `b` of a [1, 128] array, and keeps two [1, 128] accumulators: at point 0 both are set to zero;
  at every point the first gains, in each column, the sum over the block's rows of `x + b`, the second the sum of
  `(x + b) * (x + b)`. The accumulators are carried from point to point and written to their arrays once, after the
  last point. Over the extended reals addition is associative and commutative with unit 0, so after the last point
  the first array holds, in column `q`, `∑ r, (x r q + b 0 q)` over all 50000 rows, and the second the sum of the
  squares.

  Steps: what each control case leaves in each accumulator, as the stored payload of the values read (any float
  type); the payloads at a column (ideal values); a block's rows as rows of `x`; the running sums by induction on
  the point; the one write-back.
-/
import proofs.«132190_j22857815949622_1_alg».proof.Proof.Gen.KernelIdeal.Frame
import proofs.«132190_j22857815949622_1_alg».proof.Proof.RegionStatsBase
import proofs.«132190_j22857815949622_1_alg».proof.Proof.LibColumnReads
import proofs.«132190_j22857815949622_1_alg».proof.Proof.LibRowBlocks
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-! ### What each case leaves in each accumulator (any float type) -/

section Pieces
variable {F : FTy → Type} [FloatOps F]

/-- Not at the first point: the first accumulator, holding `xo2`, is left at the add payload of the block, the bias
    row and `xo2` (the one store covers the buffer; the loads read whole buffers). -/
theorem out1_B_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero statsZero]
  simp only [View.readAt_eq_ld, h1.read_unread, h2.read_unread, h3.read_unread,
    View.ld_unit_zero (S := S5000x128) statsZero, View.ld_unit_zero (S := S1x128) statsZero]

/-- Not at the first point: the second accumulator, holding `xo3`, likewise with the payload of the squares. -/
theorem out1_B_3_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero statsZero]
  simp only [View.readAt_eq_ld, h1.read_unread, h2.read_unread, h4.read_unread,
    View.ld_unit_zero (S := S5000x128) statsZero, View.ld_unit_zero (S := S1x128) statsZero]

/-- At the first point: the first accumulator is zeroed, read back, and left at the add payload over the zero row. -/
theorem out1_A_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) statsZero, View.readCov_unit_zero (S := S1x128) _ statsZero]
  simp only [View.readAt_eq_ld, h1.read_unread, h2.read_unread, View.ld_unit_zero (S := S5000x128) statsZero,
    View.ld_unit_zero (S := S1x128) statsZero]

/-- At the first point: the second accumulator likewise. -/
theorem out1_A_3_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) statsZero, View.readCov_unit_zero (S := S1x128) _ statsZero]
  simp only [View.readAt_eq_ld, h1.read_unread, h2.read_unread, View.ld_unit_zero (S := S5000x128) statsZero,
    View.ld_unit_zero (S := S1x128) statsZero]

end Pieces

/-! ### The payloads at a column, at the ideal values -/

/-- The block plus the bias row, at (p, q). -/
theorem pay1_3_apply (x0 : Vec Ideal S5000x128 .f32) (x1 : Vec Ideal S1x128 .f32) (p : Fin 5000) (q : Fin 128) :
    k1_pay3 x0 x1 (ix2 p q) = x0 (ix2 p q) + x1 (ix2 (0 : Fin 1) q) := by
  unfold k1_pay3
  exact Cert.Lib.RowBlocks.bias_rows_apply x0 x1 shapeCasts_S5000x128_S5000x128 shapeCasts_S1x128_S1x128
    broadcasts_S1x128_S5000x128 p q

/-- The accumulator plus the column sums of the biased block, at column q. -/
theorem pay1_4_apply (x0 : Vec Ideal S5000x128 .f32) (x1 acc : Vec Ideal S1x128 .f32) (q : Fin 128) :
    k1_pay4 x0 x1 acc (ix2 (0 : Fin 1) q)
      = acc (ix2 (0 : Fin 1) q) + ∑ k : Fin 5000, (x0 (ix2 k q) + x1 (ix2 (0 : Fin 1) q)) := by
  unfold k1_pay4
  refine congrArg₂ (· + ·) (congrFun (shapeCast_self acc shapeCasts_S1x128_S1x128) _) ?_
  refine (shapeCast_a_1a_apply _ shapeCasts_S128_S1x128 (0 : Fin 1) q).trans ?_
  refine (Cert.LibColumnReads.colSum_apply (k1_pay3 x0 x1) 0x00000000#32 reduces_S5000x128_S128 (.inl rfl) rfl q).trans ?_
  exact Finset.sum_congr rfl fun k _ => pay1_3_apply x0 x1 k q

/-- The accumulator plus the column sums of the squares of the biased block, at column q. -/
theorem pay1_5_apply (x0 : Vec Ideal S5000x128 .f32) (x1 acc : Vec Ideal S1x128 .f32) (q : Fin 128) :
    k1_pay5 x0 x1 acc (ix2 (0 : Fin 1) q)
      = acc (ix2 (0 : Fin 1) q)
        + ∑ k : Fin 5000, (x0 (ix2 k q) + x1 (ix2 (0 : Fin 1) q)) * (x0 (ix2 k q) + x1 (ix2 (0 : Fin 1) q)) := by
  unfold k1_pay5
  refine congrArg₂ (· + ·) (congrFun (shapeCast_self acc shapeCasts_S1x128_S1x128) _) ?_
  refine (shapeCast_a_1a_apply _ shapeCasts_S128_S1x128 (0 : Fin 1) q).trans ?_
  refine (Cert.LibColumnReads.colSum_apply (mulf (k1_pay3 x0 x1) (k1_pay3 x0 x1)) 0x00000000#32
    reduces_S5000x128_S128 (.inl rfl) rfl q).trans ?_
  exact Finset.sum_congr rfl fun k _ => congrArg₂ (· * ·) (pay1_3_apply x0 x1 k q) (pay1_3_apply x0 x1 k q)

/-- The two reset rows are zero. -/
theorem pay1_1_apply (j : S1x128.Idx) : (k1_pay1 (F := Ideal)) j = 0 := Ideal.ofBits_zero_f32
theorem pay1_2_apply (j : S1x128.Idx) : (k1_pay2 (F := Ideal)) j = 0 := Ideal.ofBits_zero_f32

/-! ### The windows' blocks at an index -/

section Blocks
variable {F : FTy → Type} [FloatOps F]
variable (V : (c : Dev nD) → (b : Ref sig .tc) → Buf (Elt F) ((c : Thread nD τ).loc b))

/-- Window 0's block index at point `t` is `(t, 0)`; window 1's is `(0, 0)`. -/
theorem index1_0 (t : Fin cfg1.N) : win1_0.index t 0 = t.val ∧ win1_0.index t 1 = 0 := by
  rcases fin_N1 t with rfl | rfl | rfl | rfl | rfl | rfl | rfl | rfl | rfl | rfl <;> decide

theorem index1_1 (t : Fin cfg1.N) : win1_1.index t 0 = 0 ∧ win1_1.index t 1 = 0 := by
  rcases fin_N1 t with rfl | rfl | rfl | rfl | rfl | rfl | rfl | rfl | rfl | rfl <;> decide

/-- Row `p` of the block of window 0 at point `t` is row `5000 t + p` of the array. -/
theorem iblk1_0_apply (c : Dev nD) (t : Fin cfg1.N) (p : Fin 5000) (q : Fin 128) (r : Fin 50000)
    (hr : r.val = t.val * 5000 + p.val) :
    (iblk1 V c 0 t : Vec F S5000x128 .f32) (ix2 p q) = V c (Pipeline.arrRef spec1 0) (ix2 r q) := by
  unfold iblk1
  rw [View.read_apply]
  show V c (Pipeline.arrRef spec1 0) _ = V c (Pipeline.arrRef spec1 0) (ix2 r q)
  congr 1
  funext a
  apply Fin.ext
  match a with
  | ⟨0, _⟩ => show win1_0.index t 0 * 5000 + 1 * p.val = r.val; rw [(index1_0 t).1, hr]; omega
  | ⟨1, _⟩ => show win1_0.index t 1 * 128 + 1 * q.val = q.val; rw [(index1_0 t).2]; omega

/-- The block of window 1 is the whole one-row array at every point. -/
theorem iblk1_1_apply (c : Dev nD) (t : Fin cfg1.N) (q : Fin 128) :
    (iblk1 V c 1 t : Vec F S1x128 .f32) (ix2 (0 : Fin 1) q) = V c (Pipeline.arrRef spec1 1) (ix2 (0 : Fin 1) q) := by
  unfold iblk1
  rw [View.read_apply]
  show V c (Pipeline.arrRef spec1 1) _ = V c (Pipeline.arrRef spec1 1) (ix2 (0 : Fin 1) q)
  congr 1
  funext a
  apply Fin.ext
  match a with
  | ⟨0, _⟩ => show win1_1.index t 0 * 1 + 1 * 0 = 0; rw [(index1_1 t).1]
  | ⟨1, _⟩ => show win1_1.index t 1 * 128 + 1 * q.val = q.val; rw [(index1_1 t).2]; omega

end Blocks

/-! ### The accumulators after each point, as payloads -/

section Steps
variable {F : FTy → Type} [FloatOps F]
variable (V : (c : Dev nD) → (b : Ref sig .tc) → Buf (Elt F) ((c : Thread nD τ).loc b))

theorem outsAt1_A_fst (c : Dev nD) (t : Fin cfg1.N) (h0 : t.val % 10 = 0) :
    (outsAt1 V c t.val t.isLt).1 = k1_pay4 (iblk1 V c 0 t) (iblk1 V c 1 t) k1_pay1 :=
  (congrArg Prod.fst (outsAt1_A V c t h0)).trans
    (out1_A_2_eq c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))

theorem outsAt1_A_snd (c : Dev nD) (t : Fin cfg1.N) (h0 : t.val % 10 = 0) :
    (outsAt1 V c t.val t.isLt).2 = k1_pay5 (iblk1 V c 0 t) (iblk1 V c 1 t) k1_pay2 :=
  (congrArg Prod.snd (outsAt1_A V c t h0)).trans
    (out1_A_3_eq c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t))

theorem outsAt1_B_fst (c : Dev nD) (t : Fin cfg1.N) (h0 : ¬t.val % 10 = 0) :
    (outsAt1 V c t.val t.isLt).1 = k1_pay4 (iblk1 V c 0 t) (iblk1 V c 1 t)
      (outsAt1 V c (t.val - 1) (Nat.lt_of_le_of_lt (Nat.sub_le _ _) t.isLt)).1 :=
  (congrArg Prod.fst (outsAt1_B V c t h0)).trans
    (out1_B_2_eq c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)

theorem outsAt1_B_snd (c : Dev nD) (t : Fin cfg1.N) (h0 : ¬t.val % 10 = 0) :
    (outsAt1 V c t.val t.isLt).2 = k1_pay5 (iblk1 V c 0 t) (iblk1 V c 1 t)
      (outsAt1 V c (t.val - 1) (Nat.lt_of_le_of_lt (Nat.sub_le _ _) t.isLt)).2 :=
  (congrArg Prod.snd (outsAt1_B V c t h0)).trans
    (out1_B_3_eq c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2)

end Steps

/-! ### The running sums -/

section Sums
variable (V : (c : Dev nD) → (b : Ref sig .tc) → Buf (Elt Ideal) ((c : Thread nD τ).loc b))
variable (x : Vec Ideal S50000x128 .f32) (b : Vec Ideal S1x128 .f32)

/-- An entry of the block of point `t` plus the bias is the entry of `x + b` at row `5000 t + p`. -/
theorem term1 (c : Dev nD) (hx : x = V c (Pipeline.arrRef spec1 0)) (hb : b = V c (Pipeline.arrRef spec1 1))
    (t : Fin cfg1.N) (q : Fin 128) (x0 : Vec Ideal S5000x128 .f32) (x1 : Vec Ideal S1x128 .f32)
    (h0 : x0 = iblk1 V c 0 t) (h1 : x1 = iblk1 V c 1 t) (p : Fin 5000) :
    x0 (ix2 p q) + x1 (ix2 (0 : Fin 1) q) = statsEntry x b q (statsRow t.val p) := by
  subst hx hb h0 h1
  exact congrArg₂ (· + ·)
    (iblk1_0_apply V c t p q (statsRow t.val p) (statsRow_val t.val (lt_of_lt_of_eq t.isLt N_1) p))
    (iblk1_1_apply V c t q)

/-- The column sum over the block of point `t` is the sum over rows `5000 t … 5000 t + 4999`. -/
theorem blockSum1 (c : Dev nD) (hx : x = V c (Pipeline.arrRef spec1 0)) (hb : b = V c (Pipeline.arrRef spec1 1))
    (t : Fin cfg1.N) (q : Fin 128) (x0 : Vec Ideal S5000x128 .f32) (x1 : Vec Ideal S1x128 .f32)
    (h0 : x0 = iblk1 V c 0 t) (h1 : x1 = iblk1 V c 1 t) :
    ∑ k : Fin 5000, (x0 (ix2 k q) + x1 (ix2 (0 : Fin 1) q)) = ∑ p : Fin 5000, statsEntry x b q (statsRow t.val p) :=
  Finset.sum_congr rfl fun p _ => term1 V x b c hx hb t q x0 x1 h0 h1 p

theorem blockSq1 (c : Dev nD) (hx : x = V c (Pipeline.arrRef spec1 0)) (hb : b = V c (Pipeline.arrRef spec1 1))
    (t : Fin cfg1.N) (q : Fin 128) (x0 : Vec Ideal S5000x128 .f32) (x1 : Vec Ideal S1x128 .f32)
    (h0 : x0 = iblk1 V c 0 t) (h1 : x1 = iblk1 V c 1 t) :
    ∑ k : Fin 5000, (x0 (ix2 k q) + x1 (ix2 (0 : Fin 1) q)) * (x0 (ix2 k q) + x1 (ix2 (0 : Fin 1) q))
      = ∑ p : Fin 5000, statsEntry x b q (statsRow t.val p) * statsEntry x b q (statsRow t.val p) :=
  Finset.sum_congr rfl fun p _ =>
    congrArg₂ (· * ·) (term1 V x b c hx hb t q x0 x1 h0 h1 p) (term1 V x b c hx hb t q x0 x1 h0 h1 p)

/-- At the first point the first accumulator is `0 +` the block's column sum. -/
theorem entry1_A_fst (c : Dev nD) (hx : x = V c (Pipeline.arrRef spec1 0)) (hb : b = V c (Pipeline.arrRef spec1 1))
    (t : Fin cfg1.N) (h0 : t.val % 10 = 0) (q : Fin 128) :
    (outsAt1 V c t.val t.isLt).1 (ix2 (0 : Fin 1) q) = ∑ p : Fin 5000, statsEntry x b q (statsRow t.val p) := by
  refine (congrFun (outsAt1_A_fst V c t h0) _).trans ?_
  refine (pay1_4_apply (iblk1 V c 0 t) (iblk1 V c 1 t) (k1_pay1 (F := Ideal)) q).trans ?_
  refine (congrArg₂ (· + ·) (pay1_1_apply _)
    (blockSum1 V x b c hx hb t q (iblk1 V c 0 t) (iblk1 V c 1 t) rfl rfl)).trans ?_
  exact zero_add _

theorem entry1_A_snd (c : Dev nD) (hx : x = V c (Pipeline.arrRef spec1 0)) (hb : b = V c (Pipeline.arrRef spec1 1))
    (t : Fin cfg1.N) (h0 : t.val % 10 = 0) (q : Fin 128) :
    (outsAt1 V c t.val t.isLt).2 (ix2 (0 : Fin 1) q)
      = ∑ p : Fin 5000, statsEntry x b q (statsRow t.val p) * statsEntry x b q (statsRow t.val p) := by
  refine (congrFun (outsAt1_A_snd V c t h0) _).trans ?_
  refine (pay1_5_apply (iblk1 V c 0 t) (iblk1 V c 1 t) (k1_pay2 (F := Ideal)) q).trans ?_
  refine (congrArg₂ (· + ·) (pay1_2_apply _)
    (blockSq1 V x b c hx hb t q (iblk1 V c 0 t) (iblk1 V c 1 t) rfl rfl)).trans ?_
  exact zero_add _

/-- At a later point the first accumulator gains the block's column sum. -/
theorem entry1_B_fst (c : Dev nD) (hx : x = V c (Pipeline.arrRef spec1 0)) (hb : b = V c (Pipeline.arrRef spec1 1))
    (t : Fin cfg1.N) (h0 : ¬t.val % 10 = 0) (q : Fin 128) :
    (outsAt1 V c t.val t.isLt).1 (ix2 (0 : Fin 1) q)
      = (outsAt1 V c (t.val - 1) (Nat.lt_of_le_of_lt (Nat.sub_le _ _) t.isLt)).1 (ix2 (0 : Fin 1) q)
        + ∑ p : Fin 5000, statsEntry x b q (statsRow t.val p) := by
  refine (congrFun (outsAt1_B_fst V c t h0) _).trans ?_
  refine (pay1_4_apply (iblk1 V c 0 t) (iblk1 V c 1 t)
    (outsAt1 V c (t.val - 1) (Nat.lt_of_le_of_lt (Nat.sub_le _ _) t.isLt)).1 q).trans ?_
  exact congrArg _ (blockSum1 V x b c hx hb t q (iblk1 V c 0 t) (iblk1 V c 1 t) rfl rfl)

theorem entry1_B_snd (c : Dev nD) (hx : x = V c (Pipeline.arrRef spec1 0)) (hb : b = V c (Pipeline.arrRef spec1 1))
    (t : Fin cfg1.N) (h0 : ¬t.val % 10 = 0) (q : Fin 128) :
    (outsAt1 V c t.val t.isLt).2 (ix2 (0 : Fin 1) q)
      = (outsAt1 V c (t.val - 1) (Nat.lt_of_le_of_lt (Nat.sub_le _ _) t.isLt)).2 (ix2 (0 : Fin 1) q)
        + ∑ p : Fin 5000, statsEntry x b q (statsRow t.val p) * statsEntry x b q (statsRow t.val p) := by
  refine (congrFun (outsAt1_B_snd V c t h0) _).trans ?_
  refine (pay1_5_apply (iblk1 V c 0 t) (iblk1 V c 1 t)
    (outsAt1 V c (t.val - 1) (Nat.lt_of_le_of_lt (Nat.sub_le _ _) t.isLt)).2 q).trans ?_
  exact congrArg _ (blockSq1 V x b c hx hb t q (iblk1 V c 0 t) (iblk1 V c 1 t) rfl rfl)

/-- After point `n` the first accumulator holds, in column `q`, the sum of `x + b` over the rows of blocks `0 … n`. -/
theorem outsAt1_fst (c : Dev nD) (hx : x = V c (Pipeline.arrRef spec1 0)) (hb : b = V c (Pipeline.arrRef spec1 1))
    (q : Fin 128) : ∀ (n : ℕ) (h : n < cfg1.N),
    (outsAt1 V c n h).1 (ix2 (0 : Fin 1) q)
      = ∑ s ∈ Finset.range (n + 1), ∑ p : Fin 5000, statsEntry x b q (statsRow s p)
  | 0, h => by
    rw [Finset.sum_range_one]
    exact entry1_A_fst V x b c hx hb ⟨0, h⟩ (Nat.zero_mod 10) q
  | n + 1, h => by
    have hN : cfg1.N = 10 := N_1
    have hB : ¬(⟨n + 1, h⟩ : Fin cfg1.N).val % 10 = 0 := by dsimp only; omega
    rw [Finset.sum_range_succ, ← outsAt1_fst c hx hb q n (Nat.lt_of_succ_lt h)]
    exact entry1_B_fst V x b c hx hb ⟨n + 1, h⟩ hB q

/-- After point `n` the second accumulator holds, in column `q`, the sum of `(x + b)²` over the rows of blocks `0 … n`. -/
theorem outsAt1_snd (c : Dev nD) (hx : x = V c (Pipeline.arrRef spec1 0)) (hb : b = V c (Pipeline.arrRef spec1 1))
    (q : Fin 128) : ∀ (n : ℕ) (h : n < cfg1.N),
    (outsAt1 V c n h).2 (ix2 (0 : Fin 1) q)
      = ∑ s ∈ Finset.range (n + 1), ∑ p : Fin 5000, statsEntry x b q (statsRow s p) * statsEntry x b q (statsRow s p)
  | 0, h => by
    rw [Finset.sum_range_one]
    exact entry1_A_snd V x b c hx hb ⟨0, h⟩ (Nat.zero_mod 10) q
  | n + 1, h => by
    have hN : cfg1.N = 10 := N_1
    have hB : ¬(⟨n + 1, h⟩ : Fin cfg1.N).val % 10 = 0 := by dsimp only; omega
    rw [Finset.sum_range_succ, ← outsAt1_snd c hx hb q n (Nat.lt_of_succ_lt h)]
    exact entry1_B_snd V x b c hx hb ⟨n + 1, h⟩ hB q

end Sums

/-! ### The result arrays: one write-back, after the last point -/

section Final
variable {F : FTy → Type} [FloatOps F]
variable (V : (c : Dev nD) → (b : Ref sig .tc) → Buf (Elt F) ((c : Thread nD τ).loc b))

theorem lt9_1 : 9 < cfg1.N := by rw [show cfg1.N = 10 from N_1]; decide

/-- What the last point leaves in the first accumulator, as contents of its one-block array. -/
abbrev result1_2 (c : Dev nD) : Buf (Elt F) ((c : Thread nD τ).loc main_v49_0) := (outsAt1 V c 9 lt9_1).1
/-- What the last point leaves in the second accumulator, as contents of its one-block array. -/
abbrev result1_3 (c : Dev nD) : Buf (Elt F) ((c : Thread nD τ).loc main_v49_1) := (outsAt1 V c 9 lt9_1).2

/-- The one write-back of the first accumulator, at the last point, writes that: the block is the whole array. -/
theorem flushed1_2 (c : Dev nD) (t : Fin cfg1.N) (hf : (cfg1.win 2).flush t = true) :
    (dat1 V c).flushed 2 t = ((cfg1.win 2).blk t).view.read (Elt F) (result1_2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v49_0.ty.shape.size a) = fun _ => 0 :=
    funext fun a => by fin_cases a <;> decide
  exact (Memref.read_access_unit_zero (Elt F) main_v49_0 hz' (fun a => by rw [congrFun hz' a]; simp) (result1_2 V c)).symm

theorem flushed1_3 (c : Dev nD) (t : Fin cfg1.N) (hf : (cfg1.win 3).flush t = true) :
    (dat1 V c).flushed 3 t = ((cfg1.win 3).blk t).view.read (Elt F) (result1_3 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v49_1.ty.shape.size a) = fun _ => 0 :=
    funext fun a => by fin_cases a <;> decide
  exact (Memref.read_access_unit_zero (Elt F) main_v49_1 hz' (fun a => by rw [congrFun hz' a]; simp) (result1_3 V c)).symm

/-- So the first result array ends holding what the last point left (the last point's block covers it). -/
theorem final1_2 (c : Dev nD) : (dat1 V c).arrAt 2 cfg1.N = result1_2 V c :=
  (dat1 V c).arrAt_eq_of_cover 2 (result1_2 V c) (flushed1_2 V c) fun i =>
    ⟨t1_9, (flush1_2 t1_9).mpr rfl, by
      show i ∈ ((View.whole main_v49_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

theorem final1_3 (c : Dev nD) : (dat1 V c).arrAt 3 cfg1.N = result1_3 V c :=
  (dat1 V c).arrAt_eq_of_cover 3 (result1_3 V c) (flushed1_3 V c) fun i =>
    ⟨t1_9, (flush1_3 t1_9).mpr rfl, by
      show i ∈ ((View.whole main_v49_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

end Final

/-! ### The two column statistics -/

section Claims
variable (V : (c : Dev nD) → (b : Ref sig .tc) → Buf (Elt Ideal) ((c : Thread nD τ).loc b))

/-- The first result array ends holding, in column `q`, the sum over all 50000 rows of `x + b`. -/
theorem stats1_sum (c : Dev nD) (x : Vec Ideal S50000x128 .f32) (b : Vec Ideal S1x128 .f32)
    (hx : x = V c (Pipeline.arrRef spec1 0)) (hb : b = V c (Pipeline.arrRef spec1 1)) (q : Fin 128) :
    (dat1 V c).arrAt 2 cfg1.N (ix2 (0 : Fin 1) q) = ∑ r : Fin 50000, (x (ix2 r q) + b (ix2 (0 : Fin 1) q)) := by
  refine (congrFun (final1_2 V c) _).trans ?_
  refine (outsAt1_fst V x b c hx hb q 9 lt9_1).trans ?_
  exact stats_blocks (statsEntry x b q)

/-- The second result array ends holding, in column `q`, the sum over all 50000 rows of `(x + b) * (x + b)`. -/
theorem stats1_sumsq (c : Dev nD) (x : Vec Ideal S50000x128 .f32) (b : Vec Ideal S1x128 .f32)
    (hx : x = V c (Pipeline.arrRef spec1 0)) (hb : b = V c (Pipeline.arrRef spec1 1)) (q : Fin 128) :
    (dat1 V c).arrAt 3 cfg1.N (ix2 (0 : Fin 1) q)
      = ∑ r : Fin 50000, (x (ix2 r q) + b (ix2 (0 : Fin 1) q)) * (x (ix2 r q) + b (ix2 (0 : Fin 1) q)) := by
  refine (congrFun (final1_3 V c) _).trans ?_
  refine (outsAt1_snd V x b c hx hb q 9 lt9_1).trans ?_
  exact stats_blocks (fun r => statsEntry x b q r * statsEntry x b q r)

end Claims

end Cert.KernelIdeal.Regions

end
-- ==== Proof.RegionStats4.lean ====
/-
  The column statistics of layer 1's normalization (region 4 of the kernel program), read at the ideal values.

  The region runs over ten grid points. At point `t` it reads rows `5000 t … 5000 t + 4999` of a [50000, 128] array
  `x` and the one row `b` of a [1, 128] array, and keeps two [1, 128] accumulators: at point 0 both are set to zero;
  at every point the first gains, in each column, the sum over the block's rows of `x + b`, the second the sum of
  `(x + b) * (x + b)`. The accumulators are carried from point to point and written to their arrays once, after the
  last point. Over the extended reals addition is associative and commutative with unit 0, so after the last point
  the first array holds, in column `q`, `∑ r, (x r q + b 0 q)` over all 50000 rows, and the second the sum of the
  squares.

  Steps: what each control case leaves in each accumulator, as the stored payload of the values read (any float
  type); the payloads at a column (ideal values); a block's rows as rows of `x`; the running sums by induction on
  the point; the one write-back.
-/
import proofs.«132190_j22857815949622_1_alg».proof.Proof.Gen.KernelIdeal.Frame
import proofs.«132190_j22857815949622_1_alg».proof.Proof.RegionStatsBase
import proofs.«132190_j22857815949622_1_alg».proof.Proof.LibColumnReads
import proofs.«132190_j22857815949622_1_alg».proof.Proof.LibRowBlocks
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-! ### What each case leaves in each accumulator (any float type) -/

section Pieces
variable {F : FTy → Type} [FloatOps F]

/-- Not at the first point: the first accumulator, holding `xo2`, is left at the add payload of the block, the bias
    row and `xo2` (the one store covers the buffer; the loads read whole buffers). -/
theorem out4_B_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero statsZero]
  simp only [View.readAt_eq_ld, h1.read_unread, h2.read_unread, h3.read_unread,
    View.ld_unit_zero (S := S5000x128) statsZero, View.ld_unit_zero (S := S1x128) statsZero]

/-- Not at the first point: the second accumulator, holding `xo3`, likewise with the payload of the squares. -/
theorem out4_B_3_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero statsZero]
  simp only [View.readAt_eq_ld, h1.read_unread, h2.read_unread, h4.read_unread,
    View.ld_unit_zero (S := S5000x128) statsZero, View.ld_unit_zero (S := S1x128) statsZero]

/-- At the first point: the first accumulator is zeroed, read back, and left at the add payload over the zero row. -/
theorem out4_A_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) statsZero, View.readCov_unit_zero (S := S1x128) _ statsZero]
  simp only [View.readAt_eq_ld, h1.read_unread, h2.read_unread, View.ld_unit_zero (S := S5000x128) statsZero,
    View.ld_unit_zero (S := S1x128) statsZero]

/-- At the first point: the second accumulator likewise. -/
theorem out4_A_3_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) statsZero, View.readCov_unit_zero (S := S1x128) _ statsZero]
  simp only [View.readAt_eq_ld, h1.read_unread, h2.read_unread, View.ld_unit_zero (S := S5000x128) statsZero,
    View.ld_unit_zero (S := S1x128) statsZero]

end Pieces

/-! ### The payloads at a column, at the ideal values -/

/-- The block plus the bias row, at (p, q). -/
theorem pay4_3_apply (x0 : Vec Ideal S5000x128 .f32) (x1 : Vec Ideal S1x128 .f32) (p : Fin 5000) (q : Fin 128) :
    k4_pay3 x0 x1 (ix2 p q) = x0 (ix2 p q) + x1 (ix2 (0 : Fin 1) q) := by
  unfold k4_pay3
  exact Cert.Lib.RowBlocks.bias_rows_apply x0 x1 shapeCasts_S5000x128_S5000x128 shapeCasts_S1x128_S1x128
    broadcasts_S1x128_S5000x128 p q

/-- The accumulator plus the column sums of the biased block, at column q. -/
theorem pay4_4_apply (x0 : Vec Ideal S5000x128 .f32) (x1 acc : Vec Ideal S1x128 .f32) (q : Fin 128) :
    k4_pay4 x0 x1 acc (ix2 (0 : Fin 1) q)
      = acc (ix2 (0 : Fin 1) q) + ∑ k : Fin 5000, (x0 (ix2 k q) + x1 (ix2 (0 : Fin 1) q)) := by
  unfold k4_pay4
  refine congrArg₂ (· + ·) (congrFun (shapeCast_self acc shapeCasts_S1x128_S1x128) _) ?_
  refine (shapeCast_a_1a_apply _ shapeCasts_S128_S1x128 (0 : Fin 1) q).trans ?_
  refine (Cert.LibColumnReads.colSum_apply (k4_pay3 x0 x1) 0x00000000#32 reduces_S5000x128_S128 (.inl rfl) rfl q).trans ?_
  exact Finset.sum_congr rfl fun k _ => pay4_3_apply x0 x1 k q

/-- The accumulator plus the column sums of the squares of the biased block, at column q. -/
theorem pay4_5_apply (x0 : Vec Ideal S5000x128 .f32) (x1 acc : Vec Ideal S1x128 .f32) (q : Fin 128) :
    k4_pay5 x0 x1 acc (ix2 (0 : Fin 1) q)
      = acc (ix2 (0 : Fin 1) q)
        + ∑ k : Fin 5000, (x0 (ix2 k q) + x1 (ix2 (0 : Fin 1) q)) * (x0 (ix2 k q) + x1 (ix2 (0 : Fin 1) q)) := by
  unfold k4_pay5
  refine congrArg₂ (· + ·) (congrFun (shapeCast_self acc shapeCasts_S1x128_S1x128) _) ?_
  refine (shapeCast_a_1a_apply _ shapeCasts_S128_S1x128 (0 : Fin 1) q).trans ?_
  refine (Cert.LibColumnReads.colSum_apply (mulf (k4_pay3 x0 x1) (k4_pay3 x0 x1)) 0x00000000#32
    reduces_S5000x128_S128 (.inl rfl) rfl q).trans ?_
  exact Finset.sum_congr rfl fun k _ => congrArg₂ (· * ·) (pay4_3_apply x0 x1 k q) (pay4_3_apply x0 x1 k q)

/-- The two reset rows are zero. -/
theorem pay4_1_apply (j : S1x128.Idx) : (k4_pay1 (F := Ideal)) j = 0 := Ideal.ofBits_zero_f32
theorem pay4_2_apply (j : S1x128.Idx) : (k4_pay2 (F := Ideal)) j = 0 := Ideal.ofBits_zero_f32

/-! ### The windows' blocks at an index -/

section Blocks
variable {F : FTy → Type} [FloatOps F]
variable (V : (c : Dev nD) → (b : Ref sig .tc) → Buf (Elt F) ((c : Thread nD τ).loc b))

/-- Window 0's block index at point `t` is `(t, 0)`; window 1's is `(0, 0)`. -/
theorem index4_0 (t : Fin cfg4.N) : win4_0.index t 0 = t.val ∧ win4_0.index t 1 = 0 := by
  rcases fin_N4 t with rfl | rfl | rfl | rfl | rfl | rfl | rfl | rfl | rfl | rfl <;> decide

theorem index4_1 (t : Fin cfg4.N) : win4_1.index t 0 = 0 ∧ win4_1.index t 1 = 0 := by
  rcases fin_N4 t with rfl | rfl | rfl | rfl | rfl | rfl | rfl | rfl | rfl | rfl <;> decide

/-- Row `p` of the block of window 0 at point `t` is row `5000 t + p` of the array. -/
theorem iblk4_0_apply (c : Dev nD) (t : Fin cfg4.N) (p : Fin 5000) (q : Fin 128) (r : Fin 50000)
    (hr : r.val = t.val * 5000 + p.val) :
    (iblk4 V c 0 t : Vec F S5000x128 .f32) (ix2 p q) = V c (Pipeline.arrRef spec4 0) (ix2 r q) := by
  unfold iblk4
  rw [View.read_apply]
  show V c (Pipeline.arrRef spec4 0) _ = V c (Pipeline.arrRef spec4 0) (ix2 r q)
  congr 1
  funext a
  apply Fin.ext
  match a with
  | ⟨0, _⟩ => show win4_0.index t 0 * 5000 + 1 * p.val = r.val; rw [(index4_0 t).1, hr]; omega
  | ⟨1, _⟩ => show win4_0.index t 1 * 128 + 1 * q.val = q.val; rw [(index4_0 t).2]; omega

/-- The block of window 1 is the whole one-row array at every point. -/
theorem iblk4_1_apply (c : Dev nD) (t : Fin cfg4.N) (q : Fin 128) :
    (iblk4 V c 1 t : Vec F S1x128 .f32) (ix2 (0 : Fin 1) q) = V c (Pipeline.arrRef spec4 1) (ix2 (0 : Fin 1) q) := by
  unfold iblk4
  rw [View.read_apply]
  show V c (Pipeline.arrRef spec4 1) _ = V c (Pipeline.arrRef spec4 1) (ix2 (0 : Fin 1) q)
  congr 1
  funext a
  apply Fin.ext
  match a with
  | ⟨0, _⟩ => show win4_1.index t 0 * 1 + 1 * 0 = 0; rw [(index4_1 t).1]
  | ⟨1, _⟩ => show win4_1.index t 1 * 128 + 1 * q.val = q.val; rw [(index4_1 t).2]; omega

end Blocks

/-! ### The accumulators after each point, as payloads -/

section Steps
variable {F : FTy → Type} [FloatOps F]
variable (V : (c : Dev nD) → (b : Ref sig .tc) → Buf (Elt F) ((c : Thread nD τ).loc b))

theorem outsAt4_A_fst (c : Dev nD) (t : Fin cfg4.N) (h0 : t.val % 10 = 0) :
    (outsAt4 V c t.val t.isLt).1 = k4_pay4 (iblk4 V c 0 t) (iblk4 V c 1 t) k4_pay1 :=
  (congrArg Prod.fst (outsAt4_A V c t h0)).trans
    (out4_A_2_eq c (grid4.coords t) (ms4_0 t) (hs4_0 t) (ms4_1 t) (hs4_1 t) (ms4_2 t) (hs4_2 t) (ms4_3 t) (hs4_3 t)
      ((hcond4_0 t).mpr h0) (iblk4 V c 0 t) (iblk4 V c 1 t))

theorem outsAt4_A_snd (c : Dev nD) (t : Fin cfg4.N) (h0 : t.val % 10 = 0) :
    (outsAt4 V c t.val t.isLt).2 = k4_pay5 (iblk4 V c 0 t) (iblk4 V c 1 t) k4_pay2 :=
  (congrArg Prod.snd (outsAt4_A V c t h0)).trans
    (out4_A_3_eq c (grid4.coords t) (ms4_0 t) (hs4_0 t) (ms4_1 t) (hs4_1 t) (ms4_2 t) (hs4_2 t) (ms4_3 t) (hs4_3 t)
      ((hcond4_0 t).mpr h0) (iblk4 V c 0 t) (iblk4 V c 1 t))

theorem outsAt4_B_fst (c : Dev nD) (t : Fin cfg4.N) (h0 : ¬t.val % 10 = 0) :
    (outsAt4 V c t.val t.isLt).1 = k4_pay4 (iblk4 V c 0 t) (iblk4 V c 1 t)
      (outsAt4 V c (t.val - 1) (Nat.lt_of_le_of_lt (Nat.sub_le _ _) t.isLt)).1 :=
  (congrArg Prod.fst (outsAt4_B V c t h0)).trans
    (out4_B_2_eq c (grid4.coords t) (ms4_0 t) (hs4_0 t) (ms4_1 t) (hs4_1 t) (ms4_2 t) (hs4_2 t) (ms4_3 t) (hs4_3 t)
      (fun h => h0 ((hcond4_0 t).mp h)) (iblk4 V c 0 t) (iblk4 V c 1 t)
      (outsAt4 V c (t.val - 1) (Nat.lt_of_le_of_lt (Nat.sub_le _ _) t.isLt)).1
      (outsAt4 V c (t.val - 1) (Nat.lt_of_le_of_lt (Nat.sub_le _ _) t.isLt)).2)

theorem outsAt4_B_snd (c : Dev nD) (t : Fin cfg4.N) (h0 : ¬t.val % 10 = 0) :
    (outsAt4 V c t.val t.isLt).2 = k4_pay5 (iblk4 V c 0 t) (iblk4 V c 1 t)
      (outsAt4 V c (t.val - 1) (Nat.lt_of_le_of_lt (Nat.sub_le _ _) t.isLt)).2 :=
  (congrArg Prod.snd (outsAt4_B V c t h0)).trans
    (out4_B_3_eq c (grid4.coords t) (ms4_0 t) (hs4_0 t) (ms4_1 t) (hs4_1 t) (ms4_2 t) (hs4_2 t) (ms4_3 t) (hs4_3 t)
      (fun h => h0 ((hcond4_0 t).mp h)) (iblk4 V c 0 t) (iblk4 V c 1 t)
      (outsAt4 V c (t.val - 1) (Nat.lt_of_le_of_lt (Nat.sub_le _ _) t.isLt)).1
      (outsAt4 V c (t.val - 1) (Nat.lt_of_le_of_lt (Nat.sub_le _ _) t.isLt)).2)

end Steps

/-! ### The running sums -/

section Sums
variable (V : (c : Dev nD) → (b : Ref sig .tc) → Buf (Elt Ideal) ((c : Thread nD τ).loc b))
variable (x : Vec Ideal S50000x128 .f32) (b : Vec Ideal S1x128 .f32)

/-- An entry of the block of point `t` plus the bias is the entry of `x + b` at row `5000 t + p`. -/
theorem term4 (c : Dev nD) (hx : x = V c (Pipeline.arrRef spec4 0)) (hb : b = V c (Pipeline.arrRef spec4 1))
    (t : Fin cfg4.N) (q : Fin 128) (x0 : Vec Ideal S5000x128 .f32) (x1 : Vec Ideal S1x128 .f32)
    (h0 : x0 = iblk4 V c 0 t) (h1 : x1 = iblk4 V c 1 t) (p : Fin 5000) :
    x0 (ix2 p q) + x1 (ix2 (0 : Fin 1) q) = statsEntry x b q (statsRow t.val p) := by
  subst hx hb h0 h1
  exact congrArg₂ (· + ·)
    (iblk4_0_apply V c t p q (statsRow t.val p) (statsRow_val t.val (lt_of_lt_of_eq t.isLt N_4) p))
    (iblk4_1_apply V c t q)

/-- The column sum over the block of point `t` is the sum over rows `5000 t … 5000 t + 4999`. -/
theorem blockSum4 (c : Dev nD) (hx : x = V c (Pipeline.arrRef spec4 0)) (hb : b = V c (Pipeline.arrRef spec4 1))
    (t : Fin cfg4.N) (q : Fin 128) (x0 : Vec Ideal S5000x128 .f32) (x1 : Vec Ideal S1x128 .f32)
    (h0 : x0 = iblk4 V c 0 t) (h1 : x1 = iblk4 V c 1 t) :
    ∑ k : Fin 5000, (x0 (ix2 k q) + x1 (ix2 (0 : Fin 1) q)) = ∑ p : Fin 5000, statsEntry x b q (statsRow t.val p) :=
  Finset.sum_congr rfl fun p _ => term4 V x b c hx hb t q x0 x1 h0 h1 p

theorem blockSq4 (c : Dev nD) (hx : x = V c (Pipeline.arrRef spec4 0)) (hb : b = V c (Pipeline.arrRef spec4 1))
    (t : Fin cfg4.N) (q : Fin 128) (x0 : Vec Ideal S5000x128 .f32) (x1 : Vec Ideal S1x128 .f32)
    (h0 : x0 = iblk4 V c 0 t) (h1 : x1 = iblk4 V c 1 t) :
    ∑ k : Fin 5000, (x0 (ix2 k q) + x1 (ix2 (0 : Fin 1) q)) * (x0 (ix2 k q) + x1 (ix2 (0 : Fin 1) q))
      = ∑ p : Fin 5000, statsEntry x b q (statsRow t.val p) * statsEntry x b q (statsRow t.val p) :=
  Finset.sum_congr rfl fun p _ =>
    congrArg₂ (· * ·) (term4 V x b c hx hb t q x0 x1 h0 h1 p) (term4 V x b c hx hb t q x0 x1 h0 h1 p)

/-- At the first point the first accumulator is `0 +` the block's column sum. -/
theorem entry4_A_fst (c : Dev nD) (hx : x = V c (Pipeline.arrRef spec4 0)) (hb : b = V c (Pipeline.arrRef spec4 1))
    (t : Fin cfg4.N) (h0 : t.val % 10 = 0) (q : Fin 128) :
    (outsAt4 V c t.val t.isLt).1 (ix2 (0 : Fin 1) q) = ∑ p : Fin 5000, statsEntry x b q (statsRow t.val p) := by
  refine (congrFun (outsAt4_A_fst V c t h0) _).trans ?_
  refine (pay4_4_apply (iblk4 V c 0 t) (iblk4 V c 1 t) (k4_pay1 (F := Ideal)) q).trans ?_
  refine (congrArg₂ (· + ·) (pay4_1_apply _)
    (blockSum4 V x b c hx hb t q (iblk4 V c 0 t) (iblk4 V c 1 t) rfl rfl)).trans ?_
  exact zero_add _

theorem entry4_A_snd (c : Dev nD) (hx : x = V c (Pipeline.arrRef spec4 0)) (hb : b = V c (Pipeline.arrRef spec4 1))
    (t : Fin cfg4.N) (h0 : t.val % 10 = 0) (q : Fin 128) :
    (outsAt4 V c t.val t.isLt).2 (ix2 (0 : Fin 1) q)
      = ∑ p : Fin 5000, statsEntry x b q (statsRow t.val p) * statsEntry x b q (statsRow t.val p) := by
  refine (congrFun (outsAt4_A_snd V c t h0) _).trans ?_
  refine (pay4_5_apply (iblk4 V c 0 t) (iblk4 V c 1 t) (k4_pay2 (F := Ideal)) q).trans ?_
  refine (congrArg₂ (· + ·) (pay4_2_apply _)
    (blockSq4 V x b c hx hb t q (iblk4 V c 0 t) (iblk4 V c 1 t) rfl rfl)).trans ?_
  exact zero_add _

/-- At a later point the first accumulator gains the block's column sum. -/
theorem entry4_B_fst (c : Dev nD) (hx : x = V c (Pipeline.arrRef spec4 0)) (hb : b = V c (Pipeline.arrRef spec4 1))
    (t : Fin cfg4.N) (h0 : ¬t.val % 10 = 0) (q : Fin 128) :
    (outsAt4 V c t.val t.isLt).1 (ix2 (0 : Fin 1) q)
      = (outsAt4 V c (t.val - 1) (Nat.lt_of_le_of_lt (Nat.sub_le _ _) t.isLt)).1 (ix2 (0 : Fin 1) q)
        + ∑ p : Fin 5000, statsEntry x b q (statsRow t.val p) := by
  refine (congrFun (outsAt4_B_fst V c t h0) _).trans ?_
  refine (pay4_4_apply (iblk4 V c 0 t) (iblk4 V c 1 t)
    (outsAt4 V c (t.val - 1) (Nat.lt_of_le_of_lt (Nat.sub_le _ _) t.isLt)).1 q).trans ?_
  exact congrArg _ (blockSum4 V x b c hx hb t q (iblk4 V c 0 t) (iblk4 V c 1 t) rfl rfl)

theorem entry4_B_snd (c : Dev nD) (hx : x = V c (Pipeline.arrRef spec4 0)) (hb : b = V c (Pipeline.arrRef spec4 1))
    (t : Fin cfg4.N) (h0 : ¬t.val % 10 = 0) (q : Fin 128) :
    (outsAt4 V c t.val t.isLt).2 (ix2 (0 : Fin 1) q)
      = (outsAt4 V c (t.val - 1) (Nat.lt_of_le_of_lt (Nat.sub_le _ _) t.isLt)).2 (ix2 (0 : Fin 1) q)
        + ∑ p : Fin 5000, statsEntry x b q (statsRow t.val p) * statsEntry x b q (statsRow t.val p) := by
  refine (congrFun (outsAt4_B_snd V c t h0) _).trans ?_
  refine (pay4_5_apply (iblk4 V c 0 t) (iblk4 V c 1 t)
    (outsAt4 V c (t.val - 1) (Nat.lt_of_le_of_lt (Nat.sub_le _ _) t.isLt)).2 q).trans ?_
  exact congrArg _ (blockSq4 V x b c hx hb t q (iblk4 V c 0 t) (iblk4 V c 1 t) rfl rfl)

/-- After point `n` the first accumulator holds, in column `q`, the sum of `x + b` over the rows of blocks `0 … n`. -/
theorem outsAt4_fst (c : Dev nD) (hx : x = V c (Pipeline.arrRef spec4 0)) (hb : b = V c (Pipeline.arrRef spec4 1))
    (q : Fin 128) : ∀ (n : ℕ) (h : n < cfg4.N),
    (outsAt4 V c n h).1 (ix2 (0 : Fin 1) q)
      = ∑ s ∈ Finset.range (n + 1), ∑ p : Fin 5000, statsEntry x b q (statsRow s p)
  | 0, h => by
    rw [Finset.sum_range_one]
    exact entry4_A_fst V x b c hx hb ⟨0, h⟩ (Nat.zero_mod 10) q
  | n + 1, h => by
    have hN : cfg4.N = 10 := N_4
    have hB : ¬(⟨n + 1, h⟩ : Fin cfg4.N).val % 10 = 0 := by dsimp only; omega
    rw [Finset.sum_range_succ, ← outsAt4_fst c hx hb q n (Nat.lt_of_succ_lt h)]
    exact entry4_B_fst V x b c hx hb ⟨n + 1, h⟩ hB q

/-- After point `n` the second accumulator holds, in column `q`, the sum of `(x + b)²` over the rows of blocks `0 … n`. -/
theorem outsAt4_snd (c : Dev nD) (hx : x = V c (Pipeline.arrRef spec4 0)) (hb : b = V c (Pipeline.arrRef spec4 1))
    (q : Fin 128) : ∀ (n : ℕ) (h : n < cfg4.N),
    (outsAt4 V c n h).2 (ix2 (0 : Fin 1) q)
      = ∑ s ∈ Finset.range (n + 1), ∑ p : Fin 5000, statsEntry x b q (statsRow s p) * statsEntry x b q (statsRow s p)
  | 0, h => by
    rw [Finset.sum_range_one]
    exact entry4_A_snd V x b c hx hb ⟨0, h⟩ (Nat.zero_mod 10) q
  | n + 1, h => by
    have hN : cfg4.N = 10 := N_4
    have hB : ¬(⟨n + 1, h⟩ : Fin cfg4.N).val % 10 = 0 := by dsimp only; omega
    rw [Finset.sum_range_succ, ← outsAt4_snd c hx hb q n (Nat.lt_of_succ_lt h)]
    exact entry4_B_snd V x b c hx hb ⟨n + 1, h⟩ hB q

end Sums

/-! ### The result arrays: one write-back, after the last point -/

section Final
variable {F : FTy → Type} [FloatOps F]
variable (V : (c : Dev nD) → (b : Ref sig .tc) → Buf (Elt F) ((c : Thread nD τ).loc b))

theorem lt9_4 : 9 < cfg4.N := by rw [show cfg4.N = 10 from N_4]; decide

/-- What the last point leaves in the first accumulator, as contents of its one-block array. -/
abbrev result4_2 (c : Dev nD) : Buf (Elt F) ((c : Thread nD τ).loc main_v84_0) := (outsAt4 V c 9 lt9_4).1
/-- What the last point leaves in the second accumulator, as contents of its one-block array. -/
abbrev result4_3 (c : Dev nD) : Buf (Elt F) ((c : Thread nD τ).loc main_v84_1) := (outsAt4 V c 9 lt9_4).2

/-- The one write-back of the first accumulator, at the last point, writes that: the block is the whole array. -/
theorem flushed4_2 (c : Dev nD) (t : Fin cfg4.N) (hf : (cfg4.win 2).flush t = true) :
    (dat4 V c).flushed 2 t = ((cfg4.win 2).blk t).view.read (Elt F) (result4_2 V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v84_0.ty.shape.size a) = fun _ => 0 :=
    funext fun a => by fin_cases a <;> decide
  exact (Memref.read_access_unit_zero (Elt F) main_v84_0 hz' (fun a => by rw [congrFun hz' a]; simp) (result4_2 V c)).symm

theorem flushed4_3 (c : Dev nD) (t : Fin cfg4.N) (hf : (cfg4.win 3).flush t = true) :
    (dat4 V c).flushed 3 t = ((cfg4.win 3).blk t).view.read (Elt F) (result4_3 V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [after4_3]
  have hz' : (fun a => win4_3.index t4_9 a * main_v84_1.ty.shape.size a) = fun _ => 0 :=
    funext fun a => by fin_cases a <;> decide
  exact (Memref.read_access_unit_zero (Elt F) main_v84_1 hz' (fun a => by rw [congrFun hz' a]; simp) (result4_3 V c)).symm

/-- So the first result array ends holding what the last point left (the last point's block covers it). -/
theorem final4_2 (c : Dev nD) : (dat4 V c).arrAt 2 cfg4.N = result4_2 V c :=
  (dat4 V c).arrAt_eq_of_cover 2 (result4_2 V c) (flushed4_2 V c) fun i =>
    ⟨t4_9, (flush4_2 t4_9).mpr rfl, by
      show i ∈ ((View.whole main_v84_0).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

theorem final4_3 (c : Dev nD) : (dat4 V c).arrAt 3 cfg4.N = result4_3 V c :=
  (dat4 V c).arrAt_eq_of_cover 3 (result4_3 V c) (flushed4_3 V c) fun i =>
    ⟨t4_9, (flush4_3 t4_9).mpr rfl, by
      show i ∈ ((View.whole main_v84_1).slice (win4_3.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 128 from by decide +kernel]; omega⟩

end Final

/-! ### The two column statistics -/

section Claims
variable (V : (c : Dev nD) → (b : Ref sig .tc) → Buf (Elt Ideal) ((c : Thread nD τ).loc b))

/-- The first result array ends holding, in column `q`, the sum over all 50000 rows of `x + b`. -/
theorem stats4_sum (c : Dev nD) (x : Vec Ideal S50000x128 .f32) (b : Vec Ideal S1x128 .f32)
    (hx : x = V c (Pipeline.arrRef spec4 0)) (hb : b = V c (Pipeline.arrRef spec4 1)) (q : Fin 128) :
    (dat4 V c).arrAt 2 cfg4.N (ix2 (0 : Fin 1) q) = ∑ r : Fin 50000, (x (ix2 r q) + b (ix2 (0 : Fin 1) q)) := by
  refine (congrFun (final4_2 V c) _).trans ?_
  refine (outsAt4_fst V x b c hx hb q 9 lt9_4).trans ?_
  exact stats_blocks (statsEntry x b q)

/-- The second result array ends holding, in column `q`, the sum over all 50000 rows of `(x + b) * (x + b)`. -/
theorem stats4_sumsq (c : Dev nD) (x : Vec Ideal S50000x128 .f32) (b : Vec Ideal S1x128 .f32)
    (hx : x = V c (Pipeline.arrRef spec4 0)) (hb : b = V c (Pipeline.arrRef spec4 1)) (q : Fin 128) :
    (dat4 V c).arrAt 3 cfg4.N (ix2 (0 : Fin 1) q)
      = ∑ r : Fin 50000, (x (ix2 r q) + b (ix2 (0 : Fin 1) q)) * (x (ix2 r q) + b (ix2 (0 : Fin 1) q)) := by
  refine (congrFun (final4_3 V c) _).trans ?_
  refine (outsAt4_snd V x b c hx hb q 9 lt9_4).trans ?_
  exact stats_blocks (fun r => statsEntry x b q r * statsEntry x b q r)

end Claims

end Cert.KernelIdeal.Regions

end
-- ==== Proof.RegionStats7.lean ====
/-
  The column statistics of layer 2's normalization (region 7 of the kernel program), read at the ideal values.

  The region runs over ten grid points. At point `t` it reads rows `5000 t … 5000 t + 4999` of a [50000, 128] array
  `x` and the one row `b` of a [1, 128] array, and keeps two [1, 128] accumulators: at point 0 both are set to zero;
  at every point the first gains, in each column, the sum over the block's rows of `x + b`, the second the sum of
  `(x + b) * (x + b)`. The accumulators are carried from point to point and written to their arrays once, after the
  last point. Over the extended reals addition is associative and commutative with unit 0, so after the last point
  the first array holds, in column `q`, `∑ r, (x r q + b 0 q)` over all 50000 rows, and the second the sum of the
  squares.

  Steps: what each control case leaves in each accumulator, as the stored payload of the values read (any float
  type); the payloads at a column (ideal values); a block's rows as rows of `x`; the running sums by induction on
  the point; the one write-back.
-/
import proofs.«132190_j22857815949622_1_alg».proof.Proof.Gen.KernelIdeal.Frame
import proofs.«132190_j22857815949622_1_alg».proof.Proof.RegionStatsBase
import proofs.«132190_j22857815949622_1_alg».proof.Proof.LibColumnReads
import proofs.«132190_j22857815949622_1_alg».proof.Proof.LibRowBlocks
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-! ### What each case leaves in each accumulator (any float type) -/

section Pieces
variable {F : FTy → Type} [FloatOps F]

/-- Not at the first point: the first accumulator, holding `xo2`, is left at the add payload of the block, the bias
    row and `xo2` (the one store covers the buffer; the loads read whole buffers). -/
theorem out7_B_2_eq (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond7_0 i)
    (x0 : Vec F S5000x128 .f32) (x1 xo2 xo3 : Vec F S1x128 .f32) :
    out7_B_2 c i a1 h1 a2 h2 a3 h3 a4 h4 hc x0 x1 xo2 xo3 = k7_pay4 x0 x1 xo2 := by
  unfold out7_B_2
  rw [View.read_writes_eq_canon _ _ _ (cover7_B_2 c i a1 h1 a2 h2 a3 h3 a4 h4 hc x0 x1 xo2 xo3)]
  unfold kernelRun7_B
  dsimp only
  rw [View.canon_unit_zero statsZero]
  simp only [View.readAt_eq_ld, h1.read_unread, h2.read_unread, h3.read_unread,
    View.ld_unit_zero (S := S5000x128) statsZero, View.ld_unit_zero (S := S1x128) statsZero]

/-- Not at the first point: the second accumulator, holding `xo3`, likewise with the payload of the squares. -/
theorem out7_B_3_eq (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond7_0 i)
    (x0 : Vec F S5000x128 .f32) (x1 xo2 xo3 : Vec F S1x128 .f32) :
    out7_B_3 c i a1 h1 a2 h2 a3 h3 a4 h4 hc x0 x1 xo2 xo3 = k7_pay5 x0 x1 xo3 := by
  unfold out7_B_3
  rw [View.read_writes_eq_canon _ _ _ (cover7_B_3 c i a1 h1 a2 h2 a3 h3 a4 h4 hc x0 x1 xo2 xo3)]
  unfold kernelRun7_B
  dsimp only
  rw [View.canon_unit_zero statsZero]
  simp only [View.readAt_eq_ld, h1.read_unread, h2.read_unread, h4.read_unread,
    View.ld_unit_zero (S := S5000x128) statsZero, View.ld_unit_zero (S := S1x128) statsZero]

/-- At the first point: the first accumulator is zeroed, read back, and left at the add payload over the zero row. -/
theorem out7_A_2_eq (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond7_0 i)
    (x0 : Vec F S5000x128 .f32) (x1 : Vec F S1x128 .f32) :
    out7_A_2 c i a1 h1 a2 h2 a3 h3 a4 h4 hc x0 x1 = k7_pay4 x0 x1 k7_pay1 := by
  unfold out7_A_2
  rw [View.read_writes_eq_canon _ _ _ (cover7_A_2 c i a1 h1 a2 h2 a3 h3 a4 h4 hc x0 x1)]
  unfold kernelRun7_A
  dsimp only
  sl_unfold_words
  rw [View.canon_cons_unit_zero (S := S1x128) statsZero, View.readCov_unit_zero (S := S1x128) _ statsZero]
  simp only [View.readAt_eq_ld, h1.read_unread, h2.read_unread, View.ld_unit_zero (S := S5000x128) statsZero,
    View.ld_unit_zero (S := S1x128) statsZero]

/-- At the first point: the second accumulator likewise. -/
theorem out7_A_3_eq (c : Dev nD) (i : grid7.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond7_0 i)
    (x0 : Vec F S5000x128 .f32) (x1 : Vec F S1x128 .f32) :
    out7_A_3 c i a1 h1 a2 h2 a3 h3 a4 h4 hc x0 x1 = k7_pay5 x0 x1 k7_pay2 := by
  unfold out7_A_3
  rw [View.read_writes_eq_canon _ _ _ (cover7_A_3 c i a1 h1 a2 h2 a3 h3 a4 h4 hc x0 x1)]
  unfold kernelRun7_A
  dsimp only
  sl_unfold_words
  rw [View.canon_cons_unit_zero (S := S1x128) statsZero, View.readCov_unit_zero (S := S1x128) _ statsZero]
  simp only [View.readAt_eq_ld, h1.read_unread, h2.read_unread, View.ld_unit_zero (S := S5000x128) statsZero,
    View.ld_unit_zero (S := S1x128) statsZero]

end Pieces

/-! ### The payloads at a column, at the ideal values -/

/-- The block plus the bias row, at (p, q). -/
theorem pay7_3_apply (x0 : Vec Ideal S5000x128 .f32) (x1 : Vec Ideal S1x128 .f32) (p : Fin 5000) (q : Fin 128) :
    k7_pay3 x0 x1 (ix2 p q) = x0 (ix2 p q) + x1 (ix2 (0 : Fin 1) q) := by
  unfold k7_pay3
  exact Cert.Lib.RowBlocks.bias_rows_apply x0 x1 shapeCasts_S5000x128_S5000x128 shapeCasts_S1x128_S1x128
    broadcasts_S1x128_S5000x128 p q

/-- The accumulator plus the column sums of the biased block, at column q. -/
theorem pay7_4_apply (x0 : Vec Ideal S5000x128 .f32) (x1 acc : Vec Ideal S1x128 .f32) (q : Fin 128) :
    k7_pay4 x0 x1 acc (ix2 (0 : Fin 1) q)
      = acc (ix2 (0 : Fin 1) q) + ∑ k : Fin 5000, (x0 (ix2 k q) + x1 (ix2 (0 : Fin 1) q)) := by
  unfold k7_pay4
  refine congrArg₂ (· + ·) (congrFun (shapeCast_self acc shapeCasts_S1x128_S1x128) _) ?_
  refine (shapeCast_a_1a_apply _ shapeCasts_S128_S1x128 (0 : Fin 1) q).trans ?_
  refine (Cert.LibColumnReads.colSum_apply (k7_pay3 x0 x1) 0x00000000#32 reduces_S5000x128_S128 (.inl rfl) rfl q).trans ?_
  exact Finset.sum_congr rfl fun k _ => pay7_3_apply x0 x1 k q

/-- The accumulator plus the column sums of the squares of the biased block, at column q. -/
theorem pay7_5_apply (x0 : Vec Ideal S5000x128 .f32) (x1 acc : Vec Ideal S1x128 .f32) (q : Fin 128) :
    k7_pay5 x0 x1 acc (ix2 (0 : Fin 1) q)
      = acc (ix2 (0 : Fin 1) q)
        + ∑ k : Fin 5000, (x0 (ix2 k q) + x1 (ix2 (0 : Fin 1) q)) * (x0 (ix2 k q) + x1 (ix2 (0 : Fin 1) q)) := by
  unfold k7_pay5
  refine congrArg₂ (· + ·) (congrFun (shapeCast_self acc shapeCasts_S1x128_S1x128) _) ?_
  refine (shapeCast_a_1a_apply _ shapeCasts_S128_S1x128 (0 : Fin 1) q).trans ?_
  refine (Cert.LibColumnReads.colSum_apply (mulf (k7_pay3 x0 x1) (k7_pay3 x0 x1)) 0x00000000#32
    reduces_S5000x128_S128 (.inl rfl) rfl q).trans ?_
  exact Finset.sum_congr rfl fun k _ => congrArg₂ (· * ·) (pay7_3_apply x0 x1 k q) (pay7_3_apply x0 x1 k q)

/-- The two reset rows are zero. -/
theorem pay7_1_apply (j : S1x128.Idx) : (k7_pay1 (F := Ideal)) j = 0 := Ideal.ofBits_zero_f32
theorem pay7_2_apply (j : S1x128.Idx) : (k7_pay2 (F := Ideal)) j = 0 := Ideal.ofBits_zero_f32

/-! ### The windows' blocks at an index -/

section Blocks
variable {F : FTy → Type} [FloatOps F]
variable (V : (c : Dev nD) → (b : Ref sig .tc) → Buf (Elt F) ((c : Thread nD τ).loc b))

/-- Window 0's block index at point `t` is `(t, 0)`; window 1's is `(0, 0)`. -/
theorem index7_0 (t : Fin cfg7.N) : win7_0.index t 0 = t.val ∧ win7_0.index t 1 = 0 := by
  rcases fin_N7 t with rfl | rfl | rfl | rfl | rfl | rfl | rfl | rfl | rfl | rfl <;> decide

theorem index7_1 (t : Fin cfg7.N) : win7_1.index t 0 = 0 ∧ win7_1.index t 1 = 0 := by
  rcases fin_N7 t with rfl | rfl | rfl | rfl | rfl | rfl | rfl | rfl | rfl | rfl <;> decide

/-- Row `p` of the block of window 0 at point `t` is row `5000 t + p` of the array. -/
theorem iblk7_0_apply (c : Dev nD) (t : Fin cfg7.N) (p : Fin 5000) (q : Fin 128) (r : Fin 50000)
    (hr : r.val = t.val * 5000 + p.val) :
    (iblk7 V c 0 t : Vec F S5000x128 .f32) (ix2 p q) = V c (Pipeline.arrRef spec7 0) (ix2 r q) := by
  unfold iblk7
  rw [View.read_apply]
  show V c (Pipeline.arrRef spec7 0) _ = V c (Pipeline.arrRef spec7 0) (ix2 r q)
  congr 1
  funext a
  apply Fin.ext
  match a with
  | ⟨0, _⟩ => show win7_0.index t 0 * 5000 + 1 * p.val = r.val; rw [(index7_0 t).1, hr]; omega
  | ⟨1, _⟩ => show win7_0.index t 1 * 128 + 1 * q.val = q.val; rw [(index7_0 t).2]; omega

/-- The block of window 1 is the whole one-row array at every point. -/
theorem iblk7_1_apply (c : Dev nD) (t : Fin cfg7.N) (q : Fin 128) :
    (iblk7 V c 1 t : Vec F S1x128 .f32) (ix2 (0 : Fin 1) q) = V c (Pipeline.arrRef spec7 1) (ix2 (0 : Fin 1) q) := by
  unfold iblk7
  rw [View.read_apply]
  show V c (Pipeline.arrRef spec7 1) _ = V c (Pipeline.arrRef spec7 1) (ix2 (0 : Fin 1) q)
  congr 1
  funext a
  apply Fin.ext
  match a with
  | ⟨0, _⟩ => show win7_1.index t 0 * 1 + 1 * 0 = 0; rw [(index7_1 t).1]
  | ⟨1, _⟩ => show win7_1.index t 1 * 128 + 1 * q.val = q.val; rw [(index7_1 t).2]; omega

end Blocks

/-! ### The accumulators after each point, as payloads -/

section Steps
variable {F : FTy → Type} [FloatOps F]
variable (V : (c : Dev nD) → (b : Ref sig .tc) → Buf (Elt F) ((c : Thread nD τ).loc b))

theorem outsAt7_A_fst (c : Dev nD) (t : Fin cfg7.N) (h0 : t.val % 10 = 0) :
    (outsAt7 V c t.val t.isLt).1 = k7_pay4 (iblk7 V c 0 t) (iblk7 V c 1 t) k7_pay1 :=
  (congrArg Prod.fst (outsAt7_A V c t h0)).trans
    (out7_A_2_eq c (grid7.coords t) (ms7_0 t) (hs7_0 t) (ms7_1 t) (hs7_1 t) (ms7_2 t) (hs7_2 t) (ms7_3 t) (hs7_3 t)
      ((hcond7_0 t).mpr h0) (iblk7 V c 0 t) (iblk7 V c 1 t))

theorem outsAt7_A_snd (c : Dev nD) (t : Fin cfg7.N) (h0 : t.val % 10 = 0) :
    (outsAt7 V c t.val t.isLt).2 = k7_pay5 (iblk7 V c 0 t) (iblk7 V c 1 t) k7_pay2 :=
  (congrArg Prod.snd (outsAt7_A V c t h0)).trans
    (out7_A_3_eq c (grid7.coords t) (ms7_0 t) (hs7_0 t) (ms7_1 t) (hs7_1 t) (ms7_2 t) (hs7_2 t) (ms7_3 t) (hs7_3 t)
      ((hcond7_0 t).mpr h0) (iblk7 V c 0 t) (iblk7 V c 1 t))

theorem outsAt7_B_fst (c : Dev nD) (t : Fin cfg7.N) (h0 : ¬t.val % 10 = 0) :
    (outsAt7 V c t.val t.isLt).1 = k7_pay4 (iblk7 V c 0 t) (iblk7 V c 1 t)
      (outsAt7 V c (t.val - 1) (Nat.lt_of_le_of_lt (Nat.sub_le _ _) t.isLt)).1 :=
  (congrArg Prod.fst (outsAt7_B V c t h0)).trans
    (out7_B_2_eq c (grid7.coords t) (ms7_0 t) (hs7_0 t) (ms7_1 t) (hs7_1 t) (ms7_2 t) (hs7_2 t) (ms7_3 t) (hs7_3 t)
      (fun h => h0 ((hcond7_0 t).mp h)) (iblk7 V c 0 t) (iblk7 V c 1 t)
      (outsAt7 V c (t.val - 1) (Nat.lt_of_le_of_lt (Nat.sub_le _ _) t.isLt)).1
      (outsAt7 V c (t.val - 1) (Nat.lt_of_le_of_lt (Nat.sub_le _ _) t.isLt)).2)

theorem outsAt7_B_snd (c : Dev nD) (t : Fin cfg7.N) (h0 : ¬t.val % 10 = 0) :
    (outsAt7 V c t.val t.isLt).2 = k7_pay5 (iblk7 V c 0 t) (iblk7 V c 1 t)
      (outsAt7 V c (t.val - 1) (Nat.lt_of_le_of_lt (Nat.sub_le _ _) t.isLt)).2 :=
  (congrArg Prod.snd (outsAt7_B V c t h0)).trans
    (out7_B_3_eq c (grid7.coords t) (ms7_0 t) (hs7_0 t) (ms7_1 t) (hs7_1 t) (ms7_2 t) (hs7_2 t) (ms7_3 t) (hs7_3 t)
      (fun h => h0 ((hcond7_0 t).mp h)) (iblk7 V c 0 t) (iblk7 V c 1 t)
      (outsAt7 V c (t.val - 1) (Nat.lt_of_le_of_lt (Nat.sub_le _ _) t.isLt)).1
      (outsAt7 V c (t.val - 1) (Nat.lt_of_le_of_lt (Nat.sub_le _ _) t.isLt)).2)

end Steps

/-! ### The running sums -/

section Sums
variable (V : (c : Dev nD) → (b : Ref sig .tc) → Buf (Elt Ideal) ((c : Thread nD τ).loc b))
variable (x : Vec Ideal S50000x128 .f32) (b : Vec Ideal S1x128 .f32)

/-- An entry of the block of point `t` plus the bias is the entry of `x + b` at row `5000 t + p`. -/
theorem term7 (c : Dev nD) (hx : x = V c (Pipeline.arrRef spec7 0)) (hb : b = V c (Pipeline.arrRef spec7 1))
    (t : Fin cfg7.N) (q : Fin 128) (x0 : Vec Ideal S5000x128 .f32) (x1 : Vec Ideal S1x128 .f32)
    (h0 : x0 = iblk7 V c 0 t) (h1 : x1 = iblk7 V c 1 t) (p : Fin 5000) :
    x0 (ix2 p q) + x1 (ix2 (0 : Fin 1) q) = statsEntry x b q (statsRow t.val p) := by
  subst hx hb h0 h1
  exact congrArg₂ (· + ·)
    (iblk7_0_apply V c t p q (statsRow t.val p) (statsRow_val t.val (lt_of_lt_of_eq t.isLt N_7) p))
    (iblk7_1_apply V c t q)

/-- The column sum over the block of point `t` is the sum over rows `5000 t … 5000 t + 4999`. -/
theorem blockSum7 (c : Dev nD) (hx : x = V c (Pipeline.arrRef spec7 0)) (hb : b = V c (Pipeline.arrRef spec7 1))
    (t : Fin cfg7.N) (q : Fin 128) (x0 : Vec Ideal S5000x128 .f32) (x1 : Vec Ideal S1x128 .f32)
    (h0 : x0 = iblk7 V c 0 t) (h1 : x1 = iblk7 V c 1 t) :
    ∑ k : Fin 5000, (x0 (ix2 k q) + x1 (ix2 (0 : Fin 1) q)) = ∑ p : Fin 5000, statsEntry x b q (statsRow t.val p) :=
  Finset.sum_congr rfl fun p _ => term7 V x b c hx hb t q x0 x1 h0 h1 p

theorem blockSq7 (c : Dev nD) (hx : x = V c (Pipeline.arrRef spec7 0)) (hb : b = V c (Pipeline.arrRef spec7 1))
    (t : Fin cfg7.N) (q : Fin 128) (x0 : Vec Ideal S5000x128 .f32) (x1 : Vec Ideal S1x128 .f32)
    (h0 : x0 = iblk7 V c 0 t) (h1 : x1 = iblk7 V c 1 t) :
    ∑ k : Fin 5000, (x0 (ix2 k q) + x1 (ix2 (0 : Fin 1) q)) * (x0 (ix2 k q) + x1 (ix2 (0 : Fin 1) q))
      = ∑ p : Fin 5000, statsEntry x b q (statsRow t.val p) * statsEntry x b q (statsRow t.val p) :=
  Finset.sum_congr rfl fun p _ =>
    congrArg₂ (· * ·) (term7 V x b c hx hb t q x0 x1 h0 h1 p) (term7 V x b c hx hb t q x0 x1 h0 h1 p)

/-- At the first point the first accumulator is `0 +` the block's column sum. -/
theorem entry7_A_fst (c : Dev nD) (hx : x = V c (Pipeline.arrRef spec7 0)) (hb : b = V c (Pipeline.arrRef spec7 1))
    (t : Fin cfg7.N) (h0 : t.val % 10 = 0) (q : Fin 128) :
    (outsAt7 V c t.val t.isLt).1 (ix2 (0 : Fin 1) q) = ∑ p : Fin 5000, statsEntry x b q (statsRow t.val p) := by
  refine (congrFun (outsAt7_A_fst V c t h0) _).trans ?_
  refine (pay7_4_apply (iblk7 V c 0 t) (iblk7 V c 1 t) (k7_pay1 (F := Ideal)) q).trans ?_
  refine (congrArg₂ (· + ·) (pay7_1_apply _)
    (blockSum7 V x b c hx hb t q (iblk7 V c 0 t) (iblk7 V c 1 t) rfl rfl)).trans ?_
  exact zero_add _

theorem entry7_A_snd (c : Dev nD) (hx : x = V c (Pipeline.arrRef spec7 0)) (hb : b = V c (Pipeline.arrRef spec7 1))
    (t : Fin cfg7.N) (h0 : t.val % 10 = 0) (q : Fin 128) :
    (outsAt7 V c t.val t.isLt).2 (ix2 (0 : Fin 1) q)
      = ∑ p : Fin 5000, statsEntry x b q (statsRow t.val p) * statsEntry x b q (statsRow t.val p) := by
  refine (congrFun (outsAt7_A_snd V c t h0) _).trans ?_
  refine (pay7_5_apply (iblk7 V c 0 t) (iblk7 V c 1 t) (k7_pay2 (F := Ideal)) q).trans ?_
  refine (congrArg₂ (· + ·) (pay7_2_apply _)
    (blockSq7 V x b c hx hb t q (iblk7 V c 0 t) (iblk7 V c 1 t) rfl rfl)).trans ?_
  exact zero_add _

/-- At a later point the first accumulator gains the block's column sum. -/
theorem entry7_B_fst (c : Dev nD) (hx : x = V c (Pipeline.arrRef spec7 0)) (hb : b = V c (Pipeline.arrRef spec7 1))
    (t : Fin cfg7.N) (h0 : ¬t.val % 10 = 0) (q : Fin 128) :
    (outsAt7 V c t.val t.isLt).1 (ix2 (0 : Fin 1) q)
      = (outsAt7 V c (t.val - 1) (Nat.lt_of_le_of_lt (Nat.sub_le _ _) t.isLt)).1 (ix2 (0 : Fin 1) q)
        + ∑ p : Fin 5000, statsEntry x b q (statsRow t.val p) := by
  refine (congrFun (outsAt7_B_fst V c t h0) _).trans ?_
  refine (pay7_4_apply (iblk7 V c 0 t) (iblk7 V c 1 t)
    (outsAt7 V c (t.val - 1) (Nat.lt_of_le_of_lt (Nat.sub_le _ _) t.isLt)).1 q).trans ?_
  exact congrArg _ (blockSum7 V x b c hx hb t q (iblk7 V c 0 t) (iblk7 V c 1 t) rfl rfl)

theorem entry7_B_snd (c : Dev nD) (hx : x = V c (Pipeline.arrRef spec7 0)) (hb : b = V c (Pipeline.arrRef spec7 1))
    (t : Fin cfg7.N) (h0 : ¬t.val % 10 = 0) (q : Fin 128) :
    (outsAt7 V c t.val t.isLt).2 (ix2 (0 : Fin 1) q)
      = (outsAt7 V c (t.val - 1) (Nat.lt_of_le_of_lt (Nat.sub_le _ _) t.isLt)).2 (ix2 (0 : Fin 1) q)
        + ∑ p : Fin 5000, statsEntry x b q (statsRow t.val p) * statsEntry x b q (statsRow t.val p) := by
  refine (congrFun (outsAt7_B_snd V c t h0) _).trans ?_
  refine (pay7_5_apply (iblk7 V c 0 t) (iblk7 V c 1 t)
    (outsAt7 V c (t.val - 1) (Nat.lt_of_le_of_lt (Nat.sub_le _ _) t.isLt)).2 q).trans ?_
  exact congrArg _ (blockSq7 V x b c hx hb t q (iblk7 V c 0 t) (iblk7 V c 1 t) rfl rfl)

/-- After point `n` the first accumulator holds, in column `q`, the sum of `x + b` over the rows of blocks `0 … n`. -/
theorem outsAt7_fst (c : Dev nD) (hx : x = V c (Pipeline.arrRef spec7 0)) (hb : b = V c (Pipeline.arrRef spec7 1))
    (q : Fin 128) : ∀ (n : ℕ) (h : n < cfg7.N),
    (outsAt7 V c n h).1 (ix2 (0 : Fin 1) q)
      = ∑ s ∈ Finset.range (n + 1), ∑ p : Fin 5000, statsEntry x b q (statsRow s p)
  | 0, h => by
    rw [Finset.sum_range_one]
    exact entry7_A_fst V x b c hx hb ⟨0, h⟩ (Nat.zero_mod 10) q
  | n + 1, h => by
    have hN : cfg7.N = 10 := N_7
    have hB : ¬(⟨n + 1, h⟩ : Fin cfg7.N).val % 10 = 0 := by dsimp only; omega
    rw [Finset.sum_range_succ, ← outsAt7_fst c hx hb q n (Nat.lt_of_succ_lt h)]
    exact entry7_B_fst V x b c hx hb ⟨n + 1, h⟩ hB q

/-- After point `n` the second accumulator holds, in column `q`, the sum of `(x + b)²` over the rows of blocks `0 … n`. -/
theorem outsAt7_snd (c : Dev nD) (hx : x = V c (Pipeline.arrRef spec7 0)) (hb : b = V c (Pipeline.arrRef spec7 1))
    (q : Fin 128) : ∀ (n : ℕ) (h : n < cfg7.N),
    (outsAt7 V c n h).2 (ix2 (0 : Fin 1) q)
      = ∑ s ∈ Finset.range (n + 1), ∑ p : Fin 5000, statsEntry x b q (statsRow s p) * statsEntry x b q (statsRow s p)
  | 0, h => by
    rw [Finset.sum_range_one]
    exact entry7_A_snd V x b c hx hb ⟨0, h⟩ (Nat.zero_mod 10) q
  | n + 1, h => by
    have hN : cfg7.N = 10 := N_7
    have hB : ¬(⟨n + 1, h⟩ : Fin cfg7.N).val % 10 = 0 := by dsimp only; omega
    rw [Finset.sum_range_succ, ← outsAt7_snd c hx hb q n (Nat.lt_of_succ_lt h)]
    exact entry7_B_snd V x b c hx hb ⟨n + 1, h⟩ hB q

end Sums

/-! ### The result arrays: one write-back, after the last point -/

section Final
variable {F : FTy → Type} [FloatOps F]
variable (V : (c : Dev nD) → (b : Ref sig .tc) → Buf (Elt F) ((c : Thread nD τ).loc b))

theorem lt9_7 : 9 < cfg7.N := by rw [show cfg7.N = 10 from N_7]; decide

/-- What the last point leaves in the first accumulator, as contents of its one-block array. -/
abbrev result7_2 (c : Dev nD) : Buf (Elt F) ((c : Thread nD τ).loc main_v119_0) := (outsAt7 V c 9 lt9_7).1
/-- What the last point leaves in the second accumulator, as contents of its one-block array. -/
abbrev result7_3 (c : Dev nD) : Buf (Elt F) ((c : Thread nD τ).loc main_v119_1) := (outsAt7 V c 9 lt9_7).2

/-- The one write-back of the first accumulator, at the last point, writes that: the block is the whole array. -/
theorem flushed7_2 (c : Dev nD) (t : Fin cfg7.N) (hf : (cfg7.win 2).flush t = true) :
    (dat7 V c).flushed 2 t = ((cfg7.win 2).blk t).view.read (Elt F) (result7_2 V c) := by
  have hN : cfg7.N = 10 := N_7
  have h9 : t.val = 9 := by have := (flush7_2 t).mp hf; have := t.isLt; omega
  obtain rfl : t = t7_9 := Fin.ext h9
  show (cfg7.win 2).cut (grid7.coords t7_9) ((dat7 V c).after 2 t7_9) = _
  rw [after7_2]
  have hz' : (fun a => win7_2.index t7_9 a * main_v119_0.ty.shape.size a) = fun _ => 0 :=
    funext fun a => by fin_cases a <;> decide
  exact (Memref.read_access_unit_zero (Elt F) main_v119_0 hz' (fun a => by rw [congrFun hz' a]; simp) (result7_2 V c)).symm

theorem flushed7_3 (c : Dev nD) (t : Fin cfg7.N) (hf : (cfg7.win 3).flush t = true) :
    (dat7 V c).flushed 3 t = ((cfg7.win 3).blk t).view.read (Elt F) (result7_3 V c) := by
  have hN : cfg7.N = 10 := N_7
  have h9 : t.val = 9 := by have := (flush7_3 t).mp hf; have := t.isLt; omega
  obtain rfl : t = t7_9 := Fin.ext h9
  show (cfg7.win 3).cut (grid7.coords t7_9) ((dat7 V c).after 3 t7_9) = _
  rw [after7_3]
  have hz' : (fun a => win7_3.index t7_9 a * main_v119_1.ty.shape.size a) = fun _ => 0 :=
    funext fun a => by fin_cases a <;> decide
  exact (Memref.read_access_unit_zero (Elt F) main_v119_1 hz' (fun a => by rw [congrFun hz' a]; simp) (result7_3 V c)).symm

/-- So the first result array ends holding what the last point left (the last point's block covers it). -/
theorem final7_2 (c : Dev nD) : (dat7 V c).arrAt 2 cfg7.N = result7_2 V c :=
  (dat7 V c).arrAt_eq_of_cover 2 (result7_2 V c) (flushed7_2 V c) fun i =>
    ⟨t7_9, (flush7_2 t7_9).mpr rfl, by
      show i ∈ ((View.whole main_v119_0).slice (win7_2.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_2.index t7_9 0 * win7_2.size 0 ≤ (i 0 : Nat) ∧ (i 0 : Nat) < win7_2.index t7_9 0 * win7_2.size 0 + win7_2.xsize (grid7.coords t7_9) 0
                  rw [show win7_2.index t7_9 0 * win7_2.size 0 = 0 from by decide +kernel, show win7_2.xsize (grid7.coords t7_9) 0 = 1 from by decide +kernel]; omega
      | ⟨1, _⟩ => show win7_2.index t7_9 1 * win7_2.size 1 ≤ (i 1 : Nat) ∧ (i 1 : Nat) < win7_2.index t7_9 1 * win7_2.size 1 + win7_2.xsize (grid7.coords t7_9) 1
                  rw [show win7_2.index t7_9 1 * win7_2.size 1 = 0 from by decide +kernel, show win7_2.xsize (grid7.coords t7_9) 1 = 128 from by decide +kernel]; omega⟩

theorem final7_3 (c : Dev nD) : (dat7 V c).arrAt 3 cfg7.N = result7_3 V c :=
  (dat7 V c).arrAt_eq_of_cover 3 (result7_3 V c) (flushed7_3 V c) fun i =>
    ⟨t7_9, (flush7_3 t7_9).mpr rfl, by
      show i ∈ ((View.whole main_v119_1).slice (win7_3.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_3.index t7_9 0 * win7_3.size 0 ≤ (i 0 : Nat) ∧ (i 0 : Nat) < win7_3.index t7_9 0 * win7_3.size 0 + win7_3.xsize (grid7.coords t7_9) 0
                  rw [show win7_3.index t7_9 0 * win7_3.size 0 = 0 from by decide +kernel, show win7_3.xsize (grid7.coords t7_9) 0 = 1 from by decide +kernel]; omega
      | ⟨1, _⟩ => show win7_3.index t7_9 1 * win7_3.size 1 ≤ (i 1 : Nat) ∧ (i 1 : Nat) < win7_3.index t7_9 1 * win7_3.size 1 + win7_3.xsize (grid7.coords t7_9) 1
                  rw [show win7_3.index t7_9 1 * win7_3.size 1 = 0 from by decide +kernel, show win7_3.xsize (grid7.coords t7_9) 1 = 128 from by decide +kernel]; omega⟩

end Final

/-! ### The two column statistics -/

section Claims
variable (V : (c : Dev nD) → (b : Ref sig .tc) → Buf (Elt Ideal) ((c : Thread nD τ).loc b))

/-- The first result array ends holding, in column `q`, the sum over all 50000 rows of `x + b`. -/
theorem stats7_sum (c : Dev nD) (x : Vec Ideal S50000x128 .f32) (b : Vec Ideal S1x128 .f32)
    (hx : x = V c (Pipeline.arrRef spec7 0)) (hb : b = V c (Pipeline.arrRef spec7 1)) (q : Fin 128) :
    (dat7 V c).arrAt 2 cfg7.N (ix2 (0 : Fin 1) q) = ∑ r : Fin 50000, (x (ix2 r q) + b (ix2 (0 : Fin 1) q)) := by
  refine (congrFun (final7_2 V c) _).trans ?_
  refine (outsAt7_fst V x b c hx hb q 9 lt9_7).trans ?_
  exact stats_blocks (statsEntry x b q)

/-- The second result array ends holding, in column `q`, the sum over all 50000 rows of `(x + b) * (x + b)`. -/
theorem stats7_sumsq (c : Dev nD) (x : Vec Ideal S50000x128 .f32) (b : Vec Ideal S1x128 .f32)
    (hx : x = V c (Pipeline.arrRef spec7 0)) (hb : b = V c (Pipeline.arrRef spec7 1)) (q : Fin 128) :
    (dat7 V c).arrAt 3 cfg7.N (ix2 (0 : Fin 1) q)
      = ∑ r : Fin 50000, (x (ix2 r q) + b (ix2 (0 : Fin 1) q)) * (x (ix2 r q) + b (ix2 (0 : Fin 1) q)) := by
  refine (congrFun (final7_3 V c) _).trans ?_
  refine (outsAt7_snd V x b c hx hb q 9 lt9_7).trans ?_
  exact stats_blocks (fun r => statsEntry x b q r * statsEntry x b q r)

end Claims

end Cert.KernelIdeal.Regions

end
-- ==== Proof.RefBn.lean ====
/-
  The reference's batch normalisation, read at an entry.

  Per layer the reference adds the bias to the aggregated rows (the pre-normalisation activations h), takes each
  column's mean μ = (0 + Σ_r h) / 50000 and variance v = (0 + Σ_r (h − μ)²) / 50000, and returns
  max(((h − μ) · rsqrt(v + ε)) · γ + β, 0).  Each stage is read through its index maps down to h and the parameter
  vectors; nothing here needs h to be finite.
-/
import proofs.«132190_j22857815949622_1_alg».proof.Proof.RefStages

noncomputable section

namespace Cert.Bridge.RefBn

open Cert.ReferenceIdeal Cert.ReferenceIdeal.ReadP Idealize.ShloMosaic Idealize.ShloMosaic.ValueIdx
open scoped BigOperators

/-! ## Layer 1 -/

section Layer1

variable (x0 : FVec Ideal S50000x128 .f32) (x1 : IVec S2x800000 32) (x3 : FVec Ideal S3x128x128 .f32) (x4 x5 x6 : FVec Ideal S3x128 .f32)

/-- The pre-normalisation activations: the aggregated rows plus the bias. -/
theorem pre1 (r : Fin 50000) (q : Fin 128) :
    val_main_v50 (F := Ideal) x0 x1 x3 x4 (ix2 r q) = val_main_v45 (F := Ideal) x0 x1 x3 (ix2 r q) + val_main_v47 (F := Ideal) x4 (ix1 q) := by
  rw [val_main_v50_apply, val_main_v49_apply, val_main_v48_apply]
  rw [show idx_main_v48 (idx_main_v49 (ix2 r q)) = ix1 q from funext fun a => by match a with | ⟨0, _⟩ => rfl]
  rfl

/-- The column mean. -/
theorem mean1 (q : Fin 128) :
    val_main_v53 (F := Ideal) x0 x1 x3 x4 (ix1 q) = Ideal.div (Ideal.ofBits .f32 0x00000000#32 + ∑ k : Fin 50000, (val_main_v50 (F := Ideal) x0 x1 x3 x4) (ix2 k q)) (Ideal.ofBits .f32 0x47435000#32) := by
  rw [val_main_v53_apply, val_main_v51_apply, val_main_v52_apply]
  simp only [show ∀ k, idx_main_v51 (ix1 q) k = ix2 k q from fun k => funext fun a => by match a with | ⟨0, _⟩ => rfl | ⟨1, _⟩ => rfl]
  rfl

/-- The column variance, as the mean of squared deviations from the column mean. -/
theorem var1 (q : Fin 128) :
    val_main_v60 (F := Ideal) x0 x1 x3 x4 (ix1 q) = Ideal.div (Ideal.ofBits .f32 0x00000000#32 + ∑ k : Fin 50000, ((val_main_v50 (F := Ideal) x0 x1 x3 x4) (ix2 k q) - (Ideal.div (Ideal.ofBits .f32 0x00000000#32 + ∑ k : Fin 50000, (val_main_v50 (F := Ideal) x0 x1 x3 x4) (ix2 k q)) (Ideal.ofBits .f32 0x47435000#32))) * ((val_main_v50 (F := Ideal) x0 x1 x3 x4) (ix2 k q) - (Ideal.div (Ideal.ofBits .f32 0x00000000#32 + ∑ k : Fin 50000, (val_main_v50 (F := Ideal) x0 x1 x3 x4) (ix2 k q)) (Ideal.ofBits .f32 0x47435000#32)))) (Ideal.ofBits .f32 0x47435000#32) := by
  rw [val_main_v60_apply, val_main_v58_apply, val_main_v59_apply]
  simp only [show ∀ k, idx_main_v58 (ix1 q) k = ix2 k q from fun k => funext fun a => by match a with | ⟨0, _⟩ => rfl | ⟨1, _⟩ => rfl, val_main_v57_apply, val_main_v56_apply, val_main_v55_apply, val_main_v54_apply,
    show ∀ k : Fin 50000, idx_main_v54 (idx_main_v55 (ix2 k q)) = ix1 q from fun k => funext fun a => by match a with | ⟨0, _⟩ => rfl, mean1]
  rfl

/-- The layer's output at an entry. -/
theorem out1 (p : Fin 50000) (q : Fin 128) :
    val_main_v80 (F := Ideal) x0 x1 x3 x4 x5 x6 (ix2 p q)
      = max ((((val_main_v50 (F := Ideal) x0 x1 x3 x4) (ix2 p q) - val_main_v53 (F := Ideal) x0 x1 x3 x4 (ix1 q)) * Ideal.rsqrt (val_main_v60 (F := Ideal) x0 x1 x3 x4 (ix1 q) + Ideal.ofBits .f32 0x3727C5AC#32))
          * val_main_v71 (F := Ideal) x5 (ix1 q) + val_main_v76 (F := Ideal) x6 (ix1 q)) (Ideal.ofBits .f32 0x00000000#32) := by
  rw [val_main_v80_apply, val_main_v79_apply, val_main_v74_apply, val_main_v69_apply, val_main_v63_apply, val_main_v62_apply, val_main_v61_apply, val_main_v68_apply, val_main_v67_apply, val_main_v66_apply, val_main_v65_apply, val_main_v64_apply,
    val_main_v73_apply, val_main_v72_apply, val_main_v78_apply, val_main_v77_apply, val_main_call1_v0_apply]
  rw [show idx_main_v61 (idx_main_v62 (ix2 p q)) = ix1 q from funext fun a => by match a with | ⟨0, _⟩ => rfl,
    show idx_main_v67 (idx_main_v68 (ix2 p q)) = ix1 q from funext fun a => by match a with | ⟨0, _⟩ => rfl,
    show idx_main_v72 (idx_main_v73 (ix2 p q)) = ix1 q from funext fun a => by match a with | ⟨0, _⟩ => rfl,
    show idx_main_v77 (idx_main_v78 (ix2 p q)) = ix1 q from funext fun a => by match a with | ⟨0, _⟩ => rfl]
  rfl

end Layer1

/-! ## Layer 2 -/

section Layer2

variable (x0 : FVec Ideal S50000x128 .f32) (x1 : IVec S2x800000 32) (x3 : FVec Ideal S3x128x128 .f32) (x4 x5 x6 : FVec Ideal S3x128 .f32)

/-- The pre-normalisation activations: the aggregated rows plus the bias. -/
theorem pre2 (r : Fin 50000) (q : Fin 128) :
    val_main_v100 (F := Ideal) x0 x1 x3 x4 x5 x6 (ix2 r q) = val_main_v95 (F := Ideal) x0 x1 x3 x4 x5 x6 (ix2 r q) + val_main_v97 (F := Ideal) x4 (ix1 q) := by
  rw [val_main_v100_apply, val_main_v99_apply, val_main_v98_apply]
  rw [show idx_main_v98 (idx_main_v99 (ix2 r q)) = ix1 q from funext fun a => by match a with | ⟨0, _⟩ => rfl]
  rfl

/-- The column mean. -/
theorem mean2 (q : Fin 128) :
    val_main_v103 (F := Ideal) x0 x1 x3 x4 x5 x6 (ix1 q) = Ideal.div (Ideal.ofBits .f32 0x00000000#32 + ∑ k : Fin 50000, (val_main_v100 (F := Ideal) x0 x1 x3 x4 x5 x6) (ix2 k q)) (Ideal.ofBits .f32 0x47435000#32) := by
  rw [val_main_v103_apply, val_main_v101_apply, val_main_v102_apply]
  simp only [show ∀ k, idx_main_v101 (ix1 q) k = ix2 k q from fun k => funext fun a => by match a with | ⟨0, _⟩ => rfl | ⟨1, _⟩ => rfl]
  rfl

/-- The column variance, as the mean of squared deviations from the column mean. -/
theorem var2 (q : Fin 128) :
    val_main_v110 (F := Ideal) x0 x1 x3 x4 x5 x6 (ix1 q) = Ideal.div (Ideal.ofBits .f32 0x00000000#32 + ∑ k : Fin 50000, ((val_main_v100 (F := Ideal) x0 x1 x3 x4 x5 x6) (ix2 k q) - (Ideal.div (Ideal.ofBits .f32 0x00000000#32 + ∑ k : Fin 50000, (val_main_v100 (F := Ideal) x0 x1 x3 x4 x5 x6) (ix2 k q)) (Ideal.ofBits .f32 0x47435000#32))) * ((val_main_v100 (F := Ideal) x0 x1 x3 x4 x5 x6) (ix2 k q) - (Ideal.div (Ideal.ofBits .f32 0x00000000#32 + ∑ k : Fin 50000, (val_main_v100 (F := Ideal) x0 x1 x3 x4 x5 x6) (ix2 k q)) (Ideal.ofBits .f32 0x47435000#32)))) (Ideal.ofBits .f32 0x47435000#32) := by
  rw [val_main_v110_apply, val_main_v108_apply, val_main_v109_apply]
  simp only [show ∀ k, idx_main_v108 (ix1 q) k = ix2 k q from fun k => funext fun a => by match a with | ⟨0, _⟩ => rfl | ⟨1, _⟩ => rfl, val_main_v107_apply, val_main_v106_apply, val_main_v105_apply, val_main_v104_apply,
    show ∀ k : Fin 50000, idx_main_v104 (idx_main_v105 (ix2 k q)) = ix1 q from fun k => funext fun a => by match a with | ⟨0, _⟩ => rfl, mean2]
  rfl

/-- The layer's output at an entry. -/
theorem out2 (p : Fin 50000) (q : Fin 128) :
    val_main_v130 (F := Ideal) x0 x1 x3 x4 x5 x6 (ix2 p q)
      = max ((((val_main_v100 (F := Ideal) x0 x1 x3 x4 x5 x6) (ix2 p q) - val_main_v103 (F := Ideal) x0 x1 x3 x4 x5 x6 (ix1 q)) * Ideal.rsqrt (val_main_v110 (F := Ideal) x0 x1 x3 x4 x5 x6 (ix1 q) + Ideal.ofBits .f32 0x3727C5AC#32))
          * val_main_v121 (F := Ideal) x5 (ix1 q) + val_main_v126 (F := Ideal) x6 (ix1 q)) (Ideal.ofBits .f32 0x00000000#32) := by
  rw [val_main_v130_apply, val_main_v129_apply, val_main_v124_apply, val_main_v119_apply, val_main_v113_apply, val_main_v112_apply, val_main_v111_apply, val_main_v118_apply, val_main_v117_apply, val_main_v116_apply, val_main_v115_apply, val_main_v114_apply,
    val_main_v123_apply, val_main_v122_apply, val_main_v128_apply, val_main_v127_apply, val_main_call2_v0_apply]
  rw [show idx_main_v111 (idx_main_v112 (ix2 p q)) = ix1 q from funext fun a => by match a with | ⟨0, _⟩ => rfl,
    show idx_main_v117 (idx_main_v118 (ix2 p q)) = ix1 q from funext fun a => by match a with | ⟨0, _⟩ => rfl,
    show idx_main_v122 (idx_main_v123 (ix2 p q)) = ix1 q from funext fun a => by match a with | ⟨0, _⟩ => rfl,
    show idx_main_v127 (idx_main_v128 (ix2 p q)) = ix1 q from funext fun a => by match a with | ⟨0, _⟩ => rfl]
  rfl

end Layer2

/-! ## Layer 3 -/

section Layer3

variable (x0 : FVec Ideal S50000x128 .f32) (x1 : IVec S2x800000 32) (x3 : FVec Ideal S3x128x128 .f32) (x4 x5 x6 : FVec Ideal S3x128 .f32)

/-- The pre-normalisation activations: the aggregated rows plus the bias. -/
theorem pre3 (r : Fin 50000) (q : Fin 128) :
    val_main_v150 (F := Ideal) x0 x1 x3 x4 x5 x6 (ix2 r q) = val_main_v145 (F := Ideal) x0 x1 x3 x4 x5 x6 (ix2 r q) + val_main_v147 (F := Ideal) x4 (ix1 q) := by
  rw [val_main_v150_apply, val_main_v149_apply, val_main_v148_apply]
  rw [show idx_main_v148 (idx_main_v149 (ix2 r q)) = ix1 q from funext fun a => by match a with | ⟨0, _⟩ => rfl]
  rfl

/-- The column mean. -/
theorem mean3 (q : Fin 128) :
    val_main_v153 (F := Ideal) x0 x1 x3 x4 x5 x6 (ix1 q) = Ideal.div (Ideal.ofBits .f32 0x00000000#32 + ∑ k : Fin 50000, (val_main_v150 (F := Ideal) x0 x1 x3 x4 x5 x6) (ix2 k q)) (Ideal.ofBits .f32 0x47435000#32) := by
  rw [val_main_v153_apply, val_main_v151_apply, val_main_v152_apply]
  simp only [show ∀ k, idx_main_v151 (ix1 q) k = ix2 k q from fun k => funext fun a => by match a with | ⟨0, _⟩ => rfl | ⟨1, _⟩ => rfl]
  rfl

/-- The column variance, as the mean of squared deviations from the column mean. -/
theorem var3 (q : Fin 128) :
    val_main_v160 (F := Ideal) x0 x1 x3 x4 x5 x6 (ix1 q) = Ideal.div (Ideal.ofBits .f32 0x00000000#32 + ∑ k : Fin 50000, ((val_main_v150 (F := Ideal) x0 x1 x3 x4 x5 x6) (ix2 k q) - (Ideal.div (Ideal.ofBits .f32 0x00000000#32 + ∑ k : Fin 50000, (val_main_v150 (F := Ideal) x0 x1 x3 x4 x5 x6) (ix2 k q)) (Ideal.ofBits .f32 0x47435000#32))) * ((val_main_v150 (F := Ideal) x0 x1 x3 x4 x5 x6) (ix2 k q) - (Ideal.div (Ideal.ofBits .f32 0x00000000#32 + ∑ k : Fin 50000, (val_main_v150 (F := Ideal) x0 x1 x3 x4 x5 x6) (ix2 k q)) (Ideal.ofBits .f32 0x47435000#32)))) (Ideal.ofBits .f32 0x47435000#32) := by
  rw [val_main_v160_apply, val_main_v158_apply, val_main_v159_apply]
  simp only [show ∀ k, idx_main_v158 (ix1 q) k = ix2 k q from fun k => funext fun a => by match a with | ⟨0, _⟩ => rfl | ⟨1, _⟩ => rfl, val_main_v157_apply, val_main_v156_apply, val_main_v155_apply, val_main_v154_apply,
    show ∀ k : Fin 50000, idx_main_v154 (idx_main_v155 (ix2 k q)) = ix1 q from fun k => funext fun a => by match a with | ⟨0, _⟩ => rfl, mean3]
  rfl

/-- The layer's output at an entry. -/
theorem out3 (p : Fin 50000) (q : Fin 128) :
    val_main_v180 (F := Ideal) x0 x1 x3 x4 x5 x6 (ix2 p q)
      = max ((((val_main_v150 (F := Ideal) x0 x1 x3 x4 x5 x6) (ix2 p q) - val_main_v153 (F := Ideal) x0 x1 x3 x4 x5 x6 (ix1 q)) * Ideal.rsqrt (val_main_v160 (F := Ideal) x0 x1 x3 x4 x5 x6 (ix1 q) + Ideal.ofBits .f32 0x3727C5AC#32))
          * val_main_v171 (F := Ideal) x5 (ix1 q) + val_main_v176 (F := Ideal) x6 (ix1 q)) (Ideal.ofBits .f32 0x00000000#32) := by
  rw [val_main_v180_apply, val_main_v179_apply, val_main_v174_apply, val_main_v169_apply, val_main_v163_apply, val_main_v162_apply, val_main_v161_apply, val_main_v168_apply, val_main_v167_apply, val_main_v166_apply, val_main_v165_apply, val_main_v164_apply,
    val_main_v173_apply, val_main_v172_apply, val_main_v178_apply, val_main_v177_apply, val_main_call3_v0_apply]
  rw [show idx_main_v161 (idx_main_v162 (ix2 p q)) = ix1 q from funext fun a => by match a with | ⟨0, _⟩ => rfl,
    show idx_main_v167 (idx_main_v168 (ix2 p q)) = ix1 q from funext fun a => by match a with | ⟨0, _⟩ => rfl,
    show idx_main_v172 (idx_main_v173 (ix2 p q)) = ix1 q from funext fun a => by match a with | ⟨0, _⟩ => rfl,
    show idx_main_v177 (idx_main_v178 (ix2 p q)) = ix1 q from funext fun a => by match a with | ⟨0, _⟩ => rfl]
  rfl

end Layer3

end Cert.Bridge.RefBn

end
-- ==== Proof.LibVarLaw.lean ====
/-
  The variance law over the extended reals.

  For finitely many REAL numbers x_i and n their count, the mean of the squared deviations from the mean,
  (∑ (x_i − (∑ x)/n)²)/n, is the mean of the squares minus the square of the mean, (∑ x_i²)/n − ((∑ x)/n)². Over the extended
  reals, with the ideal quotient, the same holds when every entry is a real number and the divisor is a real that is not
  zero (at an infinite entry the two sides differ: one is +∞, the other −∞). This is the step between a batch
  normalization that takes its variance textbook-wise and one that accumulates sums and sums of squares.
-/
import Idealize.ShloMosaic.PureOps.Ideal

noncomputable section

namespace Cert.Lib.VarLaw

open Idealize.ShloMosaic
open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: with `n` the number of terms, the mean of the squared deviations from the mean is the mean of the
    squares minus the square of the mean. -/
theorem var_real {ι : Type*} [Fintype ι] (f : ι → ℝ) (n : ℝ) (hn : n ≠ 0) (hcard : (Fintype.card ι : ℝ) = n) :
    (∑ i, (f i - (∑ k, f k) * (1 / n)) * (f i - (∑ k, f k) * (1 / n))) * (1 / n)
      = (∑ i, f i * f i) * (1 / n) - (∑ i, f i) * (1 / n) * ((∑ i, f i) * (1 / n)) := by
  have key : ∀ m : ℝ, ∑ i, (f i - m) * (f i - m)
      = (∑ i, f i * f i) - 2 * m * (∑ i, f i) + (Fintype.card ι : ℝ) * (m * m) := by
    intro m
    have e : ∀ i, (f i - m) * (f i - m) = f i * f i - 2 * m * f i + m * m := fun i => by ring
    simp only [e, Finset.sum_add_distrib, Finset.sum_sub_distrib, ← Finset.mul_sum, Finset.sum_const, Finset.card_univ,
      nsmul_eq_mul]
    ring
  rw [key, hcard]
  field_simp
  ring

/-- The same over the extended reals, for real entries and a real divisor that is not zero, with the ideal quotient. -/
theorem var_law {ι : Type*} [Fintype ι] (x : ι → EReal) (hx : ∀ i, ∃ r : ℝ, x i = (r : EReal)) (n : ℝ) (hn : n ≠ 0)
    (hcard : (Fintype.card ι : ℝ) = n) :
    Ideal.div (∑ i, (x i - Ideal.div (∑ k, x k) (n : EReal)) * (x i - Ideal.div (∑ k, x k) (n : EReal))) (n : EReal)
      = Ideal.div (∑ i, x i * x i) (n : EReal) - Ideal.div (∑ i, x i) (n : EReal) * Ideal.div (∑ i, x i) (n : EReal) := by
  choose f hf using hx
  obtain rfl : x = fun i => (f i : EReal) := funext hf
  simp only [Ideal.div_coe hn, ← coe_sum, ← EReal.coe_mul, ← EReal.coe_sub]
  exact congrArg _ (var_real f n hn hcard)

end Cert.Lib.VarLaw

end
-- ==== Proof.BnLaw.lean ====
/-
  The law that joins the two spellings of batch normalisation over the extended reals.

  For one feature column h of a layer's pre-normalisation activations (50000 entries), the reference takes the mean
  of the squared deviations from the mean, and the kernel the mean of the squares minus the squared mean; each mean
  is a sum divided by the float 50000.0, whose word denotes the real 50000.  On real entries the two agree (the
  variance law); a sum started from the zero word is the plain sum.  Infinite entries are excluded: the law needs
  every entry of the column to be a real number.
-/
import proofs.«132190_j22857815949622_1_alg».proof.Proof.LibVarLaw
import Idealize.ShloMosaic.PureOps.Ideal

noncomputable section

namespace Cert.Bridge.BnLaw

open Idealize.ShloMosaic
open scoped BigOperators

/-- The divisor's word, 50000.0 in f32, denotes the real number 50000. -/
theorem ofBits_50000 : Ideal.ofBits .f32 0x47435000#32 = ((50000 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- A column's mean from the zero word is its mean. -/
theorem mean_eq (h : Fin 50000 → EReal) :
    Ideal.div (Ideal.ofBits .f32 0x00000000#32 + ∑ k, h k) (Ideal.ofBits .f32 0x47435000#32)
      = Ideal.div (∑ k, h k) (Ideal.ofBits .f32 0x47435000#32) := by
  rw [ofBits_zero, zero_add]

/-- The variance law for a real column: the mean of squared deviations from the mean (each sum started from the
    zero word) is the mean of squares minus the squared mean. -/
theorem var_eq (h : Fin 50000 → EReal) (hh : ∀ r, ∃ x : ℝ, h r = (x : EReal)) :
    Ideal.div (Ideal.ofBits .f32 0x00000000#32
        + ∑ k, (h k - Ideal.div (Ideal.ofBits .f32 0x00000000#32 + ∑ j, h j) (Ideal.ofBits .f32 0x47435000#32))
             * (h k - Ideal.div (Ideal.ofBits .f32 0x00000000#32 + ∑ j, h j) (Ideal.ofBits .f32 0x47435000#32)))
        (Ideal.ofBits .f32 0x47435000#32)
      = Ideal.div (∑ k, h k * h k) (Ideal.ofBits .f32 0x47435000#32)
        - Ideal.div (∑ k, h k) (Ideal.ofBits .f32 0x47435000#32) * Ideal.div (∑ k, h k) (Ideal.ofBits .f32 0x47435000#32) := by
  rw [ofBits_zero, zero_add, zero_add, ofBits_50000]
  exact Cert.Lib.VarLaw.var_law h hh 50000 (by norm_num) (by simp)

end Cert.Bridge.BnLaw

end
-- ==== Proof.LibPadReads.lean ====
/-
  Small re-layings read at an entry, over arbitrary extents: an array padded at the END of its leading axis (rows appended
  to a matrix, entries appended to a vector; no padding in front, none between the entries) reads the original inside the
  original's extent, whatever the padding value; a vector laid out as a one-row array reads the vector; the leading
  columns of a two-axis array, sliced out from offset zero, read the array.
-/
import Idealize.ShloMosaic.Lib.Pipeline.Value
import Idealize.ShloMosaic.Lib.ValueIdx

noncomputable section

namespace Cert.Lib.PadReads

open Idealize.ShloMosaic Idealize.ShloMosaic.ValueIdx

/-- An `[a, b]` matrix with `hi` rows appended (to `[t, b]`) reads, at row `p < a`, the matrix at row `p`. -/
theorem pad_tail_rows_apply {α : Type} {a b t hi : ℕ} (x : (⟨2, ![a, b]⟩ : Shape).Idx → α) {u : Shape} (v : u.Idx → α)
    (h : (⟨2, ![a, b]⟩ : Shape).Pads ![0, 0] ![hi, 0] ![0, 0] ⟨2, ![t, b]⟩) (hu : 0 < u.numel) (p : Fin a) (q : Fin b)
    (hp : p.val < t) :
    pad ⟨2, ![t, b]⟩ ![0, 0] ![hi, 0] ![0, 0] x v h hu (ix2 (⟨p.val, hp⟩ : Fin t) q) = x (ix2 p q) := by
  unfold pad
  rw [dif_pos (fun ax => by
    match ax with
    | ⟨0, _⟩ => exact ⟨Nat.zero_le _, Nat.mod_one _, by show (p.val - 0) / (0 + 1) < a; have := p.isLt; simpa using this⟩
    | ⟨1, _⟩ => exact ⟨Nat.zero_le _, Nat.mod_one _, by show (q.val - 0) / (0 + 1) < b; have := q.isLt; simpa using this⟩)]
  refine congrArg x (funext fun ax => Fin.ext ?_)
  match ax with
  | ⟨0, _⟩ => show (p.val - 0) / (0 + 1) = p.val; simp
  | ⟨1, _⟩ => show (q.val - 0) / (0 + 1) = q.val; simp

/-- An `[a]` vector with `hi` entries appended (to `[t]`) reads, at `p < a`, the vector at `p`. -/
theorem pad_tail_vec_apply {α : Type} {a t hi : ℕ} (x : (⟨1, ![a]⟩ : Shape).Idx → α) {u : Shape} (v : u.Idx → α)
    (h : (⟨1, ![a]⟩ : Shape).Pads ![0] ![hi] ![0] ⟨1, ![t]⟩) (hu : 0 < u.numel) (p : Fin a) (hp : p.val < t) :
    pad ⟨1, ![t]⟩ ![0] ![hi] ![0] x v h hu (ix1 (⟨p.val, hp⟩ : Fin t)) = x (ix1 p) := by
  unfold pad
  rw [dif_pos (fun ax => by
    match ax with
    | ⟨0, _⟩ => exact ⟨Nat.zero_le _, Nat.mod_one _, by show (p.val - 0) / (0 + 1) < a; have := p.isLt; simpa using this⟩)]
  refine congrArg x (funext fun ax => Fin.ext ?_)
  match ax with
  | ⟨0, _⟩ => show (p.val - 0) / (0 + 1) = p.val; simp

/-- A `[b]` vector laid out as a `[1, b]` row reads, at `(0, q)`, the vector at `q`: the same row-major position. -/
theorem reshape_row_apply {α : Type} {b : ℕ} (x : (⟨1, ![b]⟩ : Shape).Idx → α)
    (h : (⟨1, ![b]⟩ : Shape).ShapeCasts ⟨2, ![1, b]⟩) (q : Fin b) :
    shapeCast ⟨2, ![1, b]⟩ x h (ix2 (0 : Fin 1) q) = x (ix1 q) :=
  shapeCast_apply x h _ (ix1 q) (by
    rw [Shape.rowMajor_val_one, Shape.rowMajor_val_two]
    show q.val = 0 * b + q.val
    omega)

/-- The leading `b'` columns of an `[a, b]` array, sliced out from offset zero, read the array. -/
theorem slice_lead_cols_apply {α : Type} {a b b' : ℕ} (Y : (⟨2, ![a, b]⟩ : Shape).Idx → α)
    (h : (⟨2, ![a, b]⟩ : Shape).Slices ![0, 0] ⟨2, ![a, b']⟩) (n : Fin a) (j : Fin b') (hj : j.val < b) :
    extractStridedSlice ⟨2, ![a, b']⟩ ![0, 0] Y h (ix2 n j) = Y (ix2 n (⟨j.val, hj⟩ : Fin b)) := by
  refine extractStridedSlice_apply ![0, 0] Y h _ (ix2 n (⟨j.val, hj⟩ : Fin b)) fun ax => ?_
  match ax with
  | ⟨0, _⟩ => show n.val = 0 + n.val; omega
  | ⟨1, _⟩ => show j.val = 0 + j.val; omega

end Cert.Lib.PadReads

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibGcnLaw.lean ====
/-
  The algebra that joins the two arrangements of a graph-convolution layer, over the extended reals.

  One arrangement scales a node's neighbour sum by the node's factor after summing; the other scales each summand by the
  product of the destination's and the source's factors before summing. A factor `c` with `0 ≤ c < ⊤` distributes over
  a finite sum of extended reals whatever the summands are (an infinite summand of either sign is kept by a positive
  finite factor and annihilated by zero on both sides), so the two arrangements agree with no finiteness asked of the
  features. The factor here is `1 / √deg` where the degree is positive and zero elsewhere, which always lies in
  `[0, ⊤)`: the reciprocal root of a positive real is a positive real, and that of `⊤` is `0`.

  Also: a 32-bit index word whose signed value is a row number `0 ≤ n < N` is left alone by the wrap that adds `N` to
  negative words, and clamping its value into `[0, N − 1]` gives `n` back.
-/
import Idealize.ShloMosaic.PureOps.Ideal

noncomputable section

open scoped BigOperators

namespace Cert.Gcn

open Idealize.ShloMosaic

/-- A nonnegative finite factor distributes over a finite sum of extended reals. -/
theorem mul_sum_of_nonneg_of_ne_top {ι : Type*} (s : Finset ι) (c : EReal) (h0 : 0 ≤ c) (hT : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 hT, ih]

/-- THE LAYER LAW. Over the edges `s` into one node whose factor is `c`: scaling the sum of `h e · dsrc e` by `c`
    is summing `h e · (ddst e · dsrc e)`, when every edge of `s` has destination factor `c`. The sums start from
    a zero `z`. -/
theorem layer_law {ι : Type*} (s : Finset ι) (c z : EReal) (hz : z = 0) (h0 : 0 ≤ c) (hT : c ≠ ⊤)
    (h dsrc ddst : ι → EReal) (hd : ∀ e ∈ s, ddst e = c) :
    c * (z + ∑ e ∈ s, h e * dsrc e) = z + ∑ e ∈ s, h e * (ddst e * dsrc e) := by
  subst hz
  rw [zero_add, zero_add, mul_sum_of_nonneg_of_ne_top s c h0 hT]
  refine Finset.sum_congr rfl fun e he => ?_
  rw [hd e he, mul_left_comm]

/-- The reciprocal square root guarded by positivity lies in `[0, ⊤)`. -/
theorem guarded_rsqrt_range (y : EReal) :
    0 ≤ (if 0 < y then Ideal.rsqrt y else 0) ∧ (if 0 < y then Ideal.rsqrt y else 0) ≠ ⊤ := by
  induction y using EReal.rec with
  | bot => simp
  | top => simp
  | coe r =>
    by_cases hr : (0 : EReal) < (r : EReal)
    · have hr' : 0 < r := by exact_mod_cast hr
      rw [if_pos hr, Ideal.rsqrt_coe, if_neg (not_lt.mpr hr'.le), if_neg hr'.ne']
      exact ⟨by exact_mod_cast (inv_nonneg.mpr (Real.sqrt_nonneg r)), EReal.coe_ne_top _⟩
    · rw [if_neg hr]; exact ⟨le_refl _, EReal.zero_ne_top⟩

/-- A word whose signed value is a row number is not negative, so the wrap keeps it; clamped, it is that row. -/
theorem wrap_clamp_of_toInt_eq {N : ℕ} (hN : N < 2 ^ 31) (w : BitVec 32) (n : Fin N) (hw : w.toInt = (n.val : Int)) :
    min (Scalar.select (IntOp.cmpi .slt w 0#32) (IntOp.addi w (BitVec.ofNat 32 N)) w).toInt.toNat (N - 1) = n.val := by
  have hns : w.slt 0#32 = false := by
    rw [BitVec.slt_eq_decide]  -- the signed comparison is the comparison of the signed values
    simp [hw]
  have hsel : Scalar.select (IntOp.cmpi .slt w 0#32) (IntOp.addi w (BitVec.ofNat 32 N)) w = w := by
    unfold Scalar.select IntOp.cmpi
    simp [hns]
  rw [hsel, hw]
  have := n.isLt
  simp only [Int.toNat_natCast]
  omega

end Cert.Gcn

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«132190_j22857815949622_1_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.LibSageMean.lean ====
/-
  THE MEAN OVER IN-NEIGHBOURS, TWO WAYS, over arbitrary extents (nothing here mentions a program).

  A segment sum `s` of shape `[N, C]` is turned into a mean by the in-degree of each row, the degree being itself a
  segment sum of ones over the same index column `D`, kept at least one. One program counts the degree as a vector
  `[N]`, takes the reciprocal `1 / max(deg, 1)`, makes it a column and multiplies; the other counts it as a column
  `[N, 1]` and divides by `max(deg, 1)`.

  The two counts agree because an edge lands on row `i` of either exactly when its signed index is `i`, and each
  landing edge contributes the same one. The two quotients agree on every extended real: the divisor `m = max(deg, 1)`
  is at least one, hence not zero, and off zero the quotient `x / m` is by definition `x * m⁻¹`; so
  `s * (1 / m) = s * (1 * m⁻¹) = s * m⁻¹ = s / m`, with no finiteness asked of `s`.
-/
import proofs.«132190_j22857815949622_1_alg».proof.Proof.LibScatterDims
import proofs.«132190_j22857815949622_1_alg».proof.Proof.LibEdgeReads
import Idealize.ShloMosaic.Lib.ValueIdx
import Idealize.ShloMosaic.PureOps.Ideal.Laws

noncomputable section

open scoped BigOperators

namespace Cert.Lib.MeanAgg

open Idealize.ShloMosaic Idealize.ShloMosaic.ValueIdx Cert.Lib.HostIndex Cert.Lib.EdgeReads

/-- A scatter record over the vector shapes with no window axis, the one operand axis inserted and named by the index,
    is the vector scatter's record (the remaining field is a proof). -/
theorem eq_vecScatterDims {N R : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) : ∃ wf, d = vecScatterDims N R wf := by
  obtain ⟨u, i, s, v, wf⟩ := d
  dsimp only at h1 h2 h3 h4
  subst h1 h2 h3 h4
  exact ⟨wf, rfl⟩

/-- THE HOST'S VECTOR SCATTER-ADD OF ANY RECORD WITH THE VECTOR NUMBERS, READ AT `i`: the operand's element plus the sum
    of the updates whose index, read signed, is `i`. -/
theorem hostScatterAdd_vec_apply {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![R, 1]⟩ w)
    (upd : (⟨1, ![R]⟩ : Shape).Idx → EReal) (i : Fin N) :
    Host.scatterAdd (F := Ideal) (φ := .f32) d x idx upd (ix1 i)
      = x (ix1 i) + ∑ e ∈ Finset.univ.filter (fun e : Fin R => (idx (ix2 e 0)).toInt = (i.val : Int)), upd (ix1 e) := by
  obtain ⟨wf, rfl⟩ := eq_vecScatterDims d h1 h2 h3 h4
  exact scatterAdd_vec_apply wf x idx upd i

/-- The f32 word of 1.0 denotes the extended real one. -/
theorem ofBits_one_f32 : Ideal.ofBits .f32 0x3F800000#32 = 1 := by
  simp [Ideal.ofBits, Ideal.ieee, -EReal.coe_mul]; norm_num

/-- Multiplying by the reciprocal of a divisor that is at least one is dividing by it, on every extended real. -/
theorem mul_recip_eq_div (s d : EReal) : s * Ideal.div 1 (max d 1) = Ideal.div s (max d 1) := by
  have hm : max d 1 ≠ 0 := (lt_of_lt_of_le zero_lt_one (le_max_right d 1)).ne'
  unfold Ideal.div
  rw [if_neg hm, if_neg hm, one_mul]

/-- THE TWO MEANS ARE ONE ARRAY. `zv`, `zc` are the zero-filled operands of the two degree counts, `uv`, `uc` their
    all-ones updates, `ov`, `ov'`, `oc` the all-ones arrays of the reciprocal and of the two floors. -/
theorem mean_mul_recip_eq_div {N R C w : Nat}
    (dv : ScatterDims ⟨1, ![N]⟩ ⟨2, ![R, 1]⟩ ⟨1, ![R]⟩)
    (hv1 : dv.updateWindowDims = []) (hv2 : dv.insertedWindowDims = [0]) (hv3 : dv.scatterDimsToOperandDims = [0])
    (hv4 : dv.indexVectorDim = 1)
    (dc : ScatterDims ⟨2, ![N, 1]⟩ ⟨2, ![R, 1]⟩ ⟨2, ![R, 1]⟩)
    (hc1 : dc.updateWindowDims = [1]) (hc2 : dc.insertedWindowDims = [0]) (hc3 : dc.scatterDimsToOperandDims = [0])
    (hc4 : dc.indexVectorDim = 1)
    (s : (⟨2, ![N, C]⟩ : Shape).Idx → EReal) (D : IVec ⟨2, ![R, 1]⟩ w) (zero : EReal)
    (zv ov ov' : (⟨1, ![N]⟩ : Shape).Idx → EReal) (uv : (⟨1, ![R]⟩ : Shape).Idx → EReal)
    (zc oc : (⟨2, ![N, 1]⟩ : Shape).Idx → EReal) (uc : (⟨2, ![R, 1]⟩ : Shape).Idx → EReal)
    (hzv : ∀ i, zv i = zero) (hov : ∀ i, ov i = 1) (hov' : ∀ i, ov' i = 1) (huv : ∀ i, uv i = 1)
    (hzc : ∀ i, zc i = zero) (hoc : ∀ i, oc i = 1) (huc : ∀ i, uc i = 1)
    (hb1 : (⟨1, ![N]⟩ : Shape).BroadcastsInDim ⟨2, ![N, 1]⟩ ![0])
    (hb2 hb2' : (⟨2, ![N, 1]⟩ : Shape).BroadcastsInDim ⟨2, ![N, C]⟩ ![0, 1]) :
    mulf (F := Ideal) (φ := .f32) s (broadcastInDim ⟨2, ![N, C]⟩ ![0, 1] hb2 (broadcastInDim ⟨2, ![N, 1]⟩ ![0] hb1
        (Host.divf (F := Ideal) (φ := .f32) ov
          (maximumf (F := Ideal) (φ := .f32) (Host.scatterAdd (F := Ideal) (φ := .f32) dv zv D uv) ov'))))
      = Host.divf (F := Ideal) (φ := .f32) s (broadcastInDim ⟨2, ![N, C]⟩ ![0, 1] hb2'
          (maximumf (F := Ideal) (φ := .f32) (Host.scatterAdd (F := Ideal) (φ := .f32) dc zc D uc) oc)) := by
  funext j
  obtain ⟨r, c, rfl⟩ : ∃ (r : Fin N) (c : Fin C), j = ix2 r c := ⟨j 0, j 1, eq_ix2 j⟩
  show s (ix2 r c) * broadcastInDim (s := ⟨2, ![N, 1]⟩) ⟨2, ![N, C]⟩ ![0, 1] hb2 _ (ix2 r c)
      = Ideal.div (s (ix2 r c)) (broadcastInDim (s := ⟨2, ![N, 1]⟩) ⟨2, ![N, C]⟩ ![0, 1] hb2' _ (ix2 r c))
  rw [column_broadcast_apply, column_broadcast_apply, column_of_vector_apply]
  show s (ix2 r c) * Ideal.div (ov (ix1 r)) (max (Host.scatterAdd (F := Ideal) (φ := .f32) dv zv D uv (ix1 r)) (ov' (ix1 r)))
      = Ideal.div (s (ix2 r c)) (max (Host.scatterAdd (F := Ideal) (φ := .f32) dc zc D uc (ix2 r (0 : Fin 1))) (oc (ix2 r (0 : Fin 1))))
  rw [hostScatterAdd_vec_apply dv hv1 hv2 hv3 hv4, hostScatterAdd_rows_apply dc hc1 hc2 hc3 hc4, hov, hov', hoc, hzv, hzc,
    Finset.sum_congr rfl (fun e _ => huv (ix1 e)), Finset.sum_congr rfl (fun e _ => huc (ix2 e (0 : Fin 1)))]
  exact mul_recip_eq_div _ _

end Cert.Lib.MeanAgg

end
-- ==== Proof.LibMeanGcn.lean ====
/-
  THE MEAN-NORMALISED GRAPH-CONVOLUTION AGGREGATION, IN ITS TWO ARRANGEMENTS, over arbitrary extents: `N` nodes, `R`
  edges (self loops included), `C` features. Nothing here mentions a program.

  From a source word `s e` and a target word `t e` per edge (32-bit, read signed), the in-degree of node `n` is
  `deg n = 0 + Σ_{e : t e = n} 1`, the normaliser is `dinv n = 1 / √(deg n)` where the degree is positive and `0`
  elsewhere, and the divisor of the mean is `c n = max (deg n) 1`. A gather reads row `row v e`: the word `v e` with the
  extent added where it is negative, then clamped into the rows; a scatter-add lands edge `e` on the row its target
  word names, or nowhere. With `coef e = dinv (row s e) · dinv (row t e)`:

    one arrangement    agg (n, f) = 0 + Σ_{e : t e = n} h (row s e, f) · (coef e / c (row t e))
    the other          agg (n, f) = (0 + Σ_{e : t e = n} h (row s e, f) · coef e) / c n

  They are the same array on ALL extended reals. An edge that lands on `n` has a target word whose signed value is the
  row `n`, so the wrap keeps it and the clamp returns `n`: `c (row t e) = c n`. The divisor `c n` is at least one, so it
  is not zero and division by it is multiplication by its inverse `k`, with `0 ≤ k < ⊤` (the inverse of `⊤` is `0`);
  such a factor distributes over a finite sum of extended reals whatever the summands are.

  Also: when every entry of `h` is a real, every entry of the aggregate is. The degree is a count, hence a real; the
  guarded reciprocal root lies in `[0, ⊤)`, hence is a real; a finite sum of products of reals is a real; and a real
  divided by a real that is at least one is a real.
-/
import proofs.«132190_j22857815949622_1_alg».proof.Proof.LibHostIndex
import proofs.«132190_j22857815949622_1_alg».proof.Proof.LibGcnLaw
import proofs.«132190_j22857815949622_1_alg».proof.Proof.LibEdgeReads
import proofs.«132190_j22857815949622_1_alg».proof.Proof.LibSageMean
import Idealize.ShloMosaic.PureOps.Ideal.Laws
import Idealize.ShloMosaic.Lib.ValueIdx
import Idealize.ShloMosaic.Lib.Pipeline.Value

noncomputable section

open scoped BigOperators

namespace Cert.Lib.MeanGcn

open Idealize.ShloMosaic Idealize.ShloMosaic.ValueIdx Cert.Lib.HostIndex Cert.Lib.EdgeReads Cert.Lib.MeanAgg Cert.Gcn

/-! ## Reals among the extended reals -/

/-- An extended real that is a real. -/
def IsR (x : EReal) : Prop := ∃ r : ℝ, x = (r : EReal)

theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type*} (S : Finset ι) (f : ι → EReal) (hf : ∀ e ∈ S, IsR (f e)) : IsR (∑ e ∈ S, f e) := by
  classical
  induction S using Finset.induction_on with
  | empty => simpa using IsR.zero
  | insert a S ha ih =>
    rw [Finset.sum_insert ha]
    exact (hf a (Finset.mem_insert_self a S)).add (ih fun e he => hf e (Finset.mem_insert_of_mem he))
/-- An extended real in `[0, ⊤)` is a real. -/
theorem IsR.of_range {x : EReal} (h0 : 0 ≤ x) (hT : x ≠ ⊤) : IsR x := by
  induction x using EReal.rec with
  | bot => exact absurd h0 (by simp)
  | top => exact absurd rfl hT
  | coe r => exact ⟨r, rfl⟩
/-- A real divided by a real that is at least one is a real. -/
theorem IsR.div_of_one_le {x c : EReal} (hx : IsR x) (hc : IsR c) (h1 : 1 ≤ c) : IsR (Ideal.div x c) := by
  obtain ⟨a, rfl⟩ := hx; obtain ⟨b, rfl⟩ := hc
  have hb : (1 : ℝ) ≤ b := by exact_mod_cast h1
  have hb0 : b ≠ 0 := by linarith
  rw [Ideal.div_coe hb0]
  exact ⟨a * (1 / b), (EReal.coe_mul a (1 / b)).symm⟩

/-! ## The algebra -/

/-- The inverse of an extended real that is at least one lies in `[0, ⊤)`. -/
theorem inv_range_of_one_le {c : EReal} (h1 : 1 ≤ c) : 0 ≤ c⁻¹ ∧ c⁻¹ ≠ ⊤ := by
  induction c using EReal.rec with
  | bot =>
    have hb : (⊥ : EReal) < 1 := by exact_mod_cast EReal.bot_lt_coe 1
    exact absurd h1 (not_le.mpr hb)
  | top => simp
  | coe r =>
    have hr : (1 : ℝ) ≤ r := by exact_mod_cast h1
    rw [← EReal.coe_inv]
    exact ⟨by exact_mod_cast inv_nonneg.mpr (by linarith), EReal.coe_ne_top _⟩

/-- Division by an extended real that is at least one is multiplication by its inverse. -/
theorem div_eq_mul_inv_of_one_le (x : EReal) {c : EReal} (h1 : 1 ≤ c) : Ideal.div x c = x * c⁻¹ := by
  have hc : c ≠ 0 := (lt_of_lt_of_le zero_lt_one h1).ne'
  unfold Ideal.div
  rw [if_neg hc]

/-- THE LAW. Over the edges `S` into one node whose divisor is `c ≥ 1`: dividing each summand's coefficient by the
    divisor read at the edge (which is `c` on `S`) is dividing the sum by `c`. The sums start from zero. -/
theorem sum_div_law {ι : Type*} (S : Finset ι) (c : EReal) (h1 : 1 ≤ c) (a b g : ι → EReal) (hg : ∀ e ∈ S, g e = c) :
    0 + ∑ e ∈ S, a e * Ideal.div (b e) (g e) = Ideal.div (0 + ∑ e ∈ S, a e * b e) c := by
  obtain ⟨k0, kT⟩ := inv_range_of_one_le h1
  rw [zero_add, zero_add, div_eq_mul_inv_of_one_le _ h1, mul_comm, mul_sum_of_nonneg_of_ne_top S _ k0 kT]
  refine Finset.sum_congr rfl fun e he => ?_
  rw [hg e he, div_eq_mul_inv_of_one_le _ h1, ← mul_assoc, mul_comm]

/-! ## The layer's operations, as the host spells them -/

/-- The shape facts the layer's layout operations cite. -/
structure Facts (N R C : ℕ) : Prop where
  bS_R : (⟨0, ![]⟩ : Shape).BroadcastsInDim ⟨1, ![R]⟩ (![] : Fin 0 → Fin 1)
  bS_N : (⟨0, ![]⟩ : Shape).BroadcastsInDim ⟨1, ![N]⟩ (![] : Fin 0 → Fin 1)
  bS_NC : (⟨0, ![]⟩ : Shape).BroadcastsInDim ⟨2, ![N, C]⟩ (![] : Fin 0 → Fin 2)
  bR_R1 : (⟨1, ![R]⟩ : Shape).BroadcastsInDim ⟨2, ![R, 1]⟩ (![0] : Fin 1 → Fin 2)
  bR1_RC : (⟨2, ![R, 1]⟩ : Shape).BroadcastsInDim ⟨2, ![R, C]⟩ (![0, 1] : Fin 2 → Fin 2)

section Defs

variable {N R C : ℕ} (fx : Facts N R C)
  (sdV : ScatterDims ⟨1, ![N]⟩ ⟨2, ![R, 1]⟩ ⟨1, ![R]⟩)
  (gdV : GatherDims ⟨1, ![N]⟩ ⟨2, ![R, 1]⟩ ⟨1, ![R]⟩)
  (gdM : GatherDims ⟨2, ![N, C]⟩ ⟨2, ![R, 1]⟩ ⟨2, ![R, C]⟩)
  (sdM : ScatterDims ⟨2, ![N, C]⟩ ⟨2, ![R, 1]⟩ ⟨2, ![R, C]⟩)

/-- A per-edge vector as a column. -/
def col {α : Type} (v : (⟨1, ![R]⟩ : Shape).Idx → α) : (⟨2, ![R, 1]⟩ : Shape).Idx → α :=
  broadcastInDim ⟨2, ![R, 1]⟩ ![0] fx.bR_R1 v

/-- The index wrap: the extent added where the word is negative. -/
def wrap (v : IVec ⟨1, ![R]⟩ 32) : IVec ⟨1, ![R]⟩ 32 :=
  select (cmpi .slt v (broadcastInDim ⟨1, ![R]⟩ ![] fx.bS_R (constantI ⟨0, ![]⟩ 32 0#32)))
    (addi v (broadcastInDim ⟨1, ![R]⟩ ![] fx.bS_R (constantI ⟨0, ![]⟩ 32 (BitVec.ofNat 32 N)))) v

/-- The in-degree: ones scatter-added at the target words into zeros. -/
def deg (t : IVec ⟨1, ![R]⟩ 32) : FVec Ideal ⟨1, ![N]⟩ .f32 :=
  Host.scatterAdd (F := Ideal) sdV
    (broadcastInDim ⟨1, ![N]⟩ ![] fx.bS_N (constant (F := Ideal) ⟨0, ![]⟩ .f32 0x00000000#32))
    (col fx t)
    (broadcastInDim ⟨1, ![R]⟩ ![] fx.bS_R (constant (F := Ideal) ⟨0, ![]⟩ .f32 0x3F800000#32))

/-- The normaliser: the reciprocal root of the degree where it is positive, zero elsewhere. -/
def dinv (d : FVec Ideal ⟨1, ![N]⟩ .f32) : FVec Ideal ⟨1, ![N]⟩ .f32 :=
  select (cmpf .ogt d (broadcastInDim ⟨1, ![N]⟩ ![] fx.bS_N (constant (F := Ideal) ⟨0, ![]⟩ .f32 0x00000000#32)))
    (Host.rsqrt d)
    (broadcastInDim ⟨1, ![N]⟩ ![] fx.bS_N (constant (F := Ideal) ⟨0, ![]⟩ .f32 0x00000000#32))

/-- The mean's divisor: the degree kept at least one. -/
def cmax (d : FVec Ideal ⟨1, ![N]⟩ .f32) : FVec Ideal ⟨1, ![N]⟩ .f32 :=
  maximumf d (broadcastInDim ⟨1, ![N]⟩ ![] fx.bS_N (constant (F := Ideal) ⟨0, ![]⟩ .f32 0x3F800000#32))

/-- The symmetric coefficient of an edge: the normalisers gathered at its two ends, multiplied. -/
def coef (dv : FVec Ideal ⟨1, ![N]⟩ .f32) (s t : IVec ⟨1, ![R]⟩ 32) : FVec Ideal ⟨1, ![R]⟩ .f32 :=
  mulf (Host.gather gdV dv (col fx (wrap fx s))) (Host.gather gdV dv (col fx (wrap fx t)))

/-- The coefficient divided by the divisor gathered at the target. -/
def coefK (dv cm : FVec Ideal ⟨1, ![N]⟩ .f32) (s t : IVec ⟨1, ![R]⟩ 32) : FVec Ideal ⟨1, ![R]⟩ .f32 :=
  Host.divf (coef fx gdV dv s t) (Host.gather gdV cm (col fx (wrap fx t)))

/-- The messages `h[src] · cf` scatter-added at the target words into zeros. -/
def aggOf (h : FVec Ideal ⟨2, ![N, C]⟩ .f32) (s t : IVec ⟨1, ![R]⟩ 32) (cf : FVec Ideal ⟨1, ![R]⟩ .f32) :
    FVec Ideal ⟨2, ![N, C]⟩ .f32 :=
  Host.scatterAdd (F := Ideal) sdM
    (broadcastInDim ⟨2, ![N, C]⟩ ![] fx.bS_NC (constant (F := Ideal) ⟨0, ![]⟩ .f32 0x00000000#32))
    (col fx t)
    (mulf (Host.gather gdM h (col fx (wrap fx s))) (broadcastInDim ⟨2, ![R, C]⟩ ![0, 1] fx.bR1_RC (col fx cf)))

/-- The arrangement that divides each edge's coefficient. -/
def kagg (h : FVec Ideal ⟨2, ![N, C]⟩ .f32) (s t : IVec ⟨1, ![R]⟩ 32) : FVec Ideal ⟨2, ![N, C]⟩ .f32 :=
  aggOf fx gdM sdM h s t (coefK fx gdV (dinv fx (deg fx sdV t)) (cmax fx (deg fx sdV t)) s t)

/-- The arrangement that divides the sum; the divisor is made a column and broadcast along the features. -/
def ragg (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    (h : FVec Ideal ⟨2, ![N, C]⟩ .f32) (s t : IVec ⟨1, ![R]⟩ 32) : FVec Ideal ⟨2, ![N, C]⟩ .f32 :=
  Host.divf (aggOf fx gdM sdM h s t (coef fx gdV (dinv fx (deg fx sdV t)) s t))
    (broadcastInDim ⟨2, ![N, C]⟩ ![0, 1] bN1_NC (broadcastInDim ⟨2, ![N, 1]⟩ ![0] bN_N1 (cmax fx (deg fx sdV t))))

end Defs

/-! ## The operations read at an index -/

section Reads

variable {N R C : ℕ} (fx : Facts N R C)

/-- A scalar broadcast reads the scalar. -/
theorem scalar_bcast_apply {α : Type} {t : Shape}
    (h : (⟨0, ![]⟩ : Shape).BroadcastsInDim t (![] : Fin 0 → Fin t.rank)) (y : (⟨0, ![]⟩ : Shape).Idx → α) (j : t.Idx) :
    broadcastInDim t ![] h y j = y (fun a => a.elim0) :=
  broadcastInDim_apply _ h y j (fun a => a.elim0) (fun a => a.elim0)

/-- The f32 word of 0.0 denotes zero. -/
theorem ofBits_zero_f32 : Ideal.ofBits .f32 0x00000000#32 = 0 := by
  simp [Ideal.ofBits, Ideal.ieee]

theorem col_apply {α : Type} (v : (⟨1, ![R]⟩ : Shape).Idx → α) (e : Fin R) (u : Fin 1) :
    col fx v (ix2 e u) = v (ix1 e) :=
  column_of_vector_apply v fx.bR_R1 e u

/-- The wrap of one word. -/
def wrapW (N : ℕ) (w : BitVec 32) : BitVec 32 :=
  Scalar.select (IntOp.cmpi .slt w 0#32) (IntOp.addi w (BitVec.ofNat 32 N)) w

theorem wrap_apply (v : IVec ⟨1, ![R]⟩ 32) (i : (⟨1, ![R]⟩ : Shape).Idx) : wrap fx v i = wrapW N (v i) := by
  show Scalar.select (IntOp.cmpi .slt (v i) (broadcastInDim ⟨1, ![R]⟩ ![] fx.bS_R (constantI ⟨0, ![]⟩ 32 0#32) i))
      (IntOp.addi (v i) (broadcastInDim ⟨1, ![R]⟩ ![] fx.bS_R (constantI ⟨0, ![]⟩ 32 (BitVec.ofNat 32 N)) i)) (v i) = _
  rw [scalar_bcast_apply, scalar_bcast_apply]
  rfl

/-- The row a gather through the wrap reads for edge `e`: the wrapped word, signed, clamped into the rows. -/
def rowOf (hN : 0 < N) (v : IVec ⟨1, ![R]⟩ 32) (e : Fin R) : Fin N :=
  ⟨min (wrapW N (v (ix1 e))).toInt.toNat (N - 1), by omega⟩

/-- An edge whose word names the row `n` reads row `n` through the wrap. -/
theorem rowOf_eq (hN : 0 < N) (hN' : N < 2 ^ 31) (v : IVec ⟨1, ![R]⟩ 32) (e : Fin R) (n : Fin N)
    (hw : (v (ix1 e)).toInt = (n.val : Int)) : rowOf hN v e = n :=
  Fin.ext (wrap_clamp_of_toInt_eq hN' (v (ix1 e)) n hw)

/-- The edges that land on node `n`. -/
def inTo (t : IVec ⟨1, ![R]⟩ 32) (n : Fin N) : Finset (Fin R) :=
  Finset.univ.filter fun e => (t (ix1 e)).toInt = (n.val : Int)

theorem eq_vecGatherDims (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) : ∃ wf, d = vecGatherDims N R wf := by
  obtain ⟨o, cs, ob, sb, sm, iv, ss, wf⟩ := d
  dsimp only at h1 h2 h3 h4 h5 h6 h7
  subst h1 h2 h3 h4 h5 h6 h7
  exact ⟨wf, rfl⟩

variable {sdV : ScatterDims ⟨1, ![N]⟩ ⟨2, ![R, 1]⟩ ⟨1, ![R]⟩}
  {gdV : GatherDims ⟨1, ![N]⟩ ⟨2, ![R, 1]⟩ ⟨1, ![R]⟩}
  {gdM : GatherDims ⟨2, ![N, C]⟩ ⟨2, ![R, 1]⟩ ⟨2, ![R, C]⟩}
  {sdM : ScatterDims ⟨2, ![N, C]⟩ ⟨2, ![R, 1]⟩ ⟨2, ![R, C]⟩}

/-- A vector gathered through the wrap, at edge `e`. -/
theorem gatherV_apply (hN : 0 < N) (hg : ∃ wf, gdV = vecGatherDims N R wf) {α : Type}
    (x : (⟨1, ![N]⟩ : Shape).Idx → α) (v : IVec ⟨1, ![R]⟩ 32) (e : Fin R) :
    Host.gather gdV x (col fx (wrap fx v)) (ix1 e) = x (ix1 (rowOf hN v e)) := by
  obtain ⟨wf, rfl⟩ := hg
  rw [gather_vec_apply hN wf]
  refine congrArg x (congrArg ix1 (Fin.ext ?_))
  show min (col fx (wrap fx v) (ix2 e 0)).toInt.toNat (N - 1) = min (wrapW N (v (ix1 e))).toInt.toNat (N - 1)
  rw [col_apply, wrap_apply]

/-- A matrix's rows gathered through the wrap, at `(e, f)`. -/
theorem gatherM_apply (hN : 0 < N) (hg : ∃ wf, gdM = rowGatherDims N R C wf) {α : Type}
    (x : (⟨2, ![N, C]⟩ : Shape).Idx → α) (v : IVec ⟨1, ![R]⟩ 32) (e : Fin R) (f : Fin C) :
    Host.gather gdM x (col fx (wrap fx v)) (ix2 e f) = x (ix2 (rowOf hN v e) f) := by
  obtain ⟨wf, rfl⟩ := hg
  rw [gather_rows_apply hN wf]
  refine congrArg x (congrArg (fun a => ix2 a f) (Fin.ext ?_))
  show min (col fx (wrap fx v) (ix2 e 0)).toInt.toNat (N - 1) = min (wrapW N (v (ix1 e))).toInt.toNat (N - 1)
  rw [col_apply, wrap_apply]

/-- The degree of node `n`, as a value. -/
def degV (t : IVec ⟨1, ![R]⟩ 32) (n : Fin N) : EReal := 0 + ∑ _e ∈ inTo t n, (1 : EReal)

theorem deg_apply (hs : ∃ wf, sdV = vecScatterDims N R wf) (t : IVec ⟨1, ![R]⟩ 32) (n : Fin N) :
    deg fx sdV t (ix1 n) = degV t n := by
  obtain ⟨wf, rfl⟩ := hs
  refine (scatterAdd_vec_apply wf _ _ _ n).trans ?_
  have hz : broadcastInDim ⟨1, ![N]⟩ ![] fx.bS_N (constant (F := Ideal) ⟨0, ![]⟩ .f32 0x00000000#32) (ix1 n) = 0 :=
    (scalar_bcast_apply _ _ _).trans ofBits_zero_f32
  have ho : ∀ e : Fin R,
      broadcastInDim ⟨1, ![R]⟩ ![] fx.bS_R (constant (F := Ideal) ⟨0, ![]⟩ .f32 0x3F800000#32) (ix1 e) = 1 :=
    fun e => (scalar_bcast_apply _ _ _).trans ofBits_one_f32
  rw [hz]
  simp only [ho, col_apply]
  rfl

/-- The normaliser of node `n`, as a value. -/
def dinvV (t : IVec ⟨1, ![R]⟩ 32) (n : Fin N) : EReal :=
  if 0 < degV t n then Ideal.rsqrt (degV t n) else 0

/-- The mean's divisor at node `n`, as a value. -/
def cmaxV (t : IVec ⟨1, ![R]⟩ 32) (n : Fin N) : EReal := max (degV t n) 1

theorem select_ogt_zero (y a b : EReal) : Scalar.select (Ideal.cmp .ogt y 0) a b = if 0 < y then a else b := by
  by_cases h : 0 < y <;> simp [Scalar.select, Ideal.cmp, h]

theorem dinv_apply (hs : ∃ wf, sdV = vecScatterDims N R wf) (t : IVec ⟨1, ![R]⟩ 32) (n : Fin N) :
    dinv fx (deg fx sdV t) (ix1 n) = dinvV t n := by
  show Scalar.select (Ideal.cmp .ogt (deg fx sdV t (ix1 n))
      (broadcastInDim ⟨1, ![N]⟩ ![] fx.bS_N (constant (F := Ideal) ⟨0, ![]⟩ .f32 0x00000000#32) (ix1 n)))
      (Ideal.rsqrt (deg fx sdV t (ix1 n)))
      (broadcastInDim ⟨1, ![N]⟩ ![] fx.bS_N (constant (F := Ideal) ⟨0, ![]⟩ .f32 0x00000000#32) (ix1 n)) = _
  have hz : broadcastInDim ⟨1, ![N]⟩ ![] fx.bS_N (constant (F := Ideal) ⟨0, ![]⟩ .f32 0x00000000#32) (ix1 n) = 0 :=
    (scalar_bcast_apply _ _ _).trans ofBits_zero_f32
  rw [hz, deg_apply fx hs, select_ogt_zero]
  rfl

theorem cmax_apply (hs : ∃ wf, sdV = vecScatterDims N R wf) (t : IVec ⟨1, ![R]⟩ 32) (n : Fin N) :
    cmax fx (deg fx sdV t) (ix1 n) = cmaxV t n := by
  show max (deg fx sdV t (ix1 n))
      (broadcastInDim ⟨1, ![N]⟩ ![] fx.bS_N (constant (F := Ideal) ⟨0, ![]⟩ .f32 0x3F800000#32) (ix1 n)) = _
  have ho : broadcastInDim ⟨1, ![N]⟩ ![] fx.bS_N (constant (F := Ideal) ⟨0, ![]⟩ .f32 0x3F800000#32) (ix1 n) = 1 :=
    (scalar_bcast_apply _ _ _).trans ofBits_one_f32
  rw [ho, deg_apply fx hs]
  rfl

/-- The symmetric coefficient of edge `e`, as a value. -/
def coefV (hN : 0 < N) (s t : IVec ⟨1, ![R]⟩ 32) (e : Fin R) : EReal :=
  dinvV t (rowOf hN s e) * dinvV t (rowOf hN t e)

theorem coef_apply (hN : 0 < N) (hs : ∃ wf, sdV = vecScatterDims N R wf) (hg : ∃ wf, gdV = vecGatherDims N R wf)
    (s t : IVec ⟨1, ![R]⟩ 32) (e : Fin R) :
    coef fx gdV (dinv fx (deg fx sdV t)) s t (ix1 e) = coefV hN s t e := by
  show Host.gather gdV (dinv fx (deg fx sdV t)) (col fx (wrap fx s)) (ix1 e)
      * Host.gather gdV (dinv fx (deg fx sdV t)) (col fx (wrap fx t)) (ix1 e) = _
  rw [gatherV_apply fx hN hg, gatherV_apply fx hN hg, dinv_apply fx hs, dinv_apply fx hs]
  rfl

theorem coefK_apply (hN : 0 < N) (hs : ∃ wf, sdV = vecScatterDims N R wf) (hg : ∃ wf, gdV = vecGatherDims N R wf)
    (s t : IVec ⟨1, ![R]⟩ 32) (e : Fin R) :
    coefK fx gdV (dinv fx (deg fx sdV t)) (cmax fx (deg fx sdV t)) s t (ix1 e)
      = Ideal.div (coefV hN s t e) (cmaxV t (rowOf hN t e)) := by
  show Ideal.div (coef fx gdV (dinv fx (deg fx sdV t)) s t (ix1 e))
      (Host.gather gdV (cmax fx (deg fx sdV t)) (col fx (wrap fx t)) (ix1 e)) = _
  rw [coef_apply fx hN hs hg, gatherV_apply fx hN hg, cmax_apply fx hs]

/-- The scatter-added messages at `(n, f)`: a sum over the edges that land on `n`. -/
theorem aggOf_apply (hN : 0 < N) (hg : ∃ wf, gdM = rowGatherDims N R C wf) (hs : ∃ wf, sdM = rowScatterDims N R C wf)
    (h : FVec Ideal ⟨2, ![N, C]⟩ .f32) (s t : IVec ⟨1, ![R]⟩ 32) (cf : FVec Ideal ⟨1, ![R]⟩ .f32) (n : Fin N) (f : Fin C) :
    aggOf fx gdM sdM h s t cf (ix2 n f) = 0 + ∑ e ∈ inTo t n, h (ix2 (rowOf hN s e) f) * cf (ix1 e) := by
  obtain ⟨wf, rfl⟩ := hs
  refine (scatterAdd_rows_apply wf _ _ _ n f).trans ?_
  have hz : broadcastInDim ⟨2, ![N, C]⟩ ![] fx.bS_NC (constant (F := Ideal) ⟨0, ![]⟩ .f32 0x00000000#32) (ix2 n f) = 0 :=
    (scalar_bcast_apply _ _ _).trans ofBits_zero_f32
  have hm : ∀ e : Fin R,
      mulf (F := Ideal) (φ := .f32) (Host.gather gdM h (col fx (wrap fx s)))
        (broadcastInDim ⟨2, ![R, C]⟩ ![0, 1] fx.bR1_RC (col fx cf)) (ix2 e f)
        = h (ix2 (rowOf hN s e) f) * cf (ix1 e) := fun e => by
    show Host.gather gdM h (col fx (wrap fx s)) (ix2 e f)
        * broadcastInDim ⟨2, ![R, C]⟩ ![0, 1] fx.bR1_RC (col fx cf) (ix2 e f) = _
    rw [gatherM_apply fx hN hg, column_broadcast_apply, col_apply]
  rw [hz]
  simp only [hm, col_apply]
  rfl

end Reads

/-! ## The two arrangements are one array; its entries are reals when the features' are -/

section Main

variable {N R C : ℕ}

/-- THE TWO ARRANGEMENTS AGREE, on all extended reals, whatever facts and records each side cites. -/
theorem kagg_eq_ragg (hN : 0 < N) (hN' : N < 2 ^ 31) (fx fx' : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV sdV' : ScatterDims ⟨1, ![N]⟩ ⟨2, ![R, 1]⟩ ⟨1, ![R]⟩}
    {gdV gdV' : GatherDims ⟨1, ![N]⟩ ⟨2, ![R, 1]⟩ ⟨1, ![R]⟩}
    {gdM gdM' : GatherDims ⟨2, ![N, C]⟩ ⟨2, ![R, 1]⟩ ⟨2, ![R, C]⟩}
    {sdM sdM' : ScatterDims ⟨2, ![N, C]⟩ ⟨2, ![R, 1]⟩ ⟨2, ![R, C]⟩}
    (hsV : ∃ wf, sdV = vecScatterDims N R wf) (hsV' : ∃ wf, sdV' = vecScatterDims N R wf)
    (hgV : ∃ wf, gdV = vecGatherDims N R wf) (hgV' : ∃ wf, gdV' = vecGatherDims N R wf)
    (hgM : ∃ wf, gdM = rowGatherDims N R C wf) (hgM' : ∃ wf, gdM' = rowGatherDims N R C wf)
    (hsM : ∃ wf, sdM = rowScatterDims N R C wf) (hsM' : ∃ wf, sdM' = rowScatterDims N R C wf)
    (h : FVec Ideal ⟨2, ![N, C]⟩ .f32) (s t : IVec ⟨1, ![R]⟩ 32) :
    kagg fx sdV gdV gdM sdM h s t = ragg fx' sdV' gdV' gdM' sdM' bN_N1 bN1_NC h s t := by
  funext i
  obtain ⟨n, f, rfl⟩ : ∃ (n : Fin N) (f : Fin C), i = ix2 n f := ⟨i 0, i 1, eq_ix2 i⟩
  show aggOf fx gdM sdM h s t (coefK fx gdV (dinv fx (deg fx sdV t)) (cmax fx (deg fx sdV t)) s t) (ix2 n f)
      = Ideal.div (aggOf fx' gdM' sdM' h s t (coef fx' gdV' (dinv fx' (deg fx' sdV' t)) s t) (ix2 n f))
          (broadcastInDim ⟨2, ![N, C]⟩ ![0, 1] bN1_NC
            (broadcastInDim ⟨2, ![N, 1]⟩ ![0] bN_N1 (cmax fx' (deg fx' sdV' t))) (ix2 n f))
  rw [aggOf_apply fx hN hgM hsM, aggOf_apply fx' hN hgM' hsM', column_broadcast_apply, column_of_vector_apply,
    cmax_apply fx' hsV']
  simp only [coefK_apply fx hN hsV hgV, coef_apply fx' hN hsV' hgV']
  refine sum_div_law (inTo t n) (cmaxV t n) (le_max_right _ _) _ _ (fun e => cmaxV t (rowOf hN t e)) fun e he => ?_
  rw [rowOf_eq hN hN' t e n (Finset.mem_filter.mp he).2]

/-- The degree is a count of ones: a real. -/
theorem degV_real (t : IVec ⟨1, ![R]⟩ 32) (n : Fin N) : IsR (degV t n) :=
  IsR.zero.add (IsR.sum _ _ fun _ _ => IsR.one)

theorem dinvV_real (t : IVec ⟨1, ![R]⟩ 32) (n : Fin N) : IsR (dinvV t n) :=
  IsR.of_range (guarded_rsqrt_range _).1 (guarded_rsqrt_range _).2

theorem cmaxV_real (t : IVec ⟨1, ![R]⟩ 32) (n : Fin N) : IsR (cmaxV t n) := by
  obtain ⟨r, hr⟩ := degV_real t n
  unfold cmaxV
  rw [hr, ← EReal.coe_one, ← EReal.coe_strictMono.monotone.map_max]
  exact ⟨_, rfl⟩

/-- The dividing-after arrangement at `(n, f)`, as a value. -/
theorem ragg_apply (hN : 0 < N) (fx : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV : ScatterDims ⟨1, ![N]⟩ ⟨2, ![R, 1]⟩ ⟨1, ![R]⟩} {gdV : GatherDims ⟨1, ![N]⟩ ⟨2, ![R, 1]⟩ ⟨1, ![R]⟩}
    {gdM : GatherDims ⟨2, ![N, C]⟩ ⟨2, ![R, 1]⟩ ⟨2, ![R, C]⟩} {sdM : ScatterDims ⟨2, ![N, C]⟩ ⟨2, ![R, 1]⟩ ⟨2, ![R, C]⟩}
    (hsV : ∃ wf, sdV = vecScatterDims N R wf) (hgV : ∃ wf, gdV = vecGatherDims N R wf)
    (hgM : ∃ wf, gdM = rowGatherDims N R C wf) (hsM : ∃ wf, sdM = rowScatterDims N R C wf)
    (h : FVec Ideal ⟨2, ![N, C]⟩ .f32) (s t : IVec ⟨1, ![R]⟩ 32) (n : Fin N) (f : Fin C) :
    ragg fx sdV gdV gdM sdM bN_N1 bN1_NC h s t (ix2 n f)
      = Ideal.div (0 + ∑ e ∈ inTo t n, h (ix2 (rowOf hN s e) f) * coefV hN s t e) (cmaxV t n) := by
  show Ideal.div (aggOf fx gdM sdM h s t (coef fx gdV (dinv fx (deg fx sdV t)) s t) (ix2 n f))
      (broadcastInDim ⟨2, ![N, C]⟩ ![0, 1] bN1_NC
        (broadcastInDim ⟨2, ![N, 1]⟩ ![0] bN_N1 (cmax fx (deg fx sdV t))) (ix2 n f)) = _
  rw [aggOf_apply fx hN hgM hsM, column_broadcast_apply, column_of_vector_apply, cmax_apply fx hsV]
  simp only [coef_apply fx hN hsV hgV]

/-- EVERY ENTRY OF THE AGGREGATE IS A REAL when every entry of the features is. -/
theorem ragg_real (hN : 0 < N) (fx : Facts N R C)
    (bN_N1 : (⟨1, ![N]⟩ : Shape).BroadcastsInDim ⟨2, ![N, 1]⟩ (![0] : Fin 1 → Fin 2))
    (bN1_NC : (⟨2, ![N, 1]⟩ : Shape).BroadcastsInDim ⟨2, ![N, C]⟩ (![0, 1] : Fin 2 → Fin 2))
    {sdV : ScatterDims ⟨1, ![N]⟩ ⟨2, ![R, 1]⟩ ⟨1, ![R]⟩} {gdV : GatherDims ⟨1, ![N]⟩ ⟨2, ![R, 1]⟩ ⟨1, ![R]⟩}
    {gdM : GatherDims ⟨2, ![N, C]⟩ ⟨2, ![R, 1]⟩ ⟨2, ![R, C]⟩} {sdM : ScatterDims ⟨2, ![N, C]⟩ ⟨2, ![R, 1]⟩ ⟨2, ![R, C]⟩}
    (hsV : ∃ wf, sdV = vecScatterDims N R wf) (hgV : ∃ wf, gdV = vecGatherDims N R wf)
    (hgM : ∃ wf, gdM = rowGatherDims N R C wf) (hsM : ∃ wf, sdM = rowScatterDims N R C wf)
    (h : FVec Ideal ⟨2, ![N, C]⟩ .f32) (s t : IVec ⟨1, ![R]⟩ 32) (hh : ∀ i, IsR (h i)) (i : (⟨2, ![N, C]⟩ : Shape).Idx) :
    IsR (ragg fx sdV gdV gdM sdM bN_N1 bN1_NC h s t i) := by
  obtain ⟨n, f, rfl⟩ : ∃ (n : Fin N) (f : Fin C), i = ix2 n f := ⟨i 0, i 1, eq_ix2 i⟩
  rw [ragg_apply hN fx bN_N1 bN1_NC hsV hgV hgM hsM]
  have hsum : IsR (0 + ∑ e ∈ inTo t n, h (ix2 (rowOf hN s e) f) * coefV hN s t e) :=
    IsR.zero.add (IsR.sum _ _ fun e _ => (hh _).mul ((dinvV_real t _).mul (dinvV_real t _)))
  exact IsR.div_of_one_le hsum (cmaxV_real t n) (le_max_right _ _)

/-- A contraction of two arrays of reals, started from zero, is an array of reals. -/
theorem matmul_real {sl sr so : Shape} (d : DotDims sl sr so) (l : sl.Idx → EReal) (r : sr.Idx → EReal)
    (hl : ∀ i, IsR (l i)) (hr : ∀ i, IsR (r i)) (j : so.Idx) : IsR (Ideal.matmul d l r (fun _ => 0) j) :=
  IsR.zero.add (IsR.sum _ _ fun k _ => (hl _).mul (hr _))

end Main

end Cert.Lib.MeanGcn

end
-- ==== Proof.LibGlueEntries.lean ====
/-
  WHICH HOST OPERATIONS KEEP A PROPERTY OF THE ENTRIES, whatever their dimension numbers and whatever the index array
  (nothing here mentions a program).

  Every entry of a gather's result is an entry of its operand, and so is every entry of a broadcast's result: a property
  that all entries of the operand have, all entries of the result have. An index out of range only changes WHICH entry a
  gather reads (the start is clamped); it never produces a new value.

  An entry of an accumulating scatter's result is the operand's entry plus a finite sum of update entries (the updates
  whose landing place is that entry; an update whose index is out of range lands nowhere). So the result's entries are
  reals when the operand's and the updates' are, and they are nonnegative when the operand's and the updates' are.

  Also: the reciprocal square root of `max x 1`, for `x` a real, is a real, because `max x 1` is a real that is at
  least one, hence positive; and the entrywise reciprocal square root, maximum and product read at an entry.
-/
import proofs.«132190_j22857815949622_1_alg».proof.Proof.LibMeanGcn
import Idealize.ShloMosaic.PureOps.Ideal
import Idealize.ShloMosaic.PureOps.Ideal.Laws

noncomputable section

open scoped BigOperators

namespace Cert.Lib.GlueEntries

open Idealize.ShloMosaic Cert.Lib.MeanGcn

/-- A gather's entries are entries of its operand. -/
theorem gather_entries {α : Type} {s si t : Shape} {w : ℕ} (P : α → Prop) (d : GatherDims s si t) (x : s.Idx → α)
    (idx : IVec si w) (hx : ∀ i, P (x i)) (j : t.Idx) : P (Host.gather d x idx j) :=
  hx _

/-- A broadcast's entries are entries of its operand. -/
theorem broadcast_entries {α : Type} {s t : Shape} (P : α → Prop) (dims : Fin s.rank → Fin t.rank)
    (h : s.BroadcastsInDim t dims) (x : s.Idx → α) (hx : ∀ i, P (x i)) (j : t.Idx) :
    P (broadcastInDim t dims h x j) :=
  hx _

/-- An accumulating scatter of reals into reals has real entries. -/
theorem scatterAdd_real {φ : FTy} {s si u : Shape} {w : ℕ} (d : ScatterDims s si u) (x : s.Idx → EReal)
    (idx : IVec si w) (upd : u.Idx → EReal) (hx : ∀ i, IsR (x i)) (hu : ∀ j, IsR (upd j)) (i : s.Idx) :
    IsR (Host.scatterAdd (F := Ideal) (φ := φ) d x idx upd i) := by
  show IsR (Ideal.hostScatterAdd d x idx upd i)
  unfold Ideal.hostScatterAdd
  exact (hx i).add (IsR.sum _ _ fun j _ => hu j)

/-- An accumulating scatter of nonnegative updates into nonnegative entries has nonnegative entries. -/
theorem scatterAdd_nonneg {φ : FTy} {s si u : Shape} {w : ℕ} (d : ScatterDims s si u) (x : s.Idx → EReal)
    (idx : IVec si w) (upd : u.Idx → EReal) (hx : ∀ i, 0 ≤ x i) (hu : ∀ j, 0 ≤ upd j) (i : s.Idx) :
    0 ≤ Host.scatterAdd (F := Ideal) (φ := φ) d x idx upd i := by
  show 0 ≤ Ideal.hostScatterAdd d x idx upd i
  unfold Ideal.hostScatterAdd
  exact add_nonneg (hx i) (Finset.sum_nonneg fun j _ => hu j)

/-- The host's entrywise reciprocal square root, at an entry. -/
theorem hostRsqrt_apply {s : Shape} {φ : FTy} (x : FVec Ideal s φ) (i : s.Idx) :
    Host.rsqrt x i = Ideal.rsqrt (x i) :=
  rfl

/-- The entrywise maximum, at an entry. -/
theorem maximumf_apply {s : Shape} {φ : FTy} (x y : FVec Ideal s φ) (i : s.Idx) :
    maximumf x y i = max (x i) (y i) :=
  rfl

/-- The entrywise product, at an entry. -/
theorem mulf_apply {s : Shape} {φ : FTy} (x y : FVec Ideal s φ) (i : s.Idx) :
    mulf x y i = x i * y i :=
  rfl

/-- The reciprocal square root of a real floored at one is a real. -/
theorem rsqrt_max_one_real {x : EReal} (hx : IsR x) : IsR (Ideal.rsqrt (max x 1)) := by
  obtain ⟨r, rfl⟩ := hx
  have h1 : (1 : ℝ) ≤ max r 1 := le_max_right r 1
  have hm : max (r : EReal) 1 = ((max r 1 : ℝ) : EReal) := by
    rw [← EReal.coe_one]
    exact (EReal.coe_strictMono.monotone.map_max).symm
  rw [hm, Ideal.rsqrt_coe, if_neg (by linarith), if_neg (by linarith)]
  exact ⟨_, rfl⟩

end Cert.Lib.GlueEntries

end
-- ==== Proof.RefReal.lean ====
/-
  The reference network's activations are real.

  With real node features, weights, biases, scales and shifts (the edge list and the batch vector arbitrary integer
  arrays), every stage of the reference's three layers has real entries. Real-valuedness is closed under sums,
  products, differences and finite sums (so under a contraction and a sum along an axis), survives a gather, a
  broadcast, a slice and a reshape for any index array, and an accumulating scatter of reals into reals is real.
  Two steps need more than closure. The degree-normalising coefficient is "rsqrt(deg) where deg > 0, else 0", which
  lies in [0, ⊤) for every extended real deg. The batch normalisation takes the reciprocal square root of
  variance + eps: the variance is a mean of squares of reals, hence a nonnegative real, and eps is a positive real,
  so the argument is a positive real and its reciprocal square root is a real. Dividing by the row count 50000
  keeps reals real, and the maximum of two reals is one of them.
-/
import proofs.«132190_j22857815949622_1_alg».proof.Proof.LibGlueEntries
import proofs.«132190_j22857815949622_1_alg».proof.Proof.LibGcnLaw
import proofs.«132190_j22857815949622_1_alg».proof.Proof.RefStages
import Idealize.ShloMosaic.PureOps.Ideal.Laws

noncomputable section
open scoped BigOperators

namespace Cert.Bridge.RefReal

open Idealize.ShloMosaic Cert.Lib.MeanGcn Cert.Lib.GlueEntries Cert.ReferenceIdeal

theorem isR_sub {x y : EReal} (hx : IsR x) (hy : IsR y) : IsR (x - y) := by
  obtain ⟨a, rfl⟩ := hx; obtain ⟨b, rfl⟩ := hy; exact ⟨a - b, (EReal.coe_sub a b).symm⟩

theorem isR_max {x y : EReal} (hx : IsR x) (hy : IsR y) : IsR (max x y) := by
  rcases max_choice x y with h | h <;> rw [h] <;> assumption

/-! ## The four literals -/

theorem bits_zero : Ideal.ofBits .f32 0x00000000#32 = 0 := by simp [Ideal.ofBits, Ideal.ieee]
theorem bits_rows : Ideal.ofBits .f32 0x47435000#32 = ((50000 : ℝ) : EReal) := by
  simp [Ideal.ofBits, Ideal.ieee, -EReal.coe_mul]; norm_num
theorem bits_eps : ∃ e : ℝ, 0 < e ∧ Ideal.ofBits .f32 0x3727C5AC#32 = (e : EReal) := by
  simp [Ideal.ofBits, Ideal.ieee, -EReal.coe_mul]
theorem real_zero : IsR (Ideal.ofBits .f32 0x00000000#32) := by rw [bits_zero]; exact IsR.zero

/-! ## Entrywise and layout operations keep real entries -/

variable {s t u : Shape}

theorem real_mulf (x y : FVec Ideal s .f32) (hx : ∀ i, IsR (x i)) (hy : ∀ i, IsR (y i)) (i : s.Idx) :
    IsR (mulf x y i) := (hx i).mul (hy i)
theorem real_addf (x y : FVec Ideal s .f32) (hx : ∀ i, IsR (x i)) (hy : ∀ i, IsR (y i)) (i : s.Idx) :
    IsR (addf x y i) := (hx i).add (hy i)
theorem real_subf (x y : FVec Ideal s .f32) (hx : ∀ i, IsR (x i)) (hy : ∀ i, IsR (y i)) (i : s.Idx) :
    IsR (subf x y i) := isR_sub (hx i) (hy i)
theorem real_maximumf (x y : FVec Ideal s .f32) (hx : ∀ i, IsR (x i)) (hy : ∀ i, IsR (y i)) (i : s.Idx) :
    IsR (maximumf x y i) := isR_max (hx i) (hy i)

theorem real_slice (off : Fin s.rank → Nat) (x : s.Idx → EReal) (h : s.Slices off t) (hx : ∀ i, IsR (x i)) (j : t.Idx) :
    IsR (extractStridedSlice t off x h j) := hx _
theorem real_cast (x : s.Idx → EReal) (h : s.ShapeCasts t) (hx : ∀ i, IsR (x i)) (j : t.Idx) :
    IsR (shapeCast t x h j) := hx _

/-- A contraction of arrays with real entries has real entries: each entry is a finite sum of products. -/
theorem real_dot {sl sr so : Shape} (d : DotDims sl sr so) (l : FVec Ideal sl .f32) (r : FVec Ideal sr .f32)
    (hl : ∀ i, IsR (l i)) (hr : ∀ i, IsR (r i)) (j : so.Idx) : IsR (Host.dotGeneral d none l r j) := by
  simp only [Host.dotGeneral]
  rw [Ideal.dotGeneral_apply]
  exact IsR.sum _ _ fun k _ => (hl _).mul (hr _)

/-- A sum along axes of real entries, from a real initial value, is real. -/
theorem real_reduceAdd {axes : List (Fin s.rank)} (x : FVec Ideal s .f32) (init : FVec Ideal u .f32) (h : s.ReducesTo axes t)
    (hu : 0 < u.numel) (hx : ∀ i, IsR (x i)) (hinit : ∀ i, IsR (init i)) (j : t.Idx) :
    IsR (Host.reduceAdd x init h hu j) := by
  simp only [Host.reduceAdd, Ideal.hostReduceAdd_def]
  unfold Ideal.hostReduceAdd
  exact (hinit _).add (IsR.sum _ _ fun i _ => hx i)

/-- A sum of squares of reals, from a nonnegative initial value, is nonnegative. -/
theorem nonneg_reduceAdd_sq {axes : List (Fin s.rank)} (x : FVec Ideal s .f32) (init : FVec Ideal u .f32) (h : s.ReducesTo axes t)
    (hu : 0 < u.numel) (hx : ∀ i, IsR (x i)) (hinit : ∀ i, 0 ≤ init i) (j : t.Idx) :
    0 ≤ Host.reduceAdd (mulf x x) init h hu j := by
  simp only [Host.reduceAdd, Ideal.hostReduceAdd_def]
  unfold Ideal.hostReduceAdd
  refine add_nonneg (hinit _) (Finset.sum_nonneg fun i _ => ?_)
  obtain ⟨a, ha⟩ := hx i
  show 0 ≤ x i * x i
  rw [ha, ← EReal.coe_mul]
  exact_mod_cast mul_self_nonneg a

/-- Dividing real entries by the row count 50000 leaves real entries. -/
theorem real_div_rows (x c : FVec Ideal s .f32) (hx : ∀ i, IsR (x i)) (hc : ∀ i, c i = ((50000 : ℝ) : EReal)) (i : s.Idx) :
    IsR (Host.divf x c i) := by
  show IsR (Ideal.div (x i) (c i))
  rw [hc i]
  exact IsR.div_of_one_le (hx i) ⟨50000, rfl⟩ (by exact_mod_cast (by norm_num : (1 : ℝ) ≤ 50000))

/-- Dividing nonnegative real entries by the row count leaves nonnegative entries. -/
theorem nonneg_div_rows (x c : FVec Ideal s .f32) (hx : ∀ i, IsR (x i)) (h0 : ∀ i, 0 ≤ x i)
    (hc : ∀ i, c i = ((50000 : ℝ) : EReal)) (i : s.Idx) : 0 ≤ Host.divf x c i := by
  show 0 ≤ Ideal.div (x i) (c i)
  obtain ⟨a, ha⟩ := hx i
  have h := h0 i
  rw [ha] at h
  have ha0 : 0 ≤ a := by exact_mod_cast h
  rw [hc i, ha, Ideal.div_coe (by norm_num), ← EReal.coe_mul]
  exact_mod_cast mul_nonneg ha0 (by norm_num)

/-- The reciprocal square root of (a nonnegative real + the positive literal) is a real. -/
theorem real_rsqrt_add_eps (v e : FVec Ideal s .f32) (hv : ∀ i, IsR (v i)) (h0 : ∀ i, 0 ≤ v i)
    (he : ∀ i, e i = Ideal.ofBits .f32 0x3727C5AC#32) (i : s.Idx) : IsR (Host.rsqrt (addf v e) i) := by
  show IsR (Ideal.rsqrt (v i + e i))
  obtain ⟨ε, hε, hb⟩ := bits_eps
  obtain ⟨a, ha⟩ := hv i
  have h := h0 i
  rw [ha] at h
  have ha0 : 0 ≤ a := by exact_mod_cast h
  rw [he i, hb, ha, ← EReal.coe_add, Ideal.rsqrt_coe, if_neg (by linarith), if_neg (by linarith)]
  exact ⟨_, rfl⟩

/-- A selection by "d > 0" is the conditional on 0 < d. -/
theorem select_cmp_gt (d a b : EReal) : Scalar.select (Ideal.cmp .ogt d 0) a b = if 0 < d then a else b := by
  unfold Scalar.select Ideal.cmp
  by_cases h : 0 < d <;> simp [h]

/-! ## The normalisation column -/

section
variable (x1 : (⟨S2x800000, .i32⟩ : BufTy).Contents (Elt Ideal))

/-- The guarded reciprocal square root of the degrees: real at every node, whatever the edge list. -/
theorem dinv_real (i : S50000.Idx) : IsR (ReadP.val_main_v14 (F := Ideal) x1 i) := by
  rw [ReadP.val_main_v14_apply, ReadP.val_main_v12_apply, ReadP.val_main_v13_apply, ReadP.val_main_v11_apply,
    ReadP.val_main_call0_v1_apply, ReadP.val_main_call0_v0_apply, ReadP.val_main_cst_1_apply, ReadP.val_main_cst_2_apply]
  generalize ReadP.val_main_v10 (F := Ideal) x1 i = d
  have e : FloatOps.cmpf (F := Ideal) (φ := .f32) .ogt d (FloatOps.ofBits .f32 0x00000000#32)
      = Ideal.cmp .ogt d (Ideal.ofBits .f32 0x00000000#32) := rfl
  rw [e, Ideal.hostUnary_rsqrt_def, Ideal.ofBits_def, bits_zero, select_cmp_gt]
  exact IsR.of_range (Cert.Gcn.guarded_rsqrt_range _).1 (Cert.Gcn.guarded_rsqrt_range _).2

/-- The per-edge coefficient column: a product of two gathered guarded reciprocal square roots. -/
theorem norm_real : ∀ i, IsR (ReadP.val_main_v30 (F := Ideal) x1 i) := by
  refine broadcast_entries IsR _ _ _ ?_
  refine real_mulf _ _ ?_ ?_
  · exact gather_entries IsR _ _ _ (dinv_real x1)
  · exact gather_entries IsR _ _ _ (dinv_real x1)
end

variable (x0 : (⟨S50000x128, .f32⟩ : BufTy).Contents (Elt Ideal)) (x1 : (⟨S2x800000, .i32⟩ : BufTy).Contents (Elt Ideal))
  (x3 : (⟨S3x128x128, .f32⟩ : BufTy).Contents (Elt Ideal)) (x4 x5 x6 : (⟨S3x128, .f32⟩ : BufTy).Contents (Elt Ideal))

/-! ## Layer 1 -/

/-- Layer 1's activations before normalisation: scatter-added coefficient-weighted rows of h·W, plus the bias. -/
theorem pre1 (hx0 : ∀ i, IsR (x0 i)) (hx3 : ∀ i, IsR (x3 i)) (hx4 : ∀ i, IsR (x4 i)) : ∀ i, IsR (ReadP.val_main_v50 (F := Ideal) x0 x1 x3 x4 i) := by
  refine real_addf _ _ ?_ ?_
  · refine scatterAdd_real _ _ _ _ ?_ ?_
    · exact broadcast_entries IsR _ _ _ fun _ => real_zero
    · refine real_mulf _ _ ?_ ?_
      · refine gather_entries IsR _ _ _ ?_
        refine real_dot _ _ _ hx0 ?_
        exact real_cast _ _ (real_slice _ _ _ hx3)
      · exact broadcast_entries IsR _ _ _ (norm_real x1)
  · refine broadcast_entries IsR _ _ _ ?_
    refine broadcast_entries IsR _ _ _ ?_
    exact real_cast _ _ (real_slice _ _ _ hx4)

/-- Layer 1's column means. -/
theorem mean1 (hx0 : ∀ i, IsR (x0 i)) (hx3 : ∀ i, IsR (x3 i)) (hx4 : ∀ i, IsR (x4 i)) : ∀ i, IsR (ReadP.val_main_v53 (F := Ideal) x0 x1 x3 x4 i) := by
  refine real_div_rows _ _ ?_ fun _ => bits_rows
  exact real_reduceAdd _ _ _ _ (pre1 x0 x1 x3 x4 hx0 hx3 hx4) fun _ => real_zero

/-- Layer 1's deviations from the column means. -/
theorem dev1 (hx0 : ∀ i, IsR (x0 i)) (hx3 : ∀ i, IsR (x3 i)) (hx4 : ∀ i, IsR (x4 i)) : ∀ i, IsR (ReadP.val_main_v56 (F := Ideal) x0 x1 x3 x4 i) := by
  refine real_subf _ _ (pre1 x0 x1 x3 x4 hx0 hx3 hx4) ?_
  refine broadcast_entries IsR _ _ _ ?_
  exact broadcast_entries IsR _ _ _ (mean1 x0 x1 x3 x4 hx0 hx3 hx4)

/-- Layer 1's column variances are real and nonnegative. -/
theorem var1 (hx0 : ∀ i, IsR (x0 i)) (hx3 : ∀ i, IsR (x3 i)) (hx4 : ∀ i, IsR (x4 i)) : (∀ i, IsR (ReadP.val_main_v60 (F := Ideal) x0 x1 x3 x4 i)) ∧ ∀ i, 0 ≤ ReadP.val_main_v60 (F := Ideal) x0 x1 x3 x4 i := by
  have hs : ∀ i, IsR (ReadP.val_main_v58 (F := Ideal) x0 x1 x3 x4 i) :=
    real_reduceAdd _ _ _ _ (real_mulf _ _ (dev1 x0 x1 x3 x4 hx0 hx3 hx4) (dev1 x0 x1 x3 x4 hx0 hx3 hx4)) fun _ => real_zero
  have h0 : ∀ i, 0 ≤ ReadP.val_main_v58 (F := Ideal) x0 x1 x3 x4 i :=
    nonneg_reduceAdd_sq _ _ _ _ (dev1 x0 x1 x3 x4 hx0 hx3 hx4) fun _ => le_of_eq bits_zero.symm
  exact ⟨real_div_rows _ _ hs fun _ => bits_rows, nonneg_div_rows _ _ hs h0 fun _ => bits_rows⟩

/-- Layer 1's output: the normalised, scaled, shifted activations, floored at zero. -/
theorem out1 (hx0 : ∀ i, IsR (x0 i)) (hx3 : ∀ i, IsR (x3 i)) (hx4 : ∀ i, IsR (x4 i)) (hx5 : ∀ i, IsR (x5 i)) (hx6 : ∀ i, IsR (x6 i)) : ∀ i, IsR (ReadP.val_main_v80 (F := Ideal) x0 x1 x3 x4 x5 x6 i) := by
  refine real_maximumf _ _ ?_ (broadcast_entries IsR _ _ _ fun _ => real_zero)
  refine real_addf _ _ ?_ ?_
  · refine real_mulf _ _ ?_ ?_
    · refine real_mulf _ _ ?_ ?_
      · refine real_subf _ _ (pre1 x0 x1 x3 x4 hx0 hx3 hx4) ?_
        refine broadcast_entries IsR _ _ _ ?_
        exact broadcast_entries IsR _ _ _ (mean1 x0 x1 x3 x4 hx0 hx3 hx4)
      · refine broadcast_entries IsR _ _ _ ?_
        refine broadcast_entries IsR _ _ _ ?_
        exact real_rsqrt_add_eps _ _ (var1 x0 x1 x3 x4 hx0 hx3 hx4).1 (var1 x0 x1 x3 x4 hx0 hx3 hx4).2 fun _ => rfl
    · refine broadcast_entries IsR _ _ _ ?_
      refine broadcast_entries IsR _ _ _ ?_
      exact real_cast _ _ (real_slice _ _ _ hx5)
  · refine broadcast_entries IsR _ _ _ ?_
    refine broadcast_entries IsR _ _ _ ?_
    exact real_cast _ _ (real_slice _ _ _ hx6)

/-! ## Layer 2 -/

/-- Layer 2's activations before normalisation: scatter-added coefficient-weighted rows of h·W, plus the bias. -/
theorem pre2 (hx0 : ∀ i, IsR (x0 i)) (hx3 : ∀ i, IsR (x3 i)) (hx4 : ∀ i, IsR (x4 i)) (hx5 : ∀ i, IsR (x5 i)) (hx6 : ∀ i, IsR (x6 i)) : ∀ i, IsR (ReadP.val_main_v100 (F := Ideal) x0 x1 x3 x4 x5 x6 i) := by
  refine real_addf _ _ ?_ ?_
  · refine scatterAdd_real _ _ _ _ ?_ ?_
    · exact broadcast_entries IsR _ _ _ fun _ => real_zero
    · refine real_mulf _ _ ?_ ?_
      · refine gather_entries IsR _ _ _ ?_
        refine real_dot _ _ _ (out1 x0 x1 x3 x4 x5 x6 hx0 hx3 hx4 hx5 hx6) ?_
        exact real_cast _ _ (real_slice _ _ _ hx3)
      · exact broadcast_entries IsR _ _ _ (norm_real x1)
  · refine broadcast_entries IsR _ _ _ ?_
    refine broadcast_entries IsR _ _ _ ?_
    exact real_cast _ _ (real_slice _ _ _ hx4)

/-- Layer 2's column means. -/
theorem mean2 (hx0 : ∀ i, IsR (x0 i)) (hx3 : ∀ i, IsR (x3 i)) (hx4 : ∀ i, IsR (x4 i)) (hx5 : ∀ i, IsR (x5 i)) (hx6 : ∀ i, IsR (x6 i)) : ∀ i, IsR (ReadP.val_main_v103 (F := Ideal) x0 x1 x3 x4 x5 x6 i) := by
  refine real_div_rows _ _ ?_ fun _ => bits_rows
  exact real_reduceAdd _ _ _ _ (pre2 x0 x1 x3 x4 x5 x6 hx0 hx3 hx4 hx5 hx6) fun _ => real_zero

/-- Layer 2's deviations from the column means. -/
theorem dev2 (hx0 : ∀ i, IsR (x0 i)) (hx3 : ∀ i, IsR (x3 i)) (hx4 : ∀ i, IsR (x4 i)) (hx5 : ∀ i, IsR (x5 i)) (hx6 : ∀ i, IsR (x6 i)) : ∀ i, IsR (ReadP.val_main_v106 (F := Ideal) x0 x1 x3 x4 x5 x6 i) := by
  refine real_subf _ _ (pre2 x0 x1 x3 x4 x5 x6 hx0 hx3 hx4 hx5 hx6) ?_
  refine broadcast_entries IsR _ _ _ ?_
  exact broadcast_entries IsR _ _ _ (mean2 x0 x1 x3 x4 x5 x6 hx0 hx3 hx4 hx5 hx6)

/-- Layer 2's column variances are real and nonnegative. -/
theorem var2 (hx0 : ∀ i, IsR (x0 i)) (hx3 : ∀ i, IsR (x3 i)) (hx4 : ∀ i, IsR (x4 i)) (hx5 : ∀ i, IsR (x5 i)) (hx6 : ∀ i, IsR (x6 i)) : (∀ i, IsR (ReadP.val_main_v110 (F := Ideal) x0 x1 x3 x4 x5 x6 i)) ∧ ∀ i, 0 ≤ ReadP.val_main_v110 (F := Ideal) x0 x1 x3 x4 x5 x6 i := by
  have hs : ∀ i, IsR (ReadP.val_main_v108 (F := Ideal) x0 x1 x3 x4 x5 x6 i) :=
    real_reduceAdd _ _ _ _ (real_mulf _ _ (dev2 x0 x1 x3 x4 x5 x6 hx0 hx3 hx4 hx5 hx6) (dev2 x0 x1 x3 x4 x5 x6 hx0 hx3 hx4 hx5 hx6)) fun _ => real_zero
  have h0 : ∀ i, 0 ≤ ReadP.val_main_v108 (F := Ideal) x0 x1 x3 x4 x5 x6 i :=
    nonneg_reduceAdd_sq _ _ _ _ (dev2 x0 x1 x3 x4 x5 x6 hx0 hx3 hx4 hx5 hx6) fun _ => le_of_eq bits_zero.symm
  exact ⟨real_div_rows _ _ hs fun _ => bits_rows, nonneg_div_rows _ _ hs h0 fun _ => bits_rows⟩

/-- Layer 2's output: the normalised, scaled, shifted activations, floored at zero. -/
theorem out2 (hx0 : ∀ i, IsR (x0 i)) (hx3 : ∀ i, IsR (x3 i)) (hx4 : ∀ i, IsR (x4 i)) (hx5 : ∀ i, IsR (x5 i)) (hx6 : ∀ i, IsR (x6 i)) : ∀ i, IsR (ReadP.val_main_v130 (F := Ideal) x0 x1 x3 x4 x5 x6 i) := by
  refine real_maximumf _ _ ?_ (broadcast_entries IsR _ _ _ fun _ => real_zero)
  refine real_addf _ _ ?_ ?_
  · refine real_mulf _ _ ?_ ?_
    · refine real_mulf _ _ ?_ ?_
      · refine real_subf _ _ (pre2 x0 x1 x3 x4 x5 x6 hx0 hx3 hx4 hx5 hx6) ?_
        refine broadcast_entries IsR _ _ _ ?_
        exact broadcast_entries IsR _ _ _ (mean2 x0 x1 x3 x4 x5 x6 hx0 hx3 hx4 hx5 hx6)
      · refine broadcast_entries IsR _ _ _ ?_
        refine broadcast_entries IsR _ _ _ ?_
        exact real_rsqrt_add_eps _ _ (var2 x0 x1 x3 x4 x5 x6 hx0 hx3 hx4 hx5 hx6).1 (var2 x0 x1 x3 x4 x5 x6 hx0 hx3 hx4 hx5 hx6).2 fun _ => rfl
    · refine broadcast_entries IsR _ _ _ ?_
      refine broadcast_entries IsR _ _ _ ?_
      exact real_cast _ _ (real_slice _ _ _ hx5)
  · refine broadcast_entries IsR _ _ _ ?_
    refine broadcast_entries IsR _ _ _ ?_
    exact real_cast _ _ (real_slice _ _ _ hx6)

/-! ## Layer 3 -/

/-- Layer 3's activations before normalisation: scatter-added coefficient-weighted rows of h·W, plus the bias. -/
theorem pre3 (hx0 : ∀ i, IsR (x0 i)) (hx3 : ∀ i, IsR (x3 i)) (hx4 : ∀ i, IsR (x4 i)) (hx5 : ∀ i, IsR (x5 i)) (hx6 : ∀ i, IsR (x6 i)) : ∀ i, IsR (ReadP.val_main_v150 (F := Ideal) x0 x1 x3 x4 x5 x6 i) := by
  refine real_addf _ _ ?_ ?_
  · refine scatterAdd_real _ _ _ _ ?_ ?_
    · exact broadcast_entries IsR _ _ _ fun _ => real_zero
    · refine real_mulf _ _ ?_ ?_
      · refine gather_entries IsR _ _ _ ?_
        refine real_dot _ _ _ (out2 x0 x1 x3 x4 x5 x6 hx0 hx3 hx4 hx5 hx6) ?_
        exact real_cast _ _ (real_slice _ _ _ hx3)
      · exact broadcast_entries IsR _ _ _ (norm_real x1)
  · refine broadcast_entries IsR _ _ _ ?_
    refine broadcast_entries IsR _ _ _ ?_
    exact real_cast _ _ (real_slice _ _ _ hx4)

/-- Layer 3's column means. -/
theorem mean3 (hx0 : ∀ i, IsR (x0 i)) (hx3 : ∀ i, IsR (x3 i)) (hx4 : ∀ i, IsR (x4 i)) (hx5 : ∀ i, IsR (x5 i)) (hx6 : ∀ i, IsR (x6 i)) : ∀ i, IsR (ReadP.val_main_v153 (F := Ideal) x0 x1 x3 x4 x5 x6 i) := by
  refine real_div_rows _ _ ?_ fun _ => bits_rows
  exact real_reduceAdd _ _ _ _ (pre3 x0 x1 x3 x4 x5 x6 hx0 hx3 hx4 hx5 hx6) fun _ => real_zero

/-- Layer 3's deviations from the column means. -/
theorem dev3 (hx0 : ∀ i, IsR (x0 i)) (hx3 : ∀ i, IsR (x3 i)) (hx4 : ∀ i, IsR (x4 i)) (hx5 : ∀ i, IsR (x5 i)) (hx6 : ∀ i, IsR (x6 i)) : ∀ i, IsR (ReadP.val_main_v156 (F := Ideal) x0 x1 x3 x4 x5 x6 i) := by
  refine real_subf _ _ (pre3 x0 x1 x3 x4 x5 x6 hx0 hx3 hx4 hx5 hx6) ?_
  refine broadcast_entries IsR _ _ _ ?_
  exact broadcast_entries IsR _ _ _ (mean3 x0 x1 x3 x4 x5 x6 hx0 hx3 hx4 hx5 hx6)

/-- Layer 3's column variances are real and nonnegative. -/
theorem var3 (hx0 : ∀ i, IsR (x0 i)) (hx3 : ∀ i, IsR (x3 i)) (hx4 : ∀ i, IsR (x4 i)) (hx5 : ∀ i, IsR (x5 i)) (hx6 : ∀ i, IsR (x6 i)) : (∀ i, IsR (ReadP.val_main_v160 (F := Ideal) x0 x1 x3 x4 x5 x6 i)) ∧ ∀ i, 0 ≤ ReadP.val_main_v160 (F := Ideal) x0 x1 x3 x4 x5 x6 i := by
  have hs : ∀ i, IsR (ReadP.val_main_v158 (F := Ideal) x0 x1 x3 x4 x5 x6 i) :=
    real_reduceAdd _ _ _ _ (real_mulf _ _ (dev3 x0 x1 x3 x4 x5 x6 hx0 hx3 hx4 hx5 hx6) (dev3 x0 x1 x3 x4 x5 x6 hx0 hx3 hx4 hx5 hx6)) fun _ => real_zero
  have h0 : ∀ i, 0 ≤ ReadP.val_main_v158 (F := Ideal) x0 x1 x3 x4 x5 x6 i :=
    nonneg_reduceAdd_sq _ _ _ _ (dev3 x0 x1 x3 x4 x5 x6 hx0 hx3 hx4 hx5 hx6) fun _ => le_of_eq bits_zero.symm
  exact ⟨real_div_rows _ _ hs fun _ => bits_rows, nonneg_div_rows _ _ hs h0 fun _ => bits_rows⟩

/-- Layer 3's output: the normalised, scaled, shifted activations, floored at zero. -/
theorem out3 (hx0 : ∀ i, IsR (x0 i)) (hx3 : ∀ i, IsR (x3 i)) (hx4 : ∀ i, IsR (x4 i)) (hx5 : ∀ i, IsR (x5 i)) (hx6 : ∀ i, IsR (x6 i)) : ∀ i, IsR (ReadP.val_main_v180 (F := Ideal) x0 x1 x3 x4 x5 x6 i) := by
  refine real_maximumf _ _ ?_ (broadcast_entries IsR _ _ _ fun _ => real_zero)
  refine real_addf _ _ ?_ ?_
  · refine real_mulf _ _ ?_ ?_
    · refine real_mulf _ _ ?_ ?_
      · refine real_subf _ _ (pre3 x0 x1 x3 x4 x5 x6 hx0 hx3 hx4 hx5 hx6) ?_
        refine broadcast_entries IsR _ _ _ ?_
        exact broadcast_entries IsR _ _ _ (mean3 x0 x1 x3 x4 x5 x6 hx0 hx3 hx4 hx5 hx6)
      · refine broadcast_entries IsR _ _ _ ?_
        refine broadcast_entries IsR _ _ _ ?_
        exact real_rsqrt_add_eps _ _ (var3 x0 x1 x3 x4 x5 x6 hx0 hx3 hx4 hx5 hx6).1 (var3 x0 x1 x3 x4 x5 x6 hx0 hx3 hx4 hx5 hx6).2 fun _ => rfl
    · refine broadcast_entries IsR _ _ _ ?_
      refine broadcast_entries IsR _ _ _ ?_
      exact real_cast _ _ (real_slice _ _ _ hx5)
  · refine broadcast_entries IsR _ _ _ ?_
    refine broadcast_entries IsR _ _ _ ?_
    exact real_cast _ _ (real_slice _ _ _ hx6)

end Cert.Bridge.RefReal
-- ==== Proof.LayerBridge.lean ====
/-
  One layer's batch normalisation: the kernel's spelling against the reference's.

  For a feature column h (the aggregated rows plus the bias, 50000 entries) the kernel's host steps form
  mean = S1 / 50000 and variance = S2 / 50000 - mean * mean from the column sums S1 = Σ h and S2 = Σ h², and the
  normalisation call returns max(((agg + bias - mean) · rsqrt(variance + eps)) · gamma + beta, 0). The reference takes
  mean = (0 + Σ h) / 50000 and variance = (0 + Σ (h - mean)²) / 50000. On real columns the two variances agree
  (mean of squares minus squared mean), and a sum started from zero is the plain sum, so the two arrays are equal
  entry by entry. The parameter rows are the reference's parameter vectors laid out as one row.
-/
import proofs.«132190_j22857815949622_1_alg».proof.Proof.RegionNorm
import proofs.«132190_j22857815949622_1_alg».proof.Proof.RefBn
import proofs.«132190_j22857815949622_1_alg».proof.Proof.BnLaw
import proofs.«132190_j22857815949622_1_alg».proof.Proof.LibPadReads
import proofs.«132190_j22857815949622_1_alg».proof.Proof.RefReal

noncomputable section
open scoped BigOperators

namespace Cert.Bridge.LayerBridge

open Cert.KernelIdeal Cert.KernelIdeal.Gen Cert.KernelIdeal.Regions
open Idealize.ShloMosaic Idealize.ShloMosaic.ValueIdx
open Cert.Lib.MeanGcn (IsR)

/-- The row of the float 50000.0, broadcast from the rank-zero literal. -/
abbrev rowsRow : FVec Ideal S1x128 .f32 :=
  broadcastInDim S1x128 ![] bcast_S_S1x128 (constant (F := Ideal) S_ .f32 0x47435000#32)

theorem rowsRow_apply (j : S1x128.Idx) : rowsRow j = Ideal.ofBits .f32 0x47435000#32 := rfl

variable (x0 : FVec Ideal Cert.ReferenceIdeal.S50000x128 .f32) (x1 : IVec Cert.ReferenceIdeal.S2x800000 32)
  (x3 : FVec Ideal Cert.ReferenceIdeal.S3x128x128 .f32) (x4 x5 x6 : FVec Ideal Cert.ReferenceIdeal.S3x128 .f32)

/-! ## Layer 1 -/

/-- Layer 1: the kernel's normalisation of the aggregated rows, with the mean and the variance its host steps form from
    the two column sums (mean = S1 / 50000, variance = S2 / 50000 - mean * mean), is the reference's layer output. -/
theorem bridge1 (hx0 : ∀ i, IsR (x0 i)) (hx3 : ∀ i, IsR (x3 i)) (hx4 : ∀ i, IsR (x4 i))
    (S1 S2 : Vec Ideal S1x128 .f32)
    (hS1 : ∀ q : Fin 128, S1 (ix2 (0 : Fin 1) q) = ∑ r : Fin 50000,
      (Cert.ReferenceIdeal.ReadP.val_main_v45 (F := Ideal) x0 x1 x3 (ix2 r q)
        + (shapeCast S1x128 (Cert.ReferenceIdeal.ReadP.val_main_v47 (F := Ideal) x4) shapeCasts_S128_S1x128) (ix2 (0 : Fin 1) q)))
    (hS2 : ∀ q : Fin 128, S2 (ix2 (0 : Fin 1) q) = ∑ r : Fin 50000,
      (Cert.ReferenceIdeal.ReadP.val_main_v45 (F := Ideal) x0 x1 x3 (ix2 r q)
        + (shapeCast S1x128 (Cert.ReferenceIdeal.ReadP.val_main_v47 (F := Ideal) x4) shapeCasts_S128_S1x128) (ix2 (0 : Fin 1) q))
      * (Cert.ReferenceIdeal.ReadP.val_main_v45 (F := Ideal) x0 x1 x3 (ix2 r q)
        + (shapeCast S1x128 (Cert.ReferenceIdeal.ReadP.val_main_v47 (F := Ideal) x4) shapeCasts_S128_S1x128) (ix2 (0 : Fin 1) q))) :
    normG (Cert.ReferenceIdeal.ReadP.val_main_v45 (F := Ideal) x0 x1 x3)
        (shapeCast S1x128 (Cert.ReferenceIdeal.ReadP.val_main_v47 (F := Ideal) x4) shapeCasts_S128_S1x128)
        (Host.divf (F := Ideal) S1 rowsRow)
        (subf (Host.divf (F := Ideal) S2 rowsRow) (mulf (Host.divf (F := Ideal) S1 rowsRow) (Host.divf (F := Ideal) S1 rowsRow)))
        (shapeCast S1x128 (Cert.ReferenceIdeal.ReadP.val_main_v71 (F := Ideal) x5) shapeCasts_S128_S1x128)
        (shapeCast S1x128 (Cert.ReferenceIdeal.ReadP.val_main_v76 (F := Ideal) x6) shapeCasts_S128_S1x128)
      = Cert.ReferenceIdeal.ReadP.val_main_v80 (F := Ideal) x0 x1 x3 x4 x5 x6 := by
  funext i
  obtain ⟨p, q, rfl⟩ : ∃ (p : Fin 50000) (q : Fin 128), i = ix2 p q := ⟨i 0, i 1, eq_ix2 i⟩
  rw [normG_ix2, Cert.Bridge.RefBn.out1, Cert.Bridge.RefBn.mean1, Cert.Bridge.RefBn.var1]
  have hB : (shapeCast S1x128 (Cert.ReferenceIdeal.ReadP.val_main_v47 (F := Ideal) x4) shapeCasts_S128_S1x128) (ix2 (0 : Fin 1) q) = Cert.ReferenceIdeal.ReadP.val_main_v47 (F := Ideal) x4 (ix1 q) :=
    Cert.Lib.PadReads.reshape_row_apply _ _ q
  have hG : (shapeCast S1x128 (Cert.ReferenceIdeal.ReadP.val_main_v71 (F := Ideal) x5) shapeCasts_S128_S1x128) (ix2 (0 : Fin 1) q) = Cert.ReferenceIdeal.ReadP.val_main_v71 (F := Ideal) x5 (ix1 q) :=
    Cert.Lib.PadReads.reshape_row_apply _ _ q
  have hE : (shapeCast S1x128 (Cert.ReferenceIdeal.ReadP.val_main_v76 (F := Ideal) x6) shapeCasts_S128_S1x128) (ix2 (0 : Fin 1) q) = Cert.ReferenceIdeal.ReadP.val_main_v76 (F := Ideal) x6 (ix1 q) :=
    Cert.Lib.PadReads.reshape_row_apply _ _ q
  have hsum : ∀ r : Fin 50000, Cert.ReferenceIdeal.ReadP.val_main_v45 (F := Ideal) x0 x1 x3 (ix2 r q) + (shapeCast S1x128 (Cert.ReferenceIdeal.ReadP.val_main_v47 (F := Ideal) x4) shapeCasts_S128_S1x128) (ix2 (0 : Fin 1) q)
      = Cert.ReferenceIdeal.ReadP.val_main_v50 (F := Ideal) x0 x1 x3 x4 (ix2 r q) := fun r => by
    rw [hB]; exact (Cert.Bridge.RefBn.pre1 x0 x1 x3 x4 r q).symm
  have hM : Host.divf (F := Ideal) S1 rowsRow (ix2 (0 : Fin 1) q)
      = Ideal.div (∑ k : Fin 50000, Cert.ReferenceIdeal.ReadP.val_main_v50 (F := Ideal) x0 x1 x3 x4 (ix2 k q)) (Ideal.ofBits .f32 0x47435000#32) := by
    show Ideal.div (S1 (ix2 (0 : Fin 1) q)) (rowsRow (ix2 (0 : Fin 1) q)) = _
    rw [rowsRow_apply, hS1 q]
    simp only [hsum]
  have hV : subf (Host.divf (F := Ideal) S2 rowsRow) (mulf (Host.divf (F := Ideal) S1 rowsRow) (Host.divf (F := Ideal) S1 rowsRow)) (ix2 (0 : Fin 1) q)
      = Ideal.div (∑ k : Fin 50000, Cert.ReferenceIdeal.ReadP.val_main_v50 (F := Ideal) x0 x1 x3 x4 (ix2 k q) * Cert.ReferenceIdeal.ReadP.val_main_v50 (F := Ideal) x0 x1 x3 x4 (ix2 k q)) (Ideal.ofBits .f32 0x47435000#32)
        - Ideal.div (∑ k : Fin 50000, Cert.ReferenceIdeal.ReadP.val_main_v50 (F := Ideal) x0 x1 x3 x4 (ix2 k q)) (Ideal.ofBits .f32 0x47435000#32) * Ideal.div (∑ k : Fin 50000, Cert.ReferenceIdeal.ReadP.val_main_v50 (F := Ideal) x0 x1 x3 x4 (ix2 k q)) (Ideal.ofBits .f32 0x47435000#32) := by
    show Ideal.div (S2 (ix2 (0 : Fin 1) q)) (rowsRow (ix2 (0 : Fin 1) q))
      - Host.divf (F := Ideal) S1 rowsRow (ix2 (0 : Fin 1) q) * Host.divf (F := Ideal) S1 rowsRow (ix2 (0 : Fin 1) q) = _
    rw [hM, rowsRow_apply, hS2 q]
    simp only [hsum]
  have hh : ∀ r : Fin 50000, ∃ x : ℝ, Cert.ReferenceIdeal.ReadP.val_main_v50 (F := Ideal) x0 x1 x3 x4 (ix2 r q) = (x : EReal) :=
    fun r => Cert.Bridge.RefReal.pre1 x0 x1 x3 x4 hx0 hx3 hx4 (ix2 r q)
  have key := Cert.Bridge.BnLaw.var_eq (fun k : Fin 50000 => Cert.ReferenceIdeal.ReadP.val_main_v50 (F := Ideal) x0 x1 x3 x4 (ix2 k q)) hh
  have keyM := Cert.Bridge.BnLaw.mean_eq (fun k : Fin 50000 => Cert.ReferenceIdeal.ReadP.val_main_v50 (F := Ideal) x0 x1 x3 x4 (ix2 k q))
  beta_reduce at key keyM
  rw [key, keyM, hsum p, hM, hV, hG, hE]

/-! ## Layer 2 -/

/-- Layer 2: the kernel's normalisation of the aggregated rows, with the mean and the variance its host steps form from
    the two column sums (mean = S1 / 50000, variance = S2 / 50000 - mean * mean), is the reference's layer output. -/
theorem bridge2 (hx0 : ∀ i, IsR (x0 i)) (hx3 : ∀ i, IsR (x3 i)) (hx4 : ∀ i, IsR (x4 i)) (hx5 : ∀ i, IsR (x5 i)) (hx6 : ∀ i, IsR (x6 i))
    (S1 S2 : Vec Ideal S1x128 .f32)
    (hS1 : ∀ q : Fin 128, S1 (ix2 (0 : Fin 1) q) = ∑ r : Fin 50000,
      (Cert.ReferenceIdeal.ReadP.val_main_v95 (F := Ideal) x0 x1 x3 x4 x5 x6 (ix2 r q)
        + (shapeCast S1x128 (Cert.ReferenceIdeal.ReadP.val_main_v97 (F := Ideal) x4) shapeCasts_S128_S1x128) (ix2 (0 : Fin 1) q)))
    (hS2 : ∀ q : Fin 128, S2 (ix2 (0 : Fin 1) q) = ∑ r : Fin 50000,
      (Cert.ReferenceIdeal.ReadP.val_main_v95 (F := Ideal) x0 x1 x3 x4 x5 x6 (ix2 r q)
        + (shapeCast S1x128 (Cert.ReferenceIdeal.ReadP.val_main_v97 (F := Ideal) x4) shapeCasts_S128_S1x128) (ix2 (0 : Fin 1) q))
      * (Cert.ReferenceIdeal.ReadP.val_main_v95 (F := Ideal) x0 x1 x3 x4 x5 x6 (ix2 r q)
        + (shapeCast S1x128 (Cert.ReferenceIdeal.ReadP.val_main_v97 (F := Ideal) x4) shapeCasts_S128_S1x128) (ix2 (0 : Fin 1) q))) :
    normG (Cert.ReferenceIdeal.ReadP.val_main_v95 (F := Ideal) x0 x1 x3 x4 x5 x6)
        (shapeCast S1x128 (Cert.ReferenceIdeal.ReadP.val_main_v97 (F := Ideal) x4) shapeCasts_S128_S1x128)
        (Host.divf (F := Ideal) S1 rowsRow)
        (subf (Host.divf (F := Ideal) S2 rowsRow) (mulf (Host.divf (F := Ideal) S1 rowsRow) (Host.divf (F := Ideal) S1 rowsRow)))
        (shapeCast S1x128 (Cert.ReferenceIdeal.ReadP.val_main_v121 (F := Ideal) x5) shapeCasts_S128_S1x128)
        (shapeCast S1x128 (Cert.ReferenceIdeal.ReadP.val_main_v126 (F := Ideal) x6) shapeCasts_S128_S1x128)
      = Cert.ReferenceIdeal.ReadP.val_main_v130 (F := Ideal) x0 x1 x3 x4 x5 x6 := by
  funext i
  obtain ⟨p, q, rfl⟩ : ∃ (p : Fin 50000) (q : Fin 128), i = ix2 p q := ⟨i 0, i 1, eq_ix2 i⟩
  rw [normG_ix2, Cert.Bridge.RefBn.out2, Cert.Bridge.RefBn.mean2, Cert.Bridge.RefBn.var2]
  have hB : (shapeCast S1x128 (Cert.ReferenceIdeal.ReadP.val_main_v97 (F := Ideal) x4) shapeCasts_S128_S1x128) (ix2 (0 : Fin 1) q) = Cert.ReferenceIdeal.ReadP.val_main_v97 (F := Ideal) x4 (ix1 q) :=
    Cert.Lib.PadReads.reshape_row_apply _ _ q
  have hG : (shapeCast S1x128 (Cert.ReferenceIdeal.ReadP.val_main_v121 (F := Ideal) x5) shapeCasts_S128_S1x128) (ix2 (0 : Fin 1) q) = Cert.ReferenceIdeal.ReadP.val_main_v121 (F := Ideal) x5 (ix1 q) :=
    Cert.Lib.PadReads.reshape_row_apply _ _ q
  have hE : (shapeCast S1x128 (Cert.ReferenceIdeal.ReadP.val_main_v126 (F := Ideal) x6) shapeCasts_S128_S1x128) (ix2 (0 : Fin 1) q) = Cert.ReferenceIdeal.ReadP.val_main_v126 (F := Ideal) x6 (ix1 q) :=
    Cert.Lib.PadReads.reshape_row_apply _ _ q
  have hsum : ∀ r : Fin 50000, Cert.ReferenceIdeal.ReadP.val_main_v95 (F := Ideal) x0 x1 x3 x4 x5 x6 (ix2 r q) + (shapeCast S1x128 (Cert.ReferenceIdeal.ReadP.val_main_v97 (F := Ideal) x4) shapeCasts_S128_S1x128) (ix2 (0 : Fin 1) q)
      = Cert.ReferenceIdeal.ReadP.val_main_v100 (F := Ideal) x0 x1 x3 x4 x5 x6 (ix2 r q) := fun r => by
    rw [hB]; exact (Cert.Bridge.RefBn.pre2 x0 x1 x3 x4 x5 x6 r q).symm
  have hM : Host.divf (F := Ideal) S1 rowsRow (ix2 (0 : Fin 1) q)
      = Ideal.div (∑ k : Fin 50000, Cert.ReferenceIdeal.ReadP.val_main_v100 (F := Ideal) x0 x1 x3 x4 x5 x6 (ix2 k q)) (Ideal.ofBits .f32 0x47435000#32) := by
    show Ideal.div (S1 (ix2 (0 : Fin 1) q)) (rowsRow (ix2 (0 : Fin 1) q)) = _
    rw [rowsRow_apply, hS1 q]
    simp only [hsum]
  have hV : subf (Host.divf (F := Ideal) S2 rowsRow) (mulf (Host.divf (F := Ideal) S1 rowsRow) (Host.divf (F := Ideal) S1 rowsRow)) (ix2 (0 : Fin 1) q)
      = Ideal.div (∑ k : Fin 50000, Cert.ReferenceIdeal.ReadP.val_main_v100 (F := Ideal) x0 x1 x3 x4 x5 x6 (ix2 k q) * Cert.ReferenceIdeal.ReadP.val_main_v100 (F := Ideal) x0 x1 x3 x4 x5 x6 (ix2 k q)) (Ideal.ofBits .f32 0x47435000#32)
        - Ideal.div (∑ k : Fin 50000, Cert.ReferenceIdeal.ReadP.val_main_v100 (F := Ideal) x0 x1 x3 x4 x5 x6 (ix2 k q)) (Ideal.ofBits .f32 0x47435000#32) * Ideal.div (∑ k : Fin 50000, Cert.ReferenceIdeal.ReadP.val_main_v100 (F := Ideal) x0 x1 x3 x4 x5 x6 (ix2 k q)) (Ideal.ofBits .f32 0x47435000#32) := by
    show Ideal.div (S2 (ix2 (0 : Fin 1) q)) (rowsRow (ix2 (0 : Fin 1) q))
      - Host.divf (F := Ideal) S1 rowsRow (ix2 (0 : Fin 1) q) * Host.divf (F := Ideal) S1 rowsRow (ix2 (0 : Fin 1) q) = _
    rw [hM, rowsRow_apply, hS2 q]
    simp only [hsum]
  have hh : ∀ r : Fin 50000, ∃ x : ℝ, Cert.ReferenceIdeal.ReadP.val_main_v100 (F := Ideal) x0 x1 x3 x4 x5 x6 (ix2 r q) = (x : EReal) :=
    fun r => Cert.Bridge.RefReal.pre2 x0 x1 x3 x4 x5 x6 hx0 hx3 hx4 hx5 hx6 (ix2 r q)
  have key := Cert.Bridge.BnLaw.var_eq (fun k : Fin 50000 => Cert.ReferenceIdeal.ReadP.val_main_v100 (F := Ideal) x0 x1 x3 x4 x5 x6 (ix2 k q)) hh
  have keyM := Cert.Bridge.BnLaw.mean_eq (fun k : Fin 50000 => Cert.ReferenceIdeal.ReadP.val_main_v100 (F := Ideal) x0 x1 x3 x4 x5 x6 (ix2 k q))
  beta_reduce at key keyM
  rw [key, keyM, hsum p, hM, hV, hG, hE]

/-! ## Layer 3 -/

/-- Layer 3: the kernel's normalisation of the aggregated rows, with the mean and the variance its host steps form from
    the two column sums (mean = S1 / 50000, variance = S2 / 50000 - mean * mean), is the reference's layer output. -/
theorem bridge3 (hx0 : ∀ i, IsR (x0 i)) (hx3 : ∀ i, IsR (x3 i)) (hx4 : ∀ i, IsR (x4 i)) (hx5 : ∀ i, IsR (x5 i)) (hx6 : ∀ i, IsR (x6 i))
    (S1 S2 : Vec Ideal S1x128 .f32)
    (hS1 : ∀ q : Fin 128, S1 (ix2 (0 : Fin 1) q) = ∑ r : Fin 50000,
      (Cert.ReferenceIdeal.ReadP.val_main_v145 (F := Ideal) x0 x1 x3 x4 x5 x6 (ix2 r q)
        + (shapeCast S1x128 (Cert.ReferenceIdeal.ReadP.val_main_v147 (F := Ideal) x4) shapeCasts_S128_S1x128) (ix2 (0 : Fin 1) q)))
    (hS2 : ∀ q : Fin 128, S2 (ix2 (0 : Fin 1) q) = ∑ r : Fin 50000,
      (Cert.ReferenceIdeal.ReadP.val_main_v145 (F := Ideal) x0 x1 x3 x4 x5 x6 (ix2 r q)
        + (shapeCast S1x128 (Cert.ReferenceIdeal.ReadP.val_main_v147 (F := Ideal) x4) shapeCasts_S128_S1x128) (ix2 (0 : Fin 1) q))
      * (Cert.ReferenceIdeal.ReadP.val_main_v145 (F := Ideal) x0 x1 x3 x4 x5 x6 (ix2 r q)
        + (shapeCast S1x128 (Cert.ReferenceIdeal.ReadP.val_main_v147 (F := Ideal) x4) shapeCasts_S128_S1x128) (ix2 (0 : Fin 1) q))) :
    normG (Cert.ReferenceIdeal.ReadP.val_main_v145 (F := Ideal) x0 x1 x3 x4 x5 x6)
        (shapeCast S1x128 (Cert.ReferenceIdeal.ReadP.val_main_v147 (F := Ideal) x4) shapeCasts_S128_S1x128)
        (Host.divf (F := Ideal) S1 rowsRow)
        (subf (Host.divf (F := Ideal) S2 rowsRow) (mulf (Host.divf (F := Ideal) S1 rowsRow) (Host.divf (F := Ideal) S1 rowsRow)))
        (shapeCast S1x128 (Cert.ReferenceIdeal.ReadP.val_main_v171 (F := Ideal) x5) shapeCasts_S128_S1x128)
        (shapeCast S1x128 (Cert.ReferenceIdeal.ReadP.val_main_v176 (F := Ideal) x6) shapeCasts_S128_S1x128)
      = Cert.ReferenceIdeal.ReadP.val_main_v180 (F := Ideal) x0 x1 x3 x4 x5 x6 := by
  funext i
  obtain ⟨p, q, rfl⟩ : ∃ (p : Fin 50000) (q : Fin 128), i = ix2 p q := ⟨i 0, i 1, eq_ix2 i⟩
  rw [normG_ix2, Cert.Bridge.RefBn.out3, Cert.Bridge.RefBn.mean3, Cert.Bridge.RefBn.var3]
  have hB : (shapeCast S1x128 (Cert.ReferenceIdeal.ReadP.val_main_v147 (F := Ideal) x4) shapeCasts_S128_S1x128) (ix2 (0 : Fin 1) q) = Cert.ReferenceIdeal.ReadP.val_main_v147 (F := Ideal) x4 (ix1 q) :=
    Cert.Lib.PadReads.reshape_row_apply _ _ q
  have hG : (shapeCast S1x128 (Cert.ReferenceIdeal.ReadP.val_main_v171 (F := Ideal) x5) shapeCasts_S128_S1x128) (ix2 (0 : Fin 1) q) = Cert.ReferenceIdeal.ReadP.val_main_v171 (F := Ideal) x5 (ix1 q) :=
    Cert.Lib.PadReads.reshape_row_apply _ _ q
  have hE : (shapeCast S1x128 (Cert.ReferenceIdeal.ReadP.val_main_v176 (F := Ideal) x6) shapeCasts_S128_S1x128) (ix2 (0 : Fin 1) q) = Cert.ReferenceIdeal.ReadP.val_main_v176 (F := Ideal) x6 (ix1 q) :=
    Cert.Lib.PadReads.reshape_row_apply _ _ q
  have hsum : ∀ r : Fin 50000, Cert.ReferenceIdeal.ReadP.val_main_v145 (F := Ideal) x0 x1 x3 x4 x5 x6 (ix2 r q) + (shapeCast S1x128 (Cert.ReferenceIdeal.ReadP.val_main_v147 (F := Ideal) x4) shapeCasts_S128_S1x128) (ix2 (0 : Fin 1) q)
      = Cert.ReferenceIdeal.ReadP.val_main_v150 (F := Ideal) x0 x1 x3 x4 x5 x6 (ix2 r q) := fun r => by
    rw [hB]; exact (Cert.Bridge.RefBn.pre3 x0 x1 x3 x4 x5 x6 r q).symm
  have hM : Host.divf (F := Ideal) S1 rowsRow (ix2 (0 : Fin 1) q)
      = Ideal.div (∑ k : Fin 50000, Cert.ReferenceIdeal.ReadP.val_main_v150 (F := Ideal) x0 x1 x3 x4 x5 x6 (ix2 k q)) (Ideal.ofBits .f32 0x47435000#32) := by
    show Ideal.div (S1 (ix2 (0 : Fin 1) q)) (rowsRow (ix2 (0 : Fin 1) q)) = _
    rw [rowsRow_apply, hS1 q]
    simp only [hsum]
  have hV : subf (Host.divf (F := Ideal) S2 rowsRow) (mulf (Host.divf (F := Ideal) S1 rowsRow) (Host.divf (F := Ideal) S1 rowsRow)) (ix2 (0 : Fin 1) q)
      = Ideal.div (∑ k : Fin 50000, Cert.ReferenceIdeal.ReadP.val_main_v150 (F := Ideal) x0 x1 x3 x4 x5 x6 (ix2 k q) * Cert.ReferenceIdeal.ReadP.val_main_v150 (F := Ideal) x0 x1 x3 x4 x5 x6 (ix2 k q)) (Ideal.ofBits .f32 0x47435000#32)
        - Ideal.div (∑ k : Fin 50000, Cert.ReferenceIdeal.ReadP.val_main_v150 (F := Ideal) x0 x1 x3 x4 x5 x6 (ix2 k q)) (Ideal.ofBits .f32 0x47435000#32) * Ideal.div (∑ k : Fin 50000, Cert.ReferenceIdeal.ReadP.val_main_v150 (F := Ideal) x0 x1 x3 x4 x5 x6 (ix2 k q)) (Ideal.ofBits .f32 0x47435000#32) := by
    show Ideal.div (S2 (ix2 (0 : Fin 1) q)) (rowsRow (ix2 (0 : Fin 1) q))
      - Host.divf (F := Ideal) S1 rowsRow (ix2 (0 : Fin 1) q) * Host.divf (F := Ideal) S1 rowsRow (ix2 (0 : Fin 1) q) = _
    rw [hM, rowsRow_apply, hS2 q]
    simp only [hsum]
  have hh : ∀ r : Fin 50000, ∃ x : ℝ, Cert.ReferenceIdeal.ReadP.val_main_v150 (F := Ideal) x0 x1 x3 x4 x5 x6 (ix2 r q) = (x : EReal) :=
    fun r => Cert.Bridge.RefReal.pre3 x0 x1 x3 x4 x5 x6 hx0 hx3 hx4 hx5 hx6 (ix2 r q)
  have key := Cert.Bridge.BnLaw.var_eq (fun k : Fin 50000 => Cert.ReferenceIdeal.ReadP.val_main_v150 (F := Ideal) x0 x1 x3 x4 x5 x6 (ix2 k q)) hh
  have keyM := Cert.Bridge.BnLaw.mean_eq (fun k : Fin 50000 => Cert.ReferenceIdeal.ReadP.val_main_v150 (F := Ideal) x0 x1 x3 x4 x5 x6 (ix2 k q))
  beta_reduce at key keyM
  rw [key, keyM, hsum p, hM, hV, hG, hE]

end Cert.Bridge.LayerBridge
-- ==== Proof.KWalk.lean ====
/-
  The idealized kernel's buffers at each of its twenty-one segment boundaries hold the reference's stages.

  Walking the fold of buffer contents from the launch memory: the three stretches before the first call leave the
  index columns, the normalisation column and the first weight matrix at the reference's stages; a matrix-product call
  leaves the reference's dot_general; the stretch after it the reference's gather–scale–scatter aggregate; the
  statistics call the column sums of the pre-normalisation activations and of their squares; the next stretch mean and
  variance rows; the normalisation call — by the variance law, which needs the activations real, hence the
  precondition — the reference's normalised, rectified layer; and so on through three layers to the pooled read-out.
  A buffer a segment does not write is carried unchanged.
-/
import proofs.«132190_j22857815949622_1_alg».proof.Proof.KernelRun
import proofs.«132190_j22857815949622_1_alg».proof.Proof.KHost
import proofs.«132190_j22857815949622_1_alg».proof.Proof.RegionMat
import proofs.«132190_j22857815949622_1_alg».proof.Proof.RegionMat3
import proofs.«132190_j22857815949622_1_alg».proof.Proof.RegionMat6
import proofs.«132190_j22857815949622_1_alg».proof.Proof.RegionNorm
import proofs.«132190_j22857815949622_1_alg».proof.Proof.RegionNorm5
import proofs.«132190_j22857815949622_1_alg».proof.Proof.RegionNorm8
import proofs.«132190_j22857815949622_1_alg».proof.Proof.MatBridge
import proofs.«132190_j22857815949622_1_alg».proof.Proof.RegionStats
import proofs.«132190_j22857815949622_1_alg».proof.Proof.RegionStats4
import proofs.«132190_j22857815949622_1_alg».proof.Proof.RegionStats7
import proofs.«132190_j22857815949622_1_alg».proof.Proof.LayerBridge

set_option maxRecDepth 16384

noncomputable section

namespace Cert.Bridge.Walk

open Cert.KernelIdeal Cert.KernelIdeal.Gen Idealize.ShloMosaic Idealize.ShloMosaic.TcCoe Idealize.SL.Sem Idealize.ShloMosaic.StableHlo
open Cert.Bridge.KHost Cert.KernelIdeal.Regions

variable (m : (ℓ : Loc nD τ sig) → Buf (Elt Ideal) ℓ) (ρ : Dev nD → PrngReg) (c : Dev nD)

/-- Equal inputs give equal products. -/
theorem matG_congr {X X' : Vec Ideal S50000x128 .f32} {W W' : Vec Ideal S128x128 .f32} (hX : X = X') (hW : W = W') :
    matG X W = matG X' W' := by subst hX hW; rfl

/-- Equal inputs give equal normalised layers. -/
theorem normG_congr {X X' : Vec Ideal S50000x128 .f32} {b b' mean mean' var var' g g' t t' : Vec Ideal S1x128 .f32}
    (hX : X = X') (hb : b = b') (hm : mean = mean') (hv : var = var') (hg : g = g') (ht : t = t') :
    normG X b mean var g t = normG X' b' mean' var' g' t' := by subst hX hb hm hv hg ht; rfl

/-! ## The edge data -/

/-- After the first stretch: the index columns, the degree comparison and root, and the zero. -/
theorem w1_v3 : (W1 m ρ c) (Proc.devRef .tc main_v3) = Cert.ReferenceIdeal.ReadP.val_main_v3 (F := Ideal) (m ((c : Thread nD τ).loc main_arg1)) :=
  h0_v3 (W0 m ρ c)
theorem w1_v6 : (W1 m ρ c) (Proc.devRef .tc main_v6) = Cert.ReferenceIdeal.ReadP.val_main_v6 (F := Ideal) (m ((c : Thread nD τ).loc main_arg1)) :=
  h0_v6 (W0 m ρ c)
theorem w1_v12 : (W1 m ρ c) (Proc.devRef .tc main_v12) = Cert.ReferenceIdeal.ReadP.val_main_v12 (F := Ideal) (m ((c : Thread nD τ).loc main_arg1)) :=
  h0_v12 (W0 m ρ c)
theorem w1_v13 : (W1 m ρ c) (Proc.devRef .tc main_v13) = Cert.ReferenceIdeal.ReadP.val_main_v13 (F := Ideal) (m ((c : Thread nD τ).loc main_arg1)) :=
  h0_v13 (W0 m ρ c)
theorem w1_cst_2 : (W1 m ρ c) (Proc.devRef .tc main_cst_2) = Cert.ReferenceIdeal.ReadP.val_main_cst_2 (F := Ideal) :=
  h0_cst2 (W0 m ρ c)
theorem w1_arg0 : (W1 m ρ c) (Proc.devRef .tc main_arg0) = (m ((c : Thread nD τ).loc main_arg0)) :=
  keep_hostOps0_arg0 (W0 m ρ c)
theorem w1_arg2 : (W1 m ρ c) (Proc.devRef .tc main_arg2) = (m ((c : Thread nD τ).loc main_arg2)) :=
  keep_hostOps0_arg2 (W0 m ρ c)
theorem w1_arg3 : (W1 m ρ c) (Proc.devRef .tc main_arg3) = (m ((c : Thread nD τ).loc main_arg3)) :=
  keep_hostOps0_arg3 (W0 m ρ c)
theorem w1_arg4 : (W1 m ρ c) (Proc.devRef .tc main_arg4) = (m ((c : Thread nD τ).loc main_arg4)) :=
  keep_hostOps0_arg4 (W0 m ρ c)
theorem w1_arg5 : (W1 m ρ c) (Proc.devRef .tc main_arg5) = (m ((c : Thread nD τ).loc main_arg5)) :=
  keep_hostOps0_arg5 (W0 m ρ c)
theorem w1_arg6 : (W1 m ρ c) (Proc.devRef .tc main_arg6) = (m ((c : Thread nD τ).loc main_arg6)) :=
  keep_hostOps0_arg6 (W0 m ρ c)
theorem w1_arg7 : (W1 m ρ c) (Proc.devRef .tc main_arg7) = (m ((c : Thread nD τ).loc main_arg7)) :=
  keep_hostOps0_arg7 (W0 m ρ c)
theorem w1_arg8 : (W1 m ρ c) (Proc.devRef .tc main_arg8) = (m ((c : Thread nD τ).loc main_arg8)) :=
  keep_hostOps0_arg8 (W0 m ρ c)
/-- The guarded reciprocal root. -/
theorem w2_v14 : (W2 m ρ c) (Proc.devRef .tc main_v14) = Cert.ReferenceIdeal.ReadP.val_main_v14 (F := Ideal) (m ((c : Thread nD τ).loc main_arg1)) :=
  h01_v14 (W1 m ρ c) _ (w1_v12 m ρ c) (w1_v13 m ρ c) (w1_cst_2 m ρ c)
theorem w2_v3 : (W2 m ρ c) (Proc.devRef .tc main_v3) = Cert.ReferenceIdeal.ReadP.val_main_v3 (F := Ideal) (m ((c : Thread nD τ).loc main_arg1)) :=
  (keep_hostOps0_1_v3 (W1 m ρ c)).trans (w1_v3 m ρ c)
theorem w2_v6 : (W2 m ρ c) (Proc.devRef .tc main_v6) = Cert.ReferenceIdeal.ReadP.val_main_v6 (F := Ideal) (m ((c : Thread nD τ).loc main_arg1)) :=
  (keep_hostOps0_1_v6 (W1 m ρ c)).trans (w1_v6 m ρ c)
theorem w2_arg0 : (W2 m ρ c) (Proc.devRef .tc main_arg0) = (m ((c : Thread nD τ).loc main_arg0)) :=
  (keep_hostOps0_1_arg0 (W1 m ρ c)).trans (w1_arg0 m ρ c)
theorem w2_arg2 : (W2 m ρ c) (Proc.devRef .tc main_arg2) = (m ((c : Thread nD τ).loc main_arg2)) :=
  (keep_hostOps0_1_arg2 (W1 m ρ c)).trans (w1_arg2 m ρ c)
theorem w2_arg3 : (W2 m ρ c) (Proc.devRef .tc main_arg3) = (m ((c : Thread nD τ).loc main_arg3)) :=
  (keep_hostOps0_1_arg3 (W1 m ρ c)).trans (w1_arg3 m ρ c)
theorem w2_arg4 : (W2 m ρ c) (Proc.devRef .tc main_arg4) = (m ((c : Thread nD τ).loc main_arg4)) :=
  (keep_hostOps0_1_arg4 (W1 m ρ c)).trans (w1_arg4 m ρ c)
theorem w2_arg5 : (W2 m ρ c) (Proc.devRef .tc main_arg5) = (m ((c : Thread nD τ).loc main_arg5)) :=
  (keep_hostOps0_1_arg5 (W1 m ρ c)).trans (w1_arg5 m ρ c)
theorem w2_arg6 : (W2 m ρ c) (Proc.devRef .tc main_arg6) = (m ((c : Thread nD τ).loc main_arg6)) :=
  (keep_hostOps0_1_arg6 (W1 m ρ c)).trans (w1_arg6 m ρ c)
theorem w2_arg7 : (W2 m ρ c) (Proc.devRef .tc main_arg7) = (m ((c : Thread nD τ).loc main_arg7)) :=
  (keep_hostOps0_1_arg7 (W1 m ρ c)).trans (w1_arg7 m ρ c)
theorem w2_arg8 : (W2 m ρ c) (Proc.devRef .tc main_arg8) = (m ((c : Thread nD τ).loc main_arg8)) :=
  (keep_hostOps0_1_arg8 (W1 m ρ c)).trans (w1_arg8 m ρ c)
/-- The normalisation column and the first weight matrix. -/
theorem w3_v30 : (W3 m ρ c) (Proc.devRef .tc main_v30) = Cert.ReferenceIdeal.ReadP.val_main_v30 (F := Ideal) (m ((c : Thread nD τ).loc main_arg1)) :=
  h02_v30 (W2 m ρ c) _ (w2_v3 m ρ c) (w2_v6 m ρ c) (w2_v14 m ρ c)
theorem w3_v32 : (W3 m ρ c) (Proc.devRef .tc main_v32) = Cert.ReferenceIdeal.ReadP.val_main_v32 (F := Ideal) (m ((c : Thread nD τ).loc main_arg3)) :=
  (h02_v32 (W2 m ρ c)).trans (congrArg _ (w2_arg3 m ρ c))
theorem w3_v3 : (W3 m ρ c) (Proc.devRef .tc main_v3) = Cert.ReferenceIdeal.ReadP.val_main_v3 (F := Ideal) (m ((c : Thread nD τ).loc main_arg1)) :=
  (keep_hostOps0_2_v3 (W2 m ρ c)).trans (w2_v3 m ρ c)
theorem w3_v6 : (W3 m ρ c) (Proc.devRef .tc main_v6) = Cert.ReferenceIdeal.ReadP.val_main_v6 (F := Ideal) (m ((c : Thread nD τ).loc main_arg1)) :=
  (keep_hostOps0_2_v6 (W2 m ρ c)).trans (w2_v6 m ρ c)
theorem w3_arg0 : (W3 m ρ c) (Proc.devRef .tc main_arg0) = (m ((c : Thread nD τ).loc main_arg0)) :=
  (keep_hostOps0_2_arg0 (W2 m ρ c)).trans (w2_arg0 m ρ c)
theorem w3_arg2 : (W3 m ρ c) (Proc.devRef .tc main_arg2) = (m ((c : Thread nD τ).loc main_arg2)) :=
  (keep_hostOps0_2_arg2 (W2 m ρ c)).trans (w2_arg2 m ρ c)
theorem w3_arg3 : (W3 m ρ c) (Proc.devRef .tc main_arg3) = (m ((c : Thread nD τ).loc main_arg3)) :=
  (keep_hostOps0_2_arg3 (W2 m ρ c)).trans (w2_arg3 m ρ c)
theorem w3_arg4 : (W3 m ρ c) (Proc.devRef .tc main_arg4) = (m ((c : Thread nD τ).loc main_arg4)) :=
  (keep_hostOps0_2_arg4 (W2 m ρ c)).trans (w2_arg4 m ρ c)
theorem w3_arg5 : (W3 m ρ c) (Proc.devRef .tc main_arg5) = (m ((c : Thread nD τ).loc main_arg5)) :=
  (keep_hostOps0_2_arg5 (W2 m ρ c)).trans (w2_arg5 m ρ c)
theorem w3_arg6 : (W3 m ρ c) (Proc.devRef .tc main_arg6) = (m ((c : Thread nD τ).loc main_arg6)) :=
  (keep_hostOps0_2_arg6 (W2 m ρ c)).trans (w2_arg6 m ρ c)
theorem w3_arg7 : (W3 m ρ c) (Proc.devRef .tc main_arg7) = (m ((c : Thread nD τ).loc main_arg7)) :=
  (keep_hostOps0_2_arg7 (W2 m ρ c)).trans (w2_arg7 m ρ c)
theorem w3_arg8 : (W3 m ρ c) (Proc.devRef .tc main_arg8) = (m ((c : Thread nD τ).loc main_arg8)) :=
  (keep_hostOps0_2_arg8 (W2 m ρ c)).trans (w2_arg8 m ρ c)

/-! ## Layer 1 -/

/-- The matrix-product call leaves the reference's dot_general. -/
theorem w4_v33 : (W4 m ρ c) (Proc.devRef .tc main_v33) = Cert.ReferenceIdeal.ReadP.val_main_v33 (F := Ideal) (m ((c : Thread nD τ).loc main_arg0)) (m ((c : Thread nD τ).loc main_arg3)) :=
  (W4_arr m ρ c 2).trans ((region0 (V3 m ρ) c).trans ((matG_congr (w3_arg0 m ρ c) (w3_v32 m ρ c)).trans (Cert.Bridge.MatBridge.mat1 (m ((c : Thread nD τ).loc main_arg0)) (m ((c : Thread nD τ).loc main_arg3)))))
theorem w4_v3 : (W4 m ρ c) (Proc.devRef .tc main_v3) = Cert.ReferenceIdeal.ReadP.val_main_v3 (F := Ideal) (m ((c : Thread nD τ).loc main_arg1)) :=
  (W4_of_ne m ρ c main_v3 (by decide)).trans (w3_v3 m ρ c)
theorem w4_v6 : (W4 m ρ c) (Proc.devRef .tc main_v6) = Cert.ReferenceIdeal.ReadP.val_main_v6 (F := Ideal) (m ((c : Thread nD τ).loc main_arg1)) :=
  (W4_of_ne m ρ c main_v6 (by decide)).trans (w3_v6 m ρ c)
theorem w4_v30 : (W4 m ρ c) (Proc.devRef .tc main_v30) = Cert.ReferenceIdeal.ReadP.val_main_v30 (F := Ideal) (m ((c : Thread nD τ).loc main_arg1)) :=
  (W4_of_ne m ρ c main_v30 (by decide)).trans (w3_v30 m ρ c)
theorem w4_arg2 : (W4 m ρ c) (Proc.devRef .tc main_arg2) = (m ((c : Thread nD τ).loc main_arg2)) :=
  (W4_of_ne m ρ c main_arg2 (by decide)).trans (w3_arg2 m ρ c)
theorem w4_arg3 : (W4 m ρ c) (Proc.devRef .tc main_arg3) = (m ((c : Thread nD τ).loc main_arg3)) :=
  (W4_of_ne m ρ c main_arg3 (by decide)).trans (w3_arg3 m ρ c)
theorem w4_arg4 : (W4 m ρ c) (Proc.devRef .tc main_arg4) = (m ((c : Thread nD τ).loc main_arg4)) :=
  (W4_of_ne m ρ c main_arg4 (by decide)).trans (w3_arg4 m ρ c)
theorem w4_arg5 : (W4 m ρ c) (Proc.devRef .tc main_arg5) = (m ((c : Thread nD τ).loc main_arg5)) :=
  (W4_of_ne m ρ c main_arg5 (by decide)).trans (w3_arg5 m ρ c)
theorem w4_arg6 : (W4 m ρ c) (Proc.devRef .tc main_arg6) = (m ((c : Thread nD τ).loc main_arg6)) :=
  (W4_of_ne m ρ c main_arg6 (by decide)).trans (w3_arg6 m ρ c)
theorem w4_arg7 : (W4 m ρ c) (Proc.devRef .tc main_arg7) = (m ((c : Thread nD τ).loc main_arg7)) :=
  (W4_of_ne m ρ c main_arg7 (by decide)).trans (w3_arg7 m ρ c)
theorem w4_arg8 : (W4 m ρ c) (Proc.devRef .tc main_arg8) = (m ((c : Thread nD τ).loc main_arg8)) :=
  (W4_of_ne m ρ c main_arg8 (by decide)).trans (w3_arg8 m ρ c)
/-- Gather, scale, scatter-add: the reference's aggregate; and the bias as a row. -/
theorem w5_v45 : (W5 m ρ c) (Proc.devRef .tc main_v45) = Cert.ReferenceIdeal.ReadP.val_main_v45 (F := Ideal) (m ((c : Thread nD τ).loc main_arg0)) (m ((c : Thread nD τ).loc main_arg1)) (m ((c : Thread nD τ).loc main_arg3)) :=
  l1_agg (W4 m ρ c) _ _ _ (w4_v33 m ρ c) (w4_v3 m ρ c) (w4_v6 m ρ c) (w4_v30 m ρ c)
theorem w5_v48 : (W5 m ρ c) (Proc.devRef .tc main_v48) = (shapeCast S1x128 (Cert.ReferenceIdeal.ReadP.val_main_v47 (F := Ideal) (m ((c : Thread nD τ).loc main_arg4))) shapeCasts_S128_S1x128 : FVec Ideal S1x128 .f32) :=
  (l1_bias (W4 m ρ c)).trans (by rw [w4_arg4 m ρ c])
theorem w5_v3 : (W5 m ρ c) (Proc.devRef .tc main_v3) = Cert.ReferenceIdeal.ReadP.val_main_v3 (F := Ideal) (m ((c : Thread nD τ).loc main_arg1)) :=
  (keep_hostOps1_v3 (W4 m ρ c)).trans (w4_v3 m ρ c)
theorem w5_v6 : (W5 m ρ c) (Proc.devRef .tc main_v6) = Cert.ReferenceIdeal.ReadP.val_main_v6 (F := Ideal) (m ((c : Thread nD τ).loc main_arg1)) :=
  (keep_hostOps1_v6 (W4 m ρ c)).trans (w4_v6 m ρ c)
theorem w5_v30 : (W5 m ρ c) (Proc.devRef .tc main_v30) = Cert.ReferenceIdeal.ReadP.val_main_v30 (F := Ideal) (m ((c : Thread nD τ).loc main_arg1)) :=
  (keep_hostOps1_v30 (W4 m ρ c)).trans (w4_v30 m ρ c)
theorem w5_arg2 : (W5 m ρ c) (Proc.devRef .tc main_arg2) = (m ((c : Thread nD τ).loc main_arg2)) :=
  (keep_hostOps1_arg2 (W4 m ρ c)).trans (w4_arg2 m ρ c)
theorem w5_arg3 : (W5 m ρ c) (Proc.devRef .tc main_arg3) = (m ((c : Thread nD τ).loc main_arg3)) :=
  (keep_hostOps1_arg3 (W4 m ρ c)).trans (w4_arg3 m ρ c)
theorem w5_arg4 : (W5 m ρ c) (Proc.devRef .tc main_arg4) = (m ((c : Thread nD τ).loc main_arg4)) :=
  (keep_hostOps1_arg4 (W4 m ρ c)).trans (w4_arg4 m ρ c)
theorem w5_arg5 : (W5 m ρ c) (Proc.devRef .tc main_arg5) = (m ((c : Thread nD τ).loc main_arg5)) :=
  (keep_hostOps1_arg5 (W4 m ρ c)).trans (w4_arg5 m ρ c)
theorem w5_arg6 : (W5 m ρ c) (Proc.devRef .tc main_arg6) = (m ((c : Thread nD τ).loc main_arg6)) :=
  (keep_hostOps1_arg6 (W4 m ρ c)).trans (w4_arg6 m ρ c)
theorem w5_arg7 : (W5 m ρ c) (Proc.devRef .tc main_arg7) = (m ((c : Thread nD τ).loc main_arg7)) :=
  (keep_hostOps1_arg7 (W4 m ρ c)).trans (w4_arg7 m ρ c)
theorem w5_arg8 : (W5 m ρ c) (Proc.devRef .tc main_arg8) = (m ((c : Thread nD τ).loc main_arg8)) :=
  (keep_hostOps1_arg8 (W4 m ρ c)).trans (w4_arg8 m ρ c)
/-- The statistics call leaves the column sums of the pre-normalisation activations (aggregate plus bias) and of their
    squares. -/
theorem w6_sum (q : Fin 128) : ((W6 m ρ c) (Proc.devRef .tc main_v49_0) : Vec Ideal S1x128 .f32) (ValueIdx.ix2 (0 : Fin 1) q)
    = ∑ r : Fin 50000, ((Cert.ReferenceIdeal.ReadP.val_main_v45 (F := Ideal) (m ((c : Thread nD τ).loc main_arg0)) (m ((c : Thread nD τ).loc main_arg1)) (m ((c : Thread nD τ).loc main_arg3)) : Vec Ideal S50000x128 .f32) (ValueIdx.ix2 r q) + (shapeCast S1x128 (Cert.ReferenceIdeal.ReadP.val_main_v47 (F := Ideal) (m ((c : Thread nD τ).loc main_arg4))) shapeCasts_S128_S1x128 : FVec Ideal S1x128 .f32) (ValueIdx.ix2 (0 : Fin 1) q)) :=
  (congrFun (W6_arr m ρ c 2) (ValueIdx.ix2 (0 : Fin 1) q)).trans
    (stats1_sum (V5 m ρ) c _ _ (w5_v45 m ρ c).symm (w5_v48 m ρ c).symm q)
theorem w6_sumsq (q : Fin 128) : ((W6 m ρ c) (Proc.devRef .tc main_v49_1) : Vec Ideal S1x128 .f32) (ValueIdx.ix2 (0 : Fin 1) q)
    = ∑ r : Fin 50000, ((Cert.ReferenceIdeal.ReadP.val_main_v45 (F := Ideal) (m ((c : Thread nD τ).loc main_arg0)) (m ((c : Thread nD τ).loc main_arg1)) (m ((c : Thread nD τ).loc main_arg3)) : Vec Ideal S50000x128 .f32) (ValueIdx.ix2 r q) + (shapeCast S1x128 (Cert.ReferenceIdeal.ReadP.val_main_v47 (F := Ideal) (m ((c : Thread nD τ).loc main_arg4))) shapeCasts_S128_S1x128 : FVec Ideal S1x128 .f32) (ValueIdx.ix2 (0 : Fin 1) q))
        * ((Cert.ReferenceIdeal.ReadP.val_main_v45 (F := Ideal) (m ((c : Thread nD τ).loc main_arg0)) (m ((c : Thread nD τ).loc main_arg1)) (m ((c : Thread nD τ).loc main_arg3)) : Vec Ideal S50000x128 .f32) (ValueIdx.ix2 r q) + (shapeCast S1x128 (Cert.ReferenceIdeal.ReadP.val_main_v47 (F := Ideal) (m ((c : Thread nD τ).loc main_arg4))) shapeCasts_S128_S1x128 : FVec Ideal S1x128 .f32) (ValueIdx.ix2 (0 : Fin 1) q)) :=
  (congrFun (W6_arr m ρ c 3) (ValueIdx.ix2 (0 : Fin 1) q)).trans
    (stats1_sumsq (V5 m ρ) c _ _ (w5_v45 m ρ c).symm (w5_v48 m ρ c).symm q)
/-- The aggregate, an input of the statistics call, is as it was. -/
theorem w6_v45 : (W6 m ρ c) (Proc.devRef .tc main_v45) = Cert.ReferenceIdeal.ReadP.val_main_v45 (F := Ideal) (m ((c : Thread nD τ).loc main_arg0)) (m ((c : Thread nD τ).loc main_arg1)) (m ((c : Thread nD τ).loc main_arg3)) :=
  ((W6_arr m ρ c 0).trans (((dat1 (V5 m ρ) c).arrAt_in 0 rfl _).trans (A_eq1 (V5 m ρ) c 0))).trans (w5_v45 m ρ c)
theorem w6_v3 : (W6 m ρ c) (Proc.devRef .tc main_v3) = Cert.ReferenceIdeal.ReadP.val_main_v3 (F := Ideal) (m ((c : Thread nD τ).loc main_arg1)) :=
  (W6_of_ne m ρ c main_v3 (by decide)).trans (w5_v3 m ρ c)
theorem w6_v6 : (W6 m ρ c) (Proc.devRef .tc main_v6) = Cert.ReferenceIdeal.ReadP.val_main_v6 (F := Ideal) (m ((c : Thread nD τ).loc main_arg1)) :=
  (W6_of_ne m ρ c main_v6 (by decide)).trans (w5_v6 m ρ c)
theorem w6_v30 : (W6 m ρ c) (Proc.devRef .tc main_v30) = Cert.ReferenceIdeal.ReadP.val_main_v30 (F := Ideal) (m ((c : Thread nD τ).loc main_arg1)) :=
  (W6_of_ne m ρ c main_v30 (by decide)).trans (w5_v30 m ρ c)
theorem w6_arg2 : (W6 m ρ c) (Proc.devRef .tc main_arg2) = (m ((c : Thread nD τ).loc main_arg2)) :=
  (W6_of_ne m ρ c main_arg2 (by decide)).trans (w5_arg2 m ρ c)
theorem w6_arg3 : (W6 m ρ c) (Proc.devRef .tc main_arg3) = (m ((c : Thread nD τ).loc main_arg3)) :=
  (W6_of_ne m ρ c main_arg3 (by decide)).trans (w5_arg3 m ρ c)
theorem w6_arg4 : (W6 m ρ c) (Proc.devRef .tc main_arg4) = (m ((c : Thread nD τ).loc main_arg4)) :=
  (W6_of_ne m ρ c main_arg4 (by decide)).trans (w5_arg4 m ρ c)
theorem w6_arg5 : (W6 m ρ c) (Proc.devRef .tc main_arg5) = (m ((c : Thread nD τ).loc main_arg5)) :=
  (W6_of_ne m ρ c main_arg5 (by decide)).trans (w5_arg5 m ρ c)
theorem w6_arg6 : (W6 m ρ c) (Proc.devRef .tc main_arg6) = (m ((c : Thread nD τ).loc main_arg6)) :=
  (W6_of_ne m ρ c main_arg6 (by decide)).trans (w5_arg6 m ρ c)
theorem w6_arg7 : (W6 m ρ c) (Proc.devRef .tc main_arg7) = (m ((c : Thread nD τ).loc main_arg7)) :=
  (W6_of_ne m ρ c main_arg7 (by decide)).trans (w5_arg7 m ρ c)
theorem w6_arg8 : (W6 m ρ c) (Proc.devRef .tc main_arg8) = (m ((c : Thread nD τ).loc main_arg8)) :=
  (W6_of_ne m ρ c main_arg8 (by decide)).trans (w5_arg8 m ρ c)
/-- Mean and variance rows from the two sums, and the parameter rows. -/
theorem w7_v51 : (W7 m ρ c) (Proc.devRef .tc main_v51) = (Host.divf (F := Ideal) ((W6 m ρ c) (Proc.devRef .tc main_v49_0)) (broadcastInDim S1x128 ![] bcast_S_S1x128 (constant (F := Ideal) S_ .f32 0x47435000#32)) : FVec Ideal S1x128 .f32) :=
  l1_mean (W6 m ρ c)
theorem w7_v55 : (W7 m ρ c) (Proc.devRef .tc main_v55) = (subf (Host.divf (F := Ideal) ((W6 m ρ c) (Proc.devRef .tc main_v49_1)) (broadcastInDim S1x128 ![] bcast_S_S1x128 (constant (F := Ideal) S_ .f32 0x47435000#32))) (mulf (Host.divf (F := Ideal) ((W6 m ρ c) (Proc.devRef .tc main_v49_0)) (broadcastInDim S1x128 ![] bcast_S_S1x128 (constant (F := Ideal) S_ .f32 0x47435000#32))) (Host.divf (F := Ideal) ((W6 m ρ c) (Proc.devRef .tc main_v49_0)) (broadcastInDim S1x128 ![] bcast_S_S1x128 (constant (F := Ideal) S_ .f32 0x47435000#32)))) : FVec Ideal S1x128 .f32) :=
  l1_var (W6 m ρ c)
theorem w7_v62 : (W7 m ρ c) (Proc.devRef .tc main_v62) = (shapeCast S1x128 (Cert.ReferenceIdeal.ReadP.val_main_v47 (F := Ideal) (m ((c : Thread nD τ).loc main_arg4))) shapeCasts_S128_S1x128 : FVec Ideal S1x128 .f32) :=
  (l1_b (W6 m ρ c)).trans (by rw [w6_arg4 m ρ c])
theorem w7_v63 : (W7 m ρ c) (Proc.devRef .tc main_v63) = (shapeCast S1x128 (Cert.ReferenceIdeal.ReadP.val_main_v71 (F := Ideal) (m ((c : Thread nD τ).loc main_arg5))) shapeCasts_S128_S1x128 : FVec Ideal S1x128 .f32) :=
  (l1_gamma (W6 m ρ c)).trans (by rw [w6_arg5 m ρ c])
theorem w7_v64 : (W7 m ρ c) (Proc.devRef .tc main_v64) = (shapeCast S1x128 (Cert.ReferenceIdeal.ReadP.val_main_v76 (F := Ideal) (m ((c : Thread nD τ).loc main_arg6))) shapeCasts_S128_S1x128 : FVec Ideal S1x128 .f32) :=
  (l1_beta (W6 m ρ c)).trans (by rw [w6_arg6 m ρ c])
theorem w7_v45 : (W7 m ρ c) (Proc.devRef .tc main_v45) = Cert.ReferenceIdeal.ReadP.val_main_v45 (F := Ideal) (m ((c : Thread nD τ).loc main_arg0)) (m ((c : Thread nD τ).loc main_arg1)) (m ((c : Thread nD τ).loc main_arg3)) :=
  (keep_hostOps2_v45 (W6 m ρ c)).trans (w6_v45 m ρ c)
theorem w7_v3 : (W7 m ρ c) (Proc.devRef .tc main_v3) = Cert.ReferenceIdeal.ReadP.val_main_v3 (F := Ideal) (m ((c : Thread nD τ).loc main_arg1)) :=
  (keep_hostOps2_v3 (W6 m ρ c)).trans (w6_v3 m ρ c)
theorem w7_v6 : (W7 m ρ c) (Proc.devRef .tc main_v6) = Cert.ReferenceIdeal.ReadP.val_main_v6 (F := Ideal) (m ((c : Thread nD τ).loc main_arg1)) :=
  (keep_hostOps2_v6 (W6 m ρ c)).trans (w6_v6 m ρ c)
theorem w7_v30 : (W7 m ρ c) (Proc.devRef .tc main_v30) = Cert.ReferenceIdeal.ReadP.val_main_v30 (F := Ideal) (m ((c : Thread nD τ).loc main_arg1)) :=
  (keep_hostOps2_v30 (W6 m ρ c)).trans (w6_v30 m ρ c)
theorem w7_arg2 : (W7 m ρ c) (Proc.devRef .tc main_arg2) = (m ((c : Thread nD τ).loc main_arg2)) :=
  (keep_hostOps2_arg2 (W6 m ρ c)).trans (w6_arg2 m ρ c)
theorem w7_arg3 : (W7 m ρ c) (Proc.devRef .tc main_arg3) = (m ((c : Thread nD τ).loc main_arg3)) :=
  (keep_hostOps2_arg3 (W6 m ρ c)).trans (w6_arg3 m ρ c)
theorem w7_arg4 : (W7 m ρ c) (Proc.devRef .tc main_arg4) = (m ((c : Thread nD τ).loc main_arg4)) :=
  (keep_hostOps2_arg4 (W6 m ρ c)).trans (w6_arg4 m ρ c)
theorem w7_arg5 : (W7 m ρ c) (Proc.devRef .tc main_arg5) = (m ((c : Thread nD τ).loc main_arg5)) :=
  (keep_hostOps2_arg5 (W6 m ρ c)).trans (w6_arg5 m ρ c)
theorem w7_arg6 : (W7 m ρ c) (Proc.devRef .tc main_arg6) = (m ((c : Thread nD τ).loc main_arg6)) :=
  (keep_hostOps2_arg6 (W6 m ρ c)).trans (w6_arg6 m ρ c)
theorem w7_arg7 : (W7 m ρ c) (Proc.devRef .tc main_arg7) = (m ((c : Thread nD τ).loc main_arg7)) :=
  (keep_hostOps2_arg7 (W6 m ρ c)).trans (w6_arg7 m ρ c)
theorem w7_arg8 : (W7 m ρ c) (Proc.devRef .tc main_arg8) = (m ((c : Thread nD τ).loc main_arg8)) :=
  (keep_hostOps2_arg8 (W6 m ρ c)).trans (w6_arg8 m ρ c)

/-! From here on the activations must be real numbers: the float arguments are (the precondition). -/

variable (hx0 : ∀ i, Cert.Lib.MeanGcn.IsR (((m ((c : Thread nD τ).loc main_arg0)) : FVec Ideal S50000x128 .f32) i))
  (hx3 : ∀ i, Cert.Lib.MeanGcn.IsR (((m ((c : Thread nD τ).loc main_arg3)) : FVec Ideal S3x128x128 .f32) i))
  (hx4 : ∀ i, Cert.Lib.MeanGcn.IsR (((m ((c : Thread nD τ).loc main_arg4)) : FVec Ideal S3x128 .f32) i))
  (hx5 : ∀ i, Cert.Lib.MeanGcn.IsR (((m ((c : Thread nD τ).loc main_arg5)) : FVec Ideal S3x128 .f32) i))
  (hx6 : ∀ i, Cert.Lib.MeanGcn.IsR (((m ((c : Thread nD τ).loc main_arg6)) : FVec Ideal S3x128 .f32) i))
include hx0 hx3 hx4 hx5 hx6

/-- The normalisation call leaves the reference's normalised, rectified layer: the variance law on real activations. -/
theorem w8_v65 : (W8 m ρ c) (Proc.devRef .tc main_v65) = Cert.ReferenceIdeal.ReadP.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W8_arr m ρ c 6).trans ((region2 (V7 m ρ) c).trans ((normG_congr (w7_v45 m ρ c) (w7_v62 m ρ c) (w7_v51 m ρ c) (w7_v55 m ρ c) (w7_v63 m ρ c) (w7_v64 m ρ c)).trans
      (Cert.Bridge.LayerBridge.bridge1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) hx0 hx3 hx4 _ _ (w6_sum m ρ c) (w6_sumsq m ρ c))))
theorem w8_v3 : (W8 m ρ c) (Proc.devRef .tc main_v3) = Cert.ReferenceIdeal.ReadP.val_main_v3 (F := Ideal) (m ((c : Thread nD τ).loc main_arg1)) :=
  (W8_of_ne m ρ c main_v3 (by decide)).trans (w7_v3 m ρ c)
theorem w8_v6 : (W8 m ρ c) (Proc.devRef .tc main_v6) = Cert.ReferenceIdeal.ReadP.val_main_v6 (F := Ideal) (m ((c : Thread nD τ).loc main_arg1)) :=
  (W8_of_ne m ρ c main_v6 (by decide)).trans (w7_v6 m ρ c)
theorem w8_v30 : (W8 m ρ c) (Proc.devRef .tc main_v30) = Cert.ReferenceIdeal.ReadP.val_main_v30 (F := Ideal) (m ((c : Thread nD τ).loc main_arg1)) :=
  (W8_of_ne m ρ c main_v30 (by decide)).trans (w7_v30 m ρ c)
theorem w8_arg2 : (W8 m ρ c) (Proc.devRef .tc main_arg2) = (m ((c : Thread nD τ).loc main_arg2)) :=
  (W8_of_ne m ρ c main_arg2 (by decide)).trans (w7_arg2 m ρ c)
theorem w8_arg3 : (W8 m ρ c) (Proc.devRef .tc main_arg3) = (m ((c : Thread nD τ).loc main_arg3)) :=
  (W8_of_ne m ρ c main_arg3 (by decide)).trans (w7_arg3 m ρ c)
theorem w8_arg4 : (W8 m ρ c) (Proc.devRef .tc main_arg4) = (m ((c : Thread nD τ).loc main_arg4)) :=
  (W8_of_ne m ρ c main_arg4 (by decide)).trans (w7_arg4 m ρ c)
theorem w8_arg5 : (W8 m ρ c) (Proc.devRef .tc main_arg5) = (m ((c : Thread nD τ).loc main_arg5)) :=
  (W8_of_ne m ρ c main_arg5 (by decide)).trans (w7_arg5 m ρ c)
theorem w8_arg6 : (W8 m ρ c) (Proc.devRef .tc main_arg6) = (m ((c : Thread nD τ).loc main_arg6)) :=
  (W8_of_ne m ρ c main_arg6 (by decide)).trans (w7_arg6 m ρ c)
theorem w8_arg7 : (W8 m ρ c) (Proc.devRef .tc main_arg7) = (m ((c : Thread nD τ).loc main_arg7)) :=
  (W8_of_ne m ρ c main_arg7 (by decide)).trans (w7_arg7 m ρ c)
theorem w8_arg8 : (W8 m ρ c) (Proc.devRef .tc main_arg8) = (m ((c : Thread nD τ).loc main_arg8)) :=
  (W8_of_ne m ρ c main_arg8 (by decide)).trans (w7_arg8 m ρ c)
/-- The next layer's weight matrix. -/
theorem w9_v67 : (W9 m ρ c) (Proc.devRef .tc main_v67) = Cert.ReferenceIdeal.ReadP.val_main_v82 (F := Ideal) (m ((c : Thread nD τ).loc main_arg3)) :=
  (l1_nextW (W8 m ρ c)).trans (congrArg _ (w8_arg3 m ρ c hx0 hx3 hx4 hx5 hx6))
theorem w9_v65 : (W9 m ρ c) (Proc.devRef .tc main_v65) = Cert.ReferenceIdeal.ReadP.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (keep_hostOps3_v65 (W8 m ρ c)).trans (w8_v65 m ρ c hx0 hx3 hx4 hx5 hx6)
theorem w9_v3 : (W9 m ρ c) (Proc.devRef .tc main_v3) = Cert.ReferenceIdeal.ReadP.val_main_v3 (F := Ideal) (m ((c : Thread nD τ).loc main_arg1)) :=
  (keep_hostOps3_v3 (W8 m ρ c)).trans (w8_v3 m ρ c hx0 hx3 hx4 hx5 hx6)
theorem w9_v6 : (W9 m ρ c) (Proc.devRef .tc main_v6) = Cert.ReferenceIdeal.ReadP.val_main_v6 (F := Ideal) (m ((c : Thread nD τ).loc main_arg1)) :=
  (keep_hostOps3_v6 (W8 m ρ c)).trans (w8_v6 m ρ c hx0 hx3 hx4 hx5 hx6)
theorem w9_v30 : (W9 m ρ c) (Proc.devRef .tc main_v30) = Cert.ReferenceIdeal.ReadP.val_main_v30 (F := Ideal) (m ((c : Thread nD τ).loc main_arg1)) :=
  (keep_hostOps3_v30 (W8 m ρ c)).trans (w8_v30 m ρ c hx0 hx3 hx4 hx5 hx6)
theorem w9_arg2 : (W9 m ρ c) (Proc.devRef .tc main_arg2) = (m ((c : Thread nD τ).loc main_arg2)) :=
  (keep_hostOps3_arg2 (W8 m ρ c)).trans (w8_arg2 m ρ c hx0 hx3 hx4 hx5 hx6)
theorem w9_arg3 : (W9 m ρ c) (Proc.devRef .tc main_arg3) = (m ((c : Thread nD τ).loc main_arg3)) :=
  (keep_hostOps3_arg3 (W8 m ρ c)).trans (w8_arg3 m ρ c hx0 hx3 hx4 hx5 hx6)
theorem w9_arg4 : (W9 m ρ c) (Proc.devRef .tc main_arg4) = (m ((c : Thread nD τ).loc main_arg4)) :=
  (keep_hostOps3_arg4 (W8 m ρ c)).trans (w8_arg4 m ρ c hx0 hx3 hx4 hx5 hx6)
theorem w9_arg5 : (W9 m ρ c) (Proc.devRef .tc main_arg5) = (m ((c : Thread nD τ).loc main_arg5)) :=
  (keep_hostOps3_arg5 (W8 m ρ c)).trans (w8_arg5 m ρ c hx0 hx3 hx4 hx5 hx6)
theorem w9_arg6 : (W9 m ρ c) (Proc.devRef .tc main_arg6) = (m ((c : Thread nD τ).loc main_arg6)) :=
  (keep_hostOps3_arg6 (W8 m ρ c)).trans (w8_arg6 m ρ c hx0 hx3 hx4 hx5 hx6)
theorem w9_arg7 : (W9 m ρ c) (Proc.devRef .tc main_arg7) = (m ((c : Thread nD τ).loc main_arg7)) :=
  (keep_hostOps3_arg7 (W8 m ρ c)).trans (w8_arg7 m ρ c hx0 hx3 hx4 hx5 hx6)
theorem w9_arg8 : (W9 m ρ c) (Proc.devRef .tc main_arg8) = (m ((c : Thread nD τ).loc main_arg8)) :=
  (keep_hostOps3_arg8 (W8 m ρ c)).trans (w8_arg8 m ρ c hx0 hx3 hx4 hx5 hx6)

/-! ## Layer 2 -/

/-- The matrix-product call leaves the reference's dot_general. -/
theorem w10_v68 : (W10 m ρ c) (Proc.devRef .tc main_v68) = Cert.ReferenceIdeal.ReadP.val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W10_arr m ρ c 2).trans ((region3 (V9 m ρ) c).trans ((matG_congr (w9_v65 m ρ c hx0 hx3 hx4 hx5 hx6) (w9_v67 m ρ c hx0 hx3 hx4 hx5 hx6)).trans (Cert.Bridge.MatBridge.mat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))))
theorem w10_v3 : (W10 m ρ c) (Proc.devRef .tc main_v3) = Cert.ReferenceIdeal.ReadP.val_main_v3 (F := Ideal) (m ((c : Thread nD τ).loc main_arg1)) :=
  (W10_of_ne m ρ c main_v3 (by decide)).trans (w9_v3 m ρ c hx0 hx3 hx4 hx5 hx6)
theorem w10_v6 : (W10 m ρ c) (Proc.devRef .tc main_v6) = Cert.ReferenceIdeal.ReadP.val_main_v6 (F := Ideal) (m ((c : Thread nD τ).loc main_arg1)) :=
  (W10_of_ne m ρ c main_v6 (by decide)).trans (w9_v6 m ρ c hx0 hx3 hx4 hx5 hx6)
theorem w10_v30 : (W10 m ρ c) (Proc.devRef .tc main_v30) = Cert.ReferenceIdeal.ReadP.val_main_v30 (F := Ideal) (m ((c : Thread nD τ).loc main_arg1)) :=
  (W10_of_ne m ρ c main_v30 (by decide)).trans (w9_v30 m ρ c hx0 hx3 hx4 hx5 hx6)
theorem w10_arg2 : (W10 m ρ c) (Proc.devRef .tc main_arg2) = (m ((c : Thread nD τ).loc main_arg2)) :=
  (W10_of_ne m ρ c main_arg2 (by decide)).trans (w9_arg2 m ρ c hx0 hx3 hx4 hx5 hx6)
theorem w10_arg3 : (W10 m ρ c) (Proc.devRef .tc main_arg3) = (m ((c : Thread nD τ).loc main_arg3)) :=
  (W10_of_ne m ρ c main_arg3 (by decide)).trans (w9_arg3 m ρ c hx0 hx3 hx4 hx5 hx6)
theorem w10_arg4 : (W10 m ρ c) (Proc.devRef .tc main_arg4) = (m ((c : Thread nD τ).loc main_arg4)) :=
  (W10_of_ne m ρ c main_arg4 (by decide)).trans (w9_arg4 m ρ c hx0 hx3 hx4 hx5 hx6)
theorem w10_arg5 : (W10 m ρ c) (Proc.devRef .tc main_arg5) = (m ((c : Thread nD τ).loc main_arg5)) :=
  (W10_of_ne m ρ c main_arg5 (by decide)).trans (w9_arg5 m ρ c hx0 hx3 hx4 hx5 hx6)
theorem w10_arg6 : (W10 m ρ c) (Proc.devRef .tc main_arg6) = (m ((c : Thread nD τ).loc main_arg6)) :=
  (W10_of_ne m ρ c main_arg6 (by decide)).trans (w9_arg6 m ρ c hx0 hx3 hx4 hx5 hx6)
theorem w10_arg7 : (W10 m ρ c) (Proc.devRef .tc main_arg7) = (m ((c : Thread nD τ).loc main_arg7)) :=
  (W10_of_ne m ρ c main_arg7 (by decide)).trans (w9_arg7 m ρ c hx0 hx3 hx4 hx5 hx6)
theorem w10_arg8 : (W10 m ρ c) (Proc.devRef .tc main_arg8) = (m ((c : Thread nD τ).loc main_arg8)) :=
  (W10_of_ne m ρ c main_arg8 (by decide)).trans (w9_arg8 m ρ c hx0 hx3 hx4 hx5 hx6)
/-- Gather, scale, scatter-add: the reference's aggregate; and the bias as a row. -/
theorem w11_v80 : (W11 m ρ c) (Proc.devRef .tc main_v80) = Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  l2_agg (W10 m ρ c) _ _ _ _ _ _ (w10_v68 m ρ c hx0 hx3 hx4 hx5 hx6) (w10_v3 m ρ c hx0 hx3 hx4 hx5 hx6) (w10_v6 m ρ c hx0 hx3 hx4 hx5 hx6) (w10_v30 m ρ c hx0 hx3 hx4 hx5 hx6)
theorem w11_v83 : (W11 m ρ c) (Proc.devRef .tc main_v83) = (shapeCast S1x128 (Cert.ReferenceIdeal.ReadP.val_main_v97 (F := Ideal) (m ((c : Thread nD τ).loc main_arg4))) shapeCasts_S128_S1x128 : FVec Ideal S1x128 .f32) :=
  (l2_bias (W10 m ρ c)).trans (by rw [w10_arg4 m ρ c hx0 hx3 hx4 hx5 hx6])
theorem w11_v3 : (W11 m ρ c) (Proc.devRef .tc main_v3) = Cert.ReferenceIdeal.ReadP.val_main_v3 (F := Ideal) (m ((c : Thread nD τ).loc main_arg1)) :=
  (keep_hostOps4_v3 (W10 m ρ c)).trans (w10_v3 m ρ c hx0 hx3 hx4 hx5 hx6)
theorem w11_v6 : (W11 m ρ c) (Proc.devRef .tc main_v6) = Cert.ReferenceIdeal.ReadP.val_main_v6 (F := Ideal) (m ((c : Thread nD τ).loc main_arg1)) :=
  (keep_hostOps4_v6 (W10 m ρ c)).trans (w10_v6 m ρ c hx0 hx3 hx4 hx5 hx6)
theorem w11_v30 : (W11 m ρ c) (Proc.devRef .tc main_v30) = Cert.ReferenceIdeal.ReadP.val_main_v30 (F := Ideal) (m ((c : Thread nD τ).loc main_arg1)) :=
  (keep_hostOps4_v30 (W10 m ρ c)).trans (w10_v30 m ρ c hx0 hx3 hx4 hx5 hx6)
theorem w11_arg2 : (W11 m ρ c) (Proc.devRef .tc main_arg2) = (m ((c : Thread nD τ).loc main_arg2)) :=
  (keep_hostOps4_arg2 (W10 m ρ c)).trans (w10_arg2 m ρ c hx0 hx3 hx4 hx5 hx6)
theorem w11_arg3 : (W11 m ρ c) (Proc.devRef .tc main_arg3) = (m ((c : Thread nD τ).loc main_arg3)) :=
  (keep_hostOps4_arg3 (W10 m ρ c)).trans (w10_arg3 m ρ c hx0 hx3 hx4 hx5 hx6)
theorem w11_arg4 : (W11 m ρ c) (Proc.devRef .tc main_arg4) = (m ((c : Thread nD τ).loc main_arg4)) :=
  (keep_hostOps4_arg4 (W10 m ρ c)).trans (w10_arg4 m ρ c hx0 hx3 hx4 hx5 hx6)
theorem w11_arg5 : (W11 m ρ c) (Proc.devRef .tc main_arg5) = (m ((c : Thread nD τ).loc main_arg5)) :=
  (keep_hostOps4_arg5 (W10 m ρ c)).trans (w10_arg5 m ρ c hx0 hx3 hx4 hx5 hx6)
theorem w11_arg6 : (W11 m ρ c) (Proc.devRef .tc main_arg6) = (m ((c : Thread nD τ).loc main_arg6)) :=
  (keep_hostOps4_arg6 (W10 m ρ c)).trans (w10_arg6 m ρ c hx0 hx3 hx4 hx5 hx6)
theorem w11_arg7 : (W11 m ρ c) (Proc.devRef .tc main_arg7) = (m ((c : Thread nD τ).loc main_arg7)) :=
  (keep_hostOps4_arg7 (W10 m ρ c)).trans (w10_arg7 m ρ c hx0 hx3 hx4 hx5 hx6)
theorem w11_arg8 : (W11 m ρ c) (Proc.devRef .tc main_arg8) = (m ((c : Thread nD τ).loc main_arg8)) :=
  (keep_hostOps4_arg8 (W10 m ρ c)).trans (w10_arg8 m ρ c hx0 hx3 hx4 hx5 hx6)
/-- The statistics call leaves the column sums of the pre-normalisation activations (aggregate plus bias) and of their
    squares. -/
theorem w12_sum (q : Fin 128) : ((W12 m ρ c) (Proc.devRef .tc main_v84_0) : Vec Ideal S1x128 .f32) (ValueIdx.ix2 (0 : Fin 1) q)
    = ∑ r : Fin 50000, ((Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) : Vec Ideal S50000x128 .f32) (ValueIdx.ix2 r q) + (shapeCast S1x128 (Cert.ReferenceIdeal.ReadP.val_main_v97 (F := Ideal) (m ((c : Thread nD τ).loc main_arg4))) shapeCasts_S128_S1x128 : FVec Ideal S1x128 .f32) (ValueIdx.ix2 (0 : Fin 1) q)) :=
  (congrFun (W12_arr m ρ c 2) (ValueIdx.ix2 (0 : Fin 1) q)).trans
    (stats4_sum (V11 m ρ) c _ _ (w11_v80 m ρ c hx0 hx3 hx4 hx5 hx6).symm (w11_v83 m ρ c hx0 hx3 hx4 hx5 hx6).symm q)
theorem w12_sumsq (q : Fin 128) : ((W12 m ρ c) (Proc.devRef .tc main_v84_1) : Vec Ideal S1x128 .f32) (ValueIdx.ix2 (0 : Fin 1) q)
    = ∑ r : Fin 50000, ((Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) : Vec Ideal S50000x128 .f32) (ValueIdx.ix2 r q) + (shapeCast S1x128 (Cert.ReferenceIdeal.ReadP.val_main_v97 (F := Ideal) (m ((c : Thread nD τ).loc main_arg4))) shapeCasts_S128_S1x128 : FVec Ideal S1x128 .f32) (ValueIdx.ix2 (0 : Fin 1) q))
        * ((Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) : Vec Ideal S50000x128 .f32) (ValueIdx.ix2 r q) + (shapeCast S1x128 (Cert.ReferenceIdeal.ReadP.val_main_v97 (F := Ideal) (m ((c : Thread nD τ).loc main_arg4))) shapeCasts_S128_S1x128 : FVec Ideal S1x128 .f32) (ValueIdx.ix2 (0 : Fin 1) q)) :=
  (congrFun (W12_arr m ρ c 3) (ValueIdx.ix2 (0 : Fin 1) q)).trans
    (stats4_sumsq (V11 m ρ) c _ _ (w11_v80 m ρ c hx0 hx3 hx4 hx5 hx6).symm (w11_v83 m ρ c hx0 hx3 hx4 hx5 hx6).symm q)
/-- The aggregate, an input of the statistics call, is as it was. -/
theorem w12_v80 : (W12 m ρ c) (Proc.devRef .tc main_v80) = Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  ((W12_arr m ρ c 0).trans (((dat4 (V11 m ρ) c).arrAt_in 0 rfl _).trans (A_eq4 (V11 m ρ) c 0))).trans (w11_v80 m ρ c hx0 hx3 hx4 hx5 hx6)
theorem w12_v3 : (W12 m ρ c) (Proc.devRef .tc main_v3) = Cert.ReferenceIdeal.ReadP.val_main_v3 (F := Ideal) (m ((c : Thread nD τ).loc main_arg1)) :=
  (W12_of_ne m ρ c main_v3 (by decide)).trans (w11_v3 m ρ c hx0 hx3 hx4 hx5 hx6)
theorem w12_v6 : (W12 m ρ c) (Proc.devRef .tc main_v6) = Cert.ReferenceIdeal.ReadP.val_main_v6 (F := Ideal) (m ((c : Thread nD τ).loc main_arg1)) :=
  (W12_of_ne m ρ c main_v6 (by decide)).trans (w11_v6 m ρ c hx0 hx3 hx4 hx5 hx6)
theorem w12_v30 : (W12 m ρ c) (Proc.devRef .tc main_v30) = Cert.ReferenceIdeal.ReadP.val_main_v30 (F := Ideal) (m ((c : Thread nD τ).loc main_arg1)) :=
  (W12_of_ne m ρ c main_v30 (by decide)).trans (w11_v30 m ρ c hx0 hx3 hx4 hx5 hx6)
theorem w12_arg2 : (W12 m ρ c) (Proc.devRef .tc main_arg2) = (m ((c : Thread nD τ).loc main_arg2)) :=
  (W12_of_ne m ρ c main_arg2 (by decide)).trans (w11_arg2 m ρ c hx0 hx3 hx4 hx5 hx6)
theorem w12_arg3 : (W12 m ρ c) (Proc.devRef .tc main_arg3) = (m ((c : Thread nD τ).loc main_arg3)) :=
  (W12_of_ne m ρ c main_arg3 (by decide)).trans (w11_arg3 m ρ c hx0 hx3 hx4 hx5 hx6)
theorem w12_arg4 : (W12 m ρ c) (Proc.devRef .tc main_arg4) = (m ((c : Thread nD τ).loc main_arg4)) :=
  (W12_of_ne m ρ c main_arg4 (by decide)).trans (w11_arg4 m ρ c hx0 hx3 hx4 hx5 hx6)
theorem w12_arg5 : (W12 m ρ c) (Proc.devRef .tc main_arg5) = (m ((c : Thread nD τ).loc main_arg5)) :=
  (W12_of_ne m ρ c main_arg5 (by decide)).trans (w11_arg5 m ρ c hx0 hx3 hx4 hx5 hx6)
theorem w12_arg6 : (W12 m ρ c) (Proc.devRef .tc main_arg6) = (m ((c : Thread nD τ).loc main_arg6)) :=
  (W12_of_ne m ρ c main_arg6 (by decide)).trans (w11_arg6 m ρ c hx0 hx3 hx4 hx5 hx6)
theorem w12_arg7 : (W12 m ρ c) (Proc.devRef .tc main_arg7) = (m ((c : Thread nD τ).loc main_arg7)) :=
  (W12_of_ne m ρ c main_arg7 (by decide)).trans (w11_arg7 m ρ c hx0 hx3 hx4 hx5 hx6)
theorem w12_arg8 : (W12 m ρ c) (Proc.devRef .tc main_arg8) = (m ((c : Thread nD τ).loc main_arg8)) :=
  (W12_of_ne m ρ c main_arg8 (by decide)).trans (w11_arg8 m ρ c hx0 hx3 hx4 hx5 hx6)
/-- Mean and variance rows from the two sums, and the parameter rows. -/
theorem w13_v86 : (W13 m ρ c) (Proc.devRef .tc main_v86) = (Host.divf (F := Ideal) ((W12 m ρ c) (Proc.devRef .tc main_v84_0)) (broadcastInDim S1x128 ![] bcast_S_S1x128 (constant (F := Ideal) S_ .f32 0x47435000#32)) : FVec Ideal S1x128 .f32) :=
  l2_mean (W12 m ρ c)
theorem w13_v90 : (W13 m ρ c) (Proc.devRef .tc main_v90) = (subf (Host.divf (F := Ideal) ((W12 m ρ c) (Proc.devRef .tc main_v84_1)) (broadcastInDim S1x128 ![] bcast_S_S1x128 (constant (F := Ideal) S_ .f32 0x47435000#32))) (mulf (Host.divf (F := Ideal) ((W12 m ρ c) (Proc.devRef .tc main_v84_0)) (broadcastInDim S1x128 ![] bcast_S_S1x128 (constant (F := Ideal) S_ .f32 0x47435000#32))) (Host.divf (F := Ideal) ((W12 m ρ c) (Proc.devRef .tc main_v84_0)) (broadcastInDim S1x128 ![] bcast_S_S1x128 (constant (F := Ideal) S_ .f32 0x47435000#32)))) : FVec Ideal S1x128 .f32) :=
  l2_var (W12 m ρ c)
theorem w13_v97 : (W13 m ρ c) (Proc.devRef .tc main_v97) = (shapeCast S1x128 (Cert.ReferenceIdeal.ReadP.val_main_v97 (F := Ideal) (m ((c : Thread nD τ).loc main_arg4))) shapeCasts_S128_S1x128 : FVec Ideal S1x128 .f32) :=
  (l2_b (W12 m ρ c)).trans (by rw [w12_arg4 m ρ c hx0 hx3 hx4 hx5 hx6])
theorem w13_v98 : (W13 m ρ c) (Proc.devRef .tc main_v98) = (shapeCast S1x128 (Cert.ReferenceIdeal.ReadP.val_main_v121 (F := Ideal) (m ((c : Thread nD τ).loc main_arg5))) shapeCasts_S128_S1x128 : FVec Ideal S1x128 .f32) :=
  (l2_gamma (W12 m ρ c)).trans (by rw [w12_arg5 m ρ c hx0 hx3 hx4 hx5 hx6])
theorem w13_v99 : (W13 m ρ c) (Proc.devRef .tc main_v99) = (shapeCast S1x128 (Cert.ReferenceIdeal.ReadP.val_main_v126 (F := Ideal) (m ((c : Thread nD τ).loc main_arg6))) shapeCasts_S128_S1x128 : FVec Ideal S1x128 .f32) :=
  (l2_beta (W12 m ρ c)).trans (by rw [w12_arg6 m ρ c hx0 hx3 hx4 hx5 hx6])
theorem w13_v80 : (W13 m ρ c) (Proc.devRef .tc main_v80) = Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (keep_hostOps5_v80 (W12 m ρ c)).trans (w12_v80 m ρ c hx0 hx3 hx4 hx5 hx6)
theorem w13_v3 : (W13 m ρ c) (Proc.devRef .tc main_v3) = Cert.ReferenceIdeal.ReadP.val_main_v3 (F := Ideal) (m ((c : Thread nD τ).loc main_arg1)) :=
  (keep_hostOps5_v3 (W12 m ρ c)).trans (w12_v3 m ρ c hx0 hx3 hx4 hx5 hx6)
theorem w13_v6 : (W13 m ρ c) (Proc.devRef .tc main_v6) = Cert.ReferenceIdeal.ReadP.val_main_v6 (F := Ideal) (m ((c : Thread nD τ).loc main_arg1)) :=
  (keep_hostOps5_v6 (W12 m ρ c)).trans (w12_v6 m ρ c hx0 hx3 hx4 hx5 hx6)
theorem w13_v30 : (W13 m ρ c) (Proc.devRef .tc main_v30) = Cert.ReferenceIdeal.ReadP.val_main_v30 (F := Ideal) (m ((c : Thread nD τ).loc main_arg1)) :=
  (keep_hostOps5_v30 (W12 m ρ c)).trans (w12_v30 m ρ c hx0 hx3 hx4 hx5 hx6)
theorem w13_arg2 : (W13 m ρ c) (Proc.devRef .tc main_arg2) = (m ((c : Thread nD τ).loc main_arg2)) :=
  (keep_hostOps5_arg2 (W12 m ρ c)).trans (w12_arg2 m ρ c hx0 hx3 hx4 hx5 hx6)
theorem w13_arg3 : (W13 m ρ c) (Proc.devRef .tc main_arg3) = (m ((c : Thread nD τ).loc main_arg3)) :=
  (keep_hostOps5_arg3 (W12 m ρ c)).trans (w12_arg3 m ρ c hx0 hx3 hx4 hx5 hx6)
theorem w13_arg4 : (W13 m ρ c) (Proc.devRef .tc main_arg4) = (m ((c : Thread nD τ).loc main_arg4)) :=
  (keep_hostOps5_arg4 (W12 m ρ c)).trans (w12_arg4 m ρ c hx0 hx3 hx4 hx5 hx6)
theorem w13_arg5 : (W13 m ρ c) (Proc.devRef .tc main_arg5) = (m ((c : Thread nD τ).loc main_arg5)) :=
  (keep_hostOps5_arg5 (W12 m ρ c)).trans (w12_arg5 m ρ c hx0 hx3 hx4 hx5 hx6)
theorem w13_arg6 : (W13 m ρ c) (Proc.devRef .tc main_arg6) = (m ((c : Thread nD τ).loc main_arg6)) :=
  (keep_hostOps5_arg6 (W12 m ρ c)).trans (w12_arg6 m ρ c hx0 hx3 hx4 hx5 hx6)
theorem w13_arg7 : (W13 m ρ c) (Proc.devRef .tc main_arg7) = (m ((c : Thread nD τ).loc main_arg7)) :=
  (keep_hostOps5_arg7 (W12 m ρ c)).trans (w12_arg7 m ρ c hx0 hx3 hx4 hx5 hx6)
theorem w13_arg8 : (W13 m ρ c) (Proc.devRef .tc main_arg8) = (m ((c : Thread nD τ).loc main_arg8)) :=
  (keep_hostOps5_arg8 (W12 m ρ c)).trans (w12_arg8 m ρ c hx0 hx3 hx4 hx5 hx6)
/-- The normalisation call leaves the reference's normalised, rectified layer: the variance law on real activations. -/
theorem w14_v100 : (W14 m ρ c) (Proc.devRef .tc main_v100) = Cert.ReferenceIdeal.ReadP.val_main_v130 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W14_arr m ρ c 6).trans ((region5 (V13 m ρ) c).trans ((normG_congr (w13_v80 m ρ c hx0 hx3 hx4 hx5 hx6) (w13_v97 m ρ c hx0 hx3 hx4 hx5 hx6) (w13_v86 m ρ c hx0 hx3 hx4 hx5 hx6) (w13_v90 m ρ c hx0 hx3 hx4 hx5 hx6) (w13_v98 m ρ c hx0 hx3 hx4 hx5 hx6) (w13_v99 m ρ c hx0 hx3 hx4 hx5 hx6)).trans
      (Cert.Bridge.LayerBridge.bridge2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) hx0 hx3 hx4 hx5 hx6 _ _ (w12_sum m ρ c hx0 hx3 hx4 hx5 hx6) (w12_sumsq m ρ c hx0 hx3 hx4 hx5 hx6))))
theorem w14_v3 : (W14 m ρ c) (Proc.devRef .tc main_v3) = Cert.ReferenceIdeal.ReadP.val_main_v3 (F := Ideal) (m ((c : Thread nD τ).loc main_arg1)) :=
  (W14_of_ne m ρ c main_v3 (by decide)).trans (w13_v3 m ρ c hx0 hx3 hx4 hx5 hx6)
theorem w14_v6 : (W14 m ρ c) (Proc.devRef .tc main_v6) = Cert.ReferenceIdeal.ReadP.val_main_v6 (F := Ideal) (m ((c : Thread nD τ).loc main_arg1)) :=
  (W14_of_ne m ρ c main_v6 (by decide)).trans (w13_v6 m ρ c hx0 hx3 hx4 hx5 hx6)
theorem w14_v30 : (W14 m ρ c) (Proc.devRef .tc main_v30) = Cert.ReferenceIdeal.ReadP.val_main_v30 (F := Ideal) (m ((c : Thread nD τ).loc main_arg1)) :=
  (W14_of_ne m ρ c main_v30 (by decide)).trans (w13_v30 m ρ c hx0 hx3 hx4 hx5 hx6)
theorem w14_arg2 : (W14 m ρ c) (Proc.devRef .tc main_arg2) = (m ((c : Thread nD τ).loc main_arg2)) :=
  (W14_of_ne m ρ c main_arg2 (by decide)).trans (w13_arg2 m ρ c hx0 hx3 hx4 hx5 hx6)
theorem w14_arg3 : (W14 m ρ c) (Proc.devRef .tc main_arg3) = (m ((c : Thread nD τ).loc main_arg3)) :=
  (W14_of_ne m ρ c main_arg3 (by decide)).trans (w13_arg3 m ρ c hx0 hx3 hx4 hx5 hx6)
theorem w14_arg4 : (W14 m ρ c) (Proc.devRef .tc main_arg4) = (m ((c : Thread nD τ).loc main_arg4)) :=
  (W14_of_ne m ρ c main_arg4 (by decide)).trans (w13_arg4 m ρ c hx0 hx3 hx4 hx5 hx6)
theorem w14_arg5 : (W14 m ρ c) (Proc.devRef .tc main_arg5) = (m ((c : Thread nD τ).loc main_arg5)) :=
  (W14_of_ne m ρ c main_arg5 (by decide)).trans (w13_arg5 m ρ c hx0 hx3 hx4 hx5 hx6)
theorem w14_arg6 : (W14 m ρ c) (Proc.devRef .tc main_arg6) = (m ((c : Thread nD τ).loc main_arg6)) :=
  (W14_of_ne m ρ c main_arg6 (by decide)).trans (w13_arg6 m ρ c hx0 hx3 hx4 hx5 hx6)
theorem w14_arg7 : (W14 m ρ c) (Proc.devRef .tc main_arg7) = (m ((c : Thread nD τ).loc main_arg7)) :=
  (W14_of_ne m ρ c main_arg7 (by decide)).trans (w13_arg7 m ρ c hx0 hx3 hx4 hx5 hx6)
theorem w14_arg8 : (W14 m ρ c) (Proc.devRef .tc main_arg8) = (m ((c : Thread nD τ).loc main_arg8)) :=
  (W14_of_ne m ρ c main_arg8 (by decide)).trans (w13_arg8 m ρ c hx0 hx3 hx4 hx5 hx6)
/-- The next layer's weight matrix. -/
theorem w15_v102 : (W15 m ρ c) (Proc.devRef .tc main_v102) = Cert.ReferenceIdeal.ReadP.val_main_v132 (F := Ideal) (m ((c : Thread nD τ).loc main_arg3)) :=
  (l2_nextW (W14 m ρ c)).trans (congrArg _ (w14_arg3 m ρ c hx0 hx3 hx4 hx5 hx6))
theorem w15_v100 : (W15 m ρ c) (Proc.devRef .tc main_v100) = Cert.ReferenceIdeal.ReadP.val_main_v130 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (keep_hostOps6_v100 (W14 m ρ c)).trans (w14_v100 m ρ c hx0 hx3 hx4 hx5 hx6)
theorem w15_v3 : (W15 m ρ c) (Proc.devRef .tc main_v3) = Cert.ReferenceIdeal.ReadP.val_main_v3 (F := Ideal) (m ((c : Thread nD τ).loc main_arg1)) :=
  (keep_hostOps6_v3 (W14 m ρ c)).trans (w14_v3 m ρ c hx0 hx3 hx4 hx5 hx6)
theorem w15_v6 : (W15 m ρ c) (Proc.devRef .tc main_v6) = Cert.ReferenceIdeal.ReadP.val_main_v6 (F := Ideal) (m ((c : Thread nD τ).loc main_arg1)) :=
  (keep_hostOps6_v6 (W14 m ρ c)).trans (w14_v6 m ρ c hx0 hx3 hx4 hx5 hx6)
theorem w15_v30 : (W15 m ρ c) (Proc.devRef .tc main_v30) = Cert.ReferenceIdeal.ReadP.val_main_v30 (F := Ideal) (m ((c : Thread nD τ).loc main_arg1)) :=
  (keep_hostOps6_v30 (W14 m ρ c)).trans (w14_v30 m ρ c hx0 hx3 hx4 hx5 hx6)
theorem w15_arg2 : (W15 m ρ c) (Proc.devRef .tc main_arg2) = (m ((c : Thread nD τ).loc main_arg2)) :=
  (keep_hostOps6_arg2 (W14 m ρ c)).trans (w14_arg2 m ρ c hx0 hx3 hx4 hx5 hx6)
theorem w15_arg3 : (W15 m ρ c) (Proc.devRef .tc main_arg3) = (m ((c : Thread nD τ).loc main_arg3)) :=
  (keep_hostOps6_arg3 (W14 m ρ c)).trans (w14_arg3 m ρ c hx0 hx3 hx4 hx5 hx6)
theorem w15_arg4 : (W15 m ρ c) (Proc.devRef .tc main_arg4) = (m ((c : Thread nD τ).loc main_arg4)) :=
  (keep_hostOps6_arg4 (W14 m ρ c)).trans (w14_arg4 m ρ c hx0 hx3 hx4 hx5 hx6)
theorem w15_arg5 : (W15 m ρ c) (Proc.devRef .tc main_arg5) = (m ((c : Thread nD τ).loc main_arg5)) :=
  (keep_hostOps6_arg5 (W14 m ρ c)).trans (w14_arg5 m ρ c hx0 hx3 hx4 hx5 hx6)
theorem w15_arg6 : (W15 m ρ c) (Proc.devRef .tc main_arg6) = (m ((c : Thread nD τ).loc main_arg6)) :=
  (keep_hostOps6_arg6 (W14 m ρ c)).trans (w14_arg6 m ρ c hx0 hx3 hx4 hx5 hx6)
theorem w15_arg7 : (W15 m ρ c) (Proc.devRef .tc main_arg7) = (m ((c : Thread nD τ).loc main_arg7)) :=
  (keep_hostOps6_arg7 (W14 m ρ c)).trans (w14_arg7 m ρ c hx0 hx3 hx4 hx5 hx6)
theorem w15_arg8 : (W15 m ρ c) (Proc.devRef .tc main_arg8) = (m ((c : Thread nD τ).loc main_arg8)) :=
  (keep_hostOps6_arg8 (W14 m ρ c)).trans (w14_arg8 m ρ c hx0 hx3 hx4 hx5 hx6)

/-! ## Layer 3 -/

/-- The matrix-product call leaves the reference's dot_general. -/
theorem w16_v103 : (W16 m ρ c) (Proc.devRef .tc main_v103) = Cert.ReferenceIdeal.ReadP.val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W16_arr m ρ c 2).trans ((region6 (V15 m ρ) c).trans ((matG_congr (w15_v100 m ρ c hx0 hx3 hx4 hx5 hx6) (w15_v102 m ρ c hx0 hx3 hx4 hx5 hx6)).trans (Cert.Bridge.MatBridge.mat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))))
theorem w16_v3 : (W16 m ρ c) (Proc.devRef .tc main_v3) = Cert.ReferenceIdeal.ReadP.val_main_v3 (F := Ideal) (m ((c : Thread nD τ).loc main_arg1)) :=
  (W16_of_ne m ρ c main_v3 (by decide)).trans (w15_v3 m ρ c hx0 hx3 hx4 hx5 hx6)
theorem w16_v6 : (W16 m ρ c) (Proc.devRef .tc main_v6) = Cert.ReferenceIdeal.ReadP.val_main_v6 (F := Ideal) (m ((c : Thread nD τ).loc main_arg1)) :=
  (W16_of_ne m ρ c main_v6 (by decide)).trans (w15_v6 m ρ c hx0 hx3 hx4 hx5 hx6)
theorem w16_v30 : (W16 m ρ c) (Proc.devRef .tc main_v30) = Cert.ReferenceIdeal.ReadP.val_main_v30 (F := Ideal) (m ((c : Thread nD τ).loc main_arg1)) :=
  (W16_of_ne m ρ c main_v30 (by decide)).trans (w15_v30 m ρ c hx0 hx3 hx4 hx5 hx6)
theorem w16_arg2 : (W16 m ρ c) (Proc.devRef .tc main_arg2) = (m ((c : Thread nD τ).loc main_arg2)) :=
  (W16_of_ne m ρ c main_arg2 (by decide)).trans (w15_arg2 m ρ c hx0 hx3 hx4 hx5 hx6)
theorem w16_arg3 : (W16 m ρ c) (Proc.devRef .tc main_arg3) = (m ((c : Thread nD τ).loc main_arg3)) :=
  (W16_of_ne m ρ c main_arg3 (by decide)).trans (w15_arg3 m ρ c hx0 hx3 hx4 hx5 hx6)
theorem w16_arg4 : (W16 m ρ c) (Proc.devRef .tc main_arg4) = (m ((c : Thread nD τ).loc main_arg4)) :=
  (W16_of_ne m ρ c main_arg4 (by decide)).trans (w15_arg4 m ρ c hx0 hx3 hx4 hx5 hx6)
theorem w16_arg5 : (W16 m ρ c) (Proc.devRef .tc main_arg5) = (m ((c : Thread nD τ).loc main_arg5)) :=
  (W16_of_ne m ρ c main_arg5 (by decide)).trans (w15_arg5 m ρ c hx0 hx3 hx4 hx5 hx6)
theorem w16_arg6 : (W16 m ρ c) (Proc.devRef .tc main_arg6) = (m ((c : Thread nD τ).loc main_arg6)) :=
  (W16_of_ne m ρ c main_arg6 (by decide)).trans (w15_arg6 m ρ c hx0 hx3 hx4 hx5 hx6)
theorem w16_arg7 : (W16 m ρ c) (Proc.devRef .tc main_arg7) = (m ((c : Thread nD τ).loc main_arg7)) :=
  (W16_of_ne m ρ c main_arg7 (by decide)).trans (w15_arg7 m ρ c hx0 hx3 hx4 hx5 hx6)
theorem w16_arg8 : (W16 m ρ c) (Proc.devRef .tc main_arg8) = (m ((c : Thread nD τ).loc main_arg8)) :=
  (W16_of_ne m ρ c main_arg8 (by decide)).trans (w15_arg8 m ρ c hx0 hx3 hx4 hx5 hx6)
/-- Gather, scale, scatter-add: the reference's aggregate; and the bias as a row. -/
theorem w17_v115 : (W17 m ρ c) (Proc.devRef .tc main_v115) = Cert.ReferenceIdeal.ReadP.val_main_v145 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  l3_agg (W16 m ρ c) _ _ _ _ _ _ (w16_v103 m ρ c hx0 hx3 hx4 hx5 hx6) (w16_v3 m ρ c hx0 hx3 hx4 hx5 hx6) (w16_v6 m ρ c hx0 hx3 hx4 hx5 hx6) (w16_v30 m ρ c hx0 hx3 hx4 hx5 hx6)
theorem w17_v118 : (W17 m ρ c) (Proc.devRef .tc main_v118) = (shapeCast S1x128 (Cert.ReferenceIdeal.ReadP.val_main_v147 (F := Ideal) (m ((c : Thread nD τ).loc main_arg4))) shapeCasts_S128_S1x128 : FVec Ideal S1x128 .f32) :=
  (l3_bias (W16 m ρ c)).trans (by rw [w16_arg4 m ρ c hx0 hx3 hx4 hx5 hx6])
theorem w17_v3 : (W17 m ρ c) (Proc.devRef .tc main_v3) = Cert.ReferenceIdeal.ReadP.val_main_v3 (F := Ideal) (m ((c : Thread nD τ).loc main_arg1)) :=
  (keep_hostOps7_v3 (W16 m ρ c)).trans (w16_v3 m ρ c hx0 hx3 hx4 hx5 hx6)
theorem w17_v6 : (W17 m ρ c) (Proc.devRef .tc main_v6) = Cert.ReferenceIdeal.ReadP.val_main_v6 (F := Ideal) (m ((c : Thread nD τ).loc main_arg1)) :=
  (keep_hostOps7_v6 (W16 m ρ c)).trans (w16_v6 m ρ c hx0 hx3 hx4 hx5 hx6)
theorem w17_v30 : (W17 m ρ c) (Proc.devRef .tc main_v30) = Cert.ReferenceIdeal.ReadP.val_main_v30 (F := Ideal) (m ((c : Thread nD τ).loc main_arg1)) :=
  (keep_hostOps7_v30 (W16 m ρ c)).trans (w16_v30 m ρ c hx0 hx3 hx4 hx5 hx6)
theorem w17_arg2 : (W17 m ρ c) (Proc.devRef .tc main_arg2) = (m ((c : Thread nD τ).loc main_arg2)) :=
  (keep_hostOps7_arg2 (W16 m ρ c)).trans (w16_arg2 m ρ c hx0 hx3 hx4 hx5 hx6)
theorem w17_arg3 : (W17 m ρ c) (Proc.devRef .tc main_arg3) = (m ((c : Thread nD τ).loc main_arg3)) :=
  (keep_hostOps7_arg3 (W16 m ρ c)).trans (w16_arg3 m ρ c hx0 hx3 hx4 hx5 hx6)
theorem w17_arg4 : (W17 m ρ c) (Proc.devRef .tc main_arg4) = (m ((c : Thread nD τ).loc main_arg4)) :=
  (keep_hostOps7_arg4 (W16 m ρ c)).trans (w16_arg4 m ρ c hx0 hx3 hx4 hx5 hx6)
theorem w17_arg5 : (W17 m ρ c) (Proc.devRef .tc main_arg5) = (m ((c : Thread nD τ).loc main_arg5)) :=
  (keep_hostOps7_arg5 (W16 m ρ c)).trans (w16_arg5 m ρ c hx0 hx3 hx4 hx5 hx6)
theorem w17_arg6 : (W17 m ρ c) (Proc.devRef .tc main_arg6) = (m ((c : Thread nD τ).loc main_arg6)) :=
  (keep_hostOps7_arg6 (W16 m ρ c)).trans (w16_arg6 m ρ c hx0 hx3 hx4 hx5 hx6)
theorem w17_arg7 : (W17 m ρ c) (Proc.devRef .tc main_arg7) = (m ((c : Thread nD τ).loc main_arg7)) :=
  (keep_hostOps7_arg7 (W16 m ρ c)).trans (w16_arg7 m ρ c hx0 hx3 hx4 hx5 hx6)
theorem w17_arg8 : (W17 m ρ c) (Proc.devRef .tc main_arg8) = (m ((c : Thread nD τ).loc main_arg8)) :=
  (keep_hostOps7_arg8 (W16 m ρ c)).trans (w16_arg8 m ρ c hx0 hx3 hx4 hx5 hx6)
/-- The statistics call leaves the column sums of the pre-normalisation activations (aggregate plus bias) and of their
    squares. -/
theorem w18_sum (q : Fin 128) : ((W18 m ρ c) (Proc.devRef .tc main_v119_0) : Vec Ideal S1x128 .f32) (ValueIdx.ix2 (0 : Fin 1) q)
    = ∑ r : Fin 50000, ((Cert.ReferenceIdeal.ReadP.val_main_v145 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) : Vec Ideal S50000x128 .f32) (ValueIdx.ix2 r q) + (shapeCast S1x128 (Cert.ReferenceIdeal.ReadP.val_main_v147 (F := Ideal) (m ((c : Thread nD τ).loc main_arg4))) shapeCasts_S128_S1x128 : FVec Ideal S1x128 .f32) (ValueIdx.ix2 (0 : Fin 1) q)) :=
  (congrFun (W18_arr m ρ c 2) (ValueIdx.ix2 (0 : Fin 1) q)).trans
    (stats7_sum (V17 m ρ) c _ _ (w17_v115 m ρ c hx0 hx3 hx4 hx5 hx6).symm (w17_v118 m ρ c hx0 hx3 hx4 hx5 hx6).symm q)
theorem w18_sumsq (q : Fin 128) : ((W18 m ρ c) (Proc.devRef .tc main_v119_1) : Vec Ideal S1x128 .f32) (ValueIdx.ix2 (0 : Fin 1) q)
    = ∑ r : Fin 50000, ((Cert.ReferenceIdeal.ReadP.val_main_v145 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) : Vec Ideal S50000x128 .f32) (ValueIdx.ix2 r q) + (shapeCast S1x128 (Cert.ReferenceIdeal.ReadP.val_main_v147 (F := Ideal) (m ((c : Thread nD τ).loc main_arg4))) shapeCasts_S128_S1x128 : FVec Ideal S1x128 .f32) (ValueIdx.ix2 (0 : Fin 1) q))
        * ((Cert.ReferenceIdeal.ReadP.val_main_v145 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) : Vec Ideal S50000x128 .f32) (ValueIdx.ix2 r q) + (shapeCast S1x128 (Cert.ReferenceIdeal.ReadP.val_main_v147 (F := Ideal) (m ((c : Thread nD τ).loc main_arg4))) shapeCasts_S128_S1x128 : FVec Ideal S1x128 .f32) (ValueIdx.ix2 (0 : Fin 1) q)) :=
  (congrFun (W18_arr m ρ c 3) (ValueIdx.ix2 (0 : Fin 1) q)).trans
    (stats7_sumsq (V17 m ρ) c _ _ (w17_v115 m ρ c hx0 hx3 hx4 hx5 hx6).symm (w17_v118 m ρ c hx0 hx3 hx4 hx5 hx6).symm q)
/-- The aggregate, an input of the statistics call, is as it was. -/
theorem w18_v115 : (W18 m ρ c) (Proc.devRef .tc main_v115) = Cert.ReferenceIdeal.ReadP.val_main_v145 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  ((W18_arr m ρ c 0).trans (((dat7 (V17 m ρ) c).arrAt_in 0 rfl _).trans (A_eq7 (V17 m ρ) c 0))).trans (w17_v115 m ρ c hx0 hx3 hx4 hx5 hx6)
theorem w18_v3 : (W18 m ρ c) (Proc.devRef .tc main_v3) = Cert.ReferenceIdeal.ReadP.val_main_v3 (F := Ideal) (m ((c : Thread nD τ).loc main_arg1)) :=
  (W18_of_ne m ρ c main_v3 (by decide)).trans (w17_v3 m ρ c hx0 hx3 hx4 hx5 hx6)
theorem w18_v6 : (W18 m ρ c) (Proc.devRef .tc main_v6) = Cert.ReferenceIdeal.ReadP.val_main_v6 (F := Ideal) (m ((c : Thread nD τ).loc main_arg1)) :=
  (W18_of_ne m ρ c main_v6 (by decide)).trans (w17_v6 m ρ c hx0 hx3 hx4 hx5 hx6)
theorem w18_v30 : (W18 m ρ c) (Proc.devRef .tc main_v30) = Cert.ReferenceIdeal.ReadP.val_main_v30 (F := Ideal) (m ((c : Thread nD τ).loc main_arg1)) :=
  (W18_of_ne m ρ c main_v30 (by decide)).trans (w17_v30 m ρ c hx0 hx3 hx4 hx5 hx6)
theorem w18_arg2 : (W18 m ρ c) (Proc.devRef .tc main_arg2) = (m ((c : Thread nD τ).loc main_arg2)) :=
  (W18_of_ne m ρ c main_arg2 (by decide)).trans (w17_arg2 m ρ c hx0 hx3 hx4 hx5 hx6)
theorem w18_arg3 : (W18 m ρ c) (Proc.devRef .tc main_arg3) = (m ((c : Thread nD τ).loc main_arg3)) :=
  (W18_of_ne m ρ c main_arg3 (by decide)).trans (w17_arg3 m ρ c hx0 hx3 hx4 hx5 hx6)
theorem w18_arg4 : (W18 m ρ c) (Proc.devRef .tc main_arg4) = (m ((c : Thread nD τ).loc main_arg4)) :=
  (W18_of_ne m ρ c main_arg4 (by decide)).trans (w17_arg4 m ρ c hx0 hx3 hx4 hx5 hx6)
theorem w18_arg5 : (W18 m ρ c) (Proc.devRef .tc main_arg5) = (m ((c : Thread nD τ).loc main_arg5)) :=
  (W18_of_ne m ρ c main_arg5 (by decide)).trans (w17_arg5 m ρ c hx0 hx3 hx4 hx5 hx6)
theorem w18_arg6 : (W18 m ρ c) (Proc.devRef .tc main_arg6) = (m ((c : Thread nD τ).loc main_arg6)) :=
  (W18_of_ne m ρ c main_arg6 (by decide)).trans (w17_arg6 m ρ c hx0 hx3 hx4 hx5 hx6)
theorem w18_arg7 : (W18 m ρ c) (Proc.devRef .tc main_arg7) = (m ((c : Thread nD τ).loc main_arg7)) :=
  (W18_of_ne m ρ c main_arg7 (by decide)).trans (w17_arg7 m ρ c hx0 hx3 hx4 hx5 hx6)
theorem w18_arg8 : (W18 m ρ c) (Proc.devRef .tc main_arg8) = (m ((c : Thread nD τ).loc main_arg8)) :=
  (W18_of_ne m ρ c main_arg8 (by decide)).trans (w17_arg8 m ρ c hx0 hx3 hx4 hx5 hx6)
/-- Mean and variance rows from the two sums, and the parameter rows. -/
theorem w19_v121 : (W19 m ρ c) (Proc.devRef .tc main_v121) = (Host.divf (F := Ideal) ((W18 m ρ c) (Proc.devRef .tc main_v119_0)) (broadcastInDim S1x128 ![] bcast_S_S1x128 (constant (F := Ideal) S_ .f32 0x47435000#32)) : FVec Ideal S1x128 .f32) :=
  l3_mean (W18 m ρ c)
theorem w19_v125 : (W19 m ρ c) (Proc.devRef .tc main_v125) = (subf (Host.divf (F := Ideal) ((W18 m ρ c) (Proc.devRef .tc main_v119_1)) (broadcastInDim S1x128 ![] bcast_S_S1x128 (constant (F := Ideal) S_ .f32 0x47435000#32))) (mulf (Host.divf (F := Ideal) ((W18 m ρ c) (Proc.devRef .tc main_v119_0)) (broadcastInDim S1x128 ![] bcast_S_S1x128 (constant (F := Ideal) S_ .f32 0x47435000#32))) (Host.divf (F := Ideal) ((W18 m ρ c) (Proc.devRef .tc main_v119_0)) (broadcastInDim S1x128 ![] bcast_S_S1x128 (constant (F := Ideal) S_ .f32 0x47435000#32)))) : FVec Ideal S1x128 .f32) :=
  l3_var (W18 m ρ c)
theorem w19_v132 : (W19 m ρ c) (Proc.devRef .tc main_v132) = (shapeCast S1x128 (Cert.ReferenceIdeal.ReadP.val_main_v147 (F := Ideal) (m ((c : Thread nD τ).loc main_arg4))) shapeCasts_S128_S1x128 : FVec Ideal S1x128 .f32) :=
  (l3_b (W18 m ρ c)).trans (by rw [w18_arg4 m ρ c hx0 hx3 hx4 hx5 hx6])
theorem w19_v133 : (W19 m ρ c) (Proc.devRef .tc main_v133) = (shapeCast S1x128 (Cert.ReferenceIdeal.ReadP.val_main_v171 (F := Ideal) (m ((c : Thread nD τ).loc main_arg5))) shapeCasts_S128_S1x128 : FVec Ideal S1x128 .f32) :=
  (l3_gamma (W18 m ρ c)).trans (by rw [w18_arg5 m ρ c hx0 hx3 hx4 hx5 hx6])
theorem w19_v134 : (W19 m ρ c) (Proc.devRef .tc main_v134) = (shapeCast S1x128 (Cert.ReferenceIdeal.ReadP.val_main_v176 (F := Ideal) (m ((c : Thread nD τ).loc main_arg6))) shapeCasts_S128_S1x128 : FVec Ideal S1x128 .f32) :=
  (l3_beta (W18 m ρ c)).trans (by rw [w18_arg6 m ρ c hx0 hx3 hx4 hx5 hx6])
theorem w19_v115 : (W19 m ρ c) (Proc.devRef .tc main_v115) = Cert.ReferenceIdeal.ReadP.val_main_v145 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (keep_hostOps8_v115 (W18 m ρ c)).trans (w18_v115 m ρ c hx0 hx3 hx4 hx5 hx6)
theorem w19_v3 : (W19 m ρ c) (Proc.devRef .tc main_v3) = Cert.ReferenceIdeal.ReadP.val_main_v3 (F := Ideal) (m ((c : Thread nD τ).loc main_arg1)) :=
  (keep_hostOps8_v3 (W18 m ρ c)).trans (w18_v3 m ρ c hx0 hx3 hx4 hx5 hx6)
theorem w19_v6 : (W19 m ρ c) (Proc.devRef .tc main_v6) = Cert.ReferenceIdeal.ReadP.val_main_v6 (F := Ideal) (m ((c : Thread nD τ).loc main_arg1)) :=
  (keep_hostOps8_v6 (W18 m ρ c)).trans (w18_v6 m ρ c hx0 hx3 hx4 hx5 hx6)
theorem w19_v30 : (W19 m ρ c) (Proc.devRef .tc main_v30) = Cert.ReferenceIdeal.ReadP.val_main_v30 (F := Ideal) (m ((c : Thread nD τ).loc main_arg1)) :=
  (keep_hostOps8_v30 (W18 m ρ c)).trans (w18_v30 m ρ c hx0 hx3 hx4 hx5 hx6)
theorem w19_arg2 : (W19 m ρ c) (Proc.devRef .tc main_arg2) = (m ((c : Thread nD τ).loc main_arg2)) :=
  (keep_hostOps8_arg2 (W18 m ρ c)).trans (w18_arg2 m ρ c hx0 hx3 hx4 hx5 hx6)
theorem w19_arg3 : (W19 m ρ c) (Proc.devRef .tc main_arg3) = (m ((c : Thread nD τ).loc main_arg3)) :=
  (keep_hostOps8_arg3 (W18 m ρ c)).trans (w18_arg3 m ρ c hx0 hx3 hx4 hx5 hx6)
theorem w19_arg4 : (W19 m ρ c) (Proc.devRef .tc main_arg4) = (m ((c : Thread nD τ).loc main_arg4)) :=
  (keep_hostOps8_arg4 (W18 m ρ c)).trans (w18_arg4 m ρ c hx0 hx3 hx4 hx5 hx6)
theorem w19_arg5 : (W19 m ρ c) (Proc.devRef .tc main_arg5) = (m ((c : Thread nD τ).loc main_arg5)) :=
  (keep_hostOps8_arg5 (W18 m ρ c)).trans (w18_arg5 m ρ c hx0 hx3 hx4 hx5 hx6)
theorem w19_arg6 : (W19 m ρ c) (Proc.devRef .tc main_arg6) = (m ((c : Thread nD τ).loc main_arg6)) :=
  (keep_hostOps8_arg6 (W18 m ρ c)).trans (w18_arg6 m ρ c hx0 hx3 hx4 hx5 hx6)
theorem w19_arg7 : (W19 m ρ c) (Proc.devRef .tc main_arg7) = (m ((c : Thread nD τ).loc main_arg7)) :=
  (keep_hostOps8_arg7 (W18 m ρ c)).trans (w18_arg7 m ρ c hx0 hx3 hx4 hx5 hx6)
theorem w19_arg8 : (W19 m ρ c) (Proc.devRef .tc main_arg8) = (m ((c : Thread nD τ).loc main_arg8)) :=
  (keep_hostOps8_arg8 (W18 m ρ c)).trans (w18_arg8 m ρ c hx0 hx3 hx4 hx5 hx6)
/-- The normalisation call leaves the reference's normalised, rectified layer: the variance law on real activations. -/
theorem w20_v135 : (W20 m ρ c) (Proc.devRef .tc main_v135) = Cert.ReferenceIdeal.ReadP.val_main_v180 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W20_arr m ρ c 6).trans ((region8 (V19 m ρ) c).trans ((normG_congr (w19_v115 m ρ c hx0 hx3 hx4 hx5 hx6) (w19_v132 m ρ c hx0 hx3 hx4 hx5 hx6) (w19_v121 m ρ c hx0 hx3 hx4 hx5 hx6) (w19_v125 m ρ c hx0 hx3 hx4 hx5 hx6) (w19_v133 m ρ c hx0 hx3 hx4 hx5 hx6) (w19_v134 m ρ c hx0 hx3 hx4 hx5 hx6)).trans
      (Cert.Bridge.LayerBridge.bridge3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) hx0 hx3 hx4 hx5 hx6 _ _ (w18_sum m ρ c hx0 hx3 hx4 hx5 hx6) (w18_sumsq m ρ c hx0 hx3 hx4 hx5 hx6))))
theorem w20_v3 : (W20 m ρ c) (Proc.devRef .tc main_v3) = Cert.ReferenceIdeal.ReadP.val_main_v3 (F := Ideal) (m ((c : Thread nD τ).loc main_arg1)) :=
  (W20_of_ne m ρ c main_v3 (by decide)).trans (w19_v3 m ρ c hx0 hx3 hx4 hx5 hx6)
theorem w20_v6 : (W20 m ρ c) (Proc.devRef .tc main_v6) = Cert.ReferenceIdeal.ReadP.val_main_v6 (F := Ideal) (m ((c : Thread nD τ).loc main_arg1)) :=
  (W20_of_ne m ρ c main_v6 (by decide)).trans (w19_v6 m ρ c hx0 hx3 hx4 hx5 hx6)
theorem w20_v30 : (W20 m ρ c) (Proc.devRef .tc main_v30) = Cert.ReferenceIdeal.ReadP.val_main_v30 (F := Ideal) (m ((c : Thread nD τ).loc main_arg1)) :=
  (W20_of_ne m ρ c main_v30 (by decide)).trans (w19_v30 m ρ c hx0 hx3 hx4 hx5 hx6)
theorem w20_arg2 : (W20 m ρ c) (Proc.devRef .tc main_arg2) = (m ((c : Thread nD τ).loc main_arg2)) :=
  (W20_of_ne m ρ c main_arg2 (by decide)).trans (w19_arg2 m ρ c hx0 hx3 hx4 hx5 hx6)
theorem w20_arg3 : (W20 m ρ c) (Proc.devRef .tc main_arg3) = (m ((c : Thread nD τ).loc main_arg3)) :=
  (W20_of_ne m ρ c main_arg3 (by decide)).trans (w19_arg3 m ρ c hx0 hx3 hx4 hx5 hx6)
theorem w20_arg4 : (W20 m ρ c) (Proc.devRef .tc main_arg4) = (m ((c : Thread nD τ).loc main_arg4)) :=
  (W20_of_ne m ρ c main_arg4 (by decide)).trans (w19_arg4 m ρ c hx0 hx3 hx4 hx5 hx6)
theorem w20_arg5 : (W20 m ρ c) (Proc.devRef .tc main_arg5) = (m ((c : Thread nD τ).loc main_arg5)) :=
  (W20_of_ne m ρ c main_arg5 (by decide)).trans (w19_arg5 m ρ c hx0 hx3 hx4 hx5 hx6)
theorem w20_arg6 : (W20 m ρ c) (Proc.devRef .tc main_arg6) = (m ((c : Thread nD τ).loc main_arg6)) :=
  (W20_of_ne m ρ c main_arg6 (by decide)).trans (w19_arg6 m ρ c hx0 hx3 hx4 hx5 hx6)
theorem w20_arg7 : (W20 m ρ c) (Proc.devRef .tc main_arg7) = (m ((c : Thread nD τ).loc main_arg7)) :=
  (W20_of_ne m ρ c main_arg7 (by decide)).trans (w19_arg7 m ρ c hx0 hx3 hx4 hx5 hx6)
theorem w20_arg8 : (W20 m ρ c) (Proc.devRef .tc main_arg8) = (m ((c : Thread nD τ).loc main_arg8)) :=
  (W20_of_ne m ρ c main_arg8 (by decide)).trans (w19_arg8 m ρ c hx0 hx3 hx4 hx5 hx6)

/-! ## The read-out -/

/-- The last boundary's contents at the result: the reference's last stage of the arguments. -/
theorem result : (W21 m ρ c) (Proc.devRef .tc main_v151) = Cert.ReferenceIdeal.ReadP.val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  readout (W20 m ρ c) _ _ _ _ _ _ _ _ _ (w20_v135 m ρ c hx0 hx3 hx4 hx5 hx6) (w20_arg2 m ρ c hx0 hx3 hx4 hx5 hx6) (w20_arg7 m ρ c hx0 hx3 hx4 hx5 hx6) (w20_arg8 m ρ c hx0 hx3 hx4 hx5 hx6)

end Cert.Bridge.Walk

end
-- ==== Proof.RefRun.lean ====
/-
  The reference's run, read back in stages.

  The reference is a straight line of host operations.  After every weakly fair execution each buffer holds what the
  line computes into it from the launch memory (the fold of the operations over the buffer contents).  The fold is
  read here in five consecutive pieces — the edge data (the two index columns and the per-edge normalisation), three
  layers, and the pooled read-out — each at ARBITRARY entry contents: a piece's result is the stage function of the
  arguments as soon as the buffers it reads hold their stages, and a piece leaves alone every buffer it does not write.
  Chaining the pieces gives the result as the last stage of the arguments, every shared stage named once.
-/
import proofs.«132190_j22857815949622_1_alg».proof.Proof.RefOps
import proofs.«132190_j22857815949622_1_alg».proof.Proof.RefStages

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The edge data: self-loops appended to both index rows, the degree count, its guarded reciprocal root, and the
    per-edge product of the two gathered factors as a column. -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    unary main_v29 main_v30 (broadcastInDim S850000x1 ![0] bcast_S850000_S850000x1_0 : (⟨S850000, .f32⟩ : BufTy).Contents (Elt F) → (⟨S850000x1, .f32⟩ : BufTy).Contents (Elt F)) ]

/-- Layer 1: product with the first weight matrix, gather, scale, scatter-add, bias, batch normalisation, positive part. -/
abbrev opsL1 : List (HloOp τ sig (Elt F)) :=
  [ unary main_arg3 main_v31 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v31 main_v32 rfl shapeCasts_S1x128x128_S128x128,
    binary main_arg0 main_v32 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v34 (broadcastInDim S850000 ![] bcast_S_S850000 : (⟨S_, .i32⟩ : BufTy).Contents (Elt F) → (⟨S850000, .i32⟩ : BufTy).Contents (Elt F)),
    binary main_v3 main_v34 main_v35 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v36 (broadcastInDim S850000 ![] bcast_S_S850000 : (⟨S_, .i32⟩ : BufTy).Contents (Elt F) → (⟨S850000, .i32⟩ : BufTy).Contents (Elt F)),
    binary main_v3 main_v36 main_v37 (addi : (⟨S850000, .i32⟩ : BufTy).Contents (Elt F) → (⟨S850000, .i32⟩ : BufTy).Contents (Elt F) → (⟨S850000, .i32⟩ : BufTy).Contents (Elt F)),
    ternary main_v35 main_v37 main_v3 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v38 main_v39 (broadcastInDim S850000x1 ![0] bcast_S850000_S850000x1_0 : (⟨S850000, .i32⟩ : BufTy).Contents (Elt F) → (⟨S850000x1, .i32⟩ : BufTy).Contents (Elt F)),
    binary main_v33 main_v39 main_v40 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v41 (broadcastInDim S850000x128 ![0, 1] bcast_S850000x1_S850000x128_0_1 : (⟨S850000x1, .f32⟩ : BufTy).Contents (Elt F) → (⟨S850000x128, .f32⟩ : BufTy).Contents (Elt F)),
    binary main_v40 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v46 ((extractStridedSlice S1x128 ![0, 0] · slices_S3x128_S1x128_0_0) : (⟨S3x128, .f32⟩ : BufTy).Contents (Elt F) → (⟨S1x128, .f32⟩ : BufTy).Contents (Elt F)),
    reshape main_v46 main_v47 rfl shapeCasts_S1x128_S128,
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v45 main_v49 main_v50 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v50 main_cst_9 main_v51 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v52 (broadcastInDim S128 ![] bcast_S_S128 : (⟨S_, .f32⟩ : BufTy).Contents (Elt F) → (⟨S128, .f32⟩ : BufTy).Contents (Elt F)),
    binary main_v51 main_v52 main_v53 (Host.divf : (⟨S128, .f32⟩ : BufTy).Contents (Elt F) → (⟨S128, .f32⟩ : BufTy).Contents (Elt F) → (⟨S128, .f32⟩ : BufTy).Contents (Elt F)),
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v50 main_v55 main_v56 (subf : (⟨S50000x128, .f32⟩ : BufTy).Contents (Elt F) → (⟨S50000x128, .f32⟩ : BufTy).Contents (Elt F) → (⟨S50000x128, .f32⟩ : BufTy).Contents (Elt F)),
    binary main_v56 main_v56 main_v57 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v57 main_cst_11 main_v58 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v59 (broadcastInDim S128 ![] bcast_S_S128 : (⟨S_, .f32⟩ : BufTy).Contents (Elt F) → (⟨S128, .f32⟩ : BufTy).Contents (Elt F)),
    binary main_v58 main_v59 main_v60 (Host.divf : (⟨S128, .f32⟩ : BufTy).Contents (Elt F) → (⟨S128, .f32⟩ : BufTy).Contents (Elt F) → (⟨S128, .f32⟩ : BufTy).Contents (Elt F)),
    unary main_v53 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v50 main_v62 main_v63 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v64 (broadcastInDim S128 ![] bcast_S_S128 : (⟨S_, .f32⟩ : BufTy).Contents (Elt F) → (⟨S128, .f32⟩ : BufTy).Contents (Elt F)),
    binary main_v60 main_v64 main_v65 (addf : (⟨S128, .f32⟩ : BufTy).Contents (Elt F) → (⟨S128, .f32⟩ : BufTy).Contents (Elt F) → (⟨S128, .f32⟩ : BufTy).Contents (Elt F)),
    unary main_v65 main_v66 (Host.rsqrt : (⟨S128, .f32⟩ : BufTy).Contents (Elt F) → (⟨S128, .f32⟩ : BufTy).Contents (Elt F)),
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v63 main_v68 main_v69 (mulf : (⟨S50000x128, .f32⟩ : BufTy).Contents (Elt F) → (⟨S50000x128, .f32⟩ : BufTy).Contents (Elt F) → (⟨S50000x128, .f32⟩ : BufTy).Contents (Elt F)),
    unary main_arg5 main_v70 ((extractStridedSlice S1x128 ![0, 0] · slices_S3x128_S1x128_0_0) : (⟨S3x128, .f32⟩ : BufTy).Contents (Elt F) → (⟨S1x128, .f32⟩ : BufTy).Contents (Elt F)),
    reshape main_v70 main_v71 rfl shapeCasts_S1x128_S128,
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v69 main_v73 main_v74 (mulf : (⟨S50000x128, .f32⟩ : BufTy).Contents (Elt F) → (⟨S50000x128, .f32⟩ : BufTy).Contents (Elt F) → (⟨S50000x128, .f32⟩ : BufTy).Contents (Elt F)),
    unary main_arg6 main_v75 ((extractStridedSlice S1x128 ![0, 0] · slices_S3x128_S1x128_0_0) : (⟨S3x128, .f32⟩ : BufTy).Contents (Elt F) → (⟨S1x128, .f32⟩ : BufTy).Contents (Elt F)),
    reshape main_v75 main_v76 rfl shapeCasts_S1x128_S128,
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v74 main_v78 main_v79 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v79) (TRef.of (T := ⟨S50000x128, .f32⟩) main_call1_v0) (TRef.of (T := ⟨S50000x128, .f32⟩) main_v80) maximumf ]

/-- Layer 2. -/
abbrev opsL2 : List (HloOp τ sig (Elt F)) :=
  [ unary main_arg3 main_v81 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v81 main_v82 rfl shapeCasts_S1x128x128_S128x128,
    binary main_v80 main_v82 main_v83 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_14 (constantI S_ 32 0#32),
    unary main_c_14 main_v84 (broadcastInDim S850000 ![] bcast_S_S850000 : (⟨S_, .i32⟩ : BufTy).Contents (Elt F) → (⟨S850000, .i32⟩ : BufTy).Contents (Elt F)),
    binary main_v3 main_v84 main_v85 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v86 (broadcastInDim S850000 ![] bcast_S_S850000 : (⟨S_, .i32⟩ : BufTy).Contents (Elt F) → (⟨S850000, .i32⟩ : BufTy).Contents (Elt F)),
    binary main_v3 main_v86 main_v87 (addi : (⟨S850000, .i32⟩ : BufTy).Contents (Elt F) → (⟨S850000, .i32⟩ : BufTy).Contents (Elt F) → (⟨S850000, .i32⟩ : BufTy).Contents (Elt F)),
    ternary main_v85 main_v87 main_v3 main_v88 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v88 main_v89 (broadcastInDim S850000x1 ![0] bcast_S850000_S850000x1_0 : (⟨S850000, .i32⟩ : BufTy).Contents (Elt F) → (⟨S850000x1, .i32⟩ : BufTy).Contents (Elt F)),
    binary main_v83 main_v89 main_v90 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v91 (broadcastInDim S850000x128 ![0, 1] bcast_S850000x1_S850000x128_0_1 : (⟨S850000x1, .f32⟩ : BufTy).Contents (Elt F) → (⟨S850000x128, .f32⟩ : BufTy).Contents (Elt F)),
    binary main_v90 main_v91 main_v92 (mulf : (⟨S850000x128, .f32⟩ : BufTy).Contents (Elt F) → (⟨S850000x128, .f32⟩ : BufTy).Contents (Elt F) → (⟨S850000x128, .f32⟩ : BufTy).Contents (Elt F)),
    nullary main_cst_16 (constant S_ .f32 0x00000000#32),
    unary main_cst_16 main_v93 (broadcastInDim S50000x128 ![] bcast_S_S50000x128 : (⟨S_, .f32⟩ : BufTy).Contents (Elt F) → (⟨S50000x128, .f32⟩ : BufTy).Contents (Elt F)),
    unary main_v6 main_v94 (broadcastInDim S850000x1 ![0] bcast_S850000_S850000x1_0 : (⟨S850000, .i32⟩ : BufTy).Contents (Elt F) → (⟨S850000x1, .i32⟩ : BufTy).Contents (Elt F)),
    ternary main_v93 main_v94 main_v92 main_v95 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v96 ((extractStridedSlice S1x128 ![1, 0] · slices_S3x128_S1x128_1_0) : (⟨S3x128, .f32⟩ : BufTy).Contents (Elt F) → (⟨S1x128, .f32⟩ : BufTy).Contents (Elt F)),
    reshape main_v96 main_v97 rfl shapeCasts_S1x128_S128,
    unary main_v97 main_v98 (broadcastInDim S1x128 ![1] bcast_S128_S1x128_1 : (⟨S128, .f32⟩ : BufTy).Contents (Elt F) → (⟨S1x128, .f32⟩ : BufTy).Contents (Elt F)),
    unary main_v98 main_v99 (broadcastInDim S50000x128 ![0, 1] bcast_S1x128_S50000x128_0_1 : (⟨S1x128, .f32⟩ : BufTy).Contents (Elt F) → (⟨S50000x128, .f32⟩ : BufTy).Contents (Elt F)),
    binary main_v95 main_v99 main_v100 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    binary main_v100 main_cst_17 main_v101 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v102 (broadcastInDim S128 ![] bcast_S_S128 : (⟨S_, .f32⟩ : BufTy).Contents (Elt F) → (⟨S128, .f32⟩ : BufTy).Contents (Elt F)),
    binary main_v101 main_v102 main_v103 (Host.divf : (⟨S128, .f32⟩ : BufTy).Contents (Elt F) → (⟨S128, .f32⟩ : BufTy).Contents (Elt F) → (⟨S128, .f32⟩ : BufTy).Contents (Elt F)),
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v100 main_v105 main_v106 (subf : (⟨S50000x128, .f32⟩ : BufTy).Contents (Elt F) → (⟨S50000x128, .f32⟩ : BufTy).Contents (Elt F) → (⟨S50000x128, .f32⟩ : BufTy).Contents (Elt F)),
    binary main_v106 main_v106 main_v107 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v107 main_cst_19 main_v108 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v109 (broadcastInDim S128 ![] bcast_S_S128 : (⟨S_, .f32⟩ : BufTy).Contents (Elt F) → (⟨S128, .f32⟩ : BufTy).Contents (Elt F)),
    binary main_v108 main_v109 main_v110 (Host.divf : (⟨S128, .f32⟩ : BufTy).Contents (Elt F) → (⟨S128, .f32⟩ : BufTy).Contents (Elt F) → (⟨S128, .f32⟩ : BufTy).Contents (Elt F)),
    unary main_v103 main_v111 (broadcastInDim S1x128 ![1] bcast_S128_S1x128_1 : (⟨S128, .f32⟩ : BufTy).Contents (Elt F) → (⟨S1x128, .f32⟩ : BufTy).Contents (Elt F)),
    unary main_v111 main_v112 (broadcastInDim S50000x128 ![0, 1] bcast_S1x128_S50000x128_0_1 : (⟨S1x128, .f32⟩ : BufTy).Contents (Elt F) → (⟨S50000x128, .f32⟩ : BufTy).Contents (Elt F)),
    binary main_v100 main_v112 main_v113 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v114 (broadcastInDim S128 ![] bcast_S_S128 : (⟨S_, .f32⟩ : BufTy).Contents (Elt F) → (⟨S128, .f32⟩ : BufTy).Contents (Elt F)),
    binary main_v110 main_v114 main_v115 (addf : (⟨S128, .f32⟩ : BufTy).Contents (Elt F) → (⟨S128, .f32⟩ : BufTy).Contents (Elt F) → (⟨S128, .f32⟩ : BufTy).Contents (Elt F)),
    unary main_v115 main_v116 (Host.rsqrt : (⟨S128, .f32⟩ : BufTy).Contents (Elt F) → (⟨S128, .f32⟩ : BufTy).Contents (Elt F)),
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v113 main_v118 main_v119 (mulf : (⟨S50000x128, .f32⟩ : BufTy).Contents (Elt F) → (⟨S50000x128, .f32⟩ : BufTy).Contents (Elt F) → (⟨S50000x128, .f32⟩ : BufTy).Contents (Elt F)),
    unary main_arg5 main_v120 ((extractStridedSlice S1x128 ![1, 0] · slices_S3x128_S1x128_1_0) : (⟨S3x128, .f32⟩ : BufTy).Contents (Elt F) → (⟨S1x128, .f32⟩ : BufTy).Contents (Elt F)),
    reshape main_v120 main_v121 rfl shapeCasts_S1x128_S128,
    unary main_v121 main_v122 (broadcastInDim S1x128 ![1] bcast_S128_S1x128_1 : (⟨S128, .f32⟩ : BufTy).Contents (Elt F) → (⟨S1x128, .f32⟩ : BufTy).Contents (Elt F)),
    unary main_v122 main_v123 (broadcastInDim S50000x128 ![0, 1] bcast_S1x128_S50000x128_0_1 : (⟨S1x128, .f32⟩ : BufTy).Contents (Elt F) → (⟨S50000x128, .f32⟩ : BufTy).Contents (Elt F)),
    binary main_v119 main_v123 main_v124 (mulf : (⟨S50000x128, .f32⟩ : BufTy).Contents (Elt F) → (⟨S50000x128, .f32⟩ : BufTy).Contents (Elt F) → (⟨S50000x128, .f32⟩ : BufTy).Contents (Elt F)),
    unary main_arg6 main_v125 ((extractStridedSlice S1x128 ![1, 0] · slices_S3x128_S1x128_1_0) : (⟨S3x128, .f32⟩ : BufTy).Contents (Elt F) → (⟨S1x128, .f32⟩ : BufTy).Contents (Elt F)),
    reshape main_v125 main_v126 rfl shapeCasts_S1x128_S128,
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v124 main_v128 main_v129 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v129) (TRef.of (T := ⟨S50000x128, .f32⟩) main_call2_v0) (TRef.of (T := ⟨S50000x128, .f32⟩) main_v130) maximumf ]

/-- Layer 3. -/
abbrev opsL3 : List (HloOp τ sig (Elt F)) :=
  [ unary main_arg3 main_v131 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v131 main_v132 rfl shapeCasts_S1x128x128_S128x128,
    binary main_v130 main_v132 main_v133 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_22 (constantI S_ 32 0#32),
    unary main_c_22 main_v134 (broadcastInDim S850000 ![] bcast_S_S850000 : (⟨S_, .i32⟩ : BufTy).Contents (Elt F) → (⟨S850000, .i32⟩ : BufTy).Contents (Elt F)),
    binary main_v3 main_v134 main_v135 (cmpi .slt : (⟨S850000, .i32⟩ : BufTy).Contents (Elt F) → (⟨S850000, .i32⟩ : BufTy).Contents (Elt F) → (⟨S850000, .i1⟩ : BufTy).Contents (Elt F)),
    nullary main_c_23 (constantI S_ 32 50000#32),
    unary main_c_23 main_v136 (broadcastInDim S850000 ![] bcast_S_S850000 : (⟨S_, .i32⟩ : BufTy).Contents (Elt F) → (⟨S850000, .i32⟩ : BufTy).Contents (Elt F)),
    binary main_v3 main_v136 main_v137 (addi : (⟨S850000, .i32⟩ : BufTy).Contents (Elt F) → (⟨S850000, .i32⟩ : BufTy).Contents (Elt F) → (⟨S850000, .i32⟩ : BufTy).Contents (Elt F)),
    ternary main_v135 main_v137 main_v3 main_v138 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v138 main_v139 (broadcastInDim S850000x1 ![0] bcast_S850000_S850000x1_0 : (⟨S850000, .i32⟩ : BufTy).Contents (Elt F) → (⟨S850000x1, .i32⟩ : BufTy).Contents (Elt F)),
    binary main_v133 main_v139 main_v140 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v141 (broadcastInDim S850000x128 ![0, 1] bcast_S850000x1_S850000x128_0_1 : (⟨S850000x1, .f32⟩ : BufTy).Contents (Elt F) → (⟨S850000x128, .f32⟩ : BufTy).Contents (Elt F)),
    binary main_v140 main_v141 main_v142 (mulf : (⟨S850000x128, .f32⟩ : BufTy).Contents (Elt F) → (⟨S850000x128, .f32⟩ : BufTy).Contents (Elt F) → (⟨S850000x128, .f32⟩ : BufTy).Contents (Elt F)),
    nullary main_cst_24 (constant S_ .f32 0x00000000#32),
    unary main_cst_24 main_v143 (broadcastInDim S50000x128 ![] bcast_S_S50000x128 : (⟨S_, .f32⟩ : BufTy).Contents (Elt F) → (⟨S50000x128, .f32⟩ : BufTy).Contents (Elt F)),
    unary main_v6 main_v144 (broadcastInDim S850000x1 ![0] bcast_S850000_S850000x1_0 : (⟨S850000, .i32⟩ : BufTy).Contents (Elt F) → (⟨S850000x1, .i32⟩ : BufTy).Contents (Elt F)),
    ternary main_v143 main_v144 main_v142 main_v145 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v146 ((extractStridedSlice S1x128 ![2, 0] · slices_S3x128_S1x128_2_0) : (⟨S3x128, .f32⟩ : BufTy).Contents (Elt F) → (⟨S1x128, .f32⟩ : BufTy).Contents (Elt F)),
    reshape main_v146 main_v147 rfl shapeCasts_S1x128_S128,
    unary main_v147 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v145 main_v149 main_v150 (addf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v150 main_cst_25 main_v151 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v152 (broadcastInDim S128 ![] bcast_S_S128 : (⟨S_, .f32⟩ : BufTy).Contents (Elt F) → (⟨S128, .f32⟩ : BufTy).Contents (Elt F)),
    binary main_v151 main_v152 main_v153 (Host.divf : (⟨S128, .f32⟩ : BufTy).Contents (Elt F) → (⟨S128, .f32⟩ : BufTy).Contents (Elt F) → (⟨S128, .f32⟩ : BufTy).Contents (Elt F)),
    unary main_v153 main_v154 (broadcastInDim S1x128 ![1] bcast_S128_S1x128_1 : (⟨S128, .f32⟩ : BufTy).Contents (Elt F) → (⟨S1x128, .f32⟩ : BufTy).Contents (Elt F)),
    unary main_v154 main_v155 (broadcastInDim S50000x128 ![0, 1] bcast_S1x128_S50000x128_0_1 : (⟨S1x128, .f32⟩ : BufTy).Contents (Elt F) → (⟨S50000x128, .f32⟩ : BufTy).Contents (Elt F)),
    binary main_v150 main_v155 main_v156 (subf : (⟨S50000x128, .f32⟩ : BufTy).Contents (Elt F) → (⟨S50000x128, .f32⟩ : BufTy).Contents (Elt F) → (⟨S50000x128, .f32⟩ : BufTy).Contents (Elt F)),
    binary main_v156 main_v156 main_v157 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v157 main_cst_27 main_v158 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_28 (constant S_ .f32 0x47435000#32),
    unary main_cst_28 main_v159 (broadcastInDim S128 ![] bcast_S_S128 : (⟨S_, .f32⟩ : BufTy).Contents (Elt F) → (⟨S128, .f32⟩ : BufTy).Contents (Elt F)),
    binary main_v158 main_v159 main_v160 (Host.divf : (⟨S128, .f32⟩ : BufTy).Contents (Elt F) → (⟨S128, .f32⟩ : BufTy).Contents (Elt F) → (⟨S128, .f32⟩ : BufTy).Contents (Elt F)),
    unary main_v153 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v150 main_v162 main_v163 (subf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3727C5AC#32),
    unary main_cst_29 main_v164 (broadcastInDim S128 ![] bcast_S_S128 : (⟨S_, .f32⟩ : BufTy).Contents (Elt F) → (⟨S128, .f32⟩ : BufTy).Contents (Elt F)),
    binary main_v160 main_v164 main_v165 (addf : (⟨S128, .f32⟩ : BufTy).Contents (Elt F) → (⟨S128, .f32⟩ : BufTy).Contents (Elt F) → (⟨S128, .f32⟩ : BufTy).Contents (Elt F)),
    unary main_v165 main_v166 (Host.rsqrt : (⟨S128, .f32⟩ : BufTy).Contents (Elt F) → (⟨S128, .f32⟩ : BufTy).Contents (Elt F)),
    unary main_v166 main_v167 (broadcastInDim S1x128 ![1] bcast_S128_S1x128_1 : (⟨S128, .f32⟩ : BufTy).Contents (Elt F) → (⟨S1x128, .f32⟩ : BufTy).Contents (Elt F)),
    unary main_v167 main_v168 (broadcastInDim S50000x128 ![0, 1] bcast_S1x128_S50000x128_0_1 : (⟨S1x128, .f32⟩ : BufTy).Contents (Elt F) → (⟨S50000x128, .f32⟩ : BufTy).Contents (Elt F)),
    binary main_v163 main_v168 main_v169 (mulf : (⟨S50000x128, .f32⟩ : BufTy).Contents (Elt F) → (⟨S50000x128, .f32⟩ : BufTy).Contents (Elt F) → (⟨S50000x128, .f32⟩ : BufTy).Contents (Elt F)),
    unary main_arg5 main_v170 ((extractStridedSlice S1x128 ![2, 0] · slices_S3x128_S1x128_2_0) : (⟨S3x128, .f32⟩ : BufTy).Contents (Elt F) → (⟨S1x128, .f32⟩ : BufTy).Contents (Elt F)),
    reshape main_v170 main_v171 rfl shapeCasts_S1x128_S128,
    unary main_v171 main_v172 (broadcastInDim S1x128 ![1] bcast_S128_S1x128_1 : (⟨S128, .f32⟩ : BufTy).Contents (Elt F) → (⟨S1x128, .f32⟩ : BufTy).Contents (Elt F)),
    unary main_v172 main_v173 (broadcastInDim S50000x128 ![0, 1] bcast_S1x128_S50000x128_0_1 : (⟨S1x128, .f32⟩ : BufTy).Contents (Elt F) → (⟨S50000x128, .f32⟩ : BufTy).Contents (Elt F)),
    binary main_v169 main_v173 main_v174 (mulf : (⟨S50000x128, .f32⟩ : BufTy).Contents (Elt F) → (⟨S50000x128, .f32⟩ : BufTy).Contents (Elt F) → (⟨S50000x128, .f32⟩ : BufTy).Contents (Elt F)),
    unary main_arg6 main_v175 ((extractStridedSlice S1x128 ![2, 0] · slices_S3x128_S1x128_2_0) : (⟨S3x128, .f32⟩ : BufTy).Contents (Elt F) → (⟨S1x128, .f32⟩ : BufTy).Contents (Elt F)),
    reshape main_v175 main_v176 rfl shapeCasts_S1x128_S128,
    unary main_v176 main_v177 (broadcastInDim S1x128 ![1] bcast_S128_S1x128_1 : (⟨S128, .f32⟩ : BufTy).Contents (Elt F) → (⟨S1x128, .f32⟩ : BufTy).Contents (Elt F)),
    unary main_v177 main_v178 (broadcastInDim S50000x128 ![0, 1] bcast_S1x128_S50000x128_0_1 : (⟨S1x128, .f32⟩ : BufTy).Contents (Elt F) → (⟨S50000x128, .f32⟩ : BufTy).Contents (Elt F)),
    binary main_v174 main_v178 main_v179 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v179) (TRef.of (T := ⟨S50000x128, .f32⟩) main_call3_v0) (TRef.of (T := ⟨S50000x128, .f32⟩) main_v180) maximumf ]

/-- The read-out: per-graph sums and counts, their quotient, the final affine map. -/
abbrev opsT : List (HloOp τ sig (Elt F)) :=
  [ nullary main_cst_30 (constant S_ .f32 0x00000000#32),
    unary main_cst_30 main_v181 (broadcastInDim S512x128 ![] bcast_S_S512x128 : (⟨S_, .f32⟩ : BufTy).Contents (Elt F) → (⟨S512x128, .f32⟩ : BufTy).Contents (Elt F)),
    unary main_arg2 main_v182 (broadcastInDim S50000x1 ![0] bcast_S50000_S50000x1_0 : (⟨S50000, .i32⟩ : BufTy).Contents (Elt F) → (⟨S50000x1, .i32⟩ : BufTy).Contents (Elt F)),
    ternary main_v181 main_v182 main_v180 main_v183 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_cst_31 (constant S_ .f32 0x3F800000#32),
    unary main_cst_31 main_v184 (broadcastInDim S50000 ![] bcast_S_S50000 : (⟨S_, .f32⟩ : BufTy).Contents (Elt F) → (⟨S50000, .f32⟩ : BufTy).Contents (Elt F)),
    nullary main_cst_32 (constant S_ .f32 0x00000000#32),
    unary main_cst_32 main_v185 (broadcastInDim S512 ![] bcast_S_S512 : (⟨S_, .f32⟩ : BufTy).Contents (Elt F) → (⟨S512, .f32⟩ : BufTy).Contents (Elt F)),
    unary main_arg2 main_v186 (broadcastInDim S50000x1 ![0] bcast_S50000_S50000x1_0 : (⟨S50000, .i32⟩ : BufTy).Contents (Elt F) → (⟨S50000x1, .i32⟩ : BufTy).Contents (Elt F)),
    ternary main_v185 main_v186 main_v184 main_v187 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_33 (constant S_ .f32 0x3F800000#32),
    unary main_cst_33 main_v188 (broadcastInDim S512 ![] bcast_S_S512 : (⟨S_, .f32⟩ : BufTy).Contents (Elt F) → (⟨S512, .f32⟩ : BufTy).Contents (Elt F)),
    binary main_v187 main_v188 main_v189 (maximumf : (⟨S512, .f32⟩ : BufTy).Contents (Elt F) → (⟨S512, .f32⟩ : BufTy).Contents (Elt F) → (⟨S512, .f32⟩ : BufTy).Contents (Elt F)),
    unary main_v189 main_v190 (broadcastInDim S512x1 ![0] bcast_S512_S512x1_0 : (⟨S512, .f32⟩ : BufTy).Contents (Elt F) → (⟨S512x1, .f32⟩ : BufTy).Contents (Elt F)),
    unary main_v190 main_v191 (broadcastInDim S512x128 ![0, 1] bcast_S512x1_S512x128_0_1 : (⟨S512x1, .f32⟩ : BufTy).Contents (Elt F) → (⟨S512x128, .f32⟩ : BufTy).Contents (Elt F)),
    binary main_v183 main_v191 main_v192 (Host.divf : (⟨S512x128, .f32⟩ : BufTy).Contents (Elt F) → (⟨S512x128, .f32⟩ : BufTy).Contents (Elt F) → (⟨S512x128, .f32⟩ : BufTy).Contents (Elt F)),
    binary main_v192 main_arg7 main_v193 ((fun l r => Host.dotGeneral dot_S512x128_S128x3_S512x3_1_0_0_1_n_n none l r) : (⟨S512x128, .f32⟩ : BufTy).Contents (Elt F) → (⟨S128x3, .f32⟩ : BufTy).Contents (Elt F) → (⟨S512x3, .f32⟩ : BufTy).Contents (Elt F)),
    unary main_arg8 main_v194 (broadcastInDim S1x3 ![1] bcast_S3_S1x3_1 : (⟨S3, .f32⟩ : BufTy).Contents (Elt F) → (⟨S1x3, .f32⟩ : BufTy).Contents (Elt F)),
    unary main_v194 main_v195 (broadcastInDim S512x3 ![0, 1] bcast_S1x3_S512x3_0_1 : (⟨S1x3, .f32⟩ : BufTy).Contents (Elt F) → (⟨S512x3, .f32⟩ : BufTy).Contents (Elt F)),
    binary main_v193 main_v195 main_v196 (addf : (⟨S512x3, .f32⟩ : BufTy).Contents (Elt F) → (⟨S512x3, .f32⟩ : BufTy).Contents (Elt F) → (⟨S512x3, .f32⟩ : BufTy).Contents (Elt F)) ]

set_option maxHeartbeats 4000000 in
/-- The five pieces, in order, are the whole line. -/
theorem ops_eq : (Cert.ReferenceIdeal.ValueP.ops : List (HloOp τ sig (Elt F))) = opsA ++ (opsL1 ++ (opsL2 ++ (opsL3 ++ opsT))) := rfl

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each piece leaves alone -/

theorem keep_A_arg0 (V : Valuation τ sig (Elt F)) : after opsA V (Proc.devRef .tc main_arg0) = V (Proc.devRef .tc main_arg0) := by
  after_results_simp <;> rfl
theorem keep_A_arg2 (V : Valuation τ sig (Elt F)) : after opsA V (Proc.devRef .tc main_arg2) = V (Proc.devRef .tc main_arg2) := by
  after_results_simp <;> rfl
theorem keep_A_arg3 (V : Valuation τ sig (Elt F)) : after opsA V (Proc.devRef .tc main_arg3) = V (Proc.devRef .tc main_arg3) := by
  after_results_simp <;> rfl
theorem keep_A_arg4 (V : Valuation τ sig (Elt F)) : after opsA V (Proc.devRef .tc main_arg4) = V (Proc.devRef .tc main_arg4) := by
  after_results_simp <;> rfl
theorem keep_A_arg5 (V : Valuation τ sig (Elt F)) : after opsA V (Proc.devRef .tc main_arg5) = V (Proc.devRef .tc main_arg5) := by
  after_results_simp <;> rfl
theorem keep_A_arg6 (V : Valuation τ sig (Elt F)) : after opsA V (Proc.devRef .tc main_arg6) = V (Proc.devRef .tc main_arg6) := by
  after_results_simp <;> rfl
theorem keep_A_arg7 (V : Valuation τ sig (Elt F)) : after opsA V (Proc.devRef .tc main_arg7) = V (Proc.devRef .tc main_arg7) := by
  after_results_simp <;> rfl
theorem keep_A_arg8 (V : Valuation τ sig (Elt F)) : after opsA V (Proc.devRef .tc main_arg8) = V (Proc.devRef .tc main_arg8) := by
  after_results_simp <;> rfl
theorem keep_L1_v3 (V : Valuation τ sig (Elt F)) : after opsL1 V (Proc.devRef .tc main_v3) = V (Proc.devRef .tc main_v3) := by
  after_results_simp <;> rfl
theorem keep_L1_v6 (V : Valuation τ sig (Elt F)) : after opsL1 V (Proc.devRef .tc main_v6) = V (Proc.devRef .tc main_v6) := by
  after_results_simp <;> rfl
theorem keep_L1_v30 (V : Valuation τ sig (Elt F)) : after opsL1 V (Proc.devRef .tc main_v30) = V (Proc.devRef .tc main_v30) := by
  after_results_simp <;> rfl
theorem keep_L1_arg2 (V : Valuation τ sig (Elt F)) : after opsL1 V (Proc.devRef .tc main_arg2) = V (Proc.devRef .tc main_arg2) := by
  after_results_simp <;> rfl
theorem keep_L1_arg3 (V : Valuation τ sig (Elt F)) : after opsL1 V (Proc.devRef .tc main_arg3) = V (Proc.devRef .tc main_arg3) := by
  after_results_simp <;> rfl
theorem keep_L1_arg4 (V : Valuation τ sig (Elt F)) : after opsL1 V (Proc.devRef .tc main_arg4) = V (Proc.devRef .tc main_arg4) := by
  after_results_simp <;> rfl
theorem keep_L1_arg5 (V : Valuation τ sig (Elt F)) : after opsL1 V (Proc.devRef .tc main_arg5) = V (Proc.devRef .tc main_arg5) := by
  after_results_simp <;> rfl
theorem keep_L1_arg6 (V : Valuation τ sig (Elt F)) : after opsL1 V (Proc.devRef .tc main_arg6) = V (Proc.devRef .tc main_arg6) := by
  after_results_simp <;> rfl
theorem keep_L1_arg7 (V : Valuation τ sig (Elt F)) : after opsL1 V (Proc.devRef .tc main_arg7) = V (Proc.devRef .tc main_arg7) := by
  after_results_simp <;> rfl
theorem keep_L1_arg8 (V : Valuation τ sig (Elt F)) : after opsL1 V (Proc.devRef .tc main_arg8) = V (Proc.devRef .tc main_arg8) := by
  after_results_simp <;> rfl
theorem keep_L2_v3 (V : Valuation τ sig (Elt F)) : after opsL2 V (Proc.devRef .tc main_v3) = V (Proc.devRef .tc main_v3) := by
  after_results_simp <;> rfl
theorem keep_L2_v6 (V : Valuation τ sig (Elt F)) : after opsL2 V (Proc.devRef .tc main_v6) = V (Proc.devRef .tc main_v6) := by
  after_results_simp <;> rfl
theorem keep_L2_v30 (V : Valuation τ sig (Elt F)) : after opsL2 V (Proc.devRef .tc main_v30) = V (Proc.devRef .tc main_v30) := by
  after_results_simp <;> rfl
theorem keep_L2_arg2 (V : Valuation τ sig (Elt F)) : after opsL2 V (Proc.devRef .tc main_arg2) = V (Proc.devRef .tc main_arg2) := by
  after_results_simp <;> rfl
theorem keep_L2_arg3 (V : Valuation τ sig (Elt F)) : after opsL2 V (Proc.devRef .tc main_arg3) = V (Proc.devRef .tc main_arg3) := by
  after_results_simp <;> rfl
theorem keep_L2_arg4 (V : Valuation τ sig (Elt F)) : after opsL2 V (Proc.devRef .tc main_arg4) = V (Proc.devRef .tc main_arg4) := by
  after_results_simp <;> rfl
theorem keep_L2_arg5 (V : Valuation τ sig (Elt F)) : after opsL2 V (Proc.devRef .tc main_arg5) = V (Proc.devRef .tc main_arg5) := by
  after_results_simp <;> rfl
theorem keep_L2_arg6 (V : Valuation τ sig (Elt F)) : after opsL2 V (Proc.devRef .tc main_arg6) = V (Proc.devRef .tc main_arg6) := by
  after_results_simp <;> rfl
theorem keep_L2_arg7 (V : Valuation τ sig (Elt F)) : after opsL2 V (Proc.devRef .tc main_arg7) = V (Proc.devRef .tc main_arg7) := by
  after_results_simp <;> rfl
theorem keep_L2_arg8 (V : Valuation τ sig (Elt F)) : after opsL2 V (Proc.devRef .tc main_arg8) = V (Proc.devRef .tc main_arg8) := by
  after_results_simp <;> rfl
theorem keep_L3_arg2 (V : Valuation τ sig (Elt F)) : after opsL3 V (Proc.devRef .tc main_arg2) = V (Proc.devRef .tc main_arg2) := by
  after_results_simp <;> rfl
theorem keep_L3_arg7 (V : Valuation τ sig (Elt F)) : after opsL3 V (Proc.devRef .tc main_arg7) = V (Proc.devRef .tc main_arg7) := by
  after_results_simp <;> rfl
theorem keep_L3_arg8 (V : Valuation τ sig (Elt F)) : after opsL3 V (Proc.devRef .tc main_arg8) = V (Proc.devRef .tc main_arg8) := by
  after_results_simp <;> rfl

/-! ## What each piece computes -/

/-- The edge data at any entry contents: the source and destination index columns and the normalisation column are
    the stages of the edge list found there. -/
theorem A_v3 (V : Valuation τ sig (Elt F)) : after opsA V (Proc.devRef .tc main_v3) = val_main_v3 (F := F) (V (Proc.devRef .tc main_arg1)) := by
  after_results_simp <;> rfl
theorem A_v6 (V : Valuation τ sig (Elt F)) : after opsA V (Proc.devRef .tc main_v6) = val_main_v6 (F := F) (V (Proc.devRef .tc main_arg1)) := by
  after_results_simp <;> rfl
theorem A_v30 (V : Valuation τ sig (Elt F)) : after opsA V (Proc.devRef .tc main_v30) = val_main_v30 (F := F) (V (Proc.devRef .tc main_arg1)) := by
  after_results_simp <;> rfl

/-- Layer 1 at any entry contents whose input, index columns, normalisation column and parameters are the stages:
    its output is the layer's last stage. -/
theorem L1_out (V : Valuation τ sig (Elt F)) (x0 x1 x3 x4 x5 x6)
    (h0 : V (Proc.devRef .tc main_arg0) = x0)
    (h3 : V (Proc.devRef .tc main_arg3) = x3) (h4 : V (Proc.devRef .tc main_arg4) = x4) (h5 : V (Proc.devRef .tc main_arg5) = x5) (h6 : V (Proc.devRef .tc main_arg6) = x6)
    (e3 : V (Proc.devRef .tc main_v3) = val_main_v3 (F := F) x1) (e6 : V (Proc.devRef .tc main_v6) = val_main_v6 (F := F) x1)
    (e30 : V (Proc.devRef .tc main_v30) = val_main_v30 (F := F) x1) :
    after opsL1 V (Proc.devRef .tc main_v80) = val_main_v80 (F := F) x0 x1 x3 x4 x5 x6 := by
  subst h0
  subst h3 h4 h5 h6
  after_results_simp
  rw [e3, e6, e30]
  rfl

/-- Layer 2 at any entry contents whose input, index columns, normalisation column and parameters are the stages:
    its output is the layer's last stage. -/
theorem L2_out (V : Valuation τ sig (Elt F)) (x0 x1 x3 x4 x5 x6)
    (hin : V (Proc.devRef .tc main_v80) = val_main_v80 (F := F) x0 x1 x3 x4 x5 x6)
    (h3 : V (Proc.devRef .tc main_arg3) = x3) (h4 : V (Proc.devRef .tc main_arg4) = x4) (h5 : V (Proc.devRef .tc main_arg5) = x5) (h6 : V (Proc.devRef .tc main_arg6) = x6)
    (e3 : V (Proc.devRef .tc main_v3) = val_main_v3 (F := F) x1) (e6 : V (Proc.devRef .tc main_v6) = val_main_v6 (F := F) x1)
    (e30 : V (Proc.devRef .tc main_v30) = val_main_v30 (F := F) x1) :
    after opsL2 V (Proc.devRef .tc main_v130) = val_main_v130 (F := F) x0 x1 x3 x4 x5 x6 := by
  subst h3 h4 h5 h6
  after_results_simp
  rw [hin, e3, e6, e30]
  rfl

/-- Layer 3 at any entry contents whose input, index columns, normalisation column and parameters are the stages:
    its output is the layer's last stage. -/
theorem L3_out (V : Valuation τ sig (Elt F)) (x0 x1 x3 x4 x5 x6)
    (hin : V (Proc.devRef .tc main_v130) = val_main_v130 (F := F) x0 x1 x3 x4 x5 x6)
    (h3 : V (Proc.devRef .tc main_arg3) = x3) (h4 : V (Proc.devRef .tc main_arg4) = x4) (h5 : V (Proc.devRef .tc main_arg5) = x5) (h6 : V (Proc.devRef .tc main_arg6) = x6)
    (e3 : V (Proc.devRef .tc main_v3) = val_main_v3 (F := F) x1) (e6 : V (Proc.devRef .tc main_v6) = val_main_v6 (F := F) x1)
    (e30 : V (Proc.devRef .tc main_v30) = val_main_v30 (F := F) x1) :
    after opsL3 V (Proc.devRef .tc main_v180) = val_main_v180 (F := F) x0 x1 x3 x4 x5 x6 := by
  subst h3 h4 h5 h6
  after_results_simp
  rw [hin, e3, e6, e30]
  rfl

/-- The read-out at any entry contents whose pooled input is the last layer's stage. -/
theorem T_out (V : Valuation τ sig (Elt F)) (x0 x1 x2 x3 x4 x5 x6 x7 x8)
    (hin : V (Proc.devRef .tc main_v180) = val_main_v180 (F := F) x0 x1 x3 x4 x5 x6)
    (h2 : V (Proc.devRef .tc main_arg2) = x2) (h7 : V (Proc.devRef .tc main_arg7) = x7) (h8 : V (Proc.devRef .tc main_arg8) = x8) :
    after opsT V (Proc.devRef .tc main_v196) = val_main_v196 (F := F) x0 x1 x2 x3 x4 x5 x6 x7 x8 := by
  subst h2 h7 h8
  after_results_simp
  rw [hin]
  rfl

/-! ## The run -/

/-- From the launch memory the whole line leaves, in the result's buffer, the last stage of the arguments. -/
theorem result_eq (m : (ℓ : Loc nD τ sig) → Buf (Elt F) ℓ) (c : Dev nD) :
    after (Cert.ReferenceIdeal.ValueP.ops : List (HloOp τ sig (Elt F))) (launchContents m c) (Proc.devRef .tc main_v196)
      = val_main_v196 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_eq, after_append, after_append, after_append, after_append]
  have o1 : (after opsL1 (after opsA (launchContents m c))) (Proc.devRef .tc main_v80) = val_main_v80 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
    L1_out (after opsA (launchContents m c)) _ _ _ _ _ _ (keep_A_arg0 (launchContents m c)) (keep_A_arg3 (launchContents m c)) (keep_A_arg4 (launchContents m c)) (keep_A_arg5 (launchContents m c)) (keep_A_arg6 (launchContents m c))
      (A_v3 (launchContents m c)) (A_v6 (launchContents m c)) (A_v30 (launchContents m c))
  have o2 : (after opsL2 (after opsL1 (after opsA (launchContents m c)))) (Proc.devRef .tc main_v130) = val_main_v130 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
    L2_out (after opsL1 (after opsA (launchContents m c))) _ _ _ _ _ _ o1 ((keep_L1_arg3 (after opsA (launchContents m c))).trans (keep_A_arg3 (launchContents m c))) ((keep_L1_arg4 (after opsA (launchContents m c))).trans (keep_A_arg4 (launchContents m c))) ((keep_L1_arg5 (after opsA (launchContents m c))).trans (keep_A_arg5 (launchContents m c))) ((keep_L1_arg6 (after opsA (launchContents m c))).trans (keep_A_arg6 (launchContents m c)))
      ((keep_L1_v3 (after opsA (launchContents m c))).trans (A_v3 (launchContents m c))) ((keep_L1_v6 (after opsA (launchContents m c))).trans (A_v6 (launchContents m c))) ((keep_L1_v30 (after opsA (launchContents m c))).trans (A_v30 (launchContents m c)))
  have o3 : (after opsL3 (after opsL2 (after opsL1 (after opsA (launchContents m c))))) (Proc.devRef .tc main_v180) = val_main_v180 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
    L3_out (after opsL2 (after opsL1 (after opsA (launchContents m c)))) _ _ _ _ _ _ o2 ((keep_L2_arg3 (after opsL1 (after opsA (launchContents m c)))).trans ((keep_L1_arg3 (after opsA (launchContents m c))).trans (keep_A_arg3 (launchContents m c)))) ((keep_L2_arg4 (after opsL1 (after opsA (launchContents m c)))).trans ((keep_L1_arg4 (after opsA (launchContents m c))).trans (keep_A_arg4 (launchContents m c)))) ((keep_L2_arg5 (after opsL1 (after opsA (launchContents m c)))).trans ((keep_L1_arg5 (after opsA (launchContents m c))).trans (keep_A_arg5 (launchContents m c)))) ((keep_L2_arg6 (after opsL1 (after opsA (launchContents m c)))).trans ((keep_L1_arg6 (after opsA (launchContents m c))).trans (keep_A_arg6 (launchContents m c))))
      ((keep_L2_v3 (after opsL1 (after opsA (launchContents m c)))).trans ((keep_L1_v3 (after opsA (launchContents m c))).trans (A_v3 (launchContents m c)))) ((keep_L2_v6 (after opsL1 (after opsA (launchContents m c)))).trans ((keep_L1_v6 (after opsA (launchContents m c))).trans (A_v6 (launchContents m c)))) ((keep_L2_v30 (after opsL1 (after opsA (launchContents m c)))).trans ((keep_L1_v30 (after opsA (launchContents m c))).trans (A_v30 (launchContents m c))))
  exact T_out (after opsL3 (after opsL2 (after opsL1 (after opsA (launchContents m c))))) _ _ _ _ _ _ _ _ _ o3 ((keep_L3_arg2 (after opsL2 (after opsL1 (after opsA (launchContents m c))))).trans ((keep_L2_arg2 (after opsL1 (after opsA (launchContents m c)))).trans ((keep_L1_arg2 (after opsA (launchContents m c))).trans (keep_A_arg2 (launchContents m c))))) ((keep_L3_arg7 (after opsL2 (after opsL1 (after opsA (launchContents m c))))).trans ((keep_L2_arg7 (after opsL1 (after opsA (launchContents m c)))).trans ((keep_L1_arg7 (after opsA (launchContents m c))).trans (keep_A_arg7 (launchContents m c))))) ((keep_L3_arg8 (after opsL2 (after opsL1 (after opsA (launchContents m c))))).trans ((keep_L2_arg8 (after opsL1 (after opsA (launchContents m c)))).trans ((keep_L1_arg8 (after opsA (launchContents m c))).trans (keep_A_arg8 (launchContents m c)))))

set_option maxHeartbeats 4000000 in
/-- On every device, from any memory with zero counters: every weakly fair execution of the reference terminates with
    the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v196) = val_main_v196 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v196).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.Staged

end
-- ==== Proof.PreReal.lean ====
/-
  Finite inputs are real.

  The precondition "every float argument has absolute value below +infinity", read at the extended reals:
  an extended real x with max x (-x) < ⊤ is neither ⊤ nor ⊥, so it is a real number. The printed predicate is a
  conjunction of seven reductions by "and", one per float argument; each conjunct being 1 says that every
  element comparison came out 1.
-/
import Idealize.ShloMosaic.Lib.ReduceAll
import Idealize.ShloMosaic.PureOps.Ideal.Laws
import Idealize.ShloMosaic.Lib.ValueIdx
import proofs.«132190_j22857815949622_1_alg».proof.Pre_finite_inputs
import proofs.«132190_j22857815949622_1_alg».proof.Proof.LibMeanGcn

namespace Cert.Bridge.PreReal

open Idealize.ShloMosaic Cert.Pre_finite_inputs Cert.Lib.MeanGcn

/-- The rank-zero shape has one index. -/
instance : Subsingleton S_.Idx := ⟨fun a b => funext fun d => d.elim0⟩

/-- An extended real whose absolute value lies strictly below the pattern of +infinity is a real. -/
theorem real_of_abs_lt_inf {x : EReal}
    (h : Ideal.cmp .olt (max x (-x)) (Ideal.ofBits .f32 0x7F800000#32) = 1#1) : IsR x := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

/-- One conjunct of the predicate: "all |a| < +inf" being 1 makes every entry of the array a real. -/
theorem all_real {s : Shape} (a : FVec Ideal s .f32) (hb : S_.BroadcastsInDim s (![] : Fin 0 → Fin s.rank))
    {axes : List (Fin s.rank)} (hr : s.ReducesTo axes S_) (hS : 0 < S_.numel)
    (h : Host.reduce IntOp.andi (cmpf .olt (Host.absf a) (broadcastInDim s ![] hb (constant S_ .f32 0x7F800000#32)))
      (constantI S_ 1 1#1) hr hS ValueIdx.ix0 = 1#1) (i : s.Idx) : IsR (a i) :=
  real_of_abs_lt_inf (Host.reduce_andi_all _ _ hr hS _ h i)

variable [Facts]

/-- The whole predicate: if it holds, all seven float arguments have real entries. -/
theorem decode (a0 : FVec Ideal S50000x128 .f32) (a1 : IVec S2x800000 32) (a2 : IVec S50000 32)
    (a3 : FVec Ideal S3x128x128 .f32) (a4 a5 a6 : FVec Ideal S3x128 .f32) (a7 : FVec Ideal S128x3 .f32)
    (a8 : FVec Ideal S3 .f32)
    (h : Cert.Pre_finite_inputs.fn (F := Ideal) a0 a1 a2 a3 a4 a5 a6 a7 a8 = fun _ => 1#1) :
    (∀ i, IsR (a0 i)) ∧ (∀ i, IsR (a3 i)) ∧ (∀ i, IsR (a4 i)) ∧ (∀ i, IsR (a5 i)) ∧ (∀ i, IsR (a6 i))
      ∧ (∀ i, IsR (a7 i)) ∧ (∀ i, IsR (a8 i)) := by
  have h0 := congrFun h ValueIdx.ix0
  dsimp only [Cert.Pre_finite_inputs.fn, Cert.Pre_finite_inputs.fn_part1] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨all_real a0 _ _ _ h0, all_real a3 _ _ _ h3, all_real a4 _ _ _ h4, all_real a5 _ _ _ h5,
    all_real a6 _ _ _ h6, all_real a7 _ _ _ h7, all_real a8 _ _ _ h8⟩

end Cert.Bridge.PreReal
-- ==== Proof.lean ====
/-
  The certificate of a three-layer graph-convolution network with batch normalisation, mean pooling and a linear head:
  the kernel (Pallas calls for the matrix product, the column statistics and the normalisation of each layer, plain
  jax for the gather/scatter aggregation and the read-out) against its jnp reference.

  Frames.  The kernel's two printed programs run, fault-free, and leave their arguments alone: the generated frame
  proofs.  The reference is a straight line of host operations; its run is read back in stages (Proof/RefRun.lean).
  Preserves.  The ideal pass rewrote nothing, so the conjunct is `True`.
  Algebraic.  At the extended reals both programs end with the same result.  Outside the Pallas calls the two are the
  same host operations on the same buffers.  A matrix-product call (operands truncated to bf16 — the identity here — and
  accumulated from zero, block of rows by block of rows) is the reference's dot_general.  The statistics call leaves the
  column sums Σ h and Σ h² of the pre-normalisation activations h (aggregate plus bias), from which the kernel takes
  mean = Σh/N and variance = Σh²/N − mean², where the reference takes the mean of (h − mean)².  The two variances agree
  by the variance law, which fails at infinities: it needs every entry of h to be a real number.  That follows from the
  precondition (every float input finite) layer by layer — finite sums and products of reals are real, a gather or a
  broadcast only moves entries, a scatter-add of reals into zeros is real, the degree is a nonnegative real so its
  guarded reciprocal root is real, the variance is a nonnegative real so rsqrt(var + ε) is real, and the positive part
  of a real is real.  With equal means and variances the normalised, rectified layers are the same expression, and the
  pooled read-out is again the same host operations.
-/
import proofs.«132190_j22857815949622_1_alg».proof.Defs
import proofs.«132190_j22857815949622_1_alg».proof.Proof.Gen.Kernel
import proofs.«132190_j22857815949622_1_alg».proof.Proof.Gen.Kernel.Frame
import proofs.«132190_j22857815949622_1_alg».proof.Proof.Gen.KernelIdeal
import proofs.«132190_j22857815949622_1_alg».proof.Proof.Gen.KernelIdeal.Frame
import proofs.«132190_j22857815949622_1_alg».proof.Proof.Gen.ReferenceIdeal
import proofs.«132190_j22857815949622_1_alg».proof.Proof.Gen.Pre_finite_inputs
import proofs.«132190_j22857815949622_1_alg».proof.Proof.KernelRun
import proofs.«132190_j22857815949622_1_alg».proof.Proof.KWalk
import proofs.«132190_j22857815949622_1_alg».proof.Proof.RefRun
import proofs.«132190_j22857815949622_1_alg».proof.Proof.PreReal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its staged run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- Both idealized programs end with the reference's last stage of the (kernel's) arguments. -/
theorem algebraic : Cert.algebraic_KernelIdeal_ReferenceIdeal := by
  intro m ρ m' ρ' hpre hagree
  refine ⟨fun c => Cert.ReferenceIdeal.ReadP.val_main_v196 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩) (Cert.KernelIdeal.Named.run_named (F := Ideal) m ρ)
    obtain ⟨h0, h3, h4, h5, h6, -, -⟩ := Cert.Bridge.PreReal.decode _ _ _ _ _ _ _ _ _ (hpre c)
    exact Cert.Bridge.Walk.result m ρ c h0 h3 h4 h5 h6
  · refine (θ_run Cert.ReferenceIdeal.defs _ _).mono (fun r h c => ⟨(h c).1.trans ?_, (h c).2⟩) (Cert.ReferenceIdeal.Staged.run (F := Ideal) m' ρ')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
